-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_10240" .f32 0x38CCCCCD#32 ((1 / 10240 : ℝ) : EReal)
  ∧ IdealRules.named_const.Statement Cert.KernelIdeal.κ "inv_10240" .f32 0x38CCCCCD#32 ((1 / 10240 : ℝ) : EReal)
  ∧ IdealRules.named_const.Statement Cert.KernelIdeal.κ "inv_20971520" .f32 0x334CCCCD#32 ((1 / 20971520 : ℝ) : EReal)

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S2048 : Shape := ⟨1, ![2048]⟩
abbrev S8192 : Shape := ⟨1, ![8192]⟩
abbrev S100000x1 : Shape := ⟨2, ![100000, 1]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel
  bcast_S_S8192 : S_.BroadcastsInDim S8192 (![] : Fin 0 → Fin S8192.rank)
  reducesTo_S8192_S_d0 : S8192.ReducesTo [0] S_
  bcast_S_S100000x1 : S_.BroadcastsInDim S100000x1 (![] : Fin 0 → Fin S100000x1.rank)
  reducesTo_S100000x1_S_d0_1 : S100000x1.ReducesTo [0, 1] S_

variable [Facts]

def fn_part1 {F : FTy → Type} [FloatOps F] (main_arg2 : IVec S2048 32) (main_v13 : IVec S_ 1) (main_v16 : IVec S100000x1 1) : IVec S_ 1 :=
  let main_c_5 : IVec S_ 1 := constantI S_ 1 1#1
  let main_v17 : IVec S_ 1 := (fun x v => Host.reduce IntOp.andi x v reducesTo_S100000x1_S_d0_1 h_S_) main_v16 main_c_5
  let main_v18 : IVec S_ 1 := andi main_v13 main_v17
  let main_c_6 : IVec S_ 32 := constantI S_ 32 0#32
  let main_v19 : IVec S2048 32 := broadcastInDim S2048 ![] bcast_S_S2048 main_c_6
  let main_v20 : IVec S2048 1 := cmpi .sge main_arg2 main_v19
  let main_c_7 : IVec S_ 32 := constantI S_ 32 99999#32
  let main_v21 : IVec S2048 32 := broadcastInDim S2048 ![] bcast_S_S2048 main_c_7
  let main_v22 : IVec S2048 1 := cmpi .sle main_arg2 main_v21
  let main_v23 : IVec S2048 1 := andi main_v20 main_v22
  let main_c_8 : IVec S_ 1 := constantI S_ 1 1#1
  let main_v24 : IVec S_ 1 := (fun x v => Host.reduce IntOp.andi x v reducesTo_S2048_S_d0 h_S_) main_v23 main_c_8
  let main_v25 : IVec S_ 1 := andi main_v18 main_v24
  main_v25

def fn {F : FTy → Type} [FloatOps F] (main_arg0 : FVec F S2048 .f32) (main_arg1 : FVec F S8192 .f32) (main_arg2 : IVec S2048 32) (main_arg3 : FVec F S100000x1 .f32) (main_arg4 : FVec F S100000x1 .f32) : IVec S_ 1 :=
  let main_v0 : FVec F S2048 .f32 := Host.absf main_arg0
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S100000x1 .f32 := Host.absf main_arg3
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_v14 : FVec F S100000x1 .f32 := Host.absf main_arg4
  let main_cst_4 : FVec F S_ .f32 := constant S_ .f32 0x7F800000#32
  let main_v15 : FVec F S100000x1 .f32 := broadcastInDim S100000x1 ![] bcast_S_S100000x1 main_cst_4
  let main_v16 : IVec S100000x1 1 := cmpf .olt main_v14 main_v15
  fn_part1 (F := F) main_arg2 main_v13 main_v16
-- ==== Kernel.lean ====
abbrev S2048 : Shape := ⟨1, ![2048]⟩
abbrev S8192 : Shape := ⟨1, ![8192]⟩
abbrev S100000x1 : Shape := ⟨2, ![100000, 1]⟩
abbrev S100000 : Shape := ⟨1, ![100000]⟩
abbrev S1x2048 : Shape := ⟨2, ![1, 2048]⟩
abbrev S64 : Shape := ⟨1, ![64]⟩
abbrev S_ : Shape := ⟨0, ![]⟩
abbrev S1x64 : Shape := ⟨2, ![1, 64]⟩
abbrev S2048x1 : Shape := ⟨2, ![2048, 1]⟩
abbrev S8192x1 : Shape := ⟨2, ![8192, 1]⟩
abbrev S2048x2048 : Shape := ⟨2, ![2048, 2048]⟩
abbrev S1x1 : Shape := ⟨2, ![1, 1]⟩
abbrev S1 : Shape := ⟨1, ![1]⟩

abbrev nBuf : Table → Nat
  | .hbm => 21
  | .local .tc .vmem => 19
  | .local .scVector .vmem => 3
  | _ => 0

abbrev bufTy : (tb : Table) → Fin (nBuf tb) → BufTy
  | .hbm, ⟨0, _⟩ => ⟨S2048, .f32⟩
  | .hbm, ⟨1, _⟩ => ⟨S8192, .f32⟩
  | .hbm, ⟨2, _⟩ => ⟨S2048, .i32⟩
  | .hbm, ⟨3, _⟩ => ⟨S100000x1, .f32⟩
  | .hbm, ⟨4, _⟩ => ⟨S100000x1, .f32⟩
  | .hbm, ⟨5, _⟩ => ⟨S100000, .f32⟩
  | .hbm, ⟨6, _⟩ => ⟨S100000, .f32⟩
  | .hbm, ⟨7, _⟩ => ⟨S1x2048, .f32⟩
  | .hbm, ⟨8, _⟩ => ⟨S1x2048, .f32⟩
  | .hbm, ⟨9, _⟩ => ⟨S2048x1, .f32⟩
  | .hbm, ⟨10, _⟩ => ⟨S8192x1, .f32⟩
  | .hbm, ⟨11, _⟩ => ⟨S1x2048, .f32⟩
  | .hbm, ⟨12, _⟩ => ⟨S2048x1, .i32⟩
  | .hbm, ⟨13, _⟩ => ⟨S1x2048, .i32⟩
  | .hbm, ⟨14, _⟩ => ⟨S1x2048, .f32⟩
  | .hbm, ⟨15, _⟩ => ⟨S1x2048, .f32⟩
  | .hbm, ⟨16, _⟩ => ⟨S1x2048, .i32⟩
  | .hbm, ⟨17, _⟩ => ⟨S2048x1, .f32⟩
  | .hbm, ⟨18, _⟩ => ⟨S2048x1, .f32⟩
  | .hbm, ⟨19, _⟩ => ⟨S1x1, .f32⟩
  | .hbm, ⟨20, _⟩ => ⟨S_, .f32⟩
  | .local .tc .vmem, ⟨0, _⟩ => ⟨S2048x1, .f32⟩
  | .local .tc .vmem, ⟨1, _⟩ => ⟨S2048x1, .f32⟩
  | .local .tc .vmem, ⟨2, _⟩ => ⟨S2048x1, .f32⟩
  | .local .tc .vmem, ⟨3, _⟩ => ⟨S2048x1, .f32⟩
  | .local .tc .vmem, ⟨4, _⟩ => ⟨S1x2048, .f32⟩
  | .local .tc .vmem, ⟨5, _⟩ => ⟨S2048x1, .i32⟩
  | .local .tc .vmem, ⟨6, _⟩ => ⟨S2048x1, .i32⟩
  | .local .tc .vmem, ⟨7, _⟩ => ⟨S1x2048, .i32⟩
  | .local .tc .vmem, ⟨8, _⟩ => ⟨S1x2048, .f32⟩
  | .local .tc .vmem, ⟨9, _⟩ => ⟨S1x2048, .f32⟩
  | .local .tc .vmem, ⟨10, _⟩ => ⟨S1x2048, .i32⟩
  | .local .tc .vmem, ⟨11, _⟩ => ⟨S1x2048, .f32⟩
  | .local .tc .vmem, ⟨12, _⟩ => ⟨S1x2048, .f32⟩
  | .local .tc .vmem, ⟨13, _⟩ => ⟨S2048x1, .f32⟩
  | .local .tc .vmem, ⟨14, _⟩ => ⟨S2048x1, .f32⟩
  | .local .tc .vmem, ⟨15, _⟩ => ⟨S1x2048, .i32⟩
  | .local .tc .vmem, ⟨16, _⟩ => ⟨S1x2048, .f32⟩
  | .local .tc .vmem, ⟨17, _⟩ => ⟨S1x2048, .f32⟩
  | .local .tc .vmem, ⟨18, _⟩ => ⟨S1x1, .f32⟩
  | .local .scVector .vmem, ⟨0, _⟩ => ⟨S64, .i32⟩
  | .local .scVector .vmem, ⟨1, _⟩ => ⟨S64, .f32⟩
  | .local .scVector .vmem, ⟨2, _⟩ => ⟨S64, .f32⟩
  | _, _ => ⟨S2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 23 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTables nBuf rfl bufTy 4 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_arg2_scv : Ref sig .scVector := ⟨.hbm, 2, rfl⟩
abbrev main_v0_scv : Ref sig .scVector := ⟨.hbm, 5, rfl⟩
abbrev main_v1_scv : Ref sig .scVector := ⟨.hbm, 6, rfl⟩
abbrev main_v2_0_scv : Ref sig .scVector := ⟨.hbm, 7, rfl⟩
abbrev main_v2_1_scv : Ref sig .scVector := ⟨.hbm, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg3_1 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg7_0 : Ref sig .tc := ⟨.vmem, 18, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem5_0 : DmaSem sig := 12
abbrev cc1_sem6_0 : DmaSem sig := 13
abbrev cc1_sem7_0 : DmaSem sig := 14
abbrev cc2_sem0_0 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![v2.toNat]
def k0_off2 (i : grid0.Coords) : Fin 2 → Nat :=
  let c0_i32_3 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![0, v2.toNat]
abbrev grid1 : Pipeline.Grid := ⟨1, ![6], ![false]⟩

def k1_cond1 (i : grid1.Coords) : BitVec 1 :=
  let arg0 : BitVec 32 := BitVec.ofNat 32 (i 0).val
  let c1_i32 : BitVec 32 := 1#32
  let v4 : BitVec 1 := Scalar.cmpi .slt arg0 c1_i32
  let v5 : BitVec 32 := Scalar.extui v4
  let c0_i32 : BitVec 32 := 0#32
  let v6 : BitVec 1 := Scalar.cmpi .ne v5 c0_i32
  v6

def k1_cond2 (i : grid1.Coords) : BitVec 1 :=
  let arg0 : BitVec 32 := BitVec.ofNat 32 (i 0).val
  let c0_i32_9 : BitVec 32 := 0#32
  let v25 : BitVec 1 := Scalar.cmpi .eq arg0 c0_i32_9
  let v26 : BitVec 32 := Scalar.extui v25
  let c0_i32_10 : BitVec 32 := 0#32
  let v27 : BitVec 1 := Scalar.cmpi .ne v26 c0_i32_10
  v27

def k1_cond3 (i : grid1.Coords) : BitVec 1 :=
  let arg0 : BitVec 32 := BitVec.ofNat 32 (i 0).val
  let c1_i32_1 : BitVec 32 := 1#32
  let v7 : BitVec 1 := Scalar.cmpi .sge arg0 c1_i32_1
  let c5_i32 : BitVec 32 := 5#32
  let v8 : BitVec 1 := Scalar.cmpi .slt arg0 c5_i32
  let v9 : BitVec 1 := Scalar.andi v7 v8
  let v10 : BitVec 32 := Scalar.extui v9
  let c0_i32_2 : BitVec 32 := 0#32
  let v11 : BitVec 1 := Scalar.cmpi .ne v10 c0_i32_2
  v11

def k1_cond4 (i : grid1.Coords) : BitVec 1 :=
  let arg0 : BitVec 32 := BitVec.ofNat 32 (i 0).val
  let c5_i32_3 : BitVec 32 := 5#32
  let v12 : BitVec 1 := Scalar.cmpi .sge arg0 c5_i32_3
  let v13 : BitVec 32 := Scalar.extui v12
  let c0_i32_4 : BitVec 32 := 0#32
  let v14 : BitVec 1 := Scalar.cmpi .ne v13 c0_i32_4
  v14

def k1_cond5 (i : grid1.Coords) : BitVec 1 :=
  let arg0 : BitVec 32 := BitVec.ofNat 32 (i 0).val
  let c5_i32_11 : BitVec 32 := 5#32
  let v31 : BitVec 1 := Scalar.cmpi .eq arg0 c5_i32_11
  let v32 : BitVec 32 := Scalar.extui v31
  let c0_i32_12 : BitVec 32 := 0#32
  let v33 : BitVec 1 := Scalar.cmpi .ne v32 c0_i32_12
  v33

def k1_cond6 (i : grid1.Coords) : BitVec 1 :=
  let arg0 : BitVec 32 := BitVec.ofNat 32 (i 0).val
  let c5_i32_13 : BitVec 32 := 5#32
  let v34 : BitVec 1 := Scalar.cmpi .sgt arg0 c5_i32_13
  let v35 : BitVec 32 := Scalar.extui v34
  let c0_i32_14 : BitVec 32 := 0#32
  let v36 : BitVec 1 := Scalar.cmpi .ne v35 c0_i32_14
  v36

def cc1_transform_0 (i : grid1.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc1_transform_1 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![v2.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c5_i32 : BitVec 32 := 5#32
  let v0 : BitVec 32 := Scalar.subi arg0 c5_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x2048 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x2048 .i32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := .none

abbrev stage2_0 : Fin 1 → Memref sig .tc .vmem S1x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S2048x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S2048x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1x2048 .i32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S1x2048 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S1x2048 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S100000x1_S100000 : S100000x1.ShapeCasts S100000
  inb_S100000_S100000_0 : ∀ a, (![0] : Fin 1 → Nat) a + S100000.size a ≤ S100000.size a
  gathers_S100000_S64 : S100000.Gathers 0 S64
  squeezes_S1x64_S64 : S1x64.Squeezes S64
  shapeCasts_S2048_S2048x1 : S2048.ShapeCasts S2048x1
  shapeCasts_S8192_S8192x1 : S8192.ShapeCasts S8192x1
  shapeCasts_S2048_S1x2048 : S2048.ShapeCasts S1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S1x2048_S2048x2048 : S1x2048.Broadcasts S2048x2048
  broadcasts_S2048x1_S2048x2048 : S2048x1.Broadcasts S2048x2048
  reduces_S2048x2048_S2048 : S2048x2048.Reduces [0] S2048
  iota_S2048x2048_d0_w32 : S2048x2048.Iotas .tc 32 [0]
  shapeCasts_S1x2048_S2048x1 : S1x2048.ShapeCasts S2048x1
  reduces_S1x2048_S1 : S1x2048.Reduces [1] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  hcc0_scratch3 : 0 + S_.numel ≤ 23
  hcc0_scoped0 : 1 + S_.numel ≤ 23
  hcc0_scoped1 : 2 + S_.numel ≤ 23
  hcc0_scoped2 : 3 + S_.numel ≤ 23
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S64.size a ≤ S2048.size a
  k0_off2_inb : ∀ i : grid0.Coords, ∀ a, (k0_off2 i) a + S1x64.size a ≤ S1x2048.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1.size a ≤ S2048x1.size a
  hwx1_0 : ∀ i : grid1.Coords, EltTy.bits .f32 = 32 ∨ (Rect.block (s := S2048x1) S2048x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S8192x1.size a
  hwx1_1 : ∀ i : grid1.Coords, EltTy.bits .f32 = 32 ∨ (Rect.block (s := S8192x1) S2048x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1.size a ≤ S2048x1.size a
  hwx1_3 : ∀ i : grid1.Coords, EltTy.bits .i32 = 32 ∨ (Rect.block (s := S2048x1) S2048x1.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2048.size a ≤ S1x2048.size a
  hwx1_4 : ∀ i : grid1.Coords, EltTy.bits .i32 = 32 ∨ (Rect.block (s := S1x2048) S1x2048.size (cc1_transform_4 i) (hinb1_4 i)).WholeWords (EltTy.packing .i32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x2048.size a ≤ S1x2048.size a
  hwx1_5 : ∀ i : grid1.Coords, EltTy.bits .f32 = 32 ∨ (Rect.block (s := S1x2048) S1x2048.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2048.size a ≤ S1x2048.size a
  hwx1_6 : ∀ i : grid1.Coords, EltTy.bits .f32 = 32 ∨ (Rect.block (s := S1x2048) S1x2048.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x2048.size a ≤ S1x2048.size a
  hwx1_7 : ∀ i : grid1.Coords, EltTy.bits .i32 = 32 ∨ (Rect.block (s := S1x2048) S1x2048.size (cc1_transform_7 i) (hinb1_7 i)).WholeWords (EltTy.packing .i32)
  hstage2_0 : ∀ j, (stage2_0 j).IsWhole
  hstage2_1 : ∀ j, (stage2_1 j).IsWhole
  hstage2_2 : ∀ j, (stage2_2 j).IsWhole
  hstage2_3 : ∀ j, (stage2_3 j).IsWhole
  hstage2_4 : ∀ j, (stage2_4 j).IsWhole
  hstage2_5 : ∀ j, (stage2_5 j).IsWhole
  hstage2_6 : ∀ j, (stage2_6 j).IsWhole
  hstage2_7 : ∀ j, (stage2_7 j).IsWhole

variable [Facts₀]

abbrev cc0_scratch3 : DmaSems sig S_ := SemArray.consecutive 0 S_ hcc0_scratch3
abbrev cc0_scoped0 : DmaSems sig S_ := SemArray.consecutive 1 S_ hcc0_scoped0
abbrev cc0_scoped1 : DmaSems sig S_ := SemArray.consecutive 2 S_ hcc0_scoped1
abbrev cc0_scoped2 : DmaSems sig S_ := SemArray.consecutive 3 S_ hcc0_scoped2

abbrev win1_0 : Pipeline.Window sig grid1 :=
  Pipeline.Window.ofSpec (Memref.whole main_v3) S2048x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S2048x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8_0) S1x2048.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8_1) S1x2048.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v8_2) S1x2048.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun i => !(k1_cond1 i == 1#1 && k1_cond2 i == 1#1) && !(k1_cond1 i == 1#1) && !(k1_cond3 i == 1#1) | 6 => fun i => !(k1_cond1 i == 1#1 && k1_cond2 i == 1#1) && !(k1_cond1 i == 1#1) | 7 => fun i => !(k1_cond4 i == 1#1 && k1_cond5 i == 1#1) && !(k1_cond4 i == 1#1 && k1_cond6 i == 1#1) | ⟨_ + 8, h⟩ => absurd h (Nat.not_lt.2 (Nat.le_add_left _ _))

abbrev win2_0 : Pipeline.Window sig grid2 :=
  Pipeline.Window.whole (Memref.whole main_v8_0) false false (stage2_0 0) (sem2_0 0) (Memref.isWhole_whole _) (hstage2_0 0)

abbrev win2_1 : Pipeline.Window sig grid2 :=
  Pipeline.Window.whole (Memref.whole main_v8_1) false false (stage2_1 0) (sem2_1 0) (Memref.isWhole_whole _) (hstage2_1 0)

abbrev win2_2 : Pipeline.Window sig grid2 :=
  Pipeline.Window.whole (Memref.whole main_v9) false false (stage2_2 0) (sem2_2 0) (Memref.isWhole_whole _) (hstage2_2 0)

abbrev win2_3 : Pipeline.Window sig grid2 :=
  Pipeline.Window.whole (Memref.whole main_v10) false false (stage2_3 0) (sem2_3 0) (Memref.isWhole_whole _) (hstage2_3 0)

abbrev win2_4 : Pipeline.Window sig grid2 :=
  Pipeline.Window.whole (Memref.whole main_v8_2) false false (stage2_4 0) (sem2_4 0) (Memref.isWhole_whole _) (hstage2_4 0)

abbrev win2_5 : Pipeline.Window sig grid2 :=
  Pipeline.Window.whole (Memref.whole main_v2_0) false false (stage2_5 0) (sem2_5 0) (Memref.isWhole_whole _) (hstage2_5 0)

abbrev win2_6 : Pipeline.Window sig grid2 :=
  Pipeline.Window.whole (Memref.whole main_v2_1) false false (stage2_6 0) (sem2_6 0) (Memref.isWhole_whole _) (hstage2_6 0)

abbrev win2_7 : Pipeline.Window sig grid2 :=
  Pipeline.Window.whole (Memref.whole main_v11) true false (stage2_7 0) (sem2_7 0) (Memref.isWhole_whole _) (hstage2_7 0)

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S2048 : Shape := ⟨1, ![2048]⟩
abbrev S8192 : Shape := ⟨1, ![8192]⟩
abbrev S100000x1 : Shape := ⟨2, ![100000, 1]⟩
abbrev S10240 : Shape := ⟨1, ![10240]⟩
abbrev S1x10240 : Shape := ⟨2, ![1, 10240]⟩
abbrev S1x1x1x10240 : Shape := ⟨4, ![1, 1, 1, 10240]⟩
abbrev S2048x1x1x10240 : Shape := ⟨4, ![2048, 1, 1, 10240]⟩
abbrev S2048x10240 : Shape := ⟨2, ![2048, 10240]⟩
abbrev S2048x1 : Shape := ⟨2, ![2048, 1]⟩
abbrev S_ : Shape := ⟨0, ![]⟩
abbrev S1 : Shape := ⟨1, ![1]⟩
abbrev S2048x2048 : Shape := ⟨2, ![2048, 2048]⟩

abbrev nBuf : Space → Nat
  | .hbm => 129
  | .vmem => 0
  | .smem => 0
  | _ => 0

abbrev hbmTy0_0 (i : Nat) : BufTy := match i % 128 with
  | 0 => ⟨S2048, .f32⟩
  | 1 => ⟨S8192, .f32⟩
  | 2 => ⟨S2048, .i32⟩
  | 3 => ⟨S100000x1, .f32⟩
  | 4 => ⟨S100000x1, .f32⟩
  | 5 => ⟨S10240, .f32⟩
  | 6 => ⟨S1x10240, .f32⟩
  | 7 => ⟨S1x1x1x10240, .f32⟩
  | 8 => ⟨S2048x1x1x10240, .f32⟩
  | 9 => ⟨S2048x10240, .f32⟩
  | 10 => ⟨S2048x1, .f32⟩
  | 11 => ⟨S_, .f32⟩
  | 12 => ⟨S2048x10240, .f32⟩
  | 13 => ⟨S_, .i32⟩
  | 14 => ⟨S1, .i32⟩
  | 15 => ⟨S_, .f32⟩
  | 16 => ⟨S2048x2048, .f32⟩
  | 17 => ⟨S2048x10240, .f32⟩
  | 18 => ⟨S_, .f32⟩
  | 19 => ⟨S2048x10240, .f32⟩
  | 20 => ⟨S_, .i32⟩
  | 21 => ⟨S1, .i32⟩
  | 22 => ⟨S_, .f32⟩
  | 23 => ⟨S2048x2048, .f32⟩
  | 24 => ⟨S2048x10240, .f32⟩
  | 25 => ⟨S2048x10240, .f32⟩
  | 26 => ⟨S2048x10240, .f32⟩
  | 27 => ⟨S_, .f32⟩
  | 28 => ⟨S2048x10240, .f32⟩
  | 29 => ⟨S2048x10240, .f32⟩
  | 30 => ⟨S_, .f32⟩
  | 31 => ⟨S2048x10240, .f32⟩
  | 32 => ⟨S2048x10240, .f32⟩
  | 33 => ⟨S2048x10240, .f32⟩
  | 34 => ⟨S2048x10240, .f32⟩
  | 35 => ⟨S2048x10240, .f32⟩
  | 36 => ⟨S2048x10240, .f32⟩
  | 37 => ⟨S_, .i32⟩
  | 38 => ⟨S2048, .i32⟩
  | 39 => ⟨S2048, .i1⟩
  | 40 => ⟨S_, .i32⟩
  | 41 => ⟨S2048, .i32⟩
  | 42 => ⟨S2048, .i32⟩
  | 43 => ⟨S2048, .i32⟩
  | 44 => ⟨S2048x1, .i32⟩
  | 45 => ⟨S2048x1, .f32⟩
  | 46 => ⟨S_, .f32⟩
  | 47 => ⟨S2048x1, .f32⟩
  | 48 => ⟨S2048x1, .f32⟩
  | 49 => ⟨S_, .f32⟩
  | 50 => ⟨S2048, .f32⟩
  | 51 => ⟨S2048x1, .f32⟩
  | 52 => ⟨S_, .f32⟩
  | 53 => ⟨S2048x1, .f32⟩
  | 54 => ⟨S2048x1, .f32⟩
  | 55 => ⟨S_, .f32⟩
  | 56 => ⟨S2048x1, .f32⟩
  | 57 => ⟨S2048x1, .f32⟩
  | 58 => ⟨S2048x1, .f32⟩
  | 59 => ⟨S_, .i32⟩
  | 60 => ⟨S2048, .i32⟩
  | 61 => ⟨S2048, .i1⟩
  | 62 => ⟨S_, .i32⟩
  | 63 => ⟨S2048, .i32⟩
  | 64 => ⟨S2048, .i32⟩
  | 65 => ⟨S2048, .i32⟩
  | 66 => ⟨S2048x1, .i32⟩
  | 67 => ⟨S100000x1, .f32⟩
  | 68 => ⟨S_, .i32⟩
  | 69 => ⟨S2048, .i32⟩
  | 70 => ⟨S2048, .i1⟩
  | 71 => ⟨S_, .i32⟩
  | 72 => ⟨S2048, .i32⟩
  | 73 => ⟨S2048, .i32⟩
  | 74 => ⟨S2048, .i32⟩
  | 75 => ⟨S2048x1, .i32⟩
  | 76 => ⟨S2048x1, .f32⟩
  | 77 => ⟨S_, .f32⟩
  | 78 => ⟨S2048x1, .f32⟩
  | 79 => ⟨S2048x1, .f32⟩
  | 80 => ⟨S_, .f32⟩
  | 81 => ⟨S2048, .f32⟩
  | 82 => ⟨S2048x1, .f32⟩
  | 83 => ⟨S_, .f32⟩
  | 84 => ⟨S2048x1, .f32⟩
  | 85 => ⟨S2048x1, .f32⟩
  | 86 => ⟨S_, .f32⟩
  | 87 => ⟨S2048x1, .f32⟩
  | 88 => ⟨S2048x1, .f32⟩
  | 89 => ⟨S2048x1, .f32⟩
  | 90 => ⟨S_, .i32⟩
  | 91 => ⟨S2048, .i32⟩
  | 92 => ⟨S2048, .i1⟩
  | 93 => ⟨S_, .i32⟩
  | 94 => ⟨S2048, .i32⟩
  | 95 => ⟨S2048, .i32⟩
  | 96 => ⟨S2048, .i32⟩
  | 97 => ⟨S2048x1, .i32⟩
  | 98 => ⟨S100000x1, .f32⟩
  | 99 => ⟨S_, .i32⟩
  | 100 => ⟨S2048, .i32⟩
  | 101 => ⟨S2048, .i1⟩
  | 102 => ⟨S_, .i32⟩
  | 103 => ⟨S2048, .i32⟩
  | 104 => ⟨S2048, .i32⟩
  | 105 => ⟨S2048, .i32⟩
  | 106 => ⟨S2048x1, .i32⟩
  | 107 => ⟨S2048x1, .f32⟩
  | 108 => ⟨S_, .i32⟩
  | 109 => ⟨S2048, .i32⟩
  | 110 => ⟨S2048, .i1⟩
  | 111 => ⟨S_, .i32⟩
  | 112 => ⟨S2048, .i32⟩
  | 113 => ⟨S2048, .i32⟩
  | 114 => ⟨S2048, .i32⟩
  | 115 => ⟨S2048x1, .i32⟩
  | 116 => ⟨S2048x1, .f32⟩
  | 117 => ⟨S2048x10240, .f32⟩
  | 118 => ⟨S2048x10240, .f32⟩
  | 119 => ⟨S2048x10240, .f32⟩
  | 120 => ⟨S2048x10240, .f32⟩
  | 121 => ⟨S2048x1, .f32⟩
  | 122 => ⟨S2048x10240, .f32⟩
  | 123 => ⟨S2048x10240, .f32⟩
  | 124 => ⟨S2048x10240, .f32⟩
  | 125 => ⟨S_, .f32⟩
  | 126 => ⟨S_, .f32⟩
  | 127 => ⟨S_, .f32⟩
  | _ => ⟨S2048, .f32⟩

abbrev hbmTy0_1 (i : Nat) : BufTy := match i % 128 with
  | 0 => ⟨S_, .f32⟩
  | _ => ⟨S2048, .f32⟩

abbrev hbmTy (i : Nat) : BufTy := match i / 128 with
  | 0 => hbmTy0_0 i
  | 1 => hbmTy0_1 i
  | _ => ⟨S2048, .f32⟩

abbrev bufTy : (tb : Table) → Fin (tcTables nBuf tb) → BufTy
  | .hbm, ⟨i, _⟩ => hbmTy i
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_6 : Ref sig .tc := ⟨.hbm, 37, rfl⟩
abbrev main_v24 : Ref sig .tc := ⟨.hbm, 38, rfl⟩
abbrev main_v25 : Ref sig .tc := ⟨.hbm, 39, rfl⟩
abbrev main_c_7 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_cst_11 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_12 : Ref sig .tc := ⟨.hbm, 59, rfl⟩
abbrev main_v40 : Ref sig .tc := ⟨.hbm, 60, rfl⟩
abbrev main_v41 : Ref sig .tc := ⟨.hbm, 61, rfl⟩
abbrev main_c_13 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_14 : Ref sig .tc := ⟨.hbm, 68, rfl⟩
abbrev main_v47 : Ref sig .tc := ⟨.hbm, 69, rfl⟩
abbrev main_v48 : Ref sig .tc := ⟨.hbm, 70, rfl⟩
abbrev main_c_15 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_16 : Ref sig .tc := ⟨.hbm, 77, rfl⟩
abbrev main_v54 : Ref sig .tc := ⟨.hbm, 78, rfl⟩
abbrev main_v55 : Ref sig .tc := ⟨.hbm, 79, rfl⟩
abbrev main_cst_17 : Ref sig .tc := ⟨.hbm, 80, rfl⟩
abbrev main_v56 : Ref sig .tc := ⟨.hbm, 81, rfl⟩
abbrev main_v57 : Ref sig .tc := ⟨.hbm, 82, rfl⟩
abbrev main_cst_18 : Ref sig .tc := ⟨.hbm, 83, rfl⟩
abbrev main_v58 : Ref sig .tc := ⟨.hbm, 84, rfl⟩
abbrev main_v59 : Ref sig .tc := ⟨.hbm, 85, rfl⟩
abbrev main_cst_19 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_20 : Ref sig .tc := ⟨.hbm, 90, rfl⟩
abbrev main_v63 : Ref sig .tc := ⟨.hbm, 91, rfl⟩
abbrev main_v64 : Ref sig .tc := ⟨.hbm, 92, rfl⟩
abbrev main_c_21 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_22 : Ref sig .tc := ⟨.hbm, 99, rfl⟩
abbrev main_v70 : Ref sig .tc := ⟨.hbm, 100, rfl⟩
abbrev main_v71 : Ref sig .tc := ⟨.hbm, 101, rfl⟩
abbrev main_c_23 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_24 : Ref sig .tc := ⟨.hbm, 108, rfl⟩
abbrev main_v77 : Ref sig .tc := ⟨.hbm, 109, rfl⟩
abbrev main_v78 : Ref sig .tc := ⟨.hbm, 110, rfl⟩
abbrev main_c_25 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_26 : Ref sig .tc := ⟨.hbm, 125, rfl⟩
abbrev main_v92 : Ref sig .tc := ⟨.hbm, 126, rfl⟩
abbrev main_cst_27 : Ref sig .tc := ⟨.hbm, 127, rfl⟩
abbrev main_v93 : Ref sig .tc := ⟨.hbm, 128, rfl⟩

abbrev nD : Nat := 1
abbrev τ : Topo := Topo.v7x

variable {F : FTy → Type} [FloatOps F]

class Facts₀ : Prop where
  concatenates_S2048_S8192_S10240_d0 : Shape.Concatenates [S2048, S8192] S10240 0
  bcast_S10240_S1x10240_1 : S10240.BroadcastsInDim S1x10240 (![1] : Fin 1 → Fin S1x10240.rank)
  shapeCasts_S1x10240_S1x1x1x10240 : S1x10240.ShapeCasts S1x1x1x10240
  bcast_S1x1x1x10240_S2048x1x1x10240_0_1_2_3 : S1x1x1x10240.BroadcastsInDim S2048x1x1x10240 (![0, 1, 2, 3] : Fin 4 → Fin S2048x1x1x10240.rank)
  shapeCasts_S2048x1x1x10240_S2048x10240 : S2048x1x1x10240.ShapeCasts S2048x10240
  shapeCasts_S2048_S2048x1 : S2048.ShapeCasts S2048x1
  bcast_S_S2048x10240 : S_.BroadcastsInDim S2048x10240 (![] : Fin 0 → Fin S2048x10240.rank)
  bcast_S_S1 : S_.BroadcastsInDim S1 (![] : Fin 0 → Fin S1.rank)
  bcast_S_S2048x2048 : S_.BroadcastsInDim S2048x2048 (![] : Fin 0 → Fin S2048x2048.rank)
  bcast_S2048x1_S2048x10240_0_1 : S2048x1.BroadcastsInDim S2048x10240 (![0, 1] : Fin 2 → Fin S2048x10240.rank)
  bcast_S_S2048 : S_.BroadcastsInDim S2048 (![] : Fin 0 → Fin S2048.rank)
  bcast_S2048_S2048x1_0 : S2048.BroadcastsInDim S2048x1 (![0] : Fin 1 → Fin S2048x1.rank)
  bcast_S_S2048x1 : S_.BroadcastsInDim S2048x1 (![] : Fin 0 → Fin S2048x1.rank)
  reducesTo_S2048x10240_S2048_d1 : S2048x10240.ReducesTo [1] S2048
  h_S_ : 0 < S_.numel
  reducesTo_S2048x10240_S_d0_1 : S2048x10240.ReducesTo [0, 1] S_
  scatter_S2048x10240_S1_S2048x2048_01_n_1_0_wf : ScatterDims.WF S2048x10240 S1 S2048x2048 [0, 1] [] [1] 0
  gather_S100000x1_S2048x1_S2048x1_1_0_n_n_0_1_11_wf : GatherDims.WF S100000x1 S2048x1 S2048x1 [1] [0] [] [0] [] 1 ![1, 1]
  scatter_S100000x1_S2048x1_S2048x1_1_0_0_1_wf : ScatterDims.WF S100000x1 S2048x1 S2048x1 [1] [0] [0] 1

variable [Facts₀]

def scatter_S2048x10240_S1_S2048x2048_01_n_1_0 : ScatterDims S2048x10240 S1 S2048x2048 where
  updateWindowDims := [0, 1]
  insertedWindowDims := []
  scatterDimsToOperandDims := [1]
  indexVectorDim := 0
  wf := scatter_S2048x10240_S1_S2048x2048_01_n_1_0_wf
def gather_S100000x1_S2048x1_S2048x1_1_0_n_n_0_1_11 : GatherDims S100000x1 S2048x1 S2048x1 where
  offsetDims := [1]
  collapsedSliceDims := [0]
  operandBatchingDims := []
  startIndicesBatchingDims := []
  startIndexMap := [0]
  indexVectorDim := 1
  sliceSizes := ![1, 1]
  wf := gather_S100000x1_S2048x1_S2048x1_1_0_n_n_0_1_11_wf
def scatter_S100000x1_S2048x1_S2048x1_1_0_0_1 : ScatterDims S100000x1 S2048x1 S2048x1 where
  updateWindowDims := [1]
  insertedWindowDims := [0]
  scatterDimsToOperandDims := [0]
  indexVectorDim := 1
  wf := scatter_S100000x1_S2048x1_S2048x1_1_0_0_1_wf

class Facts : Prop extends Facts₀ where

variable [Facts]
-- ==== Proof.RefFrame.lean ====
/-
  The reference program's run: it terminates from every memory, faults nowhere and leaves its five argument
  arrays as it found them. This is its generated run with the result's value dropped.
-/
import proofs.«215986_g81389630259714_cont_9to1_m_762_23_alg».proof.Defs
import proofs.«215986_g81389630259714_cont_9to1_m_762_23_alg».proof.Proof.Gen.ReferenceIdeal.Read
import proofs.«215986_g81389630259714_cont_9to1_m_762_23_alg».proof.Proof.Gen.Pre_input_domain

noncomputable section

open Idealize.ShloMosaic Idealize.SL.Sem

namespace Cert.Proof.RefFrame

theorem frame_ri : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.Preserves.lean ====
/-
  The idealized kernel differs from the printed one at three constants only: the reciprocal of the row length
  10240 = 2048 + 8192 (used twice, for the two moving averages) and the reciprocal of the number of entries
  20971520 = 2048 * 10240 (the final mean). Each is read as the exact rational the source spells, 1/10240 and
  1/20971520, by the certificate's table of named constants.
-/
import proofs.«215986_g81389630259714_cont_9to1_m_762_23_alg».proof.Defs

noncomputable section

open Idealize.ShloMosaic

namespace Cert.Proof.Preserves

/-- The table gives "inv_10240" the rational 1/10240. -/
theorem inv_row : IdealRules.named_const.Statement Cert.KernelIdeal.κ "inv_10240" .f32 0x38CCCCCD#32 ((1 / 10240 : ℝ) : EReal) :=
  IdealRules.named_const.statement Cert.KernelIdeal.κ "inv_10240" .f32 0x38CCCCCD#32 ((1 / 10240 : ℝ) : EReal) rfl

/-- The table gives "inv_20971520" the rational 1/20971520. -/
theorem inv_all : IdealRules.named_const.Statement Cert.KernelIdeal.κ "inv_20971520" .f32 0x334CCCCD#32 ((1 / 20971520 : ℝ) : EReal) :=
  IdealRules.named_const.statement Cert.KernelIdeal.κ "inv_20971520" .f32 0x334CCCCD#32 ((1 / 20971520 : ℝ) : EReal) rfl

theorem preserves : Cert.preserves_Kernel_KernelIdeal := ⟨inv_row, inv_row, inv_all⟩

end Cert.Proof.Preserves

end
-- ==== Proof.KLaunch.lean ====
/-
  The idealized kernel program as its launch sees it: one vector-subcore call on 2 x 16 tiles (tile (c, s) fetches
  the 64 indices  idx[64 (2 s + c) ..]  and gathers the two tables at them into the same 64 places of two rows),
  then two TensorCore regions (the row sums and last-occurrence indices over six grid points; the final combination),
  with reshapes between them. This module fixes the names, the buffers' contents between the items of the main
  program, what each handshake carries, and states what the tile, the split among tiles, the launch element and the
  main program owe.
-/
import proofs.«215986_g81389630259714_cont_9to1_m_762_23_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Frame
import Idealize.ShloMosaic.Lib.Pipeline.Regions
import Idealize.ShloMosaic.Lib.Tactic
import proofs.«215986_g81389630259714_cont_9to1_m_762_23_alg».proof.Proof.Gen.KernelIdeal
import proofs.«215986_g81389630259714_cont_9to1_m_762_23_alg».proof.Proof.Gen.KernelIdeal.Skeleton
import proofs.«215986_g81389630259714_cont_9to1_m_762_23_alg».proof.Proof.Gen.KernelIdeal.Launch
import proofs.«215986_g81389630259714_cont_9to1_m_762_23_alg».proof.Proof.Gen.KernelIdeal.Points

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)
open Idealize.ShloMosaic.Pipeline (Dat RegionSeg)

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the tiles' transfer counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  (Emb.inl : Emb UP (UP × Counters)).trans (embR : Emb (UP × Counters) (MT nD τ sig (HIx 1) (Elt F) ℕ UU ℕ))
instance EP_landsIn : (EP : Emb UP 𝕄).LandsIn (upEmb : UEmb _ 𝕄) := by unfold EP embR; infer_instance

/-! ## The main program's host operations and the buffers' contents between its items -/

variable [FloatOps F] [Named F]

abbrev opR0 : HloOp τ sig (Elt F) := StableHlo.reshape main_arg3 main_v0 rfl shapeCasts_S100000x1_S100000
abbrev opR1 : HloOp τ sig (Elt F) := StableHlo.reshape main_arg4 main_v1 rfl shapeCasts_S100000x1_S100000
abbrev opR3 : HloOp τ sig (Elt F) := StableHlo.reshape main_arg0 main_v3 rfl shapeCasts_S2048_S2048x1
abbrev opR4 : HloOp τ sig (Elt F) := StableHlo.reshape main_arg1 main_v4 rfl shapeCasts_S8192_S8192x1
abbrev opR5 : HloOp τ sig (Elt F) := StableHlo.reshape main_arg0 main_v5 rfl shapeCasts_S2048_S1x2048
abbrev opR6 : HloOp τ sig (Elt F) := StableHlo.reshape main_arg2 main_v6 rfl shapeCasts_S2048_S2048x1
abbrev opR7 : HloOp τ sig (Elt F) := StableHlo.reshape main_arg2 main_v7 rfl shapeCasts_S2048_S1x2048
abbrev opR9 : HloOp τ sig (Elt F) := StableHlo.reshape main_v8_0 main_v9 rfl shapeCasts_S1x2048_S2048x1
abbrev opR10 : HloOp τ sig (Elt F) := StableHlo.reshape main_v8_1 main_v10 rfl shapeCasts_S1x2048_S2048x1
abbrev opR12 : HloOp τ sig (Elt F) := StableHlo.reshape main_v11 main_v12 rfl shapeCasts_S1x1_S_

abbrev r (b : Ref sig .tc) : DevRef τ sig := Proc.devRef .tc b
/-- A TensorCore buffer of device `d`, as a location. -/
abbrev tl (d : Dev nD) (b : Ref sig .tc) : Loc nD τ sig := (SparseCore.T (τ := τ) d).loc b

variable (m : (ℓ : Loc nD τ sig) → Buf (Elt F) ℓ) (ρ : Dev nD → PrngReg)

/-- What the call and the two regions leave in their result buffers: named here, determined by the tile's and the
    bodies' proofs. -/
structure Outs (F : FTy → Type) where
  g0 : (d : Dev nD) → Buf (Elt F) (tl d main_v2_0)
  g1 : (d : Dev nD) → Buf (Elt F) (tl d main_v2_1)
  s : (d : Dev nD) → Buf (Elt F) (tl d main_v8_0)
  p : (d : Dev nD) → Buf (Elt F) (tl d main_v8_1)
  w : (d : Dev nD) → Buf (Elt F) (tl d main_v8_2)
  o : (d : Dev nD) → Buf (Elt F) (tl d main_v11)

variable (outs : Outs F)

/-- At launch. -/
def W0 (d : Dev nD) : Valuation τ sig (Elt F) := fun b => m (d, b)
/-- After the two tables are flattened. -/
def W1 (d : Dev nD) : Valuation τ sig (Elt F) := (opR1 (F := F)).result ((opR0 (F := F)).result (W0 m d))
/-- After the gather call. -/
def W2 (d : Dev nD) : Valuation τ sig (Elt F) :=
  Function.update (Function.update (W1 m d) (r main_v2_0) (outs.g0 d)) (r main_v2_1) (outs.g1 d)
/-- The reshapes between the items, as lists. -/
abbrev hostA : List (HloOp τ sig (Elt F)) := [opR3, opR4, opR5, opR6, opR7]
abbrev hostB : List (HloOp τ sig (Elt F)) := [opR9, opR10]
abbrev hostC : List (HloOp τ sig (Elt F)) := [opR12]
/-- After the five reshapes that feed the first region. -/
def W3 (d : Dev nD) : Valuation τ sig (Elt F) := StableHlo.after (hostA (F := F)) (W2 m outs d)
/-- After the first region. -/
def W4 (d : Dev nD) : Valuation τ sig (Elt F) :=
  Function.update (Function.update (Function.update (W3 m outs d) (r main_v8_0) (outs.s d)) (r main_v8_1) (outs.p d)) (r main_v8_2) (outs.w d)
/-- After the two reshapes that feed the second region. -/
def W5 (d : Dev nD) : Valuation τ sig (Elt F) := StableHlo.after (hostB (F := F)) (W4 m outs d)
/-- After the second region. -/
def W6 (d : Dev nD) : Valuation τ sig (Elt F) := Function.update (W5 m outs d) (r main_v11) (outs.o d)
/-- At the end. -/
def W7 (d : Dev nD) : Valuation τ sig (Elt F) := StableHlo.after (hostC (F := F)) (W6 m outs d)

/-! ## The TensorCore's state between the items after the call, and the tail of the main program -/

/-- The prefetched tables' admissible contents: no pallas_call has a table. -/
abbrev adm : (p : Fin 2) → (pcfgs (F := F) p).Adm := fun p => (cfgs p).toPCfg_adm

/-- After the call the TensorCore owes nothing; what its waits have recorded sits below the handshakes. Its generator
    register rides along at some state (the regions' invariants take it in and give it back). -/
def Owe (d : Dev nD) : sProp 𝕄 :=
  iprop((∃ rg, prngReg d rg) ∗ ∃ Wt, ⌜(K (F := F)).WBelow (SparseCore.T d) Wt 8⌝ ∗ owes (SparseCore.T (τ := τ) d) (0 : CellTallies nD τ sig (HIx 1)) Wt)

/-- Every unscoped TensorCore buffer whole at a valuation, and nothing owed. -/
def TS (W : Dev nD → Valuation τ sig (Elt F)) (d : Dev nD) : sProp 𝕄 :=
  iprop(held (SparseCore.T (τ := τ) d) (Pipeline.ucRefs τ sig) (W d) ∗ Owe (F := F) d)

theorem hostA_sub : ∀ op ∈ (hostA (F := F)), op.bufs ⊆ Pipeline.ucRefs τ sig := by
  intro op h
  simp only [List.mem_cons, List.not_mem_nil, or_false] at h
  rcases h with rfl | rfl | rfl | rfl | rfl <;> exact Pipeline.sub_ucRefs _ (StableHlo.reshape_bufs_sub _ _ _ _ _ _)
theorem hostB_sub : ∀ op ∈ (hostB (F := F)), op.bufs ⊆ Pipeline.ucRefs τ sig := by
  intro op h
  simp only [List.mem_cons, List.not_mem_nil, or_false] at h
  rcases h with rfl | rfl <;> exact Pipeline.sub_ucRefs _ (StableHlo.reshape_bufs_sub _ _ _ _ _ _)
theorem hostC_sub : ∀ op ∈ (hostC (F := F)), op.bufs ⊆ Pipeline.ucRefs τ sig := by
  intro op h
  simp only [List.mem_cons, List.not_mem_nil, or_false] at h
  rcases h with rfl; exact Pipeline.sub_ucRefs _ (StableHlo.reshape_bufs_sub _ _ _ _ _ _)
theorem hostA_fresh : ∀ op ∈ (hostA (F := F)), op.fresh = ∅ := by
  intro op h
  simp only [List.mem_cons, List.not_mem_nil, or_false] at h
  rcases h with rfl | rfl | rfl | rfl | rfl <;> rfl
theorem hostB_fresh : ∀ op ∈ (hostB (F := F)), op.fresh = ∅ := by
  intro op h
  simp only [List.mem_cons, List.not_mem_nil, or_false] at h
  rcases h with rfl | rfl <;> rfl
theorem hostC_fresh : ∀ op ∈ (hostC (F := F)), op.fresh = ∅ := by
  intro op h
  simp only [List.mem_cons, List.not_mem_nil, or_false] at h
  rcases h with rfl; rfl

section Tail

variable (pdats : (p : Fin 2) → (c : Dev nD) → Dat τ (Elt F) (HIx 1) ℕ UU ℕ (cfgs p) c)

abbrev LL : GSem nD τ sig → Finset (HIx 1) := (K (F := F)).L
abbrev lvv : GSem nD τ sig → HIx 1 → ℕ := (K (F := F)).lev

abbrev RSeg (p : Fin 2) : Type _ := RegionSeg (pcfgs (F := F)) adm pdats (none : HIx 1) defs₀ 𝒱₀ (LL (F := F)) (lvv (F := F)) p
abbrev HSeg : Type _ := Pipeline.HostSeg (Ix := HIx 1) (Name := ℕ) (U := UU) (Lvl := ℕ) (pcfgs (F := F)) defs₀ 𝒱₀ (LL (F := F)) (lvv (F := F))

def segA : HSeg (F := F) := Pipeline.HostSeg.ofOps _ _ _ _ _ (Pipeline.ucRefs τ sig) hostA hostA_sub hostA_fresh (W2 m outs) (Owe (F := F))
def segB : HSeg (F := F) := Pipeline.HostSeg.ofOps _ _ _ _ _ (Pipeline.ucRefs τ sig) hostB hostB_sub hostB_fresh (W4 m outs) (Owe (F := F))
def segC : HSeg (F := F) := Pipeline.HostSeg.ofOps _ _ _ _ _ (Pipeline.ucRefs τ sig) hostC hostC_sub hostC_fresh (W6 m outs) (Owe (F := F))

/-- The main program after the call, as host stretches and regions. -/
abbrev segs (R1 : RSeg (F := F) pdats 0) (R2 : RSeg (F := F) pdats 1) :
    List (Pipeline.Seg (pcfgs (F := F)) adm pdats (none : HIx 1) defs₀ 𝒱₀ (LL (F := F)) (lvv (F := F))) :=
  [.host (segA m outs), .region R1, .host (segB m outs), .region R2, .host (segC m outs)]

/-- THE TAIL. Given each region's record, entered from this module's state before it and left at the one after it, the
    main program after the call runs from "all buffers at W2, nothing owed" to "all buffers at W7, nothing owed". -/
theorem tail (R1 : RSeg (F := F) pdats 0) (R2 : RSeg (F := F) pdats 1)
    (hpre1 : ∀ d, TS (W3 m outs) d ⊢ R1.pre d) (hpost1 : ∀ d, R1.post d ⊢ TS (W4 m outs) d)
    (hpre2 : ∀ d, TS (W5 m outs) d ⊢ R2.pre d) (hpost2 : ∀ d, R2.post d ⊢ TS (W6 m outs) d)
    (d : Dev nD) {Q : PUnit → sProp 𝕄} :
    iprop((iprop(boundary (SparseCore.T (τ := τ) d) ∗ TS (W7 m outs) d) -∗ Q ⟨⟩)
        ∗ boundary (SparseCore.T (τ := τ) d) ∗ TS (W2 m outs) d ∗ levAts (LL (F := F)) (lvv (F := F))
        ∗ Pipeline.ghostOn (pcfgs (F := F)) adm EP Finset.univ d)
      ⊢ wp frame (wpE (D (F := F)) 𝒱 (SparseCore.T (τ := τ) d) none) Set.univ (Pipeline.Seg.run (segs m outs pdats R1 R2)) Q :=
  Pipeline.wp_segs (pcfgs (F := F)) adm pdats (none : HIx 1) cellOf_inj EP defs₀ 𝒱₀ (LL (F := F)) (lvv (F := F)) d
    (segs m outs pdats R1 R2) Finset.univ (TS (W2 m outs)) (TS (W7 m outs)) (show ([0, 1] : List (Fin 2)).Nodup by decide) (fun p _ => Finset.mem_univ p)
    ⟨fun c => BI.Entails.refl _, fun c => hpre1 c, fun c => hpost1 c, fun c => hpre2 c, fun c => hpost2 c, fun c => BI.Entails.refl _⟩

end Tail

/-! ## The call: which places of the two result rows a tile writes, how the tables are shared out, what the handshakes carry -/

/-- Tile `(c, s)` as the kernel's coordinates. -/
def coordsV (c : Fin (grid0.bound 0)) (s : Fin (grid0.bound 1)) : grid0.Coords :=
  fun | 0 => c | 1 => s | ⟨_ + 2, h⟩ => absurd h (Nat.not_lt.2 (Nat.le_add_left _ _))

/-- The 64 places of a result row that tile `L` writes, as the kernel slices them. -/
abbrev oRect (L : grid0.Coords) : Rect S1x2048 := Rect.unit (s := S1x2048) (k0_off2 L) S1x64.size (k0_off2_inb L)
abbrev oSet (L : grid0.Coords) : Finset S1x2048.Idx :=
  ((Memref.whole main_v2_0_scv : Memref sig .scVector .hbm S1x2048 .f32).view.slice (oRect L)).set
/-- The 64 indices tile `L` fetches. -/
abbrev iRect (L : grid0.Coords) : Rect S2048 := Rect.unit (s := S2048) (k0_off1 L) S64.size (k0_off1_inb L)

/-- Leaf `i` of the depth-`n` halving of a share: the index array and the two tables are read by every tile at once. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩
/-- A SparseCore's share, and a tile's. -/
abbrev shC (c : Fin 2) : PosShare TreeShare := leaf 1 fullShare c
abbrev shT (c : Fin 2) (s : Fin 16) : PosShare TreeShare := leaf 4 (shC c) s

/-- What a SparseCore reads: the indices and the two flattened tables, at its share. -/
def scIn (d : Dev nD) (c : Fin 2) : sProp 𝕄 :=
  iprop((tl d main_arg2 ↦{shC c} W1 m d (r main_arg2)) ∗ (tl d main_v0 ↦{shC c} W1 m d (r main_v0)) ∗ (tl d main_v1 ↦{shC c} W1 m d (r main_v1)))
/-- What a tile reads. -/
def tIn (d : Dev nD) (c : Fin 2) (s : Fin 16) : sProp 𝕄 :=
  iprop((tl d main_arg2 ↦{shT c s} W1 m d (r main_arg2)) ∗ (tl d main_v0 ↦{shT c s} W1 m d (r main_v0)) ∗ (tl d main_v1 ↦{shT c s} W1 m d (r main_v1)))
/-- A tile's places of the two result rows, at given contents. -/
def tOut (d : Dev nD) (c : Fin 2) (s : Fin 16) (f0 : Buf (Elt F) (tl d main_v2_0)) (f1 : Buf (Elt F) (tl d main_v2_1)) : sProp 𝕄 :=
  iprop((tl d main_v2_0 ↦[oSet (coordsV c s)]{fullShare} f0) ∗ (tl d main_v2_1 ↦[oSet (coordsV c s)]{fullShare} f1))
/-- A SparseCore's: its sixteen tiles'. -/
def scOut (d : Dev nD) (c : Fin 2) (f0 : Buf (Elt F) (tl d main_v2_0)) (f1 : Buf (Elt F) (tl d main_v2_1)) : sProp 𝕄 :=
  bigSep Finset.univ fun s : Fin 16 => tOut d c s f0 f1

/-- The one call: each SparseCore takes its share of the indices and tables and its tiles' places of the two result
    rows, each tile its own; they come back with the places at what the gathers left there. -/
def P : (K (F := F)).Pay (nD := nD) (Val := Elt F) (Name := ℕ) (U := UU) where
  st := fun q d c => match q, c with
    | 0, c => iprop(scIn m d (Fin.cast nCore_zero c) ∗ scOut d (Fin.cast nCore_zero c) (W1 m d (r main_v2_0)) (W1 m d (r main_v2_1)))
  dn := fun q d c => match q, c with
    | 0, c => iprop(scIn m d (Fin.cast nCore_zero c) ∗ scOut d (Fin.cast nCore_zero c) (outs.g0 d) (outs.g1 d))
  go := fun q d c i => match q, c, i with
    | 0, c, i => iprop(tIn m d (Fin.cast nCore_zero c) (Fin.cast nSub_zero i)
        ∗ tOut d (Fin.cast nCore_zero c) (Fin.cast nSub_zero i) (W1 m d (r main_v2_0)) (W1 m d (r main_v2_1)))
  td := fun q d c i => match q, c, i with
    | 0, c, i => iprop(tIn m d (Fin.cast nCore_zero c) (Fin.cast nSub_zero i)
        ∗ tOut d (Fin.cast nCore_zero c) (Fin.cast nSub_zero i) (outs.g0 d) (outs.g1 d))
  x := fun _ _ => iprop(emp)

instance P_storable : (P (F := F) m outs).IsStorable where
  st q d c := match q, c with
    | 0, c => by unfold P scIn scOut tOut; dsimp only; infer_instance
  dn q d c := match q, c with
    | 0, c => by unfold P scIn scOut tOut; dsimp only; infer_instance
  go q d c i := match q, c, i with
    | 0, c, i => by unfold P tIn tOut; dsimp only; infer_instance
  td q d c i := match q, c, i with
    | 0, c, i => by unfold P tIn tOut; dsimp only; infer_instance

/-- What the main program leaves the claim: the result and the five arguments. -/
def FIN (d : Dev nD) : sProp 𝕄 :=
  iprop((tl d main_v12 ↦{fullShare} W7 m outs d (r main_v12))
    ∗ (tl d main_arg0 ↦{fullShare} m (tl d main_arg0)) ∗ (tl d main_arg1 ↦{fullShare} m (tl d main_arg1)) ∗ (tl d main_arg2 ↦{fullShare} m (tl d main_arg2))
    ∗ (tl d main_arg3 ↦{fullShare} m (tl d main_arg3)) ∗ (tl d main_arg4 ↦{fullShare} m (tl d main_arg4)))

/-! ## The main program on the TensorCore -/

/-- The buffers the call takes: the indices, the two flattened tables, the two result rows. -/
abbrev Ssc : Finset (DevRef τ sig) := {r main_arg2, r main_v0, r main_v1, r main_v2_0, r main_v2_1}

/-- A tile's places of a result row: the 64 from 128 s + 64 c on. -/
theorem mem_oSet (c : Fin 2) (s : Fin 16) (j : S1x2048.Idx) :
    j ∈ oSet (coordsV c s) ↔ 128 * s.val + 64 * c.val ≤ (j 1).val ∧ (j 1).val < 128 * s.val + 64 * c.val + 64 := by
  show j ∈ ((View.whole (main_v2_0_scv : Ref sig .scVector)).slice (oRect (coordsV c s))).set ↔ _
  rw [View.set_slice_whole, Rect.mem_set_unit, k0_off2_eq]
  constructor
  · intro h; have := h 1; simpa [coordsV] using this
  · intro h a
    match a with
    | 0 => have h0 : (j 0).val < 1 := (j 0).isLt; simp; omega
    | 1 => simpa [coordsV] using h

theorem oSet_disj : ∀ a ∈ (Finset.univ : Finset (Fin 2 × Fin 16)), ∀ b ∈ (Finset.univ : Finset (Fin 2 × Fin 16)), a ≠ b →
    Disjoint (oSet (coordsV a.1 a.2)) (oSet (coordsV b.1 b.2)) := by
  intro a _ b _ hab
  rw [Finset.disjoint_left]
  intro j ha hb
  rw [mem_oSet] at ha hb
  apply hab
  have h1 := a.1.isLt; have h2 := b.1.isLt
  exact Prod.ext (Fin.ext (by omega)) (Fin.ext (by omega))

theorem oSet_cover : (Finset.univ : Finset (Fin 2 × Fin 16)).biUnion (fun a => oSet (coordsV a.1 a.2)) = Finset.univ := by
  ext j
  simp only [Finset.mem_biUnion, Finset.mem_univ, true_and, iff_true]
  have hj : (j 1).val < 2048 := (j 1).isLt
  refine ⟨(⟨((j 1).val / 64) % 2, Nat.mod_lt _ (by norm_num)⟩, ⟨(j 1).val / 128, by omega⟩), ?_⟩
  rw [mem_oSet]
  simp only []
  omega

theorem bigSep_fin2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem shC_zero : shC 0 = fullShare.left := rfl
theorem shC_one : shC 1 = fullShare.right := rfl

/-- A buffer at the full share is the two SparseCores' shares of it. -/
theorem in_split {ℓ : Loc nD τ sig} (f : Buf (Elt F) ℓ) :
    (ℓ ↦{fullShare} f : sProp 𝕄) = bigSep Finset.univ fun c : Fin 2 => ℓ ↦{shC c} f := by
  rw [bigSep_fin2, shC_zero, shC_one]
  exact BI.Entails.antisymm (pointsTo_share (PosShare.mem_left_op_right fullShare)).1 (pointsTo_share (PosShare.mem_left_op_right fullShare)).2

/-- A result row is its 32 tiles' places, grouped by SparseCore. -/
theorem out0_split (d : Dev nD) (f : Buf (Elt F) (tl d main_v2_0)) :
    (tl d main_v2_0 ↦{fullShare} f : sProp 𝕄)
      = bigSep Finset.univ fun c : Fin 2 => bigSep Finset.univ fun s : Fin 16 => tl d main_v2_0 ↦[oSet (coordsV c s)]{fullShare} f := by
  rw [← bigSep_univ_prod (fun a : Fin 2 × Fin 16 => (tl d main_v2_0 ↦[oSet (coordsV a.1 a.2)]{fullShare} f : sProp 𝕄)),
    ← pointsTo_biUnion Finset.univ (ℓ := tl d main_v2_0) (fun a : Fin 2 × Fin 16 => oSet (coordsV a.1 a.2)) oSet_disj, oSet_cover]
  try rfl
theorem out1_split (d : Dev nD) (f : Buf (Elt F) (tl d main_v2_1)) :
    (tl d main_v2_1 ↦{fullShare} f : sProp 𝕄)
      = bigSep Finset.univ fun c : Fin 2 => bigSep Finset.univ fun s : Fin 16 => tl d main_v2_1 ↦[oSet (coordsV c s)]{fullShare} f := by
  rw [← bigSep_univ_prod (fun a : Fin 2 × Fin 16 => (tl d main_v2_1 ↦[oSet (coordsV a.1 a.2)]{fullShare} f : sProp 𝕄)),
    ← pointsTo_biUnion Finset.univ (ℓ := tl d main_v2_1) (fun a : Fin 2 × Fin 16 => oSet (coordsV a.1 a.2)) oSet_disj, oSet_cover]
  try rfl

/-- The two SparseCores' operands, together: the three inputs whole and the two result rows whole. -/
theorem sc_bundle (d : Dev nD) (f0 : Buf (Elt F) (tl d main_v2_0)) (f1 : Buf (Elt F) (tl d main_v2_1)) :
    (bigSep Finset.univ fun c : Fin 2 => iprop(scIn m d c ∗ scOut (F := F) d c f0 f1))
      = iprop(((tl d main_arg2 ↦{fullShare} W1 m d (r main_arg2)) ∗ (tl d main_v0 ↦{fullShare} W1 m d (r main_v0)) ∗ (tl d main_v1 ↦{fullShare} W1 m d (r main_v1)))
          ∗ (tl d main_v2_0 ↦{fullShare} f0) ∗ (tl d main_v2_1 ↦{fullShare} f1)) := by
  unfold scIn scOut tOut
  simp only [bigSep_sep']
  rw [← in_split, ← in_split, ← in_split, ← out0_split, ← out1_split]

theorem Ssc_sub : (Ssc : Finset (DevRef τ sig)) ⊆ Pipeline.ucRefs τ sig := by decide

theorem held_Ssc (d : Dev nD) (W : Valuation τ sig (Elt F)) :
    (held (SparseCore.T (τ := τ) d) Ssc W : sProp 𝕄)
      = iprop((tl d main_arg2 ↦{fullShare} W (r main_arg2)) ∗ (tl d main_v0 ↦{fullShare} W (r main_v0)) ∗ (tl d main_v1 ↦{fullShare} W (r main_v1))
          ∗ (tl d main_v2_0 ↦{fullShare} W (r main_v2_0)) ∗ (tl d main_v2_1 ↦{fullShare} W (r main_v2_1))) := by
  unfold held Ssc
  rw [SparseCore.bigSep_insert' (by decide), SparseCore.bigSep_insert' (by decide), SparseCore.bigSep_insert' (by decide),
    SparseCore.bigSep_insert' (by decide), bigSep_singleton]

theorem st_eq (d : Dev nD) :
    (bigSep Finset.univ fun c : Fin ((K (F := F)).nCore 0) => (P m outs).st 0 d c)
      = bigSep Finset.univ fun c : Fin 2 => iprop(scIn m d c ∗ scOut (F := F) d c (W1 m d (r main_v2_0)) (W1 m d (r main_v2_1))) := rfl
theorem dn_eq (d : Dev nD) :
    (bigSep Finset.univ fun c : Fin ((K (F := F)).nCore 0) => (P m outs).dn 0 d c)
      = bigSep Finset.univ fun c : Fin 2 => iprop(scIn m d c ∗ scOut (F := F) d c (outs.g0 d) (outs.g1 d)) := rfl

/-- Before the call: the operands go to the two SparseCores, the rest stays. -/
theorem held_st (d : Dev nD) :
    (held (SparseCore.T (τ := τ) d) (Pipeline.ucRefs τ sig) (W1 m d) : sProp 𝕄)
      ⊢ iprop((bigSep Finset.univ fun c : Fin ((K (F := F)).nCore 0) => (P m outs).st 0 d c)
          ∗ held (SparseCore.T (τ := τ) d) (Pipeline.ucRefs τ sig \ Ssc) (W1 m d)) := by
  rw [StableHlo.held_sub_split _ Ssc_sub (W1 m d), held_Ssc, st_eq, sc_bundle]
  iintro ⟨⟨A, B, C, D, E⟩, R⟩
  isplitr [R]
  · isplitl [A B C]
    · isplitl [A]; · iexact A
      isplitl [B]; · iexact B
      iexact C
    isplitl [D]; · iexact D
    iexact E
  iexact R

theorem W2_g0 (d : Dev nD) : W2 m outs d (r main_v2_0) = outs.g0 d :=
  (Function.update_of_ne (show (r main_v2_0 : DevRef τ sig) ≠ r main_v2_1 by decide) _ _).trans (Function.update_self _ _ _)
theorem W2_g1 (d : Dev nD) : W2 m outs d (r main_v2_1) = outs.g1 d := Function.update_self _ _ _
theorem W2_of (d : Dev nD) (b : DevRef τ sig) (h0 : b ≠ r main_v2_0) (h1 : b ≠ r main_v2_1) : W2 m outs d b = W1 m d b :=
  (Function.update_of_ne h1 _ _).trans (Function.update_of_ne h0 _ _)

/-- After it: the operands come back, the result rows at what the tiles left. -/
theorem dn_held (d : Dev nD) :
    iprop((bigSep Finset.univ fun c : Fin ((K (F := F)).nCore 0) => (P m outs).dn 0 d c)
        ∗ held (SparseCore.T (τ := τ) d) (Pipeline.ucRefs τ sig \ Ssc) (W1 m d))
      ⊢ (held (SparseCore.T (τ := τ) d) (Pipeline.ucRefs τ sig) (W2 m outs d) : sProp 𝕄) := by
  rw [StableHlo.held_sub_split _ Ssc_sub (W2 m outs d), held_Ssc, dn_eq, sc_bundle, W2_g0, W2_g1,
    W2_of m outs d (r main_arg2) (by decide) (by decide), W2_of m outs d (r main_v0) (by decide) (by decide), W2_of m outs d (r main_v1) (by decide) (by decide),
    StableHlo.held_congr (SparseCore.T (τ := τ) d) (V := W2 m outs d) (V' := W1 m d) (S := Pipeline.ucRefs τ sig \ Ssc) fun b hb => W2_of m outs d b
      (fun e => (Finset.mem_sdiff.mp hb).2 (e ▸ by decide)) (fun e => (Finset.mem_sdiff.mp hb).2 (e ▸ by decide))]
  iintro ⟨⟨⟨A, B, C⟩, D, E⟩, R⟩
  isplitr [R]
  · isplitl [A]; · iexact A
    isplitl [B]; · iexact B
    isplitl [C]; · iexact C
    isplitl [D]; · iexact D
    iexact E
  iexact R

/-- The buffers some item of the main program writes. -/
abbrev wr : List (Ref sig .tc) :=
  [main_v0, main_v1, main_v2_0, main_v2_1, main_v3, main_v4, main_v5, main_v6, main_v7, main_v8_0, main_v8_1, main_v8_2, main_v9, main_v10, main_v11, main_v12]

theorem ne_wr {b y : Ref sig .tc} (hb : b ∉ wr) (hy : y ∈ wr) : (r b : DevRef τ sig) ≠ r y :=
  StableHlo.devRef_ne_of_ne fun e => hb (e ▸ hy)

theorem nw {b x y : Ref sig .tc} (he hn hx hy) (h : (r b : DevRef τ sig) ≠ r y) :
    (r b : DevRef τ sig) ∉ (StableHlo.reshape (τ := τ) (Val := Elt F) x y he hn hx hy).writes := fun hm => h (Finset.mem_singleton.mp hm)

/-- A buffer no item writes holds its launch contents at the end. -/
theorem W7_keep (d : Dev nD) (b : Ref sig .tc) (hb : b ∉ wr) : W7 m outs d (r b) = m (tl d b) := by
  unfold W7 W6 W5 W4 W3 W2 W1
  rw [StableHlo.after_of_forall_not_mem hostC _ (by
      intro op h; simp only [List.mem_cons, List.not_mem_nil, or_false] at h; rcases h with rfl
      exact nw _ _ _ _ (ne_wr hb (by decide))),
    Function.update_of_ne (ne_wr hb (by decide)),
    StableHlo.after_of_forall_not_mem hostB _ (by
      intro op h; simp only [List.mem_cons, List.not_mem_nil, or_false] at h; rcases h with rfl | rfl
      · exact nw _ _ _ _ (ne_wr hb (by decide))
      · exact nw _ _ _ _ (ne_wr hb (by decide))),
    Function.update_of_ne (ne_wr hb (by decide)), Function.update_of_ne (ne_wr hb (by decide)), Function.update_of_ne (ne_wr hb (by decide)),
    StableHlo.after_of_forall_not_mem hostA _ (by
      intro op h; simp only [List.mem_cons, List.not_mem_nil, or_false] at h; rcases h with rfl | rfl | rfl | rfl | rfl
      · exact nw _ _ _ _ (ne_wr hb (by decide))
      · exact nw _ _ _ _ (ne_wr hb (by decide))
      · exact nw _ _ _ _ (ne_wr hb (by decide))
      · exact nw _ _ _ _ (ne_wr hb (by decide))
      · exact nw _ _ _ _ (ne_wr hb (by decide))),
    Function.update_of_ne (ne_wr hb (by decide)), Function.update_of_ne (ne_wr hb (by decide)),
    (opR1 (F := F)).result_of_not_mem _ (nw _ _ _ _ (ne_wr hb (by decide))), (opR0 (F := F)).result_of_not_mem _ (nw _ _ _ _ (ne_wr hb (by decide)))]
  rfl

abbrev Sfin : Finset (DevRef τ sig) := {r main_v12, r main_arg0, r main_arg1, r main_arg2, r main_arg3, r main_arg4}
theorem Sfin_sub : (Sfin : Finset (DevRef τ sig)) ⊆ Pipeline.ucRefs τ sig := by decide

/-- At the end the result buffer and the five arguments are read off the last valuation. -/
theorem fin_of_held (d : Dev nD) :
    (held (SparseCore.T (τ := τ) d) (Pipeline.ucRefs τ sig) (W7 m outs d) : sProp 𝕄) ⊢ FIN m outs d := by
  rw [StableHlo.held_sub_split _ Sfin_sub (W7 m outs d)]
  unfold held Sfin FIN
  rw [SparseCore.bigSep_insert' (by decide), SparseCore.bigSep_insert' (by decide), SparseCore.bigSep_insert' (by decide),
    SparseCore.bigSep_insert' (by decide), SparseCore.bigSep_insert' (by decide), bigSep_singleton,
    W7_keep m outs d main_arg0 (by decide), W7_keep m outs d main_arg1 (by decide), W7_keep m outs d main_arg2 (by decide),
    W7_keep m outs d main_arg3 (by decide), W7_keep m outs d main_arg4 (by decide)]
  iintro ⟨H, -⟩
  iexact H

section Main

variable (pdats : (p : Fin 2) → (c : Dev nD) → Dat τ (Elt F) (HIx 1) ℕ UU ℕ (cfgs p) c)
  (R1 : RSeg (F := F) pdats 0) (R2 : RSeg (F := F) pdats 1)

/-- The main program: two reshapes, the call, the tail. -/
theorem main_eq (d : Dev nD) :
    main (F := F) d = hlo rfl (opR0 (F := F)) fun _ => hlo rfl (opR1 (F := F)) fun _ =>
      ((K (F := F)).run d 0) >>= fun _ => SparseCore.liftProg (Q := 1) (Pipeline.Seg.run (segs m outs pdats R1 R2)) := rfl

theorem hR0 : (opR0 (F := F)).bufs ⊆ Pipeline.ucRefs τ sig := Pipeline.sub_ucRefs _ (StableHlo.reshape_bufs_sub _ _ _ _ _ _)
theorem hR1 : (opR1 (F := F)).bufs ⊆ Pipeline.ucRefs τ sig := Pipeline.sub_ucRefs _ (StableHlo.reshape_bufs_sub _ _ _ _ _ _)

/-- THE MAIN PROGRAM on device `d`'s TensorCore, given the two regions' records: the two tables flattened, the call
    (the operands out to the two SparseCores and back), then the tail; the result and the arguments kept for the claim. -/
theorem hmain
    (hpre1 : ∀ d, TS (W3 m outs) d ⊢ R1.pre d) (hpost1 : ∀ d, R1.post d ⊢ TS (W4 m outs) d)
    (hpre2 : ∀ d, TS (W5 m outs) d ⊢ R2.pre d) (hpost2 : ∀ d, R2.post d ⊢ TS (W6 m outs) d)
    (κ : GSem nD τ sig → ℕ) (d : Dev nD) :
    iprop((K (F := F)).ctx EH (P m outs) κ ∗ (K (F := F)).tcSt EH d 0 ∗ (K (F := F)).tcRes m ρ d
        ∗ Pipeline.ghostOn (pcfgs (F := F)) adm EP Finset.univ d)
      ⊢ wp frame (wpE ((K (F := F)).defs (D (F := F))) 𝒱 (SparseCore.T d) none) Set.univ (main d)
          fun _ => iprop((K (F := F)).tcSt EH d 1 ∗ FIN m outs d) := by
  unfold SparseCore.Cfg.tcRes
  rw [show (unscopedBufs d (fun b => m ((SparseCore.T d).loc b)) : sProp 𝕄) = held (SparseCore.T (τ := τ) d) (Pipeline.ucRefs τ sig) (W0 m d)
    from Pipeline.unscopedBufs_held d (W0 m d), main_eq m outs pdats R1 R2 d]
  iintro ⟨#Hctx, Hst, ⟨Hb, Hheld, -, Hpr⟩, Hg⟩
  ihave Hlev := ((K (F := F)).ctx_levAts (EH := EH) (P := P m outs) κ) $$ Hctx
  -- the two tables flattened
  iapply (wp_hlo_within 𝒱 (SparseCore.T d) none Set.univ (op := opR0) (S := Pipeline.ucRefs τ sig) hR0 (V := W0 m d)) $$ [Hb Hheld]
  · isplitl [Hb] <;> iassumption
  iintro ⟨Hb, Hheld⟩
  iapply (wp_hlo_within 𝒱 (SparseCore.T d) none Set.univ (op := opR1) (S := Pipeline.ucRefs τ sig) hR1 (V := (opR0 (F := F)).result (W0 m d))) $$ [Hb Hheld]
  · isplitl [Hb] <;> iassumption
  iintro ⟨Hb, Hheld⟩
  -- the call
  rw [wp_bind]
  ihave Hheld := (Entails.of_eq (show (held (SparseCore.T (τ := τ) d) (Pipeline.ucRefs τ sig) ((opR1 (F := F)).result ((opR0 (F := F)).result (W0 m d))) : sProp 𝕄)
      = held (SparseCore.T (τ := τ) d) (Pipeline.ucRefs τ sig) (W1 m d) from rfl)) $$ Hheld
  ihave Hh := (held_st m outs d) $$ Hheld
  icases Hh with ⟨Hsts, Hrest⟩
  iapply ((K (F := F)).wp_run (D (F := F)) 𝒱 (EH := EH) (P := P m outs) κ d 0) $$ [Hst Hsts Hb Hrest Hg Hpr]
  isplitr; · iexact Hctx
  isplitl [Hst]; · iexact Hst
  isplitl [Hsts]; · iexact Hsts
  iintro ⟨Hst, Hdn⟩
  ihave Hheld := (dn_held m outs d) $$ [Hdn Hrest]
  · isplitl [Hdn] <;> iassumption
  -- what the TensorCore owes after its only call: nothing
  unfold SparseCore.Cfg.tcSt
  rw [(K (F := F)).Otc_end d (le_refl 1)]
  icases Hst with ⟨⟨%Wt, %hWt, HO⟩, Hrest1⟩
  -- the tail, in the certificate's own signature
  iapply ((K (F := F)).wp_liftProg (D (F := F)) 𝒱 (SparseCore.T d) Set.univ none _ _)
  iapply (tail m outs pdats R1 R2 hpre1 hpost1 hpre2 hpost2 d) $$ [Hb Hheld HO Hg Hrest1 Hpr]
  unfold TS Owe
  isplitl [Hrest1]
  · iintro ⟨Hb, Hheld, -, Howe⟩
    isplitl [Howe Hrest1]
    · isplitl [Howe]; · iexact Howe
      iexact Hrest1
    · iapply (fin_of_held m outs d); iexact Hheld
  isplitl [Hb]; · iexact Hb
  isplitl [Hheld HO Hpr]
  · isplitl [Hheld]; · iexact Hheld
    isplitl [Hpr]; · iexists _; iexact Hpr
    iexists Wt; isplitr; · ipureintro; exact hWt
    iexact HO
  isplitr; · iexact Hlev
  iexact Hg

end Main

/-! ## The launch element: the handshakes' rounds and the pipelines' staging cells -/

def u₀ : UU :=
  (initOf (K (F := F)).hsCells (K (F := F)).hsToks, (initOf (Pipeline.cells cfgs cellOf_inj) (Pipeline.launchToks cfgs cellOf_inj), 1))

theorem bigSep_emp' {I : Type} (s : Finset I) : (bigSep s fun _ => iprop(emp)) = (iprop(emp) : sProp 𝕄) := bigSep_emp_const s

theorem ghost_regroup :
    iprop((bigSep Finset.univ fun c : Dev nD => bigSep Finset.univ fun p : Fin 2 => Pipeline.cellsGhost cfgs EP p c)
        ∗ (bigSep Finset.univ fun c : Dev nD => bigSep Finset.univ fun p : Fin 2 => (Pipeline.toksInit cfgs EP p c : sProp 𝕄)))
      ⊢ bigSep Finset.univ fun c : Dev nD => Pipeline.ghostOn (pcfgs (F := F)) adm EP Finset.univ c := by
  rw [← bigSep_sep']
  exact bigSep_mono fun c _ => show iprop((bigSep Finset.univ fun p : Fin 2 => Pipeline.cellsGhost cfgs EP p c)
        ∗ bigSep Finset.univ fun p : Fin 2 => (Pipeline.toksInit cfgs EP p c : sProp 𝕄)) ⊢ Pipeline.ghostOn (pcfgs (F := F)) adm EP Finset.univ c
    from Entails.of_eq (by rw [← bigSep_sep']; rfl)

theorem hu₀ : (ownU (u₀ (F := F)) : sProp 𝕄)
    ⊢ |={Set.univ}=> iprop(BI.own (EH (initOf (K (F := F)).hsCells (K (F := F)).hsToks))
        ∗ (bigSep Finset.univ fun d : Dev nD => Pipeline.ghostOn (pcfgs (F := F)) adm EP Finset.univ d)
        ∗ bigSep Finset.univ fun thr : Thread nD τ => bigSep Finset.univ fun q : Fin 1 => (P m outs).x q thr) := by
  unfold u₀
  iintro Hu
  ihave H := (ownU_pair _ _) $$ Hu
  icases H with ⟨HH, HR⟩
  ihave H2 := (own_pair_emb embR _ _) $$ HR
  icases H2 with ⟨HP, -⟩
  ihave HP := (show (BI.own ((Emb.inl.trans embR) (initOf (Pipeline.cells cfgs cellOf_inj) (Pipeline.launchToks cfgs cellOf_inj))) : sProp 𝕄)
      ⊢ BI.own (EP (initOf (Pipeline.cells cfgs cellOf_inj) (Pipeline.launchToks cfgs cellOf_inj))) from .rfl) $$ HP
  imod (Pipeline.fund_ghost cfgs EP cellOf_inj) $$ HP with Hg
  imodintro
  isplitl [HH]; · iexact HH
  isplitl [Hg]; · iapply (ghost_regroup (F := F)); iexact Hg
  rw [show (bigSep Finset.univ fun thr : Thread nD τ => bigSep Finset.univ fun q : Fin 1 => (P (F := F) m outs).x q thr) = bigSep Finset.univ fun _ => iprop(emp) from
    bigSep_congr fun _ _ => bigSep_univ_of_subsingleton (0 : Fin 1), bigSep_emp']
  iempintro

/-! ## The final memory read -/

def fq (d : Dev nD) (s' : Phys nD τ sig (Elt F)) : Prop :=
  s'.mem.mem (tl d main_v12) = W7 m outs d (r main_v12)
    ∧ s'.mem.mem (tl d main_arg0) = m (tl d main_arg0) ∧ s'.mem.mem (tl d main_arg1) = m (tl d main_arg1) ∧ s'.mem.mem (tl d main_arg2) = m (tl d main_arg2)
    ∧ s'.mem.mem (tl d main_arg3) = m (tl d main_arg3) ∧ s'.mem.mem (tl d main_arg4) = m (tl d main_arg4)

theorem agree {ℓ : Loc nD τ sig} (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr; · ipureintro; exact funext fun i => h i (Finset.mem_univ i)
  iexact HSI

theorem hfin (d : Dev nD) (s' : Phys nD τ sig (Elt F)) : iprop(FIN m outs d ∗ SI s') ⊢ (⌜fq m outs d s'⌝ : sProp 𝕄) := by
  unfold FIN
  iintro ⟨⟨H0, H1, H2, H3, H4, H5⟩, HSI⟩
  ihave A := (agree _ s') $$ [H0 HSI]
  · isplitl [H0] <;> iassumption
  icases A with ⟨%h0, HSI⟩
  ihave A := (agree _ s') $$ [H1 HSI]
  · isplitl [H1] <;> iassumption
  icases A with ⟨%h1, HSI⟩
  ihave A := (agree _ s') $$ [H2 HSI]
  · isplitl [H2] <;> iassumption
  icases A with ⟨%h2, HSI⟩
  ihave A := (agree _ s') $$ [H3 HSI]
  · isplitl [H3] <;> iassumption
  icases A with ⟨%h3, HSI⟩
  ihave A := (agree _ s') $$ [H4 HSI]
  · isplitl [H4] <;> iassumption
  icases A with ⟨%h4, HSI⟩
  ihave A := (agree _ s') $$ [H5 HSI]
  · isplitl [H5] <;> iassumption
  icases A with ⟨%h5, -⟩
  ipureintro; exact ⟨h0, h1, h2, h3, h4, h5⟩

/-! ## The program's run, given the tile's task, the split among tiles and the two regions' records -/

def QC : PUnit × MemSt nD τ sig (Elt F) → Prop := fun rr => ∀ c : Dev nD,
  rr.2.mem (tl c main_v12) = W7 m outs c (r main_v12)
    ∧ rr.2.mem (tl c main_arg0) = m (tl c main_arg0) ∧ rr.2.mem (tl c main_arg1) = m (tl c main_arg1) ∧ rr.2.mem (tl c main_arg2) = m (tl c main_arg2)
    ∧ rr.2.mem (tl c main_arg3) = m (tl c main_arg3) ∧ rr.2.mem (tl c main_arg4) = m (tl c main_arg4)

theorem run_cond [∀ e, Nonempty (Elt F e)]
    (pdats : (p : Fin 2) → (c : Dev nD) → Dat τ (Elt F) (HIx 1) ℕ UU ℕ (cfgs p) c)
    (R1 : RSeg (F := F) pdats 0) (R2 : RSeg (F := F) pdats 1)
    (hpre1 : ∀ d, TS (W3 m outs) d ⊢ R1.pre d) (hpost1 : ∀ d, R1.post d ⊢ TS (W4 m outs) d)
    (hpre2 : ∀ d, TS (W5 m outs) d ⊢ R2.pre d) (hpost2 : ∀ d, R2.post d ⊢ TS (W6 m outs) d)
    (htile : (K (F := F)).TileObl (D (F := F)) 𝒱 (P m outs) v₀ 0) (hvec : (K (F := F)).VecSplit (P m outs) 0) :
    θ_run (Cert.KernelIdeal.defs (F := F)) (Cert.KernelIdeal.threads (F := F)) ⟨m, fun _ => 0, ρ⟩ (QC m outs) :=
  SparseCore.Cfg.θ_run_sc (K := K (F := F)) (D := D (F := F)) (𝒱 := 𝒱) (EH := EH) (P := P m outs) facts v₀
    (fun q hq => match q with | 0 => nomatch hq)
    (fun q _ => match q with | 0 => htile)
    (fun q _ => match q with | 0 => hvec)
    m ρ main (fun d => Pipeline.ghostOn (pcfgs (F := F)) adm EP Finset.univ d) (FIN m outs) (u₀ (F := F)) (sep_elim_left.trans (hu₀ m outs))
    (hmain m ρ outs pdats R1 R2 hpre1 hpost1 hpre2 hpost2) (fq m outs) (hfin m outs) (QC m outs) (fun _ h => h)

end Cert.Proof.KI

end
-- ==== Proof.KVals.lean ====
/-
  What the idealized kernel computes, as pure functions of arrays (at any float instance):
  * the gather call: place j of a result row holds the table's entry at index idx[j];
  * the first region: for each column j of the 1 x 2048 rows, P[j] = sum over the 2048 positive scores v of
    max(0.6 - f[j] + v, 0)^2, accumulated at grid point 0 from zero; S[j] = P[j] plus the same sum over the 8192
    negative scores, one block of 2048 per grid point 1..4; W[j] = the greatest k with idx[k] = idx[j] (point 5);
  * the second region: the two moving averages at the last occurrence, and the mean of (up S - ua P) / ua^2.
  Each is the composition of the bodies' payloads in the order the grid runs them.
-/
import proofs.«215986_g81389630259714_cont_9to1_m_762_23_alg».proof.Defs
import proofs.«215986_g81389630259714_cont_9to1_m_762_23_alg».proof.Proof.Gen.KernelIdeal.Skeleton
import Idealize.ShloMosaic.Lib.ValueIdx

noncomputable section

namespace Cert.Proof.KV

open Cert.KernelIdeal Cert.KernelIdeal.Gen
open Idealize.ShloMosaic

variable {F : FTy → Type} [FloatOps F] [Named F]

/-- The gathered row: place j holds the flattened table at idx[j] (an index past the table reads its last entry; under
    the precondition none is). -/
def gath (tbl : FVec F S100000 .f32) (idx : IVec S2048 32) : FVec F S1x2048 .f32 :=
  fun j => tbl (ValueIdx.ix1 ⟨min (idx (ValueIdx.ix1 (j 1))).toNat 99999, by omega⟩)

/-- Rows [2048 t, 2048 (t + 1)) of the negative scores' column. -/
def negBlk (x4 : Vec F S8192x1 .f32) (t : Fin 4) : Vec F S2048x1 .f32 :=
  fun y => x4 (ValueIdx.ix2 ⟨2048 * t.val + (y 0).val, by have h : (y 0).val < 2048 := (y 0).isLt; have := t.isLt; omega⟩ (y 1))

/-- The sixth grid point. -/
def pt5 : grid1.Coords := fun | 0 => ⟨5, by decide⟩ | ⟨_ + 1, h⟩ => absurd h (Nat.not_lt.2 (Nat.le_add_left _ _))

/-- P: the positive part, point 0 on a zeroed row. -/
def sumsP (x3 : Vec F S2048x1 .f32) (x5 : Vec F S1x2048 .f32) : FVec F S1x2048 .f32 := k1_pay6 x5 x3 (k1_pay4 (F := F))
/-- S: point 0 on a zeroed row, then the four negative blocks. -/
def sumsS (x3 : Vec F S2048x1 .f32) (x4 : Vec F S8192x1 .f32) (x5 : Vec F S1x2048 .f32) : FVec F S1x2048 .f32 :=
  k1_pay7 x5 (negBlk x4 3) (k1_pay7 x5 (negBlk x4 2) (k1_pay7 x5 (negBlk x4 1) (k1_pay7 x5 (negBlk x4 0)
    (k1_pay5 x5 x3 (k1_pay3 (F := F))))))
/-- W: the last occurrence of each index, point 5. -/
def sumsW (x6 : Vec F S2048x1 .i32) (x7 : Vec F S1x2048 .i32) : IVec S1x2048 32 := k1_pay8 (F := F) pt5 x6 x7

/-- The combination. -/
def comb (s p : Vec F S1x2048 .f32) (scol pcol : Vec F S2048x1 .f32) (w : Vec F S1x2048 .i32) (ua0 up0 : Vec F S1x2048 .f32) : FVec F S1x1 .f32 :=
  k2_pay1 (k2_pay3 w pcol) (k2_pay4 w scol ua0) (k2_pay5 up0) (k2_pay6 (F := F)) s p

/-- The program's result from its five arguments. -/
def kOut (a0 : FVec F S2048 .f32) (a1 : FVec F S8192 .f32) (a2 : IVec S2048 32) (a3 a4 : FVec F S100000x1 .f32) : FVec F S_ .f32 :=
  let ua0 := gath (shapeCast S100000 a3 shapeCasts_S100000x1_S100000) a2
  let up0 := gath (shapeCast S100000 a4 shapeCasts_S100000x1_S100000) a2
  let x3 : Vec F S2048x1 .f32 := shapeCast S2048x1 a0 shapeCasts_S2048_S2048x1
  let x4 : Vec F S8192x1 .f32 := shapeCast S8192x1 a1 shapeCasts_S8192_S8192x1
  let x5 : Vec F S1x2048 .f32 := shapeCast S1x2048 a0 shapeCasts_S2048_S1x2048
  let x6 : Vec F S2048x1 .i32 := shapeCast S2048x1 a2 shapeCasts_S2048_S2048x1
  let x7 : Vec F S1x2048 .i32 := shapeCast S1x2048 a2 shapeCasts_S2048_S1x2048
  let s := sumsS x3 x4 x5
  let p := sumsP x3 x5
  let w := sumsW (F := F) x6 x7
  shapeCast S_ (comb s p (shapeCast S2048x1 s shapeCasts_S1x2048_S2048x1) (shapeCast S2048x1 p shapeCasts_S1x2048_S2048x1) w ua0 up0) shapeCasts_S1x1_S_

end Cert.Proof.KV

end
-- ==== Proof.KTile.lean ====
/-
  The gather call's task on one tile, and how a SparseCore's operands split among its sixteen tiles.
  Tile (c, s) fetches the 64 indices from place 128 s + 64 c of the index array into its own memory, gathers the
  first table at them, then the second (one after the other on one semaphore, each waited for before the next is
  issued), and copies the two gathered rows of 64 out to the same 64 places of the two result rows. It reads the index
  array and the tables at a share, and owns its 64 places of each result row.
-/
import proofs.«215986_g81389630259714_cont_9to1_m_762_23_alg».proof.Proof.KLaunch
import proofs.«215986_g81389630259714_cont_9to1_m_762_23_alg».proof.Proof.KVals

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Shares: a points-to at a share is its leaves' at once -/

def sumEquiv (n : ℕ) : Fin (2 ^ n) ⊕ Fin (2 ^ n) ≃ Fin (2 ^ (n + 1)) := finSumFinEquiv.trans (finCongr (by omega))
theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega
theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

variable [FloatOps F] [Named F] (m : (ℓ : Loc nD τ sig) → Buf (Elt F) ℓ) (outs : Outs F)

/-! ## The split among a SparseCore's tiles -/

theorem in_tiles (d : Dev nD) (c : Fin 2) : scIn (F := F) m d c = bigSep Finset.univ fun s : Fin 16 => tIn m d c s := by
  unfold scIn tIn
  simp only [bigSep_sep']
  rw [pointsTo_leaves (F := F) (ℓ := tl d main_arg2) Finset.univ (W1 m d (r main_arg2)) 4 (shC c),
    pointsTo_leaves (F := F) (ℓ := tl d main_v0) Finset.univ (W1 m d (r main_v0)) 4 (shC c),
    pointsTo_leaves (F := F) (ℓ := tl d main_v1) Finset.univ (W1 m d (r main_v1)) 4 (shC c)]
  rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m outs) 0 := by
  intro d c
  show iprop(scIn m d (Fin.cast nCore_zero c) ∗ scOut (F := F) d (Fin.cast nCore_zero c) (W1 m d (r main_v2_0)) (W1 m d (r main_v2_1)))
    ⊢ |={Set.univ}=> iprop(
      (bigSep Finset.univ fun i : Fin ((K (F := F)).nSub 0) =>
        iprop(tIn m d (Fin.cast nCore_zero c) (Fin.cast nSub_zero i) ∗ tOut (F := F) d (Fin.cast nCore_zero c) (Fin.cast nSub_zero i) (W1 m d (r main_v2_0)) (W1 m d (r main_v2_1))))
      ∗ ((bigSep Finset.univ fun i : Fin ((K (F := F)).nSub 0) =>
          iprop(tIn m d (Fin.cast nCore_zero c) (Fin.cast nSub_zero i) ∗ tOut (F := F) d (Fin.cast nCore_zero c) (Fin.cast nSub_zero i) (outs.g0 d) (outs.g1 d)))
          -∗ iprop(scIn m d (Fin.cast nCore_zero c) ∗ scOut (F := F) d (Fin.cast nCore_zero c) (outs.g0 d) (outs.g1 d))))
  rw [bigSep_tasks (F := F) (fun i => iprop(tIn m d (Fin.cast nCore_zero c) i ∗ tOut (F := F) d (Fin.cast nCore_zero c) i (W1 m d (r main_v2_0)) (W1 m d (r main_v2_1)))),
    bigSep_tasks (F := F) (fun i => iprop(tIn m d (Fin.cast nCore_zero c) i ∗ tOut (F := F) d (Fin.cast nCore_zero c) i (outs.g0 d) (outs.g1 d))),
    bigSep_sep', bigSep_sep', in_tiles]
  unfold scOut
  iintro H; imodintro
  isplitl [H]; · iexact H
  iintro H; iexact H

end Cert.Proof.KI

end
-- ==== Proof.KTileBody.lean ====
/-
  The gather call's task on one tile: tile (c, s) fetches the 64 indices from place 128 s + 64 c of the index array
  into its own memory, gathers the first table at them and then the second (one after the other on one semaphore, each
  waited for before the next is issued), and copies the two gathered rows out to the same 64 places of the two result
  rows, which then hold the tables' entries at those indices.
-/
import proofs.«215986_g81389630259714_cont_9to1_m_762_23_alg».proof.Proof.KTile

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Named F] (m : (ℓ : Loc nD τ sig) → Buf (Elt F) ℓ) (outs : Outs F)

/-! ## The task -/

section Tile

variable (d : Dev nD) (L : grid0.Coords)

abbrev cV (L : grid0.Coords) : Fin τ.nSC := (L 0).castLE hcore0
abbrev jV (L : grid0.Coords) : Fin τ.nSub := (L 1).castLE hsub0
/-- The tile's SparseCore and its number on it. -/
abbrev cF (L : grid0.Coords) : Fin 2 := ⟨(L 0).val, (L 0).isLt⟩
abbrev sF (L : grid0.Coords) : Fin 16 := ⟨(L 1).val, (L 1).isLt⟩

theorem coordsV_eta (L : grid0.Coords) : coordsV (cF L) (sF L) = L := by
  funext a
  match a with
  | 0 => rfl
  | 1 => rfl

/-- What the proof asks of the launch memory: every index names a row of the tables. -/
def PreOK : Prop := ∀ (d : Dev nD) (j : S2048.Idx), (m (tl d main_arg2) j).toNat < 100000

/-! ## The operands as the tile addresses them -/

local notation "iV" => (Memref.whole Cert.KernelIdeal.main_arg2_scv : Memref Cert.KernelIdeal.sig Kind.scVector Space.hbm Cert.KernelIdeal.S2048 EltTy.i32)
local notation "aV" => (Memref.whole Cert.KernelIdeal.main_v0_scv : Memref Cert.KernelIdeal.sig Kind.scVector Space.hbm Cert.KernelIdeal.S100000 EltTy.f32)
local notation "bV" => (Memref.whole Cert.KernelIdeal.main_v1_scv : Memref Cert.KernelIdeal.sig Kind.scVector Space.hbm Cert.KernelIdeal.S100000 EltTy.f32)
local notation "pV" => (Memref.whole Cert.KernelIdeal.main_v2_0_scv : Memref Cert.KernelIdeal.sig Kind.scVector Space.hbm Cert.KernelIdeal.S1x2048 EltTy.f32)
local notation "qV" => (Memref.whole Cert.KernelIdeal.main_v2_1_scv : Memref Cert.KernelIdeal.sig Kind.scVector Space.hbm Cert.KernelIdeal.S1x2048 EltTy.f32)
local notation "sV" => (Memref.whole Cert.KernelIdeal.cc0_scratch0 : Memref Cert.KernelIdeal.sig Kind.scVector Space.vmem Cert.KernelIdeal.S64 EltTy.i32)
local notation "xV" => (Memref.whole Cert.KernelIdeal.cc0_scratch1 : Memref Cert.KernelIdeal.sig Kind.scVector Space.vmem Cert.KernelIdeal.S64 EltTy.f32)
local notation "yV" => (Memref.whole Cert.KernelIdeal.cc0_scratch2 : Memref Cert.KernelIdeal.sig Kind.scVector Space.vmem Cert.KernelIdeal.S64 EltTy.f32)

/-- The 64 fetched indices, the whole of each table, and the tile's 64 places of each result row, as the task slices them. -/
abbrev iRowK (L : grid0.Coords) : Memref sig .scVector .hbm S64 .i32 := (iV).slice (iRect L) (fun _ => rfl)
abbrev aAllK : Memref sig .scVector .hbm S100000 .f32 := (aV).slice (Rect.unit (s := S100000) ![0] S100000.size inb_S100000_S100000_0) (fun _ => rfl)
abbrev bAllK : Memref sig .scVector .hbm S100000 .f32 := (bV).slice (Rect.unit (s := S100000) ![0] S100000.size inb_S100000_S100000_0) (fun _ => rfl)
abbrev pRowK (L : grid0.Coords) : Memref sig .scVector .hbm S64 .f32 := ((pV).slice (oRect L) (fun _ => rfl)).squeeze S64 squeezes_S1x64_S64
abbrev qRowK (L : grid0.Coords) : Memref sig .scVector .hbm S64 .f32 := ((qV).slice (oRect L) (fun _ => rfl)).squeeze S64 squeezes_S1x64_S64

theorem set_pRowK : (pRowK L).view.set = oSet L := by
  show (((pV).view.slice (oRect L)).reshape S64 squeezes_S1x64_S64.numel_eq).set = ((pV).view.slice (oRect L)).set
  rw [View.set_reshape]
theorem set_qRowK : (qRowK L).view.set = oSet L := by
  show (((qV).view.slice (oRect L)).reshape S64 squeezes_S1x64_S64.numel_eq).set = ((pV).view.slice (oRect L)).set
  rw [View.set_reshape]
  rfl

theorem pts_pRowK (f : Buf (Elt F) (tl d main_v2_0)) :
    ((pRowK L).view.loc (V d (cV L) (jV L)) ↦[(pRowK L).view.set]{fullShare} f : sProp 𝕄) = tl d main_v2_0 ↦[oSet L]{fullShare} f := by
  rw [set_pRowK]
theorem pts_qRowK (f : Buf (Elt F) (tl d main_v2_1)) :
    ((qRowK L).view.loc (V d (cV L) (jV L)) ↦[(qRowK L).view.set]{fullShare} f : sProp 𝕄) = tl d main_v2_1 ↦[oSet L]{fullShare} f := by
  rw [set_qRowK]
theorem pts_iV (q : PosShare TreeShare) (f : Buf (Elt F) (tl d main_arg2)) :
    ((iV).view.loc (V d (cV L) (jV L)) ↦{q} f : sProp 𝕄) = tl d main_arg2 ↦{q} f := rfl
theorem pts_aV (q : PosShare TreeShare) (f : Buf (Elt F) (tl d main_v0)) :
    ((aV).view.loc (V d (cV L) (jV L)) ↦{q} f : sProp 𝕄) = tl d main_v0 ↦{q} f := rfl
theorem pts_bV (q : PosShare TreeShare) (f : Buf (Elt F) (tl d main_v1)) :
    ((bV).view.loc (V d (cV L) (jV L)) ↦{q} f : sProp 𝕄) = tl d main_v1 ↦{q} f := rfl
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_xV (f : Buf (Elt F) ((V d (cV L) (jV L)).loc cc0_scratch1)) :
    ((xV).view.loc (V d (cV L) (jV L)) ↦{fullShare} f : sProp 𝕄) = (V d (cV L) (jV L)).loc cc0_scratch1 ↦{fullShare} f := rfl
theorem pts_yV (f : Buf (Elt F) ((V d (cV L) (jV L)).loc cc0_scratch2)) :
    ((yV).view.loc (V d (cV L) (jV L)) ↦{fullShare} f : sProp 𝕄) = (V d (cV L) (jV L)).loc cc0_scratch2 ↦{fullShare} f := rfl

/-- The tile's four semaphores: the gathers', and one for each of the three copies. -/
abbrev cGcell (d : Dev nD) (c : Fin τ.nSC) (i : Fin τ.nSub) : GSem nD τ sig := (V d c i, .dma cc0_scratch3.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)
abbrev cCcell (d : Dev nD) (c : Fin τ.nSC) (i : Fin τ.nSub) : GSem nD τ sig := (V d c i, .dma cc0_scoped2.sem)

theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0 ∗ semVal (cCcell d (cV L) (jV L)) 0
          ∗ bigSep (((((ownCells (V d (cV L) (jV L))).erase (cGcell d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cGcell d (cV L) (jV L))).mpr ⟨rfl, by
      show (SemLoc.dma cc0_scratch3.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc0_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc0_scoped1.sem : SemLoc sig).isScoped .scVector = true; decide⟩⟩⟩),
    SparseCore.bigSep_erase' (Finset.mem_erase.mpr ⟨by simp [cBcell, cCcell]; decide, Finset.mem_erase.mpr ⟨by simp [cAcell, cCcell]; decide,
      Finset.mem_erase.mpr ⟨by simp [cGcell, cCcell]; decide,
      (mem_ownCells (g := cCcell d (cV L) (jV L))).mpr ⟨rfl, by show (SemLoc.dma cc0_scoped2.sem : SemLoc sig).isScoped .scVector = true; decide⟩⟩⟩⟩)]

/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

/-! ## The values: what the fetch, the gathers and the copies out move -/

/-- The k-th fetched index comes from place 128 s + 64 c + k of the index array, -/
theorem iRowK_emb_val (x : S64.Idx) : (((iRowK L).view.emb x) 0).val = 128 * (L 1).val + 64 * (L 0).val + (x 0).val := by
  show (k0_off1 L) 0 + 1 * (x 0).val = _
  rw [k0_off1_eq]; simp
/-- and the k-th gathered entry goes to the same place of the result row. -/
theorem pRowK_emb_val (x : S64.Idx) : (((pRowK L).view.emb x) 1).val = 128 * (L 1).val + 64 * (L 0).val + (x 0).val := by
  show (k0_off2 L) 1 + 1 * ((Shape.reshapeEquiv squeezes_S1x64_S64.numel_eq x) 1).val = _
  rw [k0_off2_eq, Shape.reshapeEquiv_cons_one]; simp
  rfl
theorem qRowK_emb_val (x : S64.Idx) : (((qRowK L).view.emb x) 1).val = 128 * (L 1).val + 64 * (L 0).val + (x 0).val := by
  show (k0_off2 L) 1 + 1 * ((Shape.reshapeEquiv squeezes_S1x64_S64.numel_eq x) 1).val = _
  rw [k0_off2_eq, Shape.reshapeEquiv_cons_one]; simp
  rfl

/-- A whole table read through the full slice the gather addresses it by is the table. -/
theorem aAllK_read (T : Buf (Elt F) (tl d main_v0)) (y : S100000.Idx) :
    View.read (Elt F) (aAllK).view T y = T y := by
  rw [View.read_apply, cast_eq]
  congr 1
  funext a; apply Fin.ext
  show (![0] : Fin 1 → ℕ) a + 1 * (y a).val = (y a).val
  match a with
  | 0 => simp
theorem bAllK_read (T : Buf (Elt F) (tl d main_v1)) (y : S100000.Idx) :
    View.read (Elt F) (bAllK).view T y = T y := by
  rw [View.read_apply, cast_eq]
  congr 1
  funext a; apply Fin.ext
  show (![0] : Fin 1 → ℕ) a + 1 * (y a).val = (y a).val
  match a with
  | 0 => simp

/-- A gather of a flat table at a list of 64 words: entry k is the table at word k. -/
theorem gatherPayload_flat (g : S100000.Idx → Elt F .f32) (R : S64.Idx → Elt F .i32) (hn : S64.numel = S64.size gathers_S100000_S64.axis')
    (hin : ∀ x, (R x).toNat < S100000.size gathers_S100000_S64.axis) (x : S64.Idx) :
    SparseCore.gatherPayload gathers_S100000_S64 g (SparseCore.rows R hn hin) x = g (ValueIdx.ix1 ⟨(R x).toNat, hin x⟩) := by
  unfold SparseCore.gatherPayload
  congr 1
  funext a
  match a with
  | 0 =>
    apply Fin.ext
    rw [show (0 : Fin S100000.rank) = gathers_S100000_S64.axis from rfl, Shape.Gathers.idx_axis]
    show (R (S64.rowMajor.symm _)).toNat = (R x).toNat
    congr 2
    rw [Equiv.symm_apply_eq]
    apply Fin.ext
    rw [Shape.rowMajor_val_one]
    rfl

/-- The index array is as at launch when the call runs: flattening the tables does not touch it. -/
theorem W1_arg2 : W1 m d (r main_arg2) = m (tl d main_arg2) := by
  unfold W1
  rw [(opR1 (F := F)).result_of_not_mem _ (nw _ _ _ _ (ne_wr (by decide) (by decide))),
    (opR0 (F := F)).result_of_not_mem _ (nw _ _ _ _ (ne_wr (by decide) (by decide)))]
  rfl

/-- What the fetch leaves in the tile's index buffer: word k is the index array at the k-th place of the tile's 64. -/
theorem fetched (fs : Buf (Elt F) ((V d (cV L) (jV L)).loc cc0_scratch0)) (x : S64.Idx) :
    View.read (Elt F) (sV).view (View.write (Elt F) (sV).view fs
        (ReadAs.same.apply (View.read (Elt F) (iRowK L).view (W1 m d (r main_arg2)))) Finset.univ) x
      = W1 m d (r main_arg2) ((iRowK L).view.emb x) := by
  rw [View.read_write_univ]
  show View.read (Elt F) (iRowK L).view (W1 m d (r main_arg2)) x = _
  rw [View.read_apply, cast_eq]

/-- Every fetched word names a row of the tables. -/
theorem fetched_inb (hpre : PreOK m) (fs : Buf (Elt F) ((V d (cV L) (jV L)).loc cc0_scratch0)) :
    ∀ x, (View.read (Elt F) (sV).view (View.write (Elt F) (sV).view fs
        (ReadAs.same.apply (View.read (Elt F) (iRowK L).view (W1 m d (r main_arg2)))) Finset.univ) x).toNat
      < S100000.size gathers_S100000_S64.axis := by
  intro x
  rw [fetched, W1_arg2]
  exact hpre d _

/-- The gather of a flat table at the fetched words, read at entry k, is the table's entry at the index held at the
    place of the result row that entry k is copied to. -/
theorem gathered (hpre : PreOK m) (T : S100000.Idx → Elt F .f32) (fs : Buf (Elt F) ((V d (cV L) (jV L)).loc cc0_scratch0))
    (hn : S64.numel = S64.size gathers_S100000_S64.axis')
    (hin : ∀ x, (View.read (Elt F) (sV).view (View.write (Elt F) (sV).view fs
        (ReadAs.same.apply (View.read (Elt F) (iRowK L).view (W1 m d (r main_arg2)))) Finset.univ) x).toNat
      < S100000.size gathers_S100000_S64.axis)
    (x : S64.Idx) (j : S1x2048.Idx) (hj : (j 1).val = 128 * (L 1).val + 64 * (L 0).val + (x 0).val) :
    SparseCore.gatherPayload gathers_S100000_S64 T (SparseCore.rows (View.read (Elt F) (sV).view (View.write (Elt F) (sV).view fs
        (ReadAs.same.apply (View.read (Elt F) (iRowK L).view (W1 m d (r main_arg2)))) Finset.univ)) hn hin) x
      = Cert.Proof.KV.gath T (W1 m d (r main_arg2)) j := by
  rw [gatherPayload_flat]
  unfold Cert.Proof.KV.gath
  congr 2
  apply Fin.ext
  have e : (iRowK L).view.emb x = ValueIdx.ix1 (j 1) := by
    funext a
    match a with
    | 0 => exact Fin.ext ((iRowK_emb_val L x).trans hj.symm)
  show (View.read (Elt F) (sV).view _ x).toNat = min (W1 m d (r main_arg2) (ValueIdx.ix1 (j 1))).toNat 99999
  rw [fetched, e]
  have h : (W1 m d (r main_arg2) (ValueIdx.ix1 (j 1))).toNat < 100000 := by rw [W1_arg2]; exact hpre d _
  exact (min_eq_left (Nat.le_of_lt_succ h)).symm

/-- The fetched words, as the tile's index buffer holds them after the fetch. -/
abbrev fetchedBuf (fs : Buf (Elt F) ((V d (cV L) (jV L)).loc cc0_scratch0)) : Buf (Elt F) ((V d (cV L) (jV L)).loc cc0_scratch0) :=
  View.write (Elt F) (sV).view fs (ReadAs.same.apply (View.read (Elt F) (iRowK L).view (W1 m d (r main_arg2)))) Finset.univ

/-- THE FIRST RESULT ROW. The first row buffer, written with the gather of the first table at the fetched words and copied
    out through the tile's 64 places of the first result row, leaves there the table's entries at the indices. -/
theorem out0_val (hpre : PreOK m) (hg0 : ∀ d, outs.g0 d = Cert.Proof.KV.gath (W1 m d (r main_v0)) (W1 m d (r main_arg2)))
    (fs : Buf (Elt F) ((V d (cV L) (jV L)).loc cc0_scratch0)) (fx : Buf (Elt F) ((V d (cV L) (jV L)).loc cc0_scratch1))
    (hn : S64.numel = S64.size gathers_S100000_S64.axis')
    (hin : ∀ x, (View.read (Elt F) (sV).view (fetchedBuf m d L fs) x).toNat < S100000.size gathers_S100000_S64.axis) :
    ∀ j ∈ oSet L, (pRowK L).view.writes (Elt F) (W1 m d (r main_v2_0)) [⟨Rect.whole S64,
      ReadAs.same.apply (View.read (Elt F) (xV).view (View.write (Elt F) (xV).view fx
        (SparseCore.gatherPayload gathers_S100000_S64 (View.read (Elt F) (aAllK).view (W1 m d (r main_v0)))
          (SparseCore.rows (View.read (Elt F) (sV).view (fetchedBuf m d L fs)) hn hin)) Finset.univ))⟩] j = outs.g0 d j := by
  intro j hj
  rw [← set_pRowK] at hj
  obtain ⟨x, -, rfl⟩ := Finset.mem_map.mp hj
  have h1 := View.read_writes_cons_emb (pRowK L).view (W1 m d (r main_v2_0)) (Rect.whole S64)
    (ReadAs.same.apply (View.read (Elt F) (xV).view (View.write (Elt F) (xV).view fx
        (SparseCore.gatherPayload gathers_S100000_S64 (View.read (Elt F) (aAllK).view (W1 m d (r main_v0)))
          (SparseCore.rows (View.read (Elt F) (sV).view (fetchedBuf m d L fs)) hn hin)) Finset.univ))) [] x
  rw [View.read_apply, cast_eq, Rect.emb_whole_apply] at h1
  rw [h1, hg0]
  show View.read (Elt F) (xV).view (View.write (Elt F) (xV).view fx _ Finset.univ) x = _
  rw [View.read_write_univ, show View.read (Elt F) (aAllK).view (W1 m d (r main_v0)) = W1 m d (r main_v0) from funext (aAllK_read (F := F) d _)]
  exact gathered m d L hpre _ fs hn hin x _ (pRowK_emb_val L x)

/-- THE SECOND RESULT ROW, the same way from the second table and the second row buffer. -/
theorem out1_val (hpre : PreOK m) (hg1 : ∀ d, outs.g1 d = Cert.Proof.KV.gath (W1 m d (r main_v1)) (W1 m d (r main_arg2)))
    (fs : Buf (Elt F) ((V d (cV L) (jV L)).loc cc0_scratch0)) (fy : Buf (Elt F) ((V d (cV L) (jV L)).loc cc0_scratch2))
    (hn : S64.numel = S64.size gathers_S100000_S64.axis')
    (hin : ∀ x, (View.read (Elt F) (sV).view (fetchedBuf m d L fs) x).toNat < S100000.size gathers_S100000_S64.axis) :
    ∀ j ∈ oSet L, (qRowK L).view.writes (Elt F) (W1 m d (r main_v2_1)) [⟨Rect.whole S64,
      ReadAs.same.apply (View.read (Elt F) (yV).view ((yV).view.writes (Elt F) fy [⟨Rect.whole _,
        SparseCore.gatherPayload gathers_S100000_S64 (View.read (Elt F) (bAllK).view (W1 m d (r main_v1)))
          (SparseCore.rows (View.read (Elt F) (sV).view (fetchedBuf m d L fs)) hn hin)⟩]))⟩] j = outs.g1 d j := by
  intro j hj
  rw [← set_qRowK] at hj
  obtain ⟨x, -, rfl⟩ := Finset.mem_map.mp hj
  have h1 := congrFun (View.read_writes_whole (qRowK L).view (W1 m d (r main_v2_1))
    (ReadAs.same.apply (View.read (Elt F) (yV).view ((yV).view.writes (Elt F) fy [⟨Rect.whole _,
        SparseCore.gatherPayload gathers_S100000_S64 (View.read (Elt F) (bAllK).view (W1 m d (r main_v1)))
          (SparseCore.rows (View.read (Elt F) (sV).view (fetchedBuf m d L fs)) hn hin)⟩])))) x
  rw [View.read_apply, cast_eq] at h1
  rw [h1, hg1]
  have h2 := congrFun (View.read_writes_whole (yV).view fy
    (SparseCore.gatherPayload gathers_S100000_S64 (View.read (Elt F) (bAllK).view (W1 m d (r main_v1)))
          (SparseCore.rows (View.read (Elt F) (sV).view (fetchedBuf m d L fs)) hn hin))) x
  refine Eq.trans h2 ?_
  rw [show View.read (Elt F) (bAllK).view (W1 m d (r main_v1)) = W1 m d (r main_v1) from funext (bAllK_read (F := F) d _)]
  exact gathered m d L hpre _ fs hn hin x _ (qRowK_emb_val L x)

set_option maxHeartbeats 4000000 in
/-- THE TASK on tile `L` of device `d`: from its share of the indices and tables, its 64 places of the two result rows and
    its own memory and semaphores, to the same with the places holding the gathered entries. -/
theorem tile_body (hF : (K (F := F)).Facts) (hpre : PreOK m) (hg0 : ∀ d, outs.g0 d = Cert.Proof.KV.gath (W1 m d (r main_v0)) (W1 m d (r main_arg2)))
    (hg1 : ∀ d, outs.g1 d = Cert.Proof.KV.gath (W1 m d (r main_v1)) (W1 m d (r main_arg2)))
    (O : CellTallies nD τ sig (HIx 1)) (W : Waits sig (HIx 1)) (hO : ∀ g, O g none = 0) :
    iprop(levAts (K (F := F)).L (K (F := F)).lev ∗ emp
        ∗ (tIn m d (cF L) (sF L) ∗ tOut (F := F) d (cF L) (sF L) (W1 m d (r main_v2_0)) (W1 m d (r main_v2_1)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_gather L (Memref.whole main_arg2_scv) (Memref.isWhole_whole _) (Memref.whole main_v0_scv) (Memref.isWhole_whole _)
            (Memref.whole main_v1_scv) (Memref.isWhole_whole _) (Memref.whole main_v2_0_scv) (Memref.isWhole_whole _)
            (Memref.whole main_v2_1_scv) (Memref.isWhole_whole _) (Memref.whole cc0_scratch0) (Memref.isWhole_whole _)
            (Memref.whole cc0_scratch1) (Memref.isWhole_whole _) (Memref.whole cc0_scratch2) (Memref.isWhole_whole _) cc0_scratch3 cc0_scoped0 cc0_scoped1 cc0_scoped2)
          fun _ => iprop((tIn m d (cF L) (sF L) ∗ tOut (F := F) d (cF L) (sF L) (outs.g0 d) (outs.g1 d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_sc_gather_eq_skeleton]; unfold cc0_sc_gather_skel
  rw [(K (F := F)).scopedBufs_V hF d (cV L) (jV L), SparseCore.Cfg.scopedSems0_V (Val := Elt F) d (cV L) (jV L), ownSems0_V, ownBufs_V]
  unfold tIn tOut
  rw [coordsV_eta]
  iintro ⟨#Hlv, -, ⟨⟨Hi, Ha, Hb⟩, ⟨Hp, Hq⟩⟩, ⟨⟨%fs, Hs⟩, ⟨%fx, Hx⟩, ⟨%fy, Hy⟩, Hbufs⟩, ⟨HsemG, HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iV (F := F) d L _ _).symm) $$ Hi
  ihave Ha' := (Entails.of_eq (pts_aV (F := F) d L _ _).symm) $$ Ha
  ihave Hb' := (Entails.of_eq (pts_bV (F := F) d L _ _).symm) $$ Hb
  ihave Hp' := (Entails.of_eq (pts_pRowK (F := F) d L _).symm) $$ Hp
  ihave Hq' := (Entails.of_eq (pts_qRowK (F := F) d L _).symm) $$ Hq
  ihave Hs' := (Entails.of_eq (pts_sV (F := F) d L _).symm) $$ Hs
  ihave Hx' := (Entails.of_eq (pts_xV (F := F) d L _).symm) $$ Hx
  ihave Hy' := (Entails.of_eq (pts_yV (F := F) d L _).symm) $$ Hy
  sl_exec
  -- the first gather: a share of the first table's elements, the first row buffer, the fetched indices' buffer and
  -- the gathers' semaphore at zero go in; the flight comes back
  ihave Has := (pointsTo_split_subset (ℓ := (aV).view.loc (V d (cV L) (jV L))) (q := shT (cF L) (sF L)) (f := W1 m d (r main_v0)) (S := Finset.univ) (Finset.subset_univ (aAllK).view.set)).1 $$ Ha'
  icases Has with ⟨Has, Har⟩
  have hxs : (xV).view.set = Finset.univ := View.set_whole _
  have hys : (yV).view.set = Finset.univ := View.set_whole _
  have hss : (sV).view.set = Finset.univ := View.set_whole _
  ihave Hx'' := (Entails.of_eq (show ((xV).view.loc (V d (cV L) (jV L)) ↦{fullShare} fx : sProp 𝕄)
      = (xV).view.loc (V d (cV L) (jV L)) ↦[(xV).view.set]{fullShare} fx by rw [hxs])) $$ Hx'
  ihave Hs'' := (Entails.of_eq (show ((sV).view.loc (V d (cV L) (jV L)) ↦{fullShare} View.write (Elt F) (sV).view fs (tile_body.sl.dma0 m d L) Finset.univ : sProp 𝕄)
      = (sV).view.loc (V d (cV L) (jV L)) ↦[(sV).view.set]{fullShare} View.write (Elt F) (sV).view fs (tile_body.sl.dma0 m d L) Finset.univ
      by rw [hss])) $$ Hs'
  have hin : ∀ x, ((sV).view.read (Elt F) (View.write (Elt F) (sV).view fs (tile_body.sl.dma0 m d L) Finset.univ) x).toNat < S100000.size gathers_S100000_S64.axis :=
    fetched_inb m d L hpre fs
  iapply (SparseCore.wp_indirectGatherLocal countersEmb 𝒱₀ (V d (cV L) (jV L)) none (hg := gathers_S100000_S64) (default : HIx 1)
      (xV).view.dmaCredit (SparseCore.sum_rowCredit_eq_dmaCredit (xV) _ (fun _ => rfl)) (by decide) hin) $$ [Has Hx'' Hs'' HsemG]
  · isplitl [Has]; · iexact Has
    isplitl [Hx'']; · iexact Hx''
    isplitl [Hs'']; · iexact Hs''
    iexact HsemG
  iintro Hfl
  sl_exec
  -- its wait: the row buffer written with the gathered entries, the table's share and the indices' buffer back, the
  -- semaphore at zero again
  iapply (Transfers.wp_waitLocalO countersEmb 𝒱₀ (V d (cV L) (jV L)) none (default : HIx 1) (rfl : (xV).view.dmaCredit = _)) $$ [Hfl HO]
  · isplitl [Hfl]; · iexact Hfl
    isplitl [HO]; · iexact HO
    iapply (Transfers.MayWaits.elim (SemLoc.dma cc0_scratch3.sem)) $$ Hmw
  iintro ⟨⟨Hx1, Has, Hs1⟩, HsemG, HO⟩
  ihave Ha' := (pointsTo_split_subset (ℓ := (aV).view.loc (V d (cV L) (jV L))) (q := shT (cF L) (sF L)) (f := W1 m d (r main_v0)) (S := Finset.univ) (Finset.subset_univ (aAllK).view.set)).2 $$ [Has Har]; · isplitl [Has] <;> iassumption
  ihave Hx3 := (Entails.of_eq (show ((xV).view.loc (V d (cV L) (jV L)) ↦[(xV).view.set]{fullShare} _ : sProp 𝕄)
      = (xV).view.loc (V d (cV L) (jV L)) ↦{fullShare} _ by rw [hxs])) $$ Hx1
  sl_exec
  have eP : ((pRowK L).view.loc (V d (cV L) (jV L)) ↦[(pRowK L).view.set]{fullShare}
      (pRowK L).view.writes (Elt F) (W1 m d (r main_v2_0)) [⟨Rect.whole S64, tile_body.sl.dma0_1 m d L fs fx hin⟩] : sProp 𝕄)
      = tl d main_v2_0 ↦[oSet L]{fullShare} outs.g0 d :=
    (pts_pRowK (F := F) d L _).trans (pointsTo_congr (out0_val m outs d L hpre hg0 fs fx _ hin))
  have eQ : ((qRowK L).view.loc (V d (cV L) (jV L)) ↦[(qRowK L).view.set]{fullShare}
      (qRowK L).view.writes (Elt F) (W1 m d (r main_v2_1)) [⟨Rect.whole S64, tile_body.sl.dma0_2 m d L fs fy hin⟩] : sProp 𝕄)
      = tl d main_v2_1 ↦[oSet L]{fullShare} outs.g1 d :=
    (pts_qRowK (F := F) d L _).trans (pointsTo_congr (out1_val m outs d L hpre hg1 fs fy _ hin))
  sl_step
  isplitl [Hi' Ha' Hb' Hp' Hq']
  · isplitl [Hi' Ha' Hb']
    · isplitl [Hi']; · iexact Hi'
      isplitl [Ha']; · iexact Ha'
      iexact Hb'
    isplitl [Hp']
    · iapply (Entails.of_eq eP) $$ Hp'
    · iapply (Entails.of_eq eQ) $$ Hq'
  isplitl [Hs1 Hx3 Hy' Hbufs]
  · isplitl [Hs1]; · iexists _; rw [hss]; iexact Hs1
    isplitl [Hx3]; · iexists _; iexact Hx3
    isplitl [Hy']; · iexists _; iexact Hy'
    iexact Hbufs
  isplitl [HsemG HsemA HsemB HsemC Hsems]
  · isplitl [HsemG]; · iexact HsemG
    isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.KI

end
-- ==== Proof.KTileObl.lean ====
/-
  The gather call's obligation to the launch: the task of any tile of the call's grid, in the launch theorem's own
  spelling of thread and program, is the tile's task at its coordinates.
-/
import proofs.«215986_g81389630259714_cont_9to1_m_762_23_alg».proof.Proof.KTileBody

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Named F] (m : (ℓ : Loc nD τ sig) → Buf (Elt F) ℓ) (outs : Outs F)

theorem defs₀_vector (c : Fin τ.nSC) (s : Fin τ.nSub) :
    defs₀ (F := F) (.scVector c s) 0 ()
      = SparseCore.onTile hcore0 hsub0 (fun c s => cc0_sc_gather (coordsV c s)
          (Memref.whole main_arg2_scv) (Memref.isWhole_whole _) (Memref.whole main_v0_scv) (Memref.isWhole_whole _)
          (Memref.whole main_v1_scv) (Memref.isWhole_whole _) (Memref.whole main_v2_0_scv) (Memref.isWhole_whole _)
          (Memref.whole main_v2_1_scv) (Memref.isWhole_whole _) (Memref.whole cc0_scratch0) (Memref.isWhole_whole _)
          (Memref.whole cc0_scratch1) (Memref.isWhole_whole _) (Memref.whole cc0_scratch2) (Memref.isWhole_whole _)
          cc0_scratch3 cc0_scoped0 cc0_scoped1 cc0_scoped2) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m)
    (hg0 : ∀ d, outs.g0 d = Cert.Proof.KV.gath (W1 m d (r main_v0)) (W1 m d (r main_arg2)))
    (hg1 : ∀ d, outs.g1 d = Cert.Proof.KV.gath (W1 m d (r main_v1)) (W1 m d (r main_arg2))) :
    (K (F := F)).TileObl (D (F := F)) 𝒱 (P m outs) v₀ 0 := by
  intro d c i O W hO _ _
  simp only [show (P m outs).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m outs d (coordsV ⟨_, hci.1⟩ ⟨_, hci.2⟩) hF hpre hg0 hg1 O W hO).trans (wp_mono frame _ _ fun _ => obl_post)

end Cert.Proof.KI

end
-- ==== Proof.KOuts.lean ====
/-
  What the call and the two regions leave, concretely: the two gathered rows; the row sums S, P and the last-occurrence
  row W over what the first region finds; the combination over what the second finds. Buffer by buffer, what each
  stretch of the main program holds where; with these the result buffer ends at the kernel's value function of the five
  launch arguments.
-/
import proofs.«215986_g81389630259714_cont_9to1_m_762_23_alg».proof.Proof.KLaunch
import proofs.«215986_g81389630259714_cont_9to1_m_762_23_alg».proof.Proof.KVals

noncomputable section

namespace Cert.Proof.KI

open Cert.KernelIdeal Cert.KernelIdeal.Gen
open Idealize.ShloMosaic
open Idealize.ShloMosaic.SparseCore.Cfg (HIx)
open Cert.Proof.KV

variable {F : FTy → Type} [FloatOps F] [Named F] (m : (ℓ : Loc nD τ sig) → Buf (Elt F) ℓ) (o : Outs F)

/-! ## What each stretch holds where (for any named results) -/

theorem W1_v0 (d : Dev nD) : W1 m d (r main_v0) = shapeCast S100000 (m (tl d main_arg3)) shapeCasts_S100000x1_S100000 := by
  show StableHlo.after [opR0 (F := F), opR1 (F := F)] (W0 m d) (r main_v0) = _
  after_results
  rfl
theorem W1_v1 (d : Dev nD) : W1 m d (r main_v1) = shapeCast S100000 (m (tl d main_arg4)) shapeCasts_S100000x1_S100000 := by
  show StableHlo.after [opR0 (F := F), opR1 (F := F)] (W0 m d) (r main_v1) = _
  after_results
  rfl
theorem W1_keep (d : Dev nD) (b : Ref sig .tc) (hb : b ∉ wr) : W1 m d (r b) = m (tl d b) := by
  unfold W1
  rw [(opR1 (F := F)).result_of_not_mem _ (nw _ _ _ _ (ne_wr hb (by decide))), (opR0 (F := F)).result_of_not_mem _ (nw _ _ _ _ (ne_wr hb (by decide)))]
  rfl
theorem W2_keep (d : Dev nD) (b : Ref sig .tc) (hb : b ∉ wr) : W2 m o d (r b) = m (tl d b) :=
  (W2_of m o d (r b) (ne_wr hb (by decide)) (ne_wr hb (by decide))).trans (W1_keep m d b hb)

theorem afterA_keep (V : Valuation τ sig (Elt F)) (b : Ref sig .tc) (h3 : b ≠ main_v3) (h4 : b ≠ main_v4) (h5 : b ≠ main_v5) (h6 : b ≠ main_v6) (h7 : b ≠ main_v7) :
    StableHlo.after (hostA (F := F)) V (r b) = V (r b) := by
  refine StableHlo.after_of_forall_not_mem hostA V ?_
  intro op h; simp only [List.mem_cons, List.not_mem_nil, or_false] at h; rcases h with rfl | rfl | rfl | rfl | rfl
  · exact nw _ _ _ _ (StableHlo.devRef_ne_of_ne h3)
  · exact nw _ _ _ _ (StableHlo.devRef_ne_of_ne h4)
  · exact nw _ _ _ _ (StableHlo.devRef_ne_of_ne h5)
  · exact nw _ _ _ _ (StableHlo.devRef_ne_of_ne h6)
  · exact nw _ _ _ _ (StableHlo.devRef_ne_of_ne h7)
theorem afterB_keep (V : Valuation τ sig (Elt F)) (b : Ref sig .tc) (h9 : b ≠ main_v9) (h10 : b ≠ main_v10) :
    StableHlo.after (hostB (F := F)) V (r b) = V (r b) := by
  refine StableHlo.after_of_forall_not_mem hostB V ?_
  intro op h; simp only [List.mem_cons, List.not_mem_nil, or_false] at h; rcases h with rfl | rfl
  · exact nw _ _ _ _ (StableHlo.devRef_ne_of_ne h9)
  · exact nw _ _ _ _ (StableHlo.devRef_ne_of_ne h10)

theorem W3_v3 (d : Dev nD) : W3 m o d (r main_v3) = shapeCast S2048x1 (m (tl d main_arg0)) shapeCasts_S2048_S2048x1 := by
  show StableHlo.after (hostA (F := F)) (W2 m o d) (r main_v3) = _
  after_results
  rw [W2_keep m o d main_arg0 (by decide)]; rfl
theorem W3_v4 (d : Dev nD) : W3 m o d (r main_v4) = shapeCast S8192x1 (m (tl d main_arg1)) shapeCasts_S8192_S8192x1 := by
  show StableHlo.after (hostA (F := F)) (W2 m o d) (r main_v4) = _
  after_results
  rw [W2_keep m o d main_arg1 (by decide)]; rfl
theorem W3_v5 (d : Dev nD) : W3 m o d (r main_v5) = shapeCast S1x2048 (m (tl d main_arg0)) shapeCasts_S2048_S1x2048 := by
  show StableHlo.after (hostA (F := F)) (W2 m o d) (r main_v5) = _
  after_results
  rw [W2_keep m o d main_arg0 (by decide)]; rfl
theorem W3_v6 (d : Dev nD) : W3 m o d (r main_v6) = shapeCast S2048x1 (m (tl d main_arg2)) shapeCasts_S2048_S2048x1 := by
  show StableHlo.after (hostA (F := F)) (W2 m o d) (r main_v6) = _
  after_results
  rw [W2_keep m o d main_arg2 (by decide)]; rfl
theorem W3_v7 (d : Dev nD) : W3 m o d (r main_v7) = shapeCast S1x2048 (m (tl d main_arg2)) shapeCasts_S2048_S1x2048 := by
  show StableHlo.after (hostA (F := F)) (W2 m o d) (r main_v7) = _
  after_results
  rw [W2_keep m o d main_arg2 (by decide)]; rfl
theorem W3_g0 (d : Dev nD) : W3 m o d (r main_v2_0) = o.g0 d :=
  (afterA_keep (W2 m o d) main_v2_0 (by decide) (by decide) (by decide) (by decide) (by decide)).trans (W2_g0 m o d)
theorem W3_g1 (d : Dev nD) : W3 m o d (r main_v2_1) = o.g1 d :=
  (afterA_keep (W2 m o d) main_v2_1 (by decide) (by decide) (by decide) (by decide) (by decide)).trans (W2_g1 m o d)

theorem W4_s (d : Dev nD) : W4 m o d (r main_v8_0) = o.s d :=
  (Function.update_of_ne (show (r main_v8_0 : DevRef τ sig) ≠ r main_v8_2 by decide) _ _).trans
    ((Function.update_of_ne (show (r main_v8_0 : DevRef τ sig) ≠ r main_v8_1 by decide) _ _).trans (Function.update_self _ _ _))
theorem W4_p (d : Dev nD) : W4 m o d (r main_v8_1) = o.p d :=
  (Function.update_of_ne (show (r main_v8_1 : DevRef τ sig) ≠ r main_v8_2 by decide) _ _).trans (Function.update_self _ _ _)
theorem W4_w (d : Dev nD) : W4 m o d (r main_v8_2) = o.w d := Function.update_self _ _ _
theorem W4_of (d : Dev nD) (b : DevRef τ sig) (h0 : b ≠ r main_v8_0) (h1 : b ≠ r main_v8_1) (h2 : b ≠ r main_v8_2) : W4 m o d b = W3 m o d b :=
  (Function.update_of_ne h2 _ _).trans ((Function.update_of_ne h1 _ _).trans (Function.update_of_ne h0 _ _))

theorem W5_s (d : Dev nD) : W5 m o d (r main_v8_0) = o.s d := (afterB_keep (W4 m o d) main_v8_0 (by decide) (by decide)).trans (W4_s m o d)
theorem W5_p (d : Dev nD) : W5 m o d (r main_v8_1) = o.p d := (afterB_keep (W4 m o d) main_v8_1 (by decide) (by decide)).trans (W4_p m o d)
theorem W5_w (d : Dev nD) : W5 m o d (r main_v8_2) = o.w d := (afterB_keep (W4 m o d) main_v8_2 (by decide) (by decide)).trans (W4_w m o d)
theorem W5_g0 (d : Dev nD) : W5 m o d (r main_v2_0) = o.g0 d :=
  (afterB_keep (W4 m o d) main_v2_0 (by decide) (by decide)).trans ((W4_of m o d _ (by decide) (by decide) (by decide)).trans (W3_g0 m o d))
theorem W5_g1 (d : Dev nD) : W5 m o d (r main_v2_1) = o.g1 d :=
  (afterB_keep (W4 m o d) main_v2_1 (by decide) (by decide)).trans ((W4_of m o d _ (by decide) (by decide) (by decide)).trans (W3_g1 m o d))
theorem W5_v9 (d : Dev nD) : W5 m o d (r main_v9) = shapeCast S2048x1 (o.s d) shapeCasts_S1x2048_S2048x1 := by
  show StableHlo.after (hostB (F := F)) (W4 m o d) (r main_v9) = _
  after_results
  rw [W4_s]; rfl
theorem W5_v10 (d : Dev nD) : W5 m o d (r main_v10) = shapeCast S2048x1 (o.p d) shapeCasts_S1x2048_S2048x1 := by
  show StableHlo.after (hostB (F := F)) (W4 m o d) (r main_v10) = _
  after_results
  rw [W4_p]; rfl
theorem W6_o (d : Dev nD) : W6 m o d (r main_v11) = o.o d := Function.update_self _ _ _
theorem W7_v12 (d : Dev nD) : W7 m o d (r main_v12) = shapeCast S_ (o.o d) shapeCasts_S1x1_S_ := by
  show StableHlo.after (hostC (F := F)) (W6 m o d) (r main_v12) = _
  after_results
  rw [W6_o]; rfl

/-! ## The results, concretely -/

/-- The gathered rows; the regions' results not yet named (their launch contents stand in). -/
def outs1 : Outs F where
  g0 d := gath (W1 m d (r main_v0)) (W1 m d (r main_arg2))
  g1 d := gath (W1 m d (r main_v1)) (W1 m d (r main_arg2))
  s d := m (tl d main_v8_0)
  p d := m (tl d main_v8_1)
  w d := m (tl d main_v8_2)
  o d := m (tl d main_v11)

/-- With the first region's results, over what it finds. -/
def outs2 : Outs F where
  g0 := (outs1 m).g0
  g1 := (outs1 m).g1
  s d := sumsS (W3 m (outs1 m) d (r main_v3)) (W3 m (outs1 m) d (r main_v4)) (W3 m (outs1 m) d (r main_v5))
  p d := sumsP (W3 m (outs1 m) d (r main_v3)) (W3 m (outs1 m) d (r main_v5))
  w d := sumsW (F := F) (W3 m (outs1 m) d (r main_v6)) (W3 m (outs1 m) d (r main_v7))
  o d := m (tl d main_v11)

/-- With the second region's, over what it finds. -/
def outsK : Outs F where
  g0 := (outs1 m).g0
  g1 := (outs1 m).g1
  s := (outs2 m).s
  p := (outs2 m).p
  w := (outs2 m).w
  o d := comb (W5 m (outs2 m) d (r main_v8_0)) (W5 m (outs2 m) d (r main_v8_1)) (W5 m (outs2 m) d (r main_v9)) (W5 m (outs2 m) d (r main_v10))
    (W5 m (outs2 m) d (r main_v8_2)) (W5 m (outs2 m) d (r main_v2_0)) (W5 m (outs2 m) d (r main_v2_1))

theorem hg0 (d : Dev nD) : (outsK m).g0 d = gath (W1 m d (r main_v0)) (W1 m d (r main_arg2)) := rfl
theorem hg1 (d : Dev nD) : (outsK m).g1 d = gath (W1 m d (r main_v1)) (W1 m d (r main_arg2)) := rfl

/-- The first region's three results, over what it finds. -/
theorem s_eq (d : Dev nD) : (outsK m).s d = sumsS (W3 m (outsK m) d (r main_v3)) (W3 m (outsK m) d (r main_v4)) (W3 m (outsK m) d (r main_v5)) := by
  rw [W3_v3, W3_v4, W3_v5]
  show sumsS (W3 m (outs1 m) d (r main_v3)) (W3 m (outs1 m) d (r main_v4)) (W3 m (outs1 m) d (r main_v5)) = _
  rw [W3_v3, W3_v4, W3_v5]
theorem p_eq (d : Dev nD) : (outsK m).p d = sumsP (W3 m (outsK m) d (r main_v3)) (W3 m (outsK m) d (r main_v5)) := by
  rw [W3_v3, W3_v5]
  show sumsP (W3 m (outs1 m) d (r main_v3)) (W3 m (outs1 m) d (r main_v5)) = _
  rw [W3_v3, W3_v5]
theorem w_eq (d : Dev nD) : (outsK m).w d = sumsW (F := F) (W3 m (outsK m) d (r main_v6)) (W3 m (outsK m) d (r main_v7)) := by
  rw [W3_v6, W3_v7]
  simp only [outsK, outs2]
  rw [W3_v6, W3_v7]
/-- The second region's result, over what it finds. -/
theorem o_eq (d : Dev nD) : (outsK m).o d = comb (W5 m (outsK m) d (r main_v8_0)) (W5 m (outsK m) d (r main_v8_1)) (W5 m (outsK m) d (r main_v9))
    (W5 m (outsK m) d (r main_v10)) (W5 m (outsK m) d (r main_v8_2)) (W5 m (outsK m) d (r main_v2_0)) (W5 m (outsK m) d (r main_v2_1)) := by
  rw [W5_s, W5_p, W5_v9, W5_v10, W5_w, W5_g0, W5_g1]
  simp only [outsK]
  rw [W5_s, W5_p, W5_v9, W5_v10, W5_w, W5_g0, W5_g1]
  simp only [outs2]

/-- THE RESULT: the main program's result buffer ends at the kernel's value function of the launch arguments. -/
theorem W7_result (d : Dev nD) :
    W7 m (outsK m) d (r main_v12)
      = kOut (m (tl d main_arg0)) (m (tl d main_arg1)) (m (tl d main_arg2)) (m (tl d main_arg3)) (m (tl d main_arg4)) := by
  rw [W7_v12, o_eq, W5_s, W5_p, W5_w, W5_g0, W5_g1, W5_v9, W5_v10, s_eq, p_eq, w_eq, hg0, hg1,
    W3_v3, W3_v4, W3_v5, W3_v6, W3_v7, W1_v0, W1_v1, W1_keep m d main_arg2 (by decide)]
  rfl

end Cert.Proof.KI

end
-- ==== Proof.KPre.lean ====
/-
  The precondition, decoded for the indices: it is a conjunction, by 1-bit "and", of the four float arrays' finiteness
  tests and of  0 <= idx[j] <= 99999  (signed) at every j, each reduced over its array. Whatever the float tests are,
  a conjunction that is 1 has its last conjunct 1, so every index word, read unsigned, is below 100000: it names a row
  of the two tables.
-/
import proofs.«215986_g81389630259714_cont_9to1_m_762_23_alg».proof.Defs
import proofs.«215986_g81389630259714_cont_9to1_m_762_23_alg».proof.Proof.Gen.Pre_input_domain
import Idealize.ShloMosaic.Lib.ReduceAll

noncomputable section

namespace Cert.Proof.KP

open Idealize.ShloMosaic Cert.Pre_input_domain

theorem ofBool_eq_one (b : Bool) : BitVec.ofBool b = 1#1 ↔ b = true := by cases b <;> decide
theorem and1 : ∀ (a b : BitVec 1), IntOp.andi a b = 1#1 ↔ a = 1#1 ∧ b = 1#1 := by decide

/-- A word in [0, 99999] signed is below 100000 unsigned. -/
theorem toNat_lt (w : BitVec 32) (h0 : IntOp.cmpi .sge w (0#32) = 1#1) (h1 : IntOp.cmpi .sle w (99999#32) = 1#1) : w.toNat < 100000 := by
  unfold IntOp.cmpi at h0 h1
  rw [ofBool_eq_one] at h0 h1
  simp only [BitVec.slt, BitVec.sle, decide_eq_true_eq] at h0 h1
  have h32 := w.isLt
  unfold BitVec.toInt at h0 h1
  split at h1 <;> simp at h0 h1 <;> omega

instance : Subsingleton S_.Idx := ⟨fun a b => funext fun d => d.elim0⟩

variable {F : FTy → Type} [FloatOps F]

theorem idx_lt (a0 : FVec F S2048 .f32) (a1 : FVec F S8192 .f32) (a2 : IVec S2048 32) (a3 a4 : FVec F S100000x1 .f32)
    (h : Cert.Pre_input_domain.fn (F := F) a0 a1 a2 a3 a4 = fun _ => 1#1) (j : S2048.Idx) : (a2 j).toNat < 100000 := by
  have e := congrFun h (fun d => d.elim0)
  unfold Cert.Pre_input_domain.fn Cert.Pre_input_domain.fn_part1 at e
  dsimp only at e
  simp only [andi] at e
  rw [and1] at e
  have e24 := Host.reduce_andi_all _ _ _ _ _ e.2 j
  simp only [andi, cmpi, broadcastInDim, constantI] at e24
  rw [and1] at e24
  exact toNat_lt _ e24.1 e24.2

end Cert.Proof.KP

end
-- ==== Proof.Reg1Dat.lean ====
/-
  The first TensorCore region (row sums and last-occurrence indices over six grid points): what each window's
  staging buffer holds after the body at each point, as proof data at a parameter V, the TensorCore's buffer
  contents when the region is entered. The three result rows are carried from point to point: S is zeroed and
  receives the positive block's column sums at point 0 and one negative block's at each of points 1..4; P receives
  the positive block's at point 0; W is written at point 5.
-/
import proofs.«215986_g81389630259714_cont_9to1_m_762_23_alg».proof.Proof.KLaunch
import proofs.«215986_g81389630259714_cont_9to1_m_762_23_alg».proof.Proof.KVals

set_option maxRecDepth 16384

noncomputable section

namespace Cert.Proof.R1

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.KI (UU)

variable {F : FTy → Type} [FloatOps F] [Named F]

local notation "𝕄" => MT nD τ sig (HIx 1) (Elt F) ℕ UU ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The S row after point n: zero plus the positive block's column sums at point 0; one more negative block's column
    sums at each of points 1..4; unchanged at point 5. -/
def sAt (c : Dev nD) : (n : ℕ) → n < cfg1.N → Vec F S1x2048 .f32
  | 0, hn => k1_pay5 (iblk1 V c 2 ⟨0, hn⟩) (iblk1 V c 0 ⟨0, hn⟩) (k1_pay3 (F := F))
  | n + 1, hn =>
    if n + 1 < 5 then k1_pay7 (iblk1 V c 2 ⟨n + 1, hn⟩) (iblk1 V c 1 ⟨n + 1, hn⟩) (sAt c n (Nat.lt_of_succ_lt hn))
    else sAt c n (Nat.lt_of_succ_lt hn)

/-- The P row after any point: zero plus the positive block's column sums, written at point 0. -/
def pAt (c : Dev nD) : Vec F S1x2048 .f32 :=
  k1_pay6 (iblk1 V c 2 ⟨0, Nat.succ_pos _⟩) (iblk1 V c 0 ⟨0, Nat.succ_pos _⟩) (k1_pay4 (F := F))

/-- The W row as point t writes it (point 5 does): the last occurrence of each index. -/
def wAt (c : Dev nD) (t : Fin cfg1.N) : IVec S1x2048 32 :=
  k1_pay8 (F := F) (grid1.coords t) (iblk1 V c 3 t) (iblk1 V c 4 t)

/-- The region's invariant on core c: the core's scoped buffers that are no staging buffer, at some contents each,
    and its generator register at some state. -/
def Φinv (c : Dev nD) : sProp 𝕄 :=
  iprop(Pipeline.scopedRest (Ix := HIx 1) (Name := ℕ) (U := UU) (Lvl := ℕ) (Val := Elt F) spec1 c ∗ ∃ r, prngReg c r)

/-- The proof data of the first region on core c: the arrays as the region finds them; after the body at point t
    each input's buffer at its block and the result rows at the values above; the invariant is the scoped rest and
    the generator register; nothing owed; full shares; the recorded wait pairs stay at level at most 8. -/
def dat1 (c : Dev nD) : Dat τ (Elt F) (HIx 1) ℕ UU ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => sAt V c t.val t.isLt
    | ⟨6, _⟩ => pAt V c
    | ⟨7, _⟩ => wAt V c t
  Φ _ := Φinv (F := F) c
  q _ := fullShare
  owed _ := 0
  recorded _ := {p : SemLoc sig × HIx 1 | (Cert.Proof.KI.K (F := F)).lev ((SparseCore.T (τ := τ) c), p.1) p.2 ≤ 8}

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = sAt V c t.val t.isLt := by dsimp only [dat1]
theorem after1_6 (c : Dev nD) (t : Fin cfg1.N) : (dat1 V c).after 6 t = pAt V c := by dsimp only [dat1]
theorem after1_7 (c : Dev nD) (t : Fin cfg1.N) : (dat1 V c).after 7 t = wAt V c t := by dsimp only [dat1]
theorem Φ1 (c : Dev nD) (t : Fin (cfg1.N + 1)) : (dat1 V c).Φ t = Φinv (F := F) c := by dsimp only [dat1]
theorem q1 (c : Dev nD) (w : Fin cfg1.W) : (dat1 V c).q w = fullShare := by dsimp only [dat1]
theorem owed1 (c : Dev nD) (t : Fin (cfg1.N + 1)) : (dat1 V c).owed t = 0 := by dsimp only [dat1]
theorem recorded1 (c : Dev nD) (t : Fin (cfg1.N + 1)) :
    (dat1 V c).recorded t = {p : SemLoc sig × HIx 1 | (Cert.Proof.KI.K (F := F)).lev ((SparseCore.T (τ := τ) c), p.1) p.2 ≤ 8} := by dsimp only [dat1]

/-- The S row point by point. -/
theorem sAt_zero (c : Dev nD) (hn : 0 < cfg1.N) :
    sAt V c 0 hn = k1_pay5 (iblk1 V c 2 ⟨0, hn⟩) (iblk1 V c 0 ⟨0, hn⟩) (k1_pay3 (F := F)) := rfl
theorem sAt_neg (c : Dev nD) (n : ℕ) (hn : n + 1 < cfg1.N) (h : n + 1 < 5) :
    sAt V c (n + 1) hn = k1_pay7 (iblk1 V c 2 ⟨n + 1, hn⟩) (iblk1 V c 1 ⟨n + 1, hn⟩) (sAt V c n (Nat.lt_of_succ_lt hn)) :=
  (if_pos h).trans rfl
theorem sAt_last (c : Dev nD) (n : ℕ) (hn : n + 1 < cfg1.N) (h : ¬ n + 1 < 5) :
    sAt V c (n + 1) hn = sAt V c n (Nat.lt_of_succ_lt hn) :=
  (if_neg h).trans rfl

end Cert.Proof.R1

end
-- ==== Proof.Reg2Dat.lean ====
/-
  The second region (the final combination) as the pipeline rule sees it: what each of its eight windows holds after
  the body at its single point. The seven inputs keep their blocks (each block is the whole array); the 1 x 1 output
  holds the combination of the seven input blocks: the mean over the 2048 columns of (up S - ua P) / ua^2, where ua
  and up are the moving averages taken at each column's last occurrence.
-/
import proofs.«215986_g81389630259714_cont_9to1_m_762_23_alg».proof.Proof.KLaunch
import proofs.«215986_g81389630259714_cont_9to1_m_762_23_alg».proof.Proof.KVals
import Idealize.ShloMosaic.Lib.Pipeline.FrameBody

noncomputable section

namespace Cert.Proof.R2

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)
open Idealize.ShloMosaic.SparseCore.Cfg (HIx)

variable {F : FTy → Type} [FloatOps F] [Named F]

-- the TensorCore's buffer contents when the region is entered
variable (V : (c : Dev nD) → (b : Ref sig .tc) → Buf (Elt F) ((c : Thread nD τ).loc b))

/-! ## The windows' blocks -/

/-- Window `w`'s block at the point, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: each is a whole staging buffer -/

abbrev rRow : Rect S1x2048 := Rect.unit (s := S1x2048) ![0, 0] S1x2048.size inb_S1x2048_S1x2048_0_0
abbrev rCol : Rect S2048x1 := Rect.unit (s := S2048x1) ![0, 0] S2048x1.size inb_S2048x1_S2048x1_0_0
abbrev rOne : Rect S1x1 := Rect.unit (s := S1x1) ![0, 0] S1x1.size inb_S1x1_S1x1_0_0

/-! ## What the body leaves in the output window's buffer -/

/-- The output's staging buffer after the body, from the input windows' blocks: its one store, of the combination of
    what the seven loads read. -/
def out2_7 (x0 x1 : Vec F S1x2048 .f32) (x2 x3 : Vec F S2048x1 .f32) (x4 : Vec F S1x2048 .i32) (x5 x6 : Vec F S1x2048 .f32) : Vec F S1x1 .f32 :=
  View.canon [⟨rOne, k2_pay1 (k2_pay3 (View.ld x4 rRow) (View.ld x3 rCol)) (k2_pay4 (View.ld x4 rRow) (View.ld x2 rCol) (View.ld x5 rRow))
    (k2_pay5 (View.ld x6 rRow)) (k2_pay6 (F := F)) (View.ld x0 rRow) (View.ld x1 rRow)⟩]

/-- The store tiles the buffer, so it covers it. -/
theorem cover2_7 (p0 : Vec F S1x1 .f32) (y : S1x1.Idx) :
    ∃ pc ∈ ([⟨rOne, p0⟩] : List (View.Piece (Elt F) S1x1 .f32)), y ∈ pc.1.set :=
  View.cover_of_tiled [⟨rOne, p0⟩] S1x1.size (by rfl) y

/-! ## The pipeline's proof data -/

/-- The region's invariant on core `c`: the core's scoped buffers that are no staging buffer of this pipeline, at some
    contents each, and its generator register at some state; the body touches neither. -/
def Φ2 (c : Dev nD) : sProp (MT nD τ sig (HIx 1) (Elt F) ℕ Cert.Proof.KI.UU ℕ) :=
  iprop(Pipeline.scopedRest (Ix := HIx 1) (Name := ℕ) (U := Cert.Proof.KI.UU) (Lvl := ℕ) (Val := Elt F) spec2 c ∗ ∃ r, prngReg c r)

/-- The proof data of the second pipeline on core `c`: the arrays as the region finds them; after the body each input's
    buffer at its block and the output's at `out2_7` of the input blocks; the invariant is the scoped rest and the
    generator register, untouched; nothing owed; full shares; the recorded wait pairs are those of level at most 8. -/
def dat2 (c : Dev nD) : Dat τ (Elt F) (HIx 1) ℕ Cert.Proof.KI.UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Φ2 c
  q _ := fullShare
  owed _ := 0
  recorded _ := {p | (Cert.Proof.KI.K (F := F)).lev (SparseCore.T (τ := τ) c, p.1) p.2 ≤ 8}

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t =
    out2_7 (iblk2 V c 0 t) (iblk2 V c 1 t) (iblk2 V c 2 t) (iblk2 V c 3 t) (iblk2 V c 4 t) (iblk2 V c 5 t) (iblk2 V c 6 t) := by dsimp only [dat2]

theorem Φ_eq2 (c : Dev nD) (t : Fin (cfg2.N + 1)) : (dat2 V c).Φ t = Φ2 c := by dsimp only [dat2]

/-- The bound on the recorded wait pairs, at every point. -/
theorem recorded2 (c : Dev nD) (t : Fin (cfg2.N + 1)) :
    (dat2 V c).recorded t = {p | (Cert.Proof.KI.K (F := F)).lev (SparseCore.T (τ := τ) c, p.1) p.2 ≤ 8} := by dsimp only [dat2]

end Cert.Proof.R2

end
-- ==== Proof.PDats.lean ====
/-
  The two regions' proof data as one family: the first region's at the buffers' contents after the five reshapes that
  feed it, the second's at the contents after the two reshapes that feed it.
-/
import proofs.«215986_g81389630259714_cont_9to1_m_762_23_alg».proof.Proof.KLaunch
import proofs.«215986_g81389630259714_cont_9to1_m_762_23_alg».proof.Proof.Reg1Dat
import proofs.«215986_g81389630259714_cont_9to1_m_762_23_alg».proof.Proof.Reg2Dat

noncomputable section

namespace Cert.Proof.KI

open Cert.KernelIdeal Cert.KernelIdeal.Gen
open Idealize.ShloMosaic Idealize.ShloMosaic.TcCoe
open Idealize.ShloMosaic.SparseCore.Cfg (HIx)
open Idealize.ShloMosaic.Pipeline (Dat)

variable {F : FTy → Type} [FloatOps F] [Named F]
variable (m : (ℓ : Loc nD τ sig) → Buf (Elt F) ℓ) (outs : Outs F)

/-- What the first region finds in the TensorCore's buffers, and the second. -/
abbrev V3 : (c : Dev nD) → (b : Ref sig .tc) → Buf (Elt F) ((c : Thread nD τ).loc b) := fun c b => W3 m outs c (r b)
abbrev V5 : (c : Dev nD) → (b : Ref sig .tc) → Buf (Elt F) ((c : Thread nD τ).loc b) := fun c b => W5 m outs c (r b)

/-- Every pipeline's proof data, each at its region's entry contents. -/
def pdats : (p : Fin 2) → (c : Dev nD) → Dat τ (Elt F) (HIx 1) ℕ UU ℕ (cfgs p) c
  | ⟨0, _⟩ => fun c => Cert.Proof.R1.dat1 (V3 m outs) c
  | ⟨1, _⟩ => fun c => Cert.Proof.R2.dat2 (V5 m outs) c

theorem pdats_zero (c : Dev nD) : pdats m outs 0 c = Cert.Proof.R1.dat1 (V3 m outs) c := rfl
theorem pdats_one (c : Dev nD) : pdats m outs 1 c = Cert.Proof.R2.dat2 (V5 m outs) c := rfl

end Cert.Proof.KI

end
-- ==== Proof.Reg1Runs.lean ====
/-
  What the three control cases of the first region's body share: its branch conditions decided over the six grid
  points, where each result row is idle, the staging memrefs the pipeline passes at a point, and what the body finds
  in each window's staging buffer at each point (an input its block; the S row what the point before left; the P row
  what point 0 left).
-/
import proofs.«215986_g81389630259714_cont_9to1_m_762_23_alg».proof.Proof.Reg1Dat
import Idealize.ShloMosaic.Lib.Pipeline.FrameBody
import Idealize.ShloMosaic.Lib.Ring
import Idealize.ShloMosaic.Lib.Tactic

set_option maxRecDepth 16384

noncomputable section

namespace Cert.Proof.R1

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.KI (UU)

variable {F : FTy → Type} [FloatOps F] [Named F]

local notation "𝕄" => MT nD τ sig (HIx 1) (Elt F) ℕ UU ℕ

variable (V : (c : Dev nD) → (b : Ref sig .tc) → Buf (Elt F) ((c : Thread nD τ).loc b))

/-! ## The branch conditions over the grid -/

theorem N1 : cfg1.N = 6 := N_1

theorem hcond1 : ∀ t : Fin cfg1.N, k1_cond1 (grid1.coords t) = 1#1 ↔ t.val = 0 :=
  (by decide +kernel : ∀ t : Fin grid1.N, k1_cond1 (grid1.coords t) = 1#1 ↔ t.val = 0)
theorem hcond2 : ∀ t : Fin cfg1.N, k1_cond2 (grid1.coords t) = 1#1 ↔ t.val = 0 :=
  (by decide +kernel : ∀ t : Fin grid1.N, k1_cond2 (grid1.coords t) = 1#1 ↔ t.val = 0)
theorem hcond3 : ∀ t : Fin cfg1.N, k1_cond3 (grid1.coords t) = 1#1 ↔ (t.val ≠ 0 ∧ t.val ≠ 5) :=
  (by decide +kernel : ∀ t : Fin grid1.N, k1_cond3 (grid1.coords t) = 1#1 ↔ (t.val ≠ 0 ∧ t.val ≠ 5))
theorem hcond4 : ∀ t : Fin cfg1.N, k1_cond4 (grid1.coords t) = 1#1 ↔ t.val = 5 :=
  (by decide +kernel : ∀ t : Fin grid1.N, k1_cond4 (grid1.coords t) = 1#1 ↔ t.val = 5)
theorem hcond5 : ∀ t : Fin cfg1.N, k1_cond5 (grid1.coords t) = 1#1 ↔ t.val = 5 :=
  (by decide +kernel : ∀ t : Fin grid1.N, k1_cond5 (grid1.coords t) = 1#1 ↔ t.val = 5)
theorem hcond6 : ∀ t : Fin cfg1.N, ¬ k1_cond6 (grid1.coords t) = 1#1 :=
  (by decide +kernel : ∀ t : Fin grid1.N, ¬ k1_cond6 (grid1.coords t) = 1#1)

/-! ## Where the result rows are idle -/

theorem idle1_5 : ∀ t : Fin cfg1.N, cfg1.idle 5 (grid1.coords t) = true ↔ t.val = 5 :=
  (by decide +kernel : ∀ t : Fin grid1.N, idle1 5 (grid1.coords t) = true ↔ t.val = 5)
theorem idle1_6 : ∀ t : Fin cfg1.N, cfg1.idle 6 (grid1.coords t) = true ↔ t.val ≠ 0 :=
  (by decide +kernel : ∀ t : Fin grid1.N, idle1 6 (grid1.coords t) = true ↔ t.val ≠ 0)
theorem idle1_7 : ∀ t : Fin cfg1.N, cfg1.idle 7 (grid1.coords t) = true ↔ t.val ≠ 5 :=
  (by decide +kernel : ∀ t : Fin grid1.N, idle1 7 (grid1.coords t) = true ↔ t.val ≠ 5)

/-! ## The staging memrefs at a point -/

abbrev ms1_0 (t : Fin cfg1.N) : Memref sig .tc .vmem S2048x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x2048 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x2048 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x2048 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x2048 .i32 := win1_7.stage (cfg1.slots t 7)
abbrev hs1_7 (t : Fin cfg1.N) : (ms1_7 t).IsWhole := hstage1_7 ((cfg1.slots t 7).cast nbuf1_7)

/-! ## What the body finds: the inputs -/

/-- Each input's current staging buffer holds its block at every point, fetched there or not: unfetched, the block
    index has not moved. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-! ## What the body finds: the carried rows -/

/-- What an uncut window's buffer keeps of what the body left is all of it. -/
theorem kept1 (c : Dev nD) (w : Fin cfg1.W) (hclip : ∀ (i : cfg1.grid.Coords) a, (cfg1.win w).clip i a = none) (t : Fin cfg1.N) (d) :
    (dat1 V c).kept w t d = (dat1 V c).after w t := by
  unfold Dat.kept
  rw [Pipeline.fill_of_clip_none w _ (hclip _) d ((dat1 V c).after w t), Window.fill_cut]

/-- After the first point the S row's buffer holds what the point before left: the row is live at points 0..4 and
    written back only at point 5. -/
theorem before1_5 (c : Dev nD) (t : Fin cfg1.N) (ht : t.val ≠ 0) (d) :
    (dat1 V c).before 5 t d = sAt V c (t.val - 1) (Nat.lt_of_le_of_lt (Nat.sub_le _ _) t.isLt) := by
  have hN : t.val < 6 := lt_of_lt_of_eq t.isLt N1
  rw [(dat1 V c).before_of_pos 5 t ht ((cfg1.win 5).fetch_out rfl t),
    if_neg (fun h => by have := (flush1_5 _).mp h; dsimp only at this; omega)]
  unfold Dat.left
  rw [show cfg1.idle 5 (cfg1.grid.coords ⟨t.val - 1, Nat.lt_of_le_of_lt (Nat.sub_le _ _) t.isLt⟩) = false from
    Bool.eq_false_iff.mpr fun h => by have := (idle1_5 _).mp h; dsimp only at this; omega]
  dsimp only
  rw [kept1 V c 5 (fun _ _ => rfl), after1_5]

/-- After the first point the P row's buffer holds what point 0 left: the row is idle from point 1 on and written
    back only at point 5. -/
theorem before1_6 (c : Dev nD) : ∀ (n : ℕ) (hn : n + 1 < cfg1.N) (d), (dat1 V c).before 6 ⟨n + 1, hn⟩ d = pAt V c
  | 0, hn, d => by
    rw [(dat1 V c).before_of_pos 6 ⟨1, hn⟩ (Nat.succ_ne_zero 0) ((cfg1.win 6).fetch_out rfl _),
      if_neg (fun h => by have := (flush1_6 _).mp h; dsimp only at this; omega)]
    unfold Dat.left
    rw [show cfg1.idle 6 (cfg1.grid.coords ⟨(⟨1, hn⟩ : Fin cfg1.N).val - 1, Nat.lt_of_le_of_lt (Nat.sub_le _ _) hn⟩) = false from
      Bool.eq_false_iff.mpr fun h => by have := (idle1_6 _).mp h; dsimp only at this; omega]
    dsimp only
    rw [kept1 V c 6 (fun _ _ => rfl), after1_6]
  | n + 1, hn, d => by
    have hN : n + 2 < 6 := lt_of_lt_of_eq hn N1
    rw [(dat1 V c).before_of_pos 6 ⟨n + 2, hn⟩ (Nat.succ_ne_zero (n + 1)) ((cfg1.win 6).fetch_out rfl _),
      if_neg (fun h => by have := (flush1_6 _).mp h; dsimp only at this; omega)]
    unfold Dat.left
    rw [show cfg1.idle 6 (cfg1.grid.coords ⟨(⟨n + 2, hn⟩ : Fin cfg1.N).val - 1, Nat.lt_of_le_of_lt (Nat.sub_le _ _) hn⟩) = true from
      (idle1_6 _).mpr (by dsimp only; omega)]
    dsimp only
    exact before1_6 c n (Nat.lt_of_succ_lt hn) d

theorem before1_6' (c : Dev nD) (t : Fin cfg1.N) (ht : t.val ≠ 0) (d) : (dat1 V c).before 6 t d = pAt V c := by
  obtain ⟨n, hn⟩ := t
  cases n with
  | zero => exact absurd rfl ht
  | succ n => exact before1_6 V c n hn d

end Cert.Proof.R1

end
-- ==== Proof.Reg1RunA.lean ====
/-
  The first region's body in the control case of grid point 0: both result rows S and P are zeroed and receive the
  positive block's column sums; the W row is left as found.
-/
import proofs.«215986_g81389630259714_cont_9to1_m_762_23_alg».proof.Proof.Reg1Runs
import Idealize.ShloMosaic.Lib.Pipeline.Value

set_option maxRecDepth 16384

noncomputable section

namespace Cert.Proof.R1

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.KI (UU)

variable {F : FTy → Type} [FloatOps F] [Named F]

local notation "𝕄" => MT nD τ sig (HIx 1) (Elt F) ℕ UU ℕ

theorem hz2 : (![0, 0] : Fin 2 → Nat) = fun _ => 0 := funext fun a => by fin_cases a <;> rfl

set_option maxHeartbeats 1000000 in
/-- On whole staging memrefs, the inputs' at their contents, the S and P rows' at anything and the W row's at xi8, the
    body in this case runs to the continuation holding the inputs' and the W row's as they were, the S row's at
    zero plus the column sums of the positive block and the P row's at the same. -/
theorem kernelRun1_A (c : Dev nD) (i : grid1.Coords) (arg1 : Memref sig .tc .vmem S2048x1 .f32) (harg1 : arg1.IsWhole) (arg2 : Memref sig .tc .vmem S2048x1 .f32) (harg2 : arg2.IsWhole) (arg3 : Memref sig .tc .vmem S1x2048 .f32) (harg3 : arg3.IsWhole) (arg4 : Memref sig .tc .vmem S2048x1 .i32) (harg4 : arg4.IsWhole) (arg5 : Memref sig .tc .vmem S1x2048 .i32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .i32) (harg8 : arg8.IsWhole)
    (hc1 : k1_cond1 i = 1#1) (hc2 : k1_cond2 i = 1#1) (hc3 : ¬ k1_cond3 i = 1#1) (hc4 : ¬ k1_cond4 i = 1#1)
    (x0 : Vec F S2048x1 .f32) (x1 : Vec F S2048x1 .f32) (x2 : Vec F S1x2048 .f32) (x3 : Vec F S2048x1 .i32) (x4 : Vec F S1x2048 .i32) (xi8 : Vec F S1x2048 .i32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ owns (c : Thread nD τ) arg8 fullShare xi8
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k1_pay5 x2 x0 (k1_pay3 (F := F))) ∗ owns (c : Thread nD τ) arg7 fullShare (k1_pay6 x2 x0 (k1_pay4 (F := F))) ∗ owns (c : Thread nD τ) arg8 fullShare xi8) -∗ K ⟨⟩))
      ⊢ wp frame (wpE (defs₀ (F := F)) Variants.none c none) E (cc1__sums_body i arg1 harg1 arg2 harg2 arg3 harg3 arg4 harg4 arg5 harg5 arg6 harg6 arg7 harg7 arg8 harg8) K := by
  simp only [cc1__sums_body_eq_skeleton]; unfold cc1__sums_body_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%f8, %hf8, H8⟩, Hk⟩
  obtain rfl := harg1.eq_unread hf0; obtain rfl := harg2.eq_unread hf1; obtain rfl := harg3.eq_unread hf2
  obtain rfl := harg4.eq_unread hf3; obtain rfl := harg5.eq_unread hf4; obtain rfl := harg8.eq_unread hf8
  sl_exec (disch := first | exact hc1 | exact hc2 | exact hc3 | exact hc4)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H6]
  · iexists _; isplitr
    swap; · iexact H6
    ipureintro
    rw [View.read_writes_eq_canon _ _ _ (fun y => ⟨_, List.mem_cons_self, View.mem_set_unit_zero hz2 inb_S1x2048_S1x2048_0_0 y⟩)]
    sl_unfold_words
    rw [View.canon_cons_unit_zero (S := S1x2048) hz2, View.readCov_unit_zero (S := S1x2048) _ hz2]
    simp only [View.readAt_eq_ld, harg3.read_unread, harg1.read_unread, View.ld_unit_zero (S := S1x2048) hz2, View.ld_unit_zero (S := S2048x1) hz2]
  isplitl [H7]
  · iexists _; isplitr
    swap; · iexact H7
    ipureintro
    rw [View.read_writes_eq_canon _ _ _ (fun y => ⟨_, List.mem_cons_self, View.mem_set_unit_zero hz2 inb_S1x2048_S1x2048_0_0 y⟩)]
    sl_unfold_words
    rw [View.canon_cons_unit_zero (S := S1x2048) hz2, View.readCov_unit_zero (S := S1x2048) _ hz2]
    simp only [View.readAt_eq_ld, harg3.read_unread, harg1.read_unread, View.ld_unit_zero (S := S1x2048) hz2, View.ld_unit_zero (S := S2048x1) hz2]
  iexists _; isplitr; · ipureintro; exact harg8.read_unread _
  iexact H8

end Cert.Proof.R1

end
-- ==== Proof.Reg1RunB.lean ====
/-
  The first region's body in the control case of grid points 1..4: the S row receives the column sums of the point's
  negative block; the P and W rows are left as found.
-/
import proofs.«215986_g81389630259714_cont_9to1_m_762_23_alg».proof.Proof.Reg1RunA

set_option maxRecDepth 16384

noncomputable section

namespace Cert.Proof.R1

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.KI (UU)

variable {F : FTy → Type} [FloatOps F] [Named F]

local notation "𝕄" => MT nD τ sig (HIx 1) (Elt F) ℕ UU ℕ

set_option maxHeartbeats 1000000 in
/-- On whole staging memrefs, the inputs' at their contents, the S row's at xo6, the P and W rows' at xi7 and xi8, the
    body in this case runs to the continuation holding the inputs', the P row's and the W row's as they were and the S
    row's at xo6 plus the column sums of the negative block. -/
theorem kernelRun1_B (c : Dev nD) (i : grid1.Coords) (arg1 : Memref sig .tc .vmem S2048x1 .f32) (harg1 : arg1.IsWhole) (arg2 : Memref sig .tc .vmem S2048x1 .f32) (harg2 : arg2.IsWhole) (arg3 : Memref sig .tc .vmem S1x2048 .f32) (harg3 : arg3.IsWhole) (arg4 : Memref sig .tc .vmem S2048x1 .i32) (harg4 : arg4.IsWhole) (arg5 : Memref sig .tc .vmem S1x2048 .i32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .i32) (harg8 : arg8.IsWhole)
    (hc1 : ¬ k1_cond1 i = 1#1) (hc3 : k1_cond3 i = 1#1) (hc4 : ¬ k1_cond4 i = 1#1)
    (x0 : Vec F S2048x1 .f32) (x1 : Vec F S2048x1 .f32) (x2 : Vec F S1x2048 .f32) (x3 : Vec F S2048x1 .i32) (x4 : Vec F S1x2048 .i32) (xo6 : Vec F S1x2048 .f32) (xi7 : Vec F S1x2048 .f32) (xi8 : Vec F S1x2048 .i32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare xo6 ∗ owns (c : Thread nD τ) arg7 fullShare xi7 ∗ owns (c : Thread nD τ) arg8 fullShare xi8
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k1_pay7 x2 x1 xo6) ∗ owns (c : Thread nD τ) arg7 fullShare xi7 ∗ owns (c : Thread nD τ) arg8 fullShare xi8) -∗ K ⟨⟩))
      ⊢ wp frame (wpE (defs₀ (F := F)) Variants.none c none) E (cc1__sums_body i arg1 harg1 arg2 harg2 arg3 harg3 arg4 harg4 arg5 harg5 arg6 harg6 arg7 harg7 arg8 harg8) K := by
  simp only [cc1__sums_body_eq_skeleton]; unfold cc1__sums_body_skel
  unfold owns
  iintro ⟨⟨%f0, %hf0, H0⟩, ⟨%f1, %hf1, H1⟩, ⟨%f2, %hf2, H2⟩, ⟨%f3, %hf3, H3⟩, ⟨%f4, %hf4, H4⟩, ⟨%f6, %hf6, H6⟩, ⟨%f7, %hf7, H7⟩, ⟨%f8, %hf8, H8⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf6
  obtain rfl := harg7.eq_unread hf7; obtain rfl := harg8.eq_unread hf8
  sl_exec (disch := first | exact hc1 | exact hc3 | exact hc4)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H6]
  · iexists _; isplitr
    swap; · iexact H6
    ipureintro
    rw [View.read_writes_eq_canon _ _ _ (fun y => ⟨_, List.mem_cons_self, View.mem_set_unit_zero hz2 inb_S1x2048_S1x2048_0_0 y⟩)]
    sl_unfold_words
    rw [View.canon_cons_unit_zero (S := S1x2048) hz2]
    simp only [View.readAt_eq_ld, harg3.read_unread, harg2.read_unread, harg6.read_unread, View.ld_unit_zero (S := S1x2048) hz2, View.ld_unit_zero (S := S2048x1) hz2]
  isplitl [H7]
  · iexists _; isplitr; · ipureintro; exact harg7.read_unread _
    iexact H7
  iexists _; isplitr; · ipureintro; exact harg8.read_unread _
  iexact H8

end Cert.Proof.R1

end
-- ==== Proof.Reg1RunC.lean ====
/-
  The first region's body in the control case of grid point 5: the W row receives each index's last occurrence; the S
  and P rows are left as found.
-/
import proofs.«215986_g81389630259714_cont_9to1_m_762_23_alg».proof.Proof.Reg1RunB

set_option maxRecDepth 16384

noncomputable section

namespace Cert.Proof.R1

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.KI (UU)

variable {F : FTy → Type} [FloatOps F] [Named F]

local notation "𝕄" => MT nD τ sig (HIx 1) (Elt F) ℕ UU ℕ

set_option maxHeartbeats 1000000 in
/-- On whole staging memrefs, the inputs' at their contents, the S and P rows' at xi6 and xi7, the W row's at anything,
    the body in this case runs to the continuation holding the inputs', the S row's and the P row's as they were and the
    W row's at the last occurrences computed from the two index blocks. -/
theorem kernelRun1_C (c : Dev nD) (i : grid1.Coords) (arg1 : Memref sig .tc .vmem S2048x1 .f32) (harg1 : arg1.IsWhole) (arg2 : Memref sig .tc .vmem S2048x1 .f32) (harg2 : arg2.IsWhole) (arg3 : Memref sig .tc .vmem S1x2048 .f32) (harg3 : arg3.IsWhole) (arg4 : Memref sig .tc .vmem S2048x1 .i32) (harg4 : arg4.IsWhole) (arg5 : Memref sig .tc .vmem S1x2048 .i32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .i32) (harg8 : arg8.IsWhole)
    (hc1 : ¬ k1_cond1 i = 1#1) (hc3 : ¬ k1_cond3 i = 1#1) (hc4 : k1_cond4 i = 1#1) (hc5 : k1_cond5 i = 1#1) (hc6 : ¬ k1_cond6 i = 1#1)
    (x0 : Vec F S2048x1 .f32) (x1 : Vec F S2048x1 .f32) (x2 : Vec F S1x2048 .f32) (x3 : Vec F S2048x1 .i32) (x4 : Vec F S1x2048 .i32) (xi6 : Vec F S1x2048 .f32) (xi7 : Vec F S1x2048 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare xi6 ∗ owns (c : Thread nD τ) arg7 fullShare xi7 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare xi6 ∗ owns (c : Thread nD τ) arg7 fullShare xi7 ∗ owns (c : Thread nD τ) arg8 fullShare (k1_pay8 (F := F) i x3 x4)) -∗ K ⟨⟩))
      ⊢ wp frame (wpE (defs₀ (F := F)) Variants.none c none) E (cc1__sums_body i arg1 harg1 arg2 harg2 arg3 harg3 arg4 harg4 arg5 harg5 arg6 harg6 arg7 harg7 arg8 harg8) K := by
  simp only [cc1__sums_body_eq_skeleton]; unfold cc1__sums_body_skel
  unfold owns
  iintro ⟨⟨%f0, %hf0, H0⟩, ⟨%f1, %hf1, H1⟩, ⟨%f2, %hf2, H2⟩, ⟨%f3, %hf3, H3⟩, ⟨%f4, %hf4, H4⟩, ⟨%f6, %hf6, H6⟩, ⟨%f7, %hf7, H7⟩, ⟨%d8, %f8, -, H8⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf6
  obtain rfl := harg7.eq_unread hf7
  sl_exec (disch := first | exact hc1 | exact hc3 | exact hc4 | exact hc5 | exact hc6)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H6]
  · iexists _; isplitr; · ipureintro; exact harg6.read_unread _
    iexact H6
  isplitl [H7]
  · iexists _; isplitr; · ipureintro; exact harg7.read_unread _
    iexact H7
  iexists _; isplitr
  swap; · iexact H8
  ipureintro
  rw [View.read_writes_eq_canon _ _ _ (fun y => ⟨_, List.mem_cons_self, View.mem_set_unit_zero hz2 inb_S1x2048_S1x2048_0_0 y⟩)]
  sl_unfold_words
  rw [View.canon_cons_unit_zero (S := S1x2048) hz2]
  simp only [View.readAt_eq_ld, harg4.read_unread, harg5.read_unread, View.ld_unit_zero (S := S1x2048) hz2, View.ld_unit_zero (S := S2048x1) hz2]

end Cert.Proof.R1

end
-- ==== Proof.Reg1Body.lean ====
/-
  The first region's body obligation: at every grid point, from the invariant, the core's recorded waits and every
  window's current staging buffer at what it then holds, the body runs to the same with every buffer at what the
  proof data say it leaves. The point decides the control case; a row the case leaves alone is handed back as found.
-/
import proofs.«215986_g81389630259714_cont_9to1_m_762_23_alg».proof.Proof.Reg1RunC

set_option maxRecDepth 16384

noncomputable section

namespace Cert.Proof.R1

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.KI (UU)

variable {F : FTy → Type} [FloatOps F] [Named F]

local notation "𝕄" => MT nD τ sig (HIx 1) (Elt F) ℕ UU ℕ

variable (V : (c : Dev nD) → (b : Ref sig .tc) → Buf (Elt F) ((c : Thread nD τ).loc b))

/-! ## The post of a window's buffer, by cases on the configuration's table -/

theorem leavesExact_live {cfg : Cfg sig Λ₀} {c : Dev nD} (dat : Dat τ (Elt F) (HIx 1) ℕ UU ℕ cfg c) (w : Fin cfg.W) (t : Fin cfg.N)
    (hi : cfg.idle w (cfg.grid.coords t) = false) :
    dat.leavesExact w t = owns (c : Thread nD τ) ((cfg.win w).stage (cfg.slots t w)) fullShare (dat.after w t) := by
  unfold Dat.leavesExact; rw [hi]

theorem leavesExact_idle_flush {cfg : Cfg sig Λ₀} {c : Dev nD} (dat : Dat τ (Elt F) (HIx 1) ℕ UU ℕ cfg c) (w : Fin cfg.W) (t : Fin cfg.N)
    (hi : cfg.idle w (cfg.grid.coords t) = true) (hf : (cfg.win w).flush t = true) :
    dat.leavesExact w t = owns (c : Thread nD τ) ((cfg.win w).stage (cfg.slots t w)) fullShare (dat.after w t) := by
  unfold Dat.leavesExact; rw [hi, hf]

/-! ## The rows' values at a point, by the point's case -/

theorem sAt_first (c : Dev nD) (t : Fin cfg1.N) (h0 : t.val = 0) :
    sAt V c t.val t.isLt = k1_pay5 (iblk1 V c 2 t) (iblk1 V c 0 t) (k1_pay3 (F := F)) := by
  obtain ⟨n, hn⟩ := t; dsimp only at h0; subst h0; rfl

theorem sAt_mid (c : Dev nD) (t : Fin cfg1.N) (h0 : t.val ≠ 0) (h5 : t.val ≠ 5) :
    sAt V c t.val t.isLt = k1_pay7 (iblk1 V c 2 t) (iblk1 V c 1 t) (sAt V c (t.val - 1) (Nat.lt_of_le_of_lt (Nat.sub_le _ _) t.isLt)) := by
  obtain ⟨n, hn⟩ := t
  have hN : n < 6 := lt_of_lt_of_eq hn N1
  cases n with
  | zero => exact absurd rfl h0
  | succ n => exact sAt_neg V c n hn (by dsimp only at h5; omega)

theorem sAt_end (c : Dev nD) (t : Fin cfg1.N) (h5 : t.val = 5) :
    sAt V c t.val t.isLt = sAt V c (t.val - 1) (Nat.lt_of_le_of_lt (Nat.sub_le _ _) t.isLt) := by
  obtain ⟨n, hn⟩ := t
  cases n with
  | zero => exact absurd h5 (by dsimp only; omega)
  | succ n => exact sAt_last V c n hn (by dsimp only at h5; omega)

theorem pAt_first (c : Dev nD) (t : Fin cfg1.N) (h0 : t.val = 0) :
    pAt V c = k1_pay6 (iblk1 V c 2 t) (iblk1 V c 0 t) (k1_pay4 (F := F)) := by
  obtain ⟨n, hn⟩ := t; dsimp only at h0; subst h0; rfl

/-! ## The body obligation, at a generic point -/

/-- What the body is called with at point t, the windows one by one, -/
def bodyPre1 (c : Dev nD) (t : Fin cfg1.N) : sProp 𝕄 :=
  iprop((dat1 V c).Φ t.castSucc ∗ (dat1 V c).owesAt none t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt none t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4000000 in
/-- The body at any point: the inputs' buffers hold their blocks; the point says which case it is in; the S row's buffer
    holds what the point before left and the P row's what point 0 left; so the case's run applies; the invariant and
    the recorded waits pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt none t.succ = (dat1 V c).owesAt none t.castSucc from rfl,
    leavesExact_live (dat1 V c) 0 t rfl, leavesExact_live (dat1 V c) 1 t rfl, leavesExact_live (dat1 V c) 2 t rfl,
    leavesExact_live (dat1 V c) 3 t rfl, leavesExact_live (dat1 V c) 4 t rfl,
    after1_0, after1_1, after1_2, after1_3, after1_4]
  have hN : t.val < 6 := lt_of_lt_of_eq t.isLt N1
  by_cases h0 : t.val = 0
  · -- point 0
    have hc1 := (hcond1 t).mpr h0
    have hc2 := (hcond2 t).mpr h0
    have hc3 : ¬ k1_cond3 (grid1.coords t) = 1#1 := fun h => ((hcond3 t).mp h).1 h0
    have hc4 : ¬ k1_cond4 (grid1.coords t) = 1#1 := fun h => by have := (hcond4 t).mp h; omega
    rw [leavesExact_live (dat1 V c) 5 t (Bool.eq_false_iff.mpr fun h => by have := (idle1_5 t).mp h; omega),
      leavesExact_live (dat1 V c) 6 t (Bool.eq_false_iff.mpr fun h => ((idle1_6 t).mp h) h0),
      Dat.leavesExact_idle (dat1 V c) 7 t ((idle1_7 t).mpr (by omega)) (Bool.eq_false_iff.mpr fun h => by have := (flush1_7 t).mp h; omega),
      after1_5, after1_6, sAt_first V c t h0, pAt_first V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernelRun1_A c (grid1.coords t) _ _ _ _ _ _ _ _ _ _ _ _ _ _ _ _ hc1 hc2 hc3 hc4
      (iblk1 V c 0 t) (iblk1 V c 1 t) (iblk1 V c 2 t) (iblk1 V c 3 t) (iblk1 V c 4 t) ((dat1 V c).before 7 t d7) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases h5 : t.val = 5
    · -- point 5
      have hc1 : ¬ k1_cond1 (grid1.coords t) = 1#1 := fun h => h0 ((hcond1 t).mp h)
      have hc3 : ¬ k1_cond3 (grid1.coords t) = 1#1 := fun h => ((hcond3 t).mp h).2 h5
      have hc4 := (hcond4 t).mpr h5
      have hc5 := (hcond5 t).mpr h5
      have hc6 := hcond6 t
      rw [leavesExact_idle_flush (dat1 V c) 5 t ((idle1_5 t).mpr h5) ((flush1_5 t).mpr (by omega)),
        leavesExact_idle_flush (dat1 V c) 6 t ((idle1_6 t).mpr h0) ((flush1_6 t).mpr (by omega)),
        leavesExact_live (dat1 V c) 7 t (Bool.eq_false_iff.mpr fun h => ((idle1_7 t).mp h) h5),
        after1_5, after1_6, after1_7, sAt_end V c t h5]
      simp only [before1_5 V c t h0, before1_6' V c t h0]
      unfold wAt
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun1_C c (grid1.coords t) _ _ _ _ _ _ _ _ _ _ _ _ _ _ _ _ hc1 hc3 hc4 hc5 hc6
        (iblk1 V c 0 t) (iblk1 V c 1 t) (iblk1 V c 2 t) (iblk1 V c 3 t) (iblk1 V c 4 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iintro ⟨H0, H1, H2, H3, H4, H5, H6, H7⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- points 1..4
      have hc1 : ¬ k1_cond1 (grid1.coords t) = 1#1 := fun h => h0 ((hcond1 t).mp h)
      have hc3 := (hcond3 t).mpr ⟨h0, h5⟩
      have hc4 : ¬ k1_cond4 (grid1.coords t) = 1#1 := fun h => h5 ((hcond4 t).mp h)
      rw [leavesExact_live (dat1 V c) 5 t (Bool.eq_false_iff.mpr fun h => h5 ((idle1_5 t).mp h)),
        Dat.leavesExact_idle (dat1 V c) 6 t ((idle1_6 t).mpr h0) (Bool.eq_false_iff.mpr fun h => by have := (flush1_6 t).mp h; omega),
        Dat.leavesExact_idle (dat1 V c) 7 t ((idle1_7 t).mpr h5) (Bool.eq_false_iff.mpr fun h => by have := (flush1_7 t).mp h; omega),
        after1_5, sAt_mid V c t h0 h5]
      simp only [before1_5 V c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun1_B c (grid1.coords t) _ _ _ _ _ _ _ _ _ _ _ _ _ _ _ _ hc1 hc3 hc4
        (iblk1 V c 0 t) (iblk1 V c 1 t) (iblk1 V c 2 t) (iblk1 V c 3 t) (iblk1 V c 4 t) _ ((dat1 V c).before 6 t d6) ((dat1 V c).before 7 t d7) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, H3, H4, H5, H6, H7⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The body obligation, at every point. -/
theorem body_obligation1 (c : Dev nD) : BodyObligation (dat1 (F := F) V c) (defs₀ (F := F)) Variants.none (none : HIx 1) Set.univ := fun t => by
  rw [bigSep_W1, bigSep_W1]
  exact sound_body1 V c t

end Cert.Proof.R1

end
-- ==== Proof.Reg1Seg.lean ====
/-
  The first region as a segment of the main program: entered from every unscoped TensorCore buffer at the contents the
  five reshapes leave, left at the same with the three result rows replaced. Its arrays are split out of the unscoped
  buffers at entry and put back at exit; the generator register goes into the region's invariant and comes back; the
  recorded waits stay at level at most 8 (the region's own waits are recorded at the index that has level 0).
-/
import proofs.«215986_g81389630259714_cont_9to1_m_762_23_alg».proof.Proof.Reg1Body
import proofs.«215986_g81389630259714_cont_9to1_m_762_23_alg».proof.Proof.PDats
import Idealize.ShloMosaic.Lib.Pipeline.RegionsLoop
import Idealize.ShloMosaic.Lib.Pipeline.FrameSuffix

set_option maxRecDepth 16384

noncomputable section

namespace Cert.Proof.R1

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.KI (UU)

variable {F : FTy → Type} [FloatOps F] [Named F]

local notation "𝕄" => MT nD τ sig (HIx 1) (Elt F) ℕ UU ℕ

open Cert.Proof.KI (TS Owe W3 W4 V3 pdats adm LL lvv RSeg)

variable (m : (ℓ : Loc nD τ sig) → Buf (Elt F) ℓ) (outs : Cert.Proof.KI.Outs F)

/-- Off the region's arrays the exit contents are the entry contents: the three replaced rows are arrays of it. -/
theorem hrest1 (c : Dev nD) : ∀ b, b ∉ Finset.univ.image (Pipeline.arrRef spec1) →
    W4 m outs c (Cert.Proof.KI.r b) = W3 m outs c (Cert.Proof.KI.r b) := by
  intro b hb
  have h5 : b ≠ main_v8_0 := fun e => hb (Finset.mem_image.mpr ⟨5, Finset.mem_univ _, (show Pipeline.arrRef spec1 5 = b from e.symm)⟩)
  have h6 : b ≠ main_v8_1 := fun e => hb (Finset.mem_image.mpr ⟨6, Finset.mem_univ _, (show Pipeline.arrRef spec1 6 = b from e.symm)⟩)
  have h7 : b ≠ main_v8_2 := fun e => hb (Finset.mem_image.mpr ⟨7, Finset.mem_univ _, (show Pipeline.arrRef spec1 7 = b from e.symm)⟩)
  unfold Cert.Proof.KI.W4
  rw [Function.update_of_ne (StableHlo.devRef_ne_of_ne h7), Function.update_of_ne (StableHlo.devRef_ne_of_ne h6),
    Function.update_of_ne (StableHlo.devRef_ne_of_ne h5)]

set_option backward.isDefEq.respectTransparency.types false in
/-- THE FIRST REGION over the thread states: given that its arrays end at the exit contents (hF). -/
def reg1 (hF : ∀ c w, (pdats m outs 0 c).arrAt w cfg1.N = W4 m outs c (Cert.Proof.KI.r (Pipeline.arrRef spec1 w))) :
    RSeg (F := F) (pdats m outs) 0 where
  win := launch1.win.to₀
  block_pos := launch1.block_pos
  stage_whole := launch1.stage_whole
  K := PEmpty
  osem k := k.elim
  ho := Pipeline.OwnSemFacts.none _
  hbody c := (body_obligation1 (V3 m outs) c).loose
  hwaits := Pipeline.hwaits_of_owed_zero _ _ _ _ (LL (F := F)) (lvv (F := F)) 0 fun _ _ => rfl
  pre := TS (W3 m outs)
  post := TS (W4 m outs)
  X c := iprop(∃ r, prngReg c r)
  Y c := iprop(∃ r, prngReg c r)
  Z c := Pipeline.unscopedRest (Ix := HIx 1) (Name := ℕ) (U := UU) (Lvl := ℕ) spec1 c (V3 m outs c)
  hentry c := by
    rw [Pipeline.ownSems0_none]
    have hsplit := Pipeline.arrays_of_unscopedBufs (p := 0) (pcfgs (F := F)) adm (pdats m outs) launch1.win launch1.arr_whole c
      ((pdats m outs 0 c).share_full fun _ => rfl) (V3 m outs c) fun _ => rfl
    rw [Pipeline.unscopedBufs_held] at hsplit
    unfold Cert.Proof.KI.TS Cert.Proof.KI.Owe
    iintro ⟨⟨Hub, Hp, ⟨%Wt, %hWt, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists Wt; isplitr; · ipureintro; exact fun p hp => Or.inl (hWt p (Finset.mem_coe.mp hp))
      iexact HO
    isplitl [Hp]; · iexact Hp
    iexact Hrest
  hin c := by
    rw [show (pdats m outs 0 c).Φ 0 = Φinv (F := F) c from rfl]; unfold Φinv
    iintro ⟨Hp, -, Hr⟩
    isplitl [Hr]; · iexact Hr
    iexact Hp
  hout c := by
    rw [Pipeline.ownSems0_none, show (pdats m outs 0 c).Φ (Fin.last _) = Φinv (F := F) c from rfl]; unfold Φinv
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch1.win launch1.arr_whole c (pdats m outs) ((pdats m outs 0 c).share_full fun _ => rfl)
      (V3 m outs c) (fun b => W4 m outs c (Cert.Proof.KI.r b)) ((pdats m outs 0 c).arrAt · cfg1.N) (hF c) (hrest1 m outs c)
    rw [Pipeline.unscopedBufs_held] at hjoin
    unfold Cert.Proof.KI.TS Cert.Proof.KI.Owe
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W
    isplitr
    · ipureintro
      intro p hp
      rcases hW (Finset.mem_coe.mpr hp) with h | ⟨w, s, rfl⟩
      · exact h
      · show (Cert.Proof.KI.K (F := F)).lev _ none ≤ 8
        rw [SparseCore.Cfg.lev_none]; exact Nat.zero_le _
    iexact HO

/-- The region is entered from, and left at, the launch module's thread states as they stand. -/
theorem reg1_pre (hF) (d : Dev nD) : TS (W3 m outs) d ⊢ (reg1 m outs hF).pre d := .rfl
theorem reg1_post (hF) (d : Dev nD) : (reg1 m outs hF).post d ⊢ TS (W4 m outs) d := .rfl

end Cert.Proof.R1

end
-- ==== Proof.Reg1Val.lean ====
/-
  The first region's arrays when it is left. Each of the five inputs' arrays is as the region found it. The three result
  rows are written back once, after the last of the six points, from buffers carried from point to point: S holds the
  zeroed row plus the positive block's column sums (point 0) plus the four negative blocks' (points 1 to 4: the block
  of the negative scores' column at point k + 1 is rows [2048 k, 2048 (k + 1))); P the zeroed row plus the positive
  block's column sums; W the last occurrence of each index, as the last point writes it. Every window but the negative
  scores' has block index zero at every point (decided over the grid), so its block is its whole array.
-/
import proofs.«215986_g81389630259714_cont_9to1_m_762_23_alg».proof.Proof.Reg1Dat
import proofs.«215986_g81389630259714_cont_9to1_m_762_23_alg».proof.Proof.KVals
import Idealize.ShloMosaic.Lib.Pipeline.FrameBody
import Idealize.ShloMosaic.Lib.Pipeline.Value
import Idealize.ShloMosaic.Lib.Pipeline.Cells
import Idealize.ShloMosaic.Lib.Tactic

set_option maxRecDepth 16384

noncomputable section

namespace Cert.Proof.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.SparseCore.Cfg (HIx)

variable {F : FTy → Type} [FloatOps F] [Named F]

variable (V : (c : Dev nD) → (b : Ref sig .tc) → Buf (Elt F) ((c : Thread nD τ).loc b))

/-! ## The inputs -/

theorem isIn1 : ∀ w : Fin cfg1.W, w.val < 5 → (cfg1.win w).isOut = false := by decide

/-- An input's array is never written. -/
theorem arrAt1_in (c : Dev nD) (w : Fin cfg1.W) (hw : w.val < 5) : (dat1 V c).arrAt w cfg1.N = V c (Pipeline.arrRef spec1 w) :=
  ((dat1 V c).arrAt_in w (isIn1 w hw) _).trans (A_eq1 V c w)

/-! ## The block indices, decided over the grid: zero for every window but the negative scores', whose block at
    point t is block min(3, t - 1) of four -/

theorem index1_0 : ∀ (t : Fin cfg1.N) (a : Fin 2), (cfg1.win 0).index t a = 0 := by decide +kernel
theorem index1_2 : ∀ (t : Fin cfg1.N) (a : Fin 2), (cfg1.win 2).index t a = 0 := by decide +kernel
theorem index1_3 : ∀ (t : Fin cfg1.N) (a : Fin 2), (cfg1.win 3).index t a = 0 := by decide +kernel
theorem index1_4 : ∀ (t : Fin cfg1.N) (a : Fin 2), (cfg1.win 4).index t a = 0 := by decide +kernel
theorem index1_5 : ∀ (t : Fin cfg1.N) (a : Fin 2), (cfg1.win 5).index t a = 0 := by decide +kernel
theorem index1_6 : ∀ (t : Fin cfg1.N) (a : Fin 2), (cfg1.win 6).index t a = 0 := by decide +kernel
theorem index1_7 : ∀ (t : Fin cfg1.N) (a : Fin 2), (cfg1.win 7).index t a = 0 := by decide +kernel
theorem index1_1 : ∀ (t : Fin cfg1.N), (cfg1.win 1).index t 0 = min 3 (t.val - 1) ∧ (cfg1.win 1).index t 1 = 0 := by decide +kernel

/-! ## The input blocks -/

/-- A window whose block index is zero on both axes reads its whole array. -/
theorem iblk1_0 (c : Dev nD) (t : Fin cfg1.N) : iblk1 V c 0 t = V c main_v3 := by
  funext y
  unfold iblk1
  rw [View.read_apply]
  show V c main_v3 (((cfg1.win 0).rect t).emb y) = V c main_v3 y
  congr 1
  funext a
  apply Fin.ext
  exact Window.rect_emb_val_of_index_zero (cfg1.win 0) t a (index1_0 t a) y
theorem iblk1_2 (c : Dev nD) (t : Fin cfg1.N) : iblk1 V c 2 t = V c main_v5 := by
  funext y
  unfold iblk1
  rw [View.read_apply]
  show V c main_v5 (((cfg1.win 2).rect t).emb y) = V c main_v5 y
  congr 1
  funext a
  apply Fin.ext
  exact Window.rect_emb_val_of_index_zero (cfg1.win 2) t a (index1_2 t a) y
theorem iblk1_3 (c : Dev nD) (t : Fin cfg1.N) : iblk1 V c 3 t = V c main_v6 := by
  funext y
  unfold iblk1
  rw [View.read_apply]
  show V c main_v6 (((cfg1.win 3).rect t).emb y) = V c main_v6 y
  congr 1
  funext a
  apply Fin.ext
  exact Window.rect_emb_val_of_index_zero (cfg1.win 3) t a (index1_3 t a) y
theorem iblk1_4 (c : Dev nD) (t : Fin cfg1.N) : iblk1 V c 4 t = V c main_v7 := by
  funext y
  unfold iblk1
  rw [View.read_apply]
  show V c main_v7 (((cfg1.win 4).rect t).emb y) = V c main_v7 y
  congr 1
  funext a
  apply Fin.ext
  exact Window.rect_emb_val_of_index_zero (cfg1.win 4) t a (index1_4 t a) y

/-- The negative scores' block at point k + 1 is rows [2048 k, 2048 (k + 1)) of the column. -/
theorem iblk1_1 (c : Dev nD) (t : Fin cfg1.N) (k : Fin 4) (hk : t.val = k.val + 1) : iblk1 V c 1 t = Cert.Proof.KV.negBlk (V c main_v4) k := by
  funext y
  unfold iblk1 Cert.Proof.KV.negBlk
  rw [View.read_apply]
  show V c main_v4 (((cfg1.win 1).rect t).emb y) = V c main_v4 _
  congr 1
  funext a
  apply Fin.ext
  rw [Window.rect_emb_val]
  have hk4 := k.isLt
  match a with
  | ⟨0, _⟩ =>
    have h0 := (index1_1 t).1
    show (cfg1.win 1).index t 0 * 2048 + (y 0).val = 2048 * k.val + (y 0).val
    rw [h0]; omega
  | ⟨1, _⟩ =>
    have h1 := (index1_1 t).2
    show (cfg1.win 1).index t 1 * 1 + (y 1).val = (y 1).val
    rw [h1]; omega

/-! ## The result rows as the last point leaves them -/

theorem iblk1_1' (c : Dev nD) (n : ℕ) (hn : n + 1 < cfg1.N) (h4 : n < 4) :
    iblk1 V c 1 ⟨n + 1, hn⟩ = Cert.Proof.KV.negBlk (V c main_v4) ⟨n, h4⟩ := iblk1_1 V c ⟨n + 1, hn⟩ ⟨n, h4⟩ rfl

theorem N1_gt5 : 5 < cfg1.N := by decide

/-- S after the last point: point 0 on the zeroed row, then the four negative blocks; the last point leaves it. -/
theorem sAt_five (c : Dev nD) (h : 5 < cfg1.N) : sAt V c 5 h = Cert.Proof.KV.sumsS (V c main_v3) (V c main_v4) (V c main_v5) := by
  rw [sAt_last V c 4 h (by decide), sAt_neg V c 3 _ (by decide), sAt_neg V c 2 _ (by decide), sAt_neg V c 1 _ (by decide),
    sAt_neg V c 0 _ (by decide), sAt_zero]
  simp only [iblk1_0, iblk1_2]
  rw [iblk1_1' V c 3 _ (by decide), iblk1_1' V c 2 _ (by decide), iblk1_1' V c 1 _ (by decide), iblk1_1' V c 0 _ (by decide)]
  rfl

/-- P: written at point 0, kept. -/
theorem pAt_eq (c : Dev nD) : pAt V c = Cert.Proof.KV.sumsP (V c main_v3) (V c main_v5) := by
  unfold pAt Cert.Proof.KV.sumsP
  rw [iblk1_0, iblk1_2]

theorem coords5 : grid1.coords t1_5 = Cert.Proof.KV.pt5 := by
  funext a
  have h : ∀ a : Fin grid1.rank, (grid1.coords t1_5 a).val = (Cert.Proof.KV.pt5 a).val := by decide +kernel
  exact Fin.ext (h a)

/-- W as the last point writes it. -/
theorem wAt_five (c : Dev nD) : wAt V c t1_5 = Cert.Proof.KV.sumsW (V c main_v6) (V c main_v7) := by
  unfold wAt Cert.Proof.KV.sumsW
  rw [iblk1_3, iblk1_4, coords5]

/-! ## The result arrays when the region is left: each is written back once, after the last point, and its one block
    (at block index zero) covers it -/

theorem arrAt1_S (c : Dev nD) : (dat1 V c).arrAt 5 cfg1.N = Cert.Proof.KV.sumsS (V c main_v3) (V c main_v4) (V c main_v5) := by
  have hA : (dat1 V c).after 5 t1_5 = Cert.Proof.KV.sumsS (V c main_v3) (V c main_v4) (V c main_v5) := by
    rw [after1_5]; exact sAt_five V c N1_gt5
  generalize Cert.Proof.KV.sumsS (V c main_v3) (V c main_v4) (V c main_v5) = G at hA ⊢
  refine (dat1 V c).arrAt_eq_of_cover 5 G (fun t ht => ?_) (fun i => ⟨t1_5, (flush1_5 t1_5).mpr rfl, ?_⟩)
  · have h5 : t = t1_5 := by
      have h := (flush1_5 t).mp ht
      have hN : t.val < 6 := t.isLt
      exact Fin.ext (by show t.val = 5; omega)
    subst h5
    funext y
    rw [View.read_apply, cast_eq]
    dsimp only [Pipeline.Dat.flushed, Pipeline.Window.cut]
    rw [hA]
    congr 1
    funext a
    apply Fin.ext
    exact (Window.rect_emb_val_of_index_zero (cfg1.win 5) t1_5 a (index1_5 t1_5 a) y).symm
  · exact Finset.mem_map.mpr ⟨i, Finset.mem_univ _, by
      funext a
      apply Fin.ext
      exact Window.rect_emb_val_of_index_zero (cfg1.win 5) t1_5 a (index1_5 t1_5 a) i⟩

theorem arrAt1_P (c : Dev nD) : (dat1 V c).arrAt 6 cfg1.N = Cert.Proof.KV.sumsP (V c main_v3) (V c main_v5) := by
  have hA : (dat1 V c).after 6 t1_5 = Cert.Proof.KV.sumsP (V c main_v3) (V c main_v5) := by
    rw [after1_6, pAt_eq]
  generalize Cert.Proof.KV.sumsP (V c main_v3) (V c main_v5) = G at hA ⊢
  refine (dat1 V c).arrAt_eq_of_cover 6 G (fun t ht => ?_) (fun i => ⟨t1_5, (flush1_6 t1_5).mpr rfl, ?_⟩)
  · have h5 : t = t1_5 := by
      have h := (flush1_6 t).mp ht
      have hN : t.val < 6 := t.isLt
      exact Fin.ext (by show t.val = 5; omega)
    subst h5
    funext y
    rw [View.read_apply, cast_eq]
    dsimp only [Pipeline.Dat.flushed, Pipeline.Window.cut]
    rw [hA]
    congr 1
    funext a
    apply Fin.ext
    exact (Window.rect_emb_val_of_index_zero (cfg1.win 6) t1_5 a (index1_6 t1_5 a) y).symm
  · exact Finset.mem_map.mpr ⟨i, Finset.mem_univ _, by
      funext a
      apply Fin.ext
      exact Window.rect_emb_val_of_index_zero (cfg1.win 6) t1_5 a (index1_6 t1_5 a) i⟩

theorem arrAt1_W (c : Dev nD) : (dat1 V c).arrAt 7 cfg1.N = Cert.Proof.KV.sumsW (V c main_v6) (V c main_v7) := by
  have hA : (dat1 V c).after 7 t1_5 = Cert.Proof.KV.sumsW (V c main_v6) (V c main_v7) := by
    rw [after1_7, wAt_five]
  generalize Cert.Proof.KV.sumsW (V c main_v6) (V c main_v7) = G at hA ⊢
  refine (dat1 V c).arrAt_eq_of_cover 7 G (fun t ht => ?_) (fun i => ⟨t1_5, (flush1_7 t1_5).mpr rfl, ?_⟩)
  · have h5 : t = t1_5 := by
      have h := (flush1_7 t).mp ht
      have hN : t.val < 6 := t.isLt
      exact Fin.ext (by show t.val = 5; omega)
    subst h5
    funext y
    rw [View.read_apply, cast_eq]
    dsimp only [Pipeline.Dat.flushed, Pipeline.Window.cut]
    rw [hA]
    congr 1
    funext a
    apply Fin.ext
    exact (Window.rect_emb_val_of_index_zero (cfg1.win 7) t1_5 a (index1_7 t1_5 a) y).symm
  · exact Finset.mem_map.mpr ⟨i, Finset.mem_univ _, by
      funext a
      apply Fin.ext
      exact Window.rect_emb_val_of_index_zero (cfg1.win 7) t1_5 a (index1_7 t1_5 a) i⟩

end Cert.Proof.R1

end
-- ==== Proof.Reg1HF.lean ====
/-
  What the first region's record asks of the contents after the region, from three equations: the three result buffers
  after the region hold the row sums S and P and the last-occurrence indices W of the arrays the region found. The
  inputs' arrays are untouched by the three updates; each result's array is the update at its own buffer.
-/
import proofs.«215986_g81389630259714_cont_9to1_m_762_23_alg».proof.Proof.PDats
import proofs.«215986_g81389630259714_cont_9to1_m_762_23_alg».proof.Proof.Reg1Val

noncomputable section

namespace Cert.Proof.R1

open Cert.KernelIdeal Cert.KernelIdeal.Gen Cert.Proof.KI
open Idealize.ShloMosaic Idealize.ShloMosaic.TcCoe
open Idealize.ShloMosaic.Pipeline (Dat)
open Idealize.ShloMosaic.SparseCore.Cfg (HIx)

variable {F : FTy → Type} [FloatOps F] [Named F]

variable (m : (ℓ : Loc nD τ sig) → Buf (Elt F) ℓ) (outs : Outs F)

/-- The contents after the region at the three result buffers and at an input's array. -/
theorem W4_s (c : Dev nD) : W4 m outs c (r main_v8_0) = outs.s c := by
  unfold W4
  rw [Function.update_of_ne (StableHlo.devRef_ne_of_ne (x := main_v8_0) (y := main_v8_2) (by decide)),
    Function.update_of_ne (StableHlo.devRef_ne_of_ne (x := main_v8_0) (y := main_v8_1) (by decide)), Function.update_self]
theorem W4_p (c : Dev nD) : W4 m outs c (r main_v8_1) = outs.p c := by
  unfold W4
  rw [Function.update_of_ne (StableHlo.devRef_ne_of_ne (x := main_v8_1) (y := main_v8_2) (by decide)), Function.update_self]
theorem W4_w (c : Dev nD) : W4 m outs c (r main_v8_2) = outs.w c := by
  unfold W4
  rw [Function.update_self]

/-- An input's array is none of the three result buffers. -/
theorem in_ne_out (w : Fin cfg1.W) (h5 : w.val < 5) (k : Fin cfg1.W) (hk : 5 ≤ k.val) :
    Pipeline.arrRef spec1 w ≠ Pipeline.arrRef spec1 k := fun e => by
  have h : w = k := launch1.win.arr_inj e
  rw [h] at h5; omega

theorem W4_in (c : Dev nD) (w : Fin cfg1.W) (h5 : w.val < 5) :
    W4 m outs c (r (Pipeline.arrRef spec1 w)) = W3 m outs c (r (Pipeline.arrRef spec1 w)) := by
  have n7 : Pipeline.arrRef spec1 w ≠ main_v8_2 := in_ne_out w h5 7 (by decide)
  have n6 : Pipeline.arrRef spec1 w ≠ main_v8_1 := in_ne_out w h5 6 (by decide)
  have n5 : Pipeline.arrRef spec1 w ≠ main_v8_0 := in_ne_out w h5 5 (by decide)
  unfold W4
  rw [Function.update_of_ne (StableHlo.devRef_ne_of_ne n7), Function.update_of_ne (StableHlo.devRef_ne_of_ne n6),
    Function.update_of_ne (StableHlo.devRef_ne_of_ne n5)]

theorem hF1 (hs : ∀ c, outs.s c = Cert.Proof.KV.sumsS (V3 m outs c main_v3) (V3 m outs c main_v4) (V3 m outs c main_v5))
    (hp : ∀ c, outs.p c = Cert.Proof.KV.sumsP (V3 m outs c main_v3) (V3 m outs c main_v5))
    (hw : ∀ c, outs.w c = Cert.Proof.KV.sumsW (V3 m outs c main_v6) (V3 m outs c main_v7)) :
    ∀ c w, (pdats m outs 0 c).arrAt w cfg1.N = W4 m outs c (r (Pipeline.arrRef spec1 w)) := by
  intro c w
  rw [pdats_zero]
  by_cases h5 : w.val < 5
  · rw [arrAt1_in _ c w h5, W4_in m outs c w h5]
  · have h8 : w.val < 8 := w.isLt
    have hc : w = 5 ∨ w = 6 ∨ w = 7 := by
      rcases (by omega : w.val = 5 ∨ w.val = 6 ∨ w.val = 7) with h | h | h
      · exact .inl (Fin.ext h)
      · exact .inr (.inl (Fin.ext h))
      · exact .inr (.inr (Fin.ext h))
    rcases hc with rfl | rfl | rfl
    · exact (arrAt1_S _ c).trans ((hs c).symm.trans (W4_s m outs c).symm)
    · exact (arrAt1_P _ c).trans ((hp c).symm.trans (W4_p m outs c).symm)
    · exact (arrAt1_W _ c).trans ((hw c).symm.trans (W4_w m outs c).symm)

end Cert.Proof.R1

end
-- ==== Proof.Reg2Body.lean ====
/-
  The second region's body: on whole staging buffers holding the seven input blocks it reads each of them once (the two
  sums twice) and stores the combination to the output's buffer; the inputs' buffers are left as they were.
-/
import proofs.«215986_g81389630259714_cont_9to1_m_762_23_alg».proof.Proof.Reg2Dat
import Idealize.ShloMosaic.Lib.Pipeline.FrameBody
import Idealize.ShloMosaic.Lib.Pipeline.Value
import Idealize.ShloMosaic.Lib.Tactic

set_option maxRecDepth 16384

noncomputable section

namespace Cert.Proof.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F] [Named F]

local notation "𝕄" => MT nD τ sig (HIx 1) (Elt F) ℕ Cert.Proof.KI.UU ℕ

variable (V : (c : Dev nD) → (b : Ref sig .tc) → Buf (Elt F) ((c : Thread nD τ).loc b))

/-! ## The body's triple -/

set_option maxHeartbeats 1000000 in
/-- The body on whole staging memrefs, the inputs' at contents `x0 … x6` and the output's at anything, runs to the
    continuation holding the inputs' as they were and the output's at `out2_7` of the inputs'. -/
theorem sound_kernel2 (c : Dev nD) (E : Set ℕ) (arg0 : Memref sig .tc .vmem S1x2048 .f32) (harg0 : arg0.IsWhole) (arg1 : Memref sig .tc .vmem S1x2048 .f32) (harg1 : arg1.IsWhole) (arg2 : Memref sig .tc .vmem S2048x1 .f32) (harg2 : arg2.IsWhole) (arg3 : Memref sig .tc .vmem S2048x1 .f32) (harg3 : arg3.IsWhole) (arg4 : Memref sig .tc .vmem S1x2048 .i32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x1 .f32) (harg7 : arg7.IsWhole)
    (x0 x1 : Vec F S1x2048 .f32) (x2 x3 : Vec F S2048x1 .f32) (x4 : Vec F S1x2048 .i32) (x5 x6 : Vec F S1x2048 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare (out2_7 x0 x1 x2 x3 x4 x5 x6)) -∗ K ⟨⟩))
      ⊢ wp frame (wpE (defs₀ (F := F)) Variants.none c none) E (cc2__combine_body arg0 harg0 arg1 harg1 arg2 harg2 arg3 harg3 arg4 harg4 arg5 harg5 arg6 harg6 arg7 harg7) K := by
  simp only [cc2__combine_body_eq_skeleton]; unfold cc2__combine_body_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## What the body finds in the inputs' buffers -/

/-- Each input's current staging buffer holds its block at the point, for any proof data whose array is the entry
    contents and whose body leaves the block in place. -/
theorem before2_0_of {c : Dev nD} (dat : Dat τ (Elt F) (HIx 1) ℕ Cert.Proof.KI.UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_0 (c : Dev nD) (t : Fin cfg2.N) (d) : (dat2 V c).before 0 t d = iblk2 V c 0 t :=
  before2_0_of V (dat2 V c) (A_eq2 V c 0) (after2_0 V c) t d
theorem before2_1_of {c : Dev nD} (dat : Dat τ (Elt F) (HIx 1) ℕ Cert.Proof.KI.UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_1 (c : Dev nD) (t : Fin cfg2.N) (d) : (dat2 V c).before 1 t d = iblk2 V c 1 t :=
  before2_1_of V (dat2 V c) (A_eq2 V c 1) (after2_1 V c) t d
theorem before2_2_of {c : Dev nD} (dat : Dat τ (Elt F) (HIx 1) ℕ Cert.Proof.KI.UU ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_2 (c : Dev nD) (t : Fin cfg2.N) (d) : (dat2 V c).before 2 t d = iblk2 V c 2 t :=
  before2_2_of V (dat2 V c) (A_eq2 V c 2) (after2_2 V c) t d
theorem before2_3_of {c : Dev nD} (dat : Dat τ (Elt F) (HIx 1) ℕ Cert.Proof.KI.UU ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_3 (c : Dev nD) (t : Fin cfg2.N) (d) : (dat2 V c).before 3 t d = iblk2 V c 3 t :=
  before2_3_of V (dat2 V c) (A_eq2 V c 3) (after2_3 V c) t d
theorem before2_4_of {c : Dev nD} (dat : Dat τ (Elt F) (HIx 1) ℕ Cert.Proof.KI.UU ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_4 (c : Dev nD) (t : Fin cfg2.N) (d) : (dat2 V c).before 4 t d = iblk2 V c 4 t :=
  before2_4_of V (dat2 V c) (A_eq2 V c 4) (after2_4 V c) t d
theorem before2_5_of {c : Dev nD} (dat : Dat τ (Elt F) (HIx 1) ℕ Cert.Proof.KI.UU ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_5 (c : Dev nD) (t : Fin cfg2.N) (d) : (dat2 V c).before 5 t d = iblk2 V c 5 t :=
  before2_5_of V (dat2 V c) (A_eq2 V c 5) (after2_5 V c) t d
theorem before2_6_of {c : Dev nD} (dat : Dat τ (Elt F) (HIx 1) ℕ Cert.Proof.KI.UU ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_6 (c : Dev nD) (t : Fin cfg2.N) (d) : (dat2 V c).before 6 t d = iblk2 V c 6 t :=
  before2_6_of V (dat2 V c) (A_eq2 V c 6) (after2_6 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt none t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt none t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at the point: the inputs' memrefs hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt none t.succ = (dat2 V c).owesAt none t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at the point. -/
theorem body_obligation2 (c : Dev nD) : BodyObligation (dat2 (F := F) V c) (defs₀ (F := F)) Variants.none (none : HIx 1) Set.univ := fun t => by
  rw [bigSep_W2, bigSep_W2]
  exact sound_body2 V c t

end Cert.Proof.R2

end
-- ==== Proof.Reg2Val.lean ====
/-
  The second region's arrays when it is left: each input's array as the region found it, and the 1 x 1 output's array
  holding the combination of the seven input arrays (each of the body's accesses is a whole staging buffer and each
  window's block is its whole array, so the pieces and blocks collapse to the arrays themselves).
-/
import proofs.«215986_g81389630259714_cont_9to1_m_762_23_alg».proof.Proof.Reg2Dat
import Idealize.ShloMosaic.Lib.Pipeline.FrameBody
import Idealize.ShloMosaic.Lib.Pipeline.Value
import Idealize.ShloMosaic.Lib.Pipeline.Cells
import Idealize.ShloMosaic.Lib.Tactic

set_option maxRecDepth 16384

noncomputable section

namespace Cert.Proof.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.SparseCore.Cfg (HIx)

variable {F : FTy → Type} [FloatOps F] [Named F]

local notation "𝕄" => MT nD τ sig (HIx 1) (Elt F) ℕ Cert.Proof.KI.UU ℕ

variable (V : (c : Dev nD) → (b : Ref sig .tc) → Buf (Elt F) ((c : Thread nD τ).loc b))

/-! ## The values: each access of the body is a whole buffer, each block the whole array -/

theorem zero2 : (![0, 0] : Fin 2 → Nat) = fun _ => 0 := by
  funext a; match a with | ⟨0, _⟩ => rfl | ⟨1, _⟩ => rfl

/-- The 1 x 1 shape has one index. -/
theorem idx11_eq (x y : S1x1.Idx) : x = y := by
  funext a
  match a with
  | ⟨0, h⟩ =>
    have h1 : (x ⟨0, h⟩).val < 1 := (x ⟨0, h⟩).isLt
    have h2 : (y ⟨0, h⟩).val < 1 := (y ⟨0, h⟩).isLt
    exact Fin.ext (by omega)
  | ⟨1, h⟩ =>
    have h1 : (x ⟨1, h⟩).val < 1 := (x ⟨1, h⟩).isLt
    have h2 : (y ⟨1, h⟩).val < 1 := (y ⟨1, h⟩).isLt
    exact Fin.ext (by omega)

/-- The output's buffer after the body is the combination of the input blocks: every access is a whole buffer. -/
theorem out2_7_eq (x0 x1 : Vec F S1x2048 .f32) (x2 x3 : Vec F S2048x1 .f32) (x4 : Vec F S1x2048 .i32) (x5 x6 : Vec F S1x2048 .f32) :
    out2_7 x0 x1 x2 x3 x4 x5 x6 = Cert.Proof.KV.comb x0 x1 x2 x3 x4 x5 x6 := by
  unfold out2_7 Cert.Proof.KV.comb
  rw [View.canon_unit_zero zero2]
  simp only [View.ld_unit_zero (S := S1x2048) zero2, View.ld_unit_zero (S := S2048x1) zero2]

/-- Each input's block is its whole array: the block index is zero on both axes. -/
theorem iblk2_0 (c : Dev nD) (t : Fin cfg2.N) : iblk2 V c 0 t = V c main_v8_0 := by
  funext y
  unfold iblk2
  rw [View.read_apply]
  show V c main_v8_0 (((cfg2.win 0).rect t).emb y) = V c main_v8_0 y
  congr 1
  funext a
  apply Fin.ext
  exact Window.rect_emb_val_of_index_zero (cfg2.win 0) t a rfl y
theorem iblk2_1 (c : Dev nD) (t : Fin cfg2.N) : iblk2 V c 1 t = V c main_v8_1 := by
  funext y
  unfold iblk2
  rw [View.read_apply]
  show V c main_v8_1 (((cfg2.win 1).rect t).emb y) = V c main_v8_1 y
  congr 1
  funext a
  apply Fin.ext
  exact Window.rect_emb_val_of_index_zero (cfg2.win 1) t a rfl y
theorem iblk2_2 (c : Dev nD) (t : Fin cfg2.N) : iblk2 V c 2 t = V c main_v9 := by
  funext y
  unfold iblk2
  rw [View.read_apply]
  show V c main_v9 (((cfg2.win 2).rect t).emb y) = V c main_v9 y
  congr 1
  funext a
  apply Fin.ext
  exact Window.rect_emb_val_of_index_zero (cfg2.win 2) t a rfl y
theorem iblk2_3 (c : Dev nD) (t : Fin cfg2.N) : iblk2 V c 3 t = V c main_v10 := by
  funext y
  unfold iblk2
  rw [View.read_apply]
  show V c main_v10 (((cfg2.win 3).rect t).emb y) = V c main_v10 y
  congr 1
  funext a
  apply Fin.ext
  exact Window.rect_emb_val_of_index_zero (cfg2.win 3) t a rfl y
theorem iblk2_4 (c : Dev nD) (t : Fin cfg2.N) : iblk2 V c 4 t = V c main_v8_2 := by
  funext y
  unfold iblk2
  rw [View.read_apply]
  show V c main_v8_2 (((cfg2.win 4).rect t).emb y) = V c main_v8_2 y
  congr 1
  funext a
  apply Fin.ext
  exact Window.rect_emb_val_of_index_zero (cfg2.win 4) t a rfl y
theorem iblk2_5 (c : Dev nD) (t : Fin cfg2.N) : iblk2 V c 5 t = V c main_v2_0 := by
  funext y
  unfold iblk2
  rw [View.read_apply]
  show V c main_v2_0 (((cfg2.win 5).rect t).emb y) = V c main_v2_0 y
  congr 1
  funext a
  apply Fin.ext
  exact Window.rect_emb_val_of_index_zero (cfg2.win 5) t a rfl y
theorem iblk2_6 (c : Dev nD) (t : Fin cfg2.N) : iblk2 V c 6 t = V c main_v2_1 := by
  funext y
  unfold iblk2
  rw [View.read_apply]
  show V c main_v2_1 (((cfg2.win 6).rect t).emb y) = V c main_v2_1 y
  congr 1
  funext a
  apply Fin.ext
  exact Window.rect_emb_val_of_index_zero (cfg2.win 6) t a rfl y

theorem isIn2 : ∀ w : Fin cfg2.W, w.val < 7 → (cfg2.win w).isOut = false := by decide

/-- An input's array is never written. -/
theorem arrAt2_in (c : Dev nD) (w : Fin cfg2.W) (hw : w.val < 7) : (dat2 V c).arrAt w cfg2.N = V c (Pipeline.arrRef spec2 w) :=
  ((dat2 V c).arrAt_in w (isIn2 w hw) _).trans (A_eq2 V c w)

/-- The output's array after the region: the combination of the seven input arrays as the region found them (its one
    block, written back at the point, covers it). -/
theorem arrAt2_out (c : Dev nD) : (dat2 V c).arrAt 7 cfg2.N
    = Cert.Proof.KV.comb (V c main_v8_0) (V c main_v8_1) (V c main_v9) (V c main_v10) (V c main_v8_2) (V c main_v2_0) (V c main_v2_1) := by
  refine (dat2 V c).arrAt_eq_of_cover 7 _ (fun t _ => ?_) (fun i => ⟨t2_0, flush2_7 t2_0, ?_⟩)
  · funext y
    rw [View.read_apply]
    show (dat2 V c).after 7 t _ = Cert.Proof.KV.comb _ _ _ _ _ _ _ _
    rw [after2_7, out2_7_eq, iblk2_0, iblk2_1, iblk2_2, iblk2_3, iblk2_4, iblk2_5, iblk2_6]
    exact congrArg _ (idx11_eq _ _)
  · exact Finset.mem_map.mpr ⟨i, Finset.mem_univ _, idx11_eq _ _⟩

end Cert.Proof.R2

end
-- ==== Proof.Reg2.lean ====
/-
  The second region as a segment of the main program: entered from every unscoped TensorCore buffer at the contents
  after the two reshapes that feed it, left with the 1 x 1 result in place and every other buffer as it was. The
  region's arrays are split out of the unscoped buffers at entry and put back at exit; the generator register goes into
  the region's invariant and comes back; the bound on the recorded wait pairs survives, since the pipeline's own waits
  record pairs at the index of level zero; nothing is owed; the body has no semaphore of its own.
-/
import proofs.«215986_g81389630259714_cont_9to1_m_762_23_alg».proof.Proof.PDats
import proofs.«215986_g81389630259714_cont_9to1_m_762_23_alg».proof.Proof.Reg2Body
import proofs.«215986_g81389630259714_cont_9to1_m_762_23_alg».proof.Proof.Reg2Val
import Idealize.ShloMosaic.Lib.Pipeline.RegionsLoop
import Idealize.ShloMosaic.Lib.Pipeline.FrameSuffix

noncomputable section

namespace Cert.Proof.R2

open Cert.KernelIdeal Cert.KernelIdeal.Gen Cert.Proof.KI
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)
open Idealize.ShloMosaic.StableHlo (held)

variable {F : FTy → Type} [FloatOps F] [Named F]

local notation "𝕄" => MT nD τ sig (HIx 1) (Elt F) ℕ Cert.Proof.KI.UU ℕ

variable (m : (ℓ : Loc nD τ sig) → Buf (Elt F) ℓ) (outs : Outs F)

/-- Off the region's arrays the contents after the region are those before it: only the result's buffer is updated. -/
theorem hrest2 (c : Dev nD) : ∀ b, b ∉ Finset.univ.image (Pipeline.arrRef spec2) → W6 m outs c (r b) = V5 m outs c b := by
  intro b hb
  unfold W6
  exact Function.update_of_ne (StableHlo.devRef_ne_of_ne fun e => hb (Finset.mem_image.mpr ⟨7, Finset.mem_univ _, e.symm⟩)) _ _

/-- The wait pairs within the region's bound are of level at most 8: the recorded ones by the bound, the pipeline's own
    because their index is the one of level zero. -/
theorem wbelow2 (c : Dev nD) (t : Fin (cfg2.N + 1)) (W : Waits sig (HIx 1)) (hW : ↑W ⊆ (pdats m outs 1 c).bound none t) :
    (K (F := F)).WBelow (SparseCore.T c) W 8 := fun p hp => by
  rcases hW (Finset.mem_coe.mpr hp) with h | ⟨w, s, rfl⟩
  · exact h
  · rw [SparseCore.Cfg.lev_none]; exact Nat.zero_le _

set_option backward.isDefEq.respectTransparency.types false in
/-- THE SECOND REGION over the thread state. -/
def reg2 (hF : ∀ c w, (pdats m outs 1 c).arrAt w cfg2.N = W6 m outs c (r (Pipeline.arrRef spec2 w))) : RSeg (F := F) (pdats m outs) 1 where
  win := launch2.win.to₀
  block_pos := launch2.block_pos
  stage_whole := launch2.stage_whole
  K := PEmpty
  osem k := k.elim
  ho := Pipeline.OwnSemFacts.none _
  hbody c := (body_obligation2 (V5 m outs) c).loose
  hwaits := Pipeline.hwaits_of_owed_zero _ _ _ _ (LL (F := F)) (lvv (F := F)) 1 fun _ _ => rfl
  pre := TS (W5 m outs)
  post := TS (W6 m outs)
  X c := iprop(∃ r, prngReg c r)
  Y c := iprop(∃ r, prngReg c r)
  Z c := Pipeline.unscopedRest (Ix := HIx 1) (Name := ℕ) (U := UU) (Lvl := ℕ) spec2 c (V5 m outs c)
  hentry c := by
    rw [Pipeline.ownSems0_none]
    have hsplit := Pipeline.arrays_of_unscopedBufs (p := 1) (pcfgs (F := F)) adm (pdats m outs) launch2.win launch2.arr_whole c
      ((pdats m outs 1 c).share_full fun _ => rfl) (V5 m outs c) fun _ => rfl
    rw [Pipeline.unscopedBufs_held] at hsplit
    unfold TS Owe
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p (Finset.mem_coe.mp hp))
      iexact HO
    isplitl [Hp]; · iexact Hp
    iexact Hrest
  hin c := by
    rw [show (pdats m outs 1 c).Φ 0 = Φ2 c from rfl]; unfold Φ2
    iintro ⟨Hp, -, Hr⟩
    isplitl [Hr]; · iexact Hr
    iexact Hp
  hout c := by
    rw [Pipeline.ownSems0_none, show (pdats m outs 1 c).Φ (Fin.last _) = Φ2 c from rfl]; unfold Φ2
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats m outs) ((pdats m outs 1 c).share_full fun _ => rfl)
      (V5 m outs c) (fun b => W6 m outs c (r b)) ((pdats m outs 1 c).arrAt · cfg2.N) (hF c) (hrest2 m outs c)
    rw [Pipeline.unscopedBufs_held] at hjoin
    unfold TS Owe
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W
    isplitr; · ipureintro; exact wbelow2 m outs c _ W hW
    iexact HO

/-- The region is entered from, and left at, the launch module's thread states as they stand. -/
theorem reg2_pre (hF) (d : Dev nD) : TS (W5 m outs) d ⊢ (reg2 m outs hF).pre d := .rfl
theorem reg2_post (hF) (d : Dev nD) : (reg2 m outs hF).post d ⊢ TS (W6 m outs) d := .rfl

/-- What the record asks of the exit contents, from one equation: the result's buffer after the region holds the
    combination of the seven input arrays as the region found them. -/
theorem hF2 (ho : ∀ c, outs.o c = Cert.Proof.KV.comb (V5 m outs c main_v8_0) (V5 m outs c main_v8_1) (V5 m outs c main_v9) (V5 m outs c main_v10)
      (V5 m outs c main_v8_2) (V5 m outs c main_v2_0) (V5 m outs c main_v2_1)) (c : Dev nD) (w : Fin cfg2.W) :
    (pdats m outs 1 c).arrAt w cfg2.N = W6 m outs c (r (Pipeline.arrRef spec2 w)) := by
  rw [pdats_one]
  by_cases hw : w.val < 7
  · rw [arrAt2_in _ c w hw]
    unfold W6
    exact (Function.update_of_ne (StableHlo.devRef_ne_of_ne fun e => by
      have h7 : w = 7 := launch2.win.arr_inj e
      rw [h7] at hw; exact absurd hw (by decide)) _ _).symm
  · have h7 : w = 7 := Fin.ext (by have h8 : w.val < 8 := w.isLt; show w.val = 7; omega)
    subst h7
    rw [arrAt2_out]
    unfold W6
    rw [Function.update_self]
    exact (ho c).symm

end Cert.Proof.R2

end
-- ==== Proof.KFrame.lean ====
/-
  The idealized kernel program's run, assembled: under the precondition's index range every weakly fair execution of
  the device's threads terminates, nothing faulting, the result buffer at the kernel's value function of the five
  arguments and the arguments as launched.
-/
import proofs.«215986_g81389630259714_cont_9to1_m_762_23_alg».proof.Proof.KLaunch
import proofs.«215986_g81389630259714_cont_9to1_m_762_23_alg».proof.Proof.KTileObl
import proofs.«215986_g81389630259714_cont_9to1_m_762_23_alg».proof.Proof.KOuts
import proofs.«215986_g81389630259714_cont_9to1_m_762_23_alg».proof.Proof.KPre
import proofs.«215986_g81389630259714_cont_9to1_m_762_23_alg».proof.Proof.PDats
import proofs.«215986_g81389630259714_cont_9to1_m_762_23_alg».proof.Proof.Reg1Seg
import proofs.«215986_g81389630259714_cont_9to1_m_762_23_alg».proof.Proof.Reg1HF
import proofs.«215986_g81389630259714_cont_9to1_m_762_23_alg».proof.Proof.Reg2

noncomputable section

namespace Cert.Proof.KI

open Cert.KernelIdeal Cert.KernelIdeal.Gen
open Idealize.ShloMosaic Idealize.SL.Sem
open Idealize.ShloMosaic.SparseCore.Cfg (HIx)

variable {F : FTy → Type} [FloatOps F] [Named F] (m : (ℓ : Loc nD τ sig) → Buf (Elt F) ℓ) (ρ : Dev nD → PrngReg)

/-- The precondition gives the index range the gathers need. -/
theorem preOK_of
    (h : ∀ c : Dev nD, Cert.Pre_input_domain.fn (F := F) (m (tl c main_arg0)) (m (tl c main_arg1)) (m (tl c main_arg2)) (m (tl c main_arg3)) (m (tl c main_arg4)) = fun _ => 1#1) :
    PreOK m := fun d j => Cert.Proof.KP.idx_lt _ _ _ _ _ (h d) j

/-- THE RUN. -/
theorem run [∀ e, Nonempty (Elt F e)] (hpre : PreOK m) :
    θ_run (Cert.KernelIdeal.defs (F := F)) (Cert.KernelIdeal.threads (F := F)) ⟨m, fun _ => 0, ρ⟩ (QC m (outsK m)) :=
  run_cond m ρ (outsK m) (pdats m (outsK m))
    (Cert.Proof.R1.reg1 m (outsK m) (Cert.Proof.R1.hF1 m (outsK m) (s_eq m) (p_eq m) (w_eq m)))
    (Cert.Proof.R2.reg2 m (outsK m) (Cert.Proof.R2.hF2 m (outsK m) (o_eq m)))
    (fun _ => .rfl) (fun _ => .rfl) (fun _ => .rfl) (fun _ => .rfl)
    (tileObl m (outsK m) facts hpre (hg0 m) (hg1 m)) (SparseCore.Cfg.VecSplit.of_plain (vecSplit m (outsK m)))

end Cert.Proof.KI

end
-- ==== Proof.BKLaunch.lean ====
/-
  The idealized kernel program as its launch sees it: one vector-subcore call on 2 x 16 tiles (tile (c, s) fetches
  the 64 indices  idx[64 (2 s + c) ..]  and gathers the two tables at them into the same 64 places of two rows),
  then two TensorCore regions (the row sums and last-occurrence indices over six grid points; the final combination),
  with reshapes between them. This module fixes the names, the buffers' contents between the items of the main
  program, what each handshake carries, and states what the tile, the split among tiles, the launch element and the
  main program owe.
-/
import proofs.«215986_g81389630259714_cont_9to1_m_762_23_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Frame
import Idealize.ShloMosaic.Lib.Pipeline.Regions
import Idealize.ShloMosaic.Lib.Tactic
import proofs.«215986_g81389630259714_cont_9to1_m_762_23_alg».proof.Proof.Gen.Kernel
import proofs.«215986_g81389630259714_cont_9to1_m_762_23_alg».proof.Proof.Gen.Kernel.Skeleton
import proofs.«215986_g81389630259714_cont_9to1_m_762_23_alg».proof.Proof.Gen.Kernel.Launch
import proofs.«215986_g81389630259714_cont_9to1_m_762_23_alg».proof.Proof.Gen.Kernel.Points

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)
open Idealize.ShloMosaic.Pipeline (Dat RegionSeg)

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the tiles' transfer counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  (Emb.inl : Emb UP (UP × Counters)).trans (embR : Emb (UP × Counters) (MT nD τ sig (HIx 1) (Elt F) ℕ UU ℕ))
instance EP_landsIn : (EP : Emb UP 𝕄).LandsIn (upEmb : UEmb _ 𝕄) := by unfold EP embR; infer_instance

/-! ## The main program's host operations and the buffers' contents between its items -/

variable [FloatOps F]

abbrev opR0 : HloOp τ sig (Elt F) := StableHlo.reshape main_arg3 main_v0 rfl shapeCasts_S100000x1_S100000
abbrev opR1 : HloOp τ sig (Elt F) := StableHlo.reshape main_arg4 main_v1 rfl shapeCasts_S100000x1_S100000
abbrev opR3 : HloOp τ sig (Elt F) := StableHlo.reshape main_arg0 main_v3 rfl shapeCasts_S2048_S2048x1
abbrev opR4 : HloOp τ sig (Elt F) := StableHlo.reshape main_arg1 main_v4 rfl shapeCasts_S8192_S8192x1
abbrev opR5 : HloOp τ sig (Elt F) := StableHlo.reshape main_arg0 main_v5 rfl shapeCasts_S2048_S1x2048
abbrev opR6 : HloOp τ sig (Elt F) := StableHlo.reshape main_arg2 main_v6 rfl shapeCasts_S2048_S2048x1
abbrev opR7 : HloOp τ sig (Elt F) := StableHlo.reshape main_arg2 main_v7 rfl shapeCasts_S2048_S1x2048
abbrev opR9 : HloOp τ sig (Elt F) := StableHlo.reshape main_v8_0 main_v9 rfl shapeCasts_S1x2048_S2048x1
abbrev opR10 : HloOp τ sig (Elt F) := StableHlo.reshape main_v8_1 main_v10 rfl shapeCasts_S1x2048_S2048x1
abbrev opR12 : HloOp τ sig (Elt F) := StableHlo.reshape main_v11 main_v12 rfl shapeCasts_S1x1_S_

abbrev r (b : Ref sig .tc) : DevRef τ sig := Proc.devRef .tc b
/-- A TensorCore buffer of device `d`, as a location. -/
abbrev tl (d : Dev nD) (b : Ref sig .tc) : Loc nD τ sig := (SparseCore.T (τ := τ) d).loc b

variable (m : (ℓ : Loc nD τ sig) → Buf (Elt F) ℓ) (ρ : Dev nD → PrngReg)

/-- What the call and the two regions leave in their result buffers: named here, determined by the tile's and the
    bodies' proofs. -/
structure Outs (F : FTy → Type) where
  g0 : (d : Dev nD) → Buf (Elt F) (tl d main_v2_0)
  g1 : (d : Dev nD) → Buf (Elt F) (tl d main_v2_1)
  s : (d : Dev nD) → Buf (Elt F) (tl d main_v8_0)
  p : (d : Dev nD) → Buf (Elt F) (tl d main_v8_1)
  w : (d : Dev nD) → Buf (Elt F) (tl d main_v8_2)
  o : (d : Dev nD) → Buf (Elt F) (tl d main_v11)

variable (outs : Outs F)

/-- At launch. -/
def W0 (d : Dev nD) : Valuation τ sig (Elt F) := fun b => m (d, b)
/-- After the two tables are flattened. -/
def W1 (d : Dev nD) : Valuation τ sig (Elt F) := (opR1 (F := F)).result ((opR0 (F := F)).result (W0 m d))
/-- After the gather call. -/
def W2 (d : Dev nD) : Valuation τ sig (Elt F) :=
  Function.update (Function.update (W1 m d) (r main_v2_0) (outs.g0 d)) (r main_v2_1) (outs.g1 d)
/-- The reshapes between the items, as lists. -/
abbrev hostA : List (HloOp τ sig (Elt F)) := [opR3, opR4, opR5, opR6, opR7]
abbrev hostB : List (HloOp τ sig (Elt F)) := [opR9, opR10]
abbrev hostC : List (HloOp τ sig (Elt F)) := [opR12]
/-- After the five reshapes that feed the first region. -/
def W3 (d : Dev nD) : Valuation τ sig (Elt F) := StableHlo.after (hostA (F := F)) (W2 m outs d)
/-- After the first region. -/
def W4 (d : Dev nD) : Valuation τ sig (Elt F) :=
  Function.update (Function.update (Function.update (W3 m outs d) (r main_v8_0) (outs.s d)) (r main_v8_1) (outs.p d)) (r main_v8_2) (outs.w d)
/-- After the two reshapes that feed the second region. -/
def W5 (d : Dev nD) : Valuation τ sig (Elt F) := StableHlo.after (hostB (F := F)) (W4 m outs d)
/-- After the second region. -/
def W6 (d : Dev nD) : Valuation τ sig (Elt F) := Function.update (W5 m outs d) (r main_v11) (outs.o d)
/-- At the end. -/
def W7 (d : Dev nD) : Valuation τ sig (Elt F) := StableHlo.after (hostC (F := F)) (W6 m outs d)

/-! ## The TensorCore's state between the items after the call, and the tail of the main program -/

/-- The prefetched tables' admissible contents: no pallas_call has a table. -/
abbrev adm : (p : Fin 2) → (pcfgs (F := F) p).Adm := fun p => (cfgs p).toPCfg_adm

/-- After the call the TensorCore owes nothing; what its waits have recorded sits below the handshakes. Its generator
    register rides along at some state (the regions' invariants take it in and give it back). -/
def Owe (d : Dev nD) : sProp 𝕄 :=
  iprop((∃ rg, prngReg d rg) ∗ ∃ Wt, ⌜(K (F := F)).WBelow (SparseCore.T d) Wt 8⌝ ∗ owes (SparseCore.T (τ := τ) d) (0 : CellTallies nD τ sig (HIx 1)) Wt)

/-- Every unscoped TensorCore buffer whole at a valuation, and nothing owed. -/
def TS (W : Dev nD → Valuation τ sig (Elt F)) (d : Dev nD) : sProp 𝕄 :=
  iprop(held (SparseCore.T (τ := τ) d) (Pipeline.ucRefs τ sig) (W d) ∗ Owe (F := F) d)

theorem hostA_sub : ∀ op ∈ (hostA (F := F)), op.bufs ⊆ Pipeline.ucRefs τ sig := by
  intro op h
  simp only [List.mem_cons, List.not_mem_nil, or_false] at h
  rcases h with rfl | rfl | rfl | rfl | rfl <;> exact Pipeline.sub_ucRefs _ (StableHlo.reshape_bufs_sub _ _ _ _ _ _)
theorem hostB_sub : ∀ op ∈ (hostB (F := F)), op.bufs ⊆ Pipeline.ucRefs τ sig := by
  intro op h
  simp only [List.mem_cons, List.not_mem_nil, or_false] at h
  rcases h with rfl | rfl <;> exact Pipeline.sub_ucRefs _ (StableHlo.reshape_bufs_sub _ _ _ _ _ _)
theorem hostC_sub : ∀ op ∈ (hostC (F := F)), op.bufs ⊆ Pipeline.ucRefs τ sig := by
  intro op h
  simp only [List.mem_cons, List.not_mem_nil, or_false] at h
  rcases h with rfl; exact Pipeline.sub_ucRefs _ (StableHlo.reshape_bufs_sub _ _ _ _ _ _)
theorem hostA_fresh : ∀ op ∈ (hostA (F := F)), op.fresh = ∅ := by
  intro op h
  simp only [List.mem_cons, List.not_mem_nil, or_false] at h
  rcases h with rfl | rfl | rfl | rfl | rfl <;> rfl
theorem hostB_fresh : ∀ op ∈ (hostB (F := F)), op.fresh = ∅ := by
  intro op h
  simp only [List.mem_cons, List.not_mem_nil, or_false] at h
  rcases h with rfl | rfl <;> rfl
theorem hostC_fresh : ∀ op ∈ (hostC (F := F)), op.fresh = ∅ := by
  intro op h
  simp only [List.mem_cons, List.not_mem_nil, or_false] at h
  rcases h with rfl; rfl

section Tail

variable (pdats : (p : Fin 2) → (c : Dev nD) → Dat τ (Elt F) (HIx 1) ℕ UU ℕ (cfgs p) c)

abbrev LL : GSem nD τ sig → Finset (HIx 1) := (K (F := F)).L
abbrev lvv : GSem nD τ sig → HIx 1 → ℕ := (K (F := F)).lev

abbrev RSeg (p : Fin 2) : Type _ := RegionSeg (pcfgs (F := F)) adm pdats (none : HIx 1) defs₀ 𝒱₀ (LL (F := F)) (lvv (F := F)) p
abbrev HSeg : Type _ := Pipeline.HostSeg (Ix := HIx 1) (Name := ℕ) (U := UU) (Lvl := ℕ) (pcfgs (F := F)) defs₀ 𝒱₀ (LL (F := F)) (lvv (F := F))

def segA : HSeg (F := F) := Pipeline.HostSeg.ofOps _ _ _ _ _ (Pipeline.ucRefs τ sig) hostA hostA_sub hostA_fresh (W2 m outs) (Owe (F := F))
def segB : HSeg (F := F) := Pipeline.HostSeg.ofOps _ _ _ _ _ (Pipeline.ucRefs τ sig) hostB hostB_sub hostB_fresh (W4 m outs) (Owe (F := F))
def segC : HSeg (F := F) := Pipeline.HostSeg.ofOps _ _ _ _ _ (Pipeline.ucRefs τ sig) hostC hostC_sub hostC_fresh (W6 m outs) (Owe (F := F))

/-- The main program after the call, as host stretches and regions. -/
abbrev segs (R1 : RSeg (F := F) pdats 0) (R2 : RSeg (F := F) pdats 1) :
    List (Pipeline.Seg (pcfgs (F := F)) adm pdats (none : HIx 1) defs₀ 𝒱₀ (LL (F := F)) (lvv (F := F))) :=
  [.host (segA m outs), .region R1, .host (segB m outs), .region R2, .host (segC m outs)]

/-- THE TAIL. Given each region's record, entered from this module's state before it and left at the one after it, the
    main program after the call runs from "all buffers at W2, nothing owed" to "all buffers at W7, nothing owed". -/
theorem tail (R1 : RSeg (F := F) pdats 0) (R2 : RSeg (F := F) pdats 1)
    (hpre1 : ∀ d, TS (W3 m outs) d ⊢ R1.pre d) (hpost1 : ∀ d, R1.post d ⊢ TS (W4 m outs) d)
    (hpre2 : ∀ d, TS (W5 m outs) d ⊢ R2.pre d) (hpost2 : ∀ d, R2.post d ⊢ TS (W6 m outs) d)
    (d : Dev nD) {Q : PUnit → sProp 𝕄} :
    iprop((iprop(boundary (SparseCore.T (τ := τ) d) ∗ TS (W7 m outs) d) -∗ Q ⟨⟩)
        ∗ boundary (SparseCore.T (τ := τ) d) ∗ TS (W2 m outs) d ∗ levAts (LL (F := F)) (lvv (F := F))
        ∗ Pipeline.ghostOn (pcfgs (F := F)) adm EP Finset.univ d)
      ⊢ wp frame (wpE (D (F := F)) 𝒱 (SparseCore.T (τ := τ) d) none) Set.univ (Pipeline.Seg.run (segs m outs pdats R1 R2)) Q :=
  Pipeline.wp_segs (pcfgs (F := F)) adm pdats (none : HIx 1) cellOf_inj EP defs₀ 𝒱₀ (LL (F := F)) (lvv (F := F)) d
    (segs m outs pdats R1 R2) Finset.univ (TS (W2 m outs)) (TS (W7 m outs)) (show ([0, 1] : List (Fin 2)).Nodup by decide) (fun p _ => Finset.mem_univ p)
    ⟨fun c => BI.Entails.refl _, fun c => hpre1 c, fun c => hpost1 c, fun c => hpre2 c, fun c => hpost2 c, fun c => BI.Entails.refl _⟩

end Tail

/-! ## The call: which places of the two result rows a tile writes, how the tables are shared out, what the handshakes carry -/

/-- Tile `(c, s)` as the kernel's coordinates. -/
def coordsV (c : Fin (grid0.bound 0)) (s : Fin (grid0.bound 1)) : grid0.Coords :=
  fun | 0 => c | 1 => s | ⟨_ + 2, h⟩ => absurd h (Nat.not_lt.2 (Nat.le_add_left _ _))

/-- The 64 places of a result row that tile `L` writes, as the kernel slices them. -/
abbrev oRect (L : grid0.Coords) : Rect S1x2048 := Rect.unit (s := S1x2048) (k0_off2 L) S1x64.size (k0_off2_inb L)
abbrev oSet (L : grid0.Coords) : Finset S1x2048.Idx :=
  ((Memref.whole main_v2_0_scv : Memref sig .scVector .hbm S1x2048 .f32).view.slice (oRect L)).set
/-- The 64 indices tile `L` fetches. -/
abbrev iRect (L : grid0.Coords) : Rect S2048 := Rect.unit (s := S2048) (k0_off1 L) S64.size (k0_off1_inb L)

/-- Leaf `i` of the depth-`n` halving of a share: the index array and the two tables are read by every tile at once. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩
/-- A SparseCore's share, and a tile's. -/
abbrev shC (c : Fin 2) : PosShare TreeShare := leaf 1 fullShare c
abbrev shT (c : Fin 2) (s : Fin 16) : PosShare TreeShare := leaf 4 (shC c) s

/-- What a SparseCore reads: the indices and the two flattened tables, at its share. -/
def scIn (d : Dev nD) (c : Fin 2) : sProp 𝕄 :=
  iprop((tl d main_arg2 ↦{shC c} W1 m d (r main_arg2)) ∗ (tl d main_v0 ↦{shC c} W1 m d (r main_v0)) ∗ (tl d main_v1 ↦{shC c} W1 m d (r main_v1)))
/-- What a tile reads. -/
def tIn (d : Dev nD) (c : Fin 2) (s : Fin 16) : sProp 𝕄 :=
  iprop((tl d main_arg2 ↦{shT c s} W1 m d (r main_arg2)) ∗ (tl d main_v0 ↦{shT c s} W1 m d (r main_v0)) ∗ (tl d main_v1 ↦{shT c s} W1 m d (r main_v1)))
/-- A tile's places of the two result rows, at given contents. -/
def tOut (d : Dev nD) (c : Fin 2) (s : Fin 16) (f0 : Buf (Elt F) (tl d main_v2_0)) (f1 : Buf (Elt F) (tl d main_v2_1)) : sProp 𝕄 :=
  iprop((tl d main_v2_0 ↦[oSet (coordsV c s)]{fullShare} f0) ∗ (tl d main_v2_1 ↦[oSet (coordsV c s)]{fullShare} f1))
/-- A SparseCore's: its sixteen tiles'. -/
def scOut (d : Dev nD) (c : Fin 2) (f0 : Buf (Elt F) (tl d main_v2_0)) (f1 : Buf (Elt F) (tl d main_v2_1)) : sProp 𝕄 :=
  bigSep Finset.univ fun s : Fin 16 => tOut d c s f0 f1

/-- The one call: each SparseCore takes its share of the indices and tables and its tiles' places of the two result
    rows, each tile its own; they come back with the places at what the gathers left there. -/
def P : (K (F := F)).Pay (nD := nD) (Val := Elt F) (Name := ℕ) (U := UU) where
  st := fun q d c => match q, c with
    | 0, c => iprop(scIn m d (Fin.cast nCore_zero c) ∗ scOut d (Fin.cast nCore_zero c) (W1 m d (r main_v2_0)) (W1 m d (r main_v2_1)))
  dn := fun q d c => match q, c with
    | 0, c => iprop(scIn m d (Fin.cast nCore_zero c) ∗ scOut d (Fin.cast nCore_zero c) (outs.g0 d) (outs.g1 d))
  go := fun q d c i => match q, c, i with
    | 0, c, i => iprop(tIn m d (Fin.cast nCore_zero c) (Fin.cast nSub_zero i)
        ∗ tOut d (Fin.cast nCore_zero c) (Fin.cast nSub_zero i) (W1 m d (r main_v2_0)) (W1 m d (r main_v2_1)))
  td := fun q d c i => match q, c, i with
    | 0, c, i => iprop(tIn m d (Fin.cast nCore_zero c) (Fin.cast nSub_zero i)
        ∗ tOut d (Fin.cast nCore_zero c) (Fin.cast nSub_zero i) (outs.g0 d) (outs.g1 d))
  x := fun _ _ => iprop(emp)

instance P_storable : (P (F := F) m outs).IsStorable where
  st q d c := match q, c with
    | 0, c => by unfold P scIn scOut tOut; dsimp only; infer_instance
  dn q d c := match q, c with
    | 0, c => by unfold P scIn scOut tOut; dsimp only; infer_instance
  go q d c i := match q, c, i with
    | 0, c, i => by unfold P tIn tOut; dsimp only; infer_instance
  td q d c i := match q, c, i with
    | 0, c, i => by unfold P tIn tOut; dsimp only; infer_instance

/-- What the main program leaves the claim: the result and the five arguments. -/
def FIN (d : Dev nD) : sProp 𝕄 :=
  iprop((tl d main_v12 ↦{fullShare} W7 m outs d (r main_v12))
    ∗ (tl d main_arg0 ↦{fullShare} m (tl d main_arg0)) ∗ (tl d main_arg1 ↦{fullShare} m (tl d main_arg1)) ∗ (tl d main_arg2 ↦{fullShare} m (tl d main_arg2))
    ∗ (tl d main_arg3 ↦{fullShare} m (tl d main_arg3)) ∗ (tl d main_arg4 ↦{fullShare} m (tl d main_arg4)))

/-! ## The main program on the TensorCore -/

/-- The buffers the call takes: the indices, the two flattened tables, the two result rows. -/
abbrev Ssc : Finset (DevRef τ sig) := {r main_arg2, r main_v0, r main_v1, r main_v2_0, r main_v2_1}

/-- A tile's places of a result row: the 64 from 128 s + 64 c on. -/
theorem mem_oSet (c : Fin 2) (s : Fin 16) (j : S1x2048.Idx) :
    j ∈ oSet (coordsV c s) ↔ 128 * s.val + 64 * c.val ≤ (j 1).val ∧ (j 1).val < 128 * s.val + 64 * c.val + 64 := by
  show j ∈ ((View.whole (main_v2_0_scv : Ref sig .scVector)).slice (oRect (coordsV c s))).set ↔ _
  rw [View.set_slice_whole, Rect.mem_set_unit, k0_off2_eq]
  constructor
  · intro h; have := h 1; simpa [coordsV] using this
  · intro h a
    match a with
    | 0 => have h0 : (j 0).val < 1 := (j 0).isLt; simp; omega
    | 1 => simpa [coordsV] using h

theorem oSet_disj : ∀ a ∈ (Finset.univ : Finset (Fin 2 × Fin 16)), ∀ b ∈ (Finset.univ : Finset (Fin 2 × Fin 16)), a ≠ b →
    Disjoint (oSet (coordsV a.1 a.2)) (oSet (coordsV b.1 b.2)) := by
  intro a _ b _ hab
  rw [Finset.disjoint_left]
  intro j ha hb
  rw [mem_oSet] at ha hb
  apply hab
  have h1 := a.1.isLt; have h2 := b.1.isLt
  exact Prod.ext (Fin.ext (by omega)) (Fin.ext (by omega))

theorem oSet_cover : (Finset.univ : Finset (Fin 2 × Fin 16)).biUnion (fun a => oSet (coordsV a.1 a.2)) = Finset.univ := by
  ext j
  simp only [Finset.mem_biUnion, Finset.mem_univ, true_and, iff_true]
  have hj : (j 1).val < 2048 := (j 1).isLt
  refine ⟨(⟨((j 1).val / 64) % 2, Nat.mod_lt _ (by norm_num)⟩, ⟨(j 1).val / 128, by omega⟩), ?_⟩
  rw [mem_oSet]
  simp only []
  omega

theorem bigSep_fin2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem shC_zero : shC 0 = fullShare.left := rfl
theorem shC_one : shC 1 = fullShare.right := rfl

/-- A buffer at the full share is the two SparseCores' shares of it. -/
theorem in_split {ℓ : Loc nD τ sig} (f : Buf (Elt F) ℓ) :
    (ℓ ↦{fullShare} f : sProp 𝕄) = bigSep Finset.univ fun c : Fin 2 => ℓ ↦{shC c} f := by
  rw [bigSep_fin2, shC_zero, shC_one]
  exact BI.Entails.antisymm (pointsTo_share (PosShare.mem_left_op_right fullShare)).1 (pointsTo_share (PosShare.mem_left_op_right fullShare)).2

/-- A result row is its 32 tiles' places, grouped by SparseCore. -/
theorem out0_split (d : Dev nD) (f : Buf (Elt F) (tl d main_v2_0)) :
    (tl d main_v2_0 ↦{fullShare} f : sProp 𝕄)
      = bigSep Finset.univ fun c : Fin 2 => bigSep Finset.univ fun s : Fin 16 => tl d main_v2_0 ↦[oSet (coordsV c s)]{fullShare} f := by
  rw [← bigSep_univ_prod (fun a : Fin 2 × Fin 16 => (tl d main_v2_0 ↦[oSet (coordsV a.1 a.2)]{fullShare} f : sProp 𝕄)),
    ← pointsTo_biUnion Finset.univ (ℓ := tl d main_v2_0) (fun a : Fin 2 × Fin 16 => oSet (coordsV a.1 a.2)) oSet_disj, oSet_cover]
  try rfl
theorem out1_split (d : Dev nD) (f : Buf (Elt F) (tl d main_v2_1)) :
    (tl d main_v2_1 ↦{fullShare} f : sProp 𝕄)
      = bigSep Finset.univ fun c : Fin 2 => bigSep Finset.univ fun s : Fin 16 => tl d main_v2_1 ↦[oSet (coordsV c s)]{fullShare} f := by
  rw [← bigSep_univ_prod (fun a : Fin 2 × Fin 16 => (tl d main_v2_1 ↦[oSet (coordsV a.1 a.2)]{fullShare} f : sProp 𝕄)),
    ← pointsTo_biUnion Finset.univ (ℓ := tl d main_v2_1) (fun a : Fin 2 × Fin 16 => oSet (coordsV a.1 a.2)) oSet_disj, oSet_cover]
  try rfl

/-- The two SparseCores' operands, together: the three inputs whole and the two result rows whole. -/
theorem sc_bundle (d : Dev nD) (f0 : Buf (Elt F) (tl d main_v2_0)) (f1 : Buf (Elt F) (tl d main_v2_1)) :
    (bigSep Finset.univ fun c : Fin 2 => iprop(scIn m d c ∗ scOut (F := F) d c f0 f1))
      = iprop(((tl d main_arg2 ↦{fullShare} W1 m d (r main_arg2)) ∗ (tl d main_v0 ↦{fullShare} W1 m d (r main_v0)) ∗ (tl d main_v1 ↦{fullShare} W1 m d (r main_v1)))
          ∗ (tl d main_v2_0 ↦{fullShare} f0) ∗ (tl d main_v2_1 ↦{fullShare} f1)) := by
  unfold scIn scOut tOut
  simp only [bigSep_sep']
  rw [← in_split, ← in_split, ← in_split, ← out0_split, ← out1_split]

theorem Ssc_sub : (Ssc : Finset (DevRef τ sig)) ⊆ Pipeline.ucRefs τ sig := by decide

theorem held_Ssc (d : Dev nD) (W : Valuation τ sig (Elt F)) :
    (held (SparseCore.T (τ := τ) d) Ssc W : sProp 𝕄)
      = iprop((tl d main_arg2 ↦{fullShare} W (r main_arg2)) ∗ (tl d main_v0 ↦{fullShare} W (r main_v0)) ∗ (tl d main_v1 ↦{fullShare} W (r main_v1))
          ∗ (tl d main_v2_0 ↦{fullShare} W (r main_v2_0)) ∗ (tl d main_v2_1 ↦{fullShare} W (r main_v2_1))) := by
  unfold held Ssc
  rw [SparseCore.bigSep_insert' (by decide), SparseCore.bigSep_insert' (by decide), SparseCore.bigSep_insert' (by decide),
    SparseCore.bigSep_insert' (by decide), bigSep_singleton]

theorem st_eq (d : Dev nD) :
    (bigSep Finset.univ fun c : Fin ((K (F := F)).nCore 0) => (P m outs).st 0 d c)
      = bigSep Finset.univ fun c : Fin 2 => iprop(scIn m d c ∗ scOut (F := F) d c (W1 m d (r main_v2_0)) (W1 m d (r main_v2_1))) := rfl
theorem dn_eq (d : Dev nD) :
    (bigSep Finset.univ fun c : Fin ((K (F := F)).nCore 0) => (P m outs).dn 0 d c)
      = bigSep Finset.univ fun c : Fin 2 => iprop(scIn m d c ∗ scOut (F := F) d c (outs.g0 d) (outs.g1 d)) := rfl

/-- Before the call: the operands go to the two SparseCores, the rest stays. -/
theorem held_st (d : Dev nD) :
    (held (SparseCore.T (τ := τ) d) (Pipeline.ucRefs τ sig) (W1 m d) : sProp 𝕄)
      ⊢ iprop((bigSep Finset.univ fun c : Fin ((K (F := F)).nCore 0) => (P m outs).st 0 d c)
          ∗ held (SparseCore.T (τ := τ) d) (Pipeline.ucRefs τ sig \ Ssc) (W1 m d)) := by
  rw [StableHlo.held_sub_split _ Ssc_sub (W1 m d), held_Ssc, st_eq, sc_bundle]
  iintro ⟨⟨A, B, C, D, E⟩, R⟩
  isplitr [R]
  · isplitl [A B C]
    · isplitl [A]; · iexact A
      isplitl [B]; · iexact B
      iexact C
    isplitl [D]; · iexact D
    iexact E
  iexact R

theorem W2_g0 (d : Dev nD) : W2 m outs d (r main_v2_0) = outs.g0 d :=
  (Function.update_of_ne (show (r main_v2_0 : DevRef τ sig) ≠ r main_v2_1 by decide) _ _).trans (Function.update_self _ _ _)
theorem W2_g1 (d : Dev nD) : W2 m outs d (r main_v2_1) = outs.g1 d := Function.update_self _ _ _
theorem W2_of (d : Dev nD) (b : DevRef τ sig) (h0 : b ≠ r main_v2_0) (h1 : b ≠ r main_v2_1) : W2 m outs d b = W1 m d b :=
  (Function.update_of_ne h1 _ _).trans (Function.update_of_ne h0 _ _)

/-- After it: the operands come back, the result rows at what the tiles left. -/
theorem dn_held (d : Dev nD) :
    iprop((bigSep Finset.univ fun c : Fin ((K (F := F)).nCore 0) => (P m outs).dn 0 d c)
        ∗ held (SparseCore.T (τ := τ) d) (Pipeline.ucRefs τ sig \ Ssc) (W1 m d))
      ⊢ (held (SparseCore.T (τ := τ) d) (Pipeline.ucRefs τ sig) (W2 m outs d) : sProp 𝕄) := by
  rw [StableHlo.held_sub_split _ Ssc_sub (W2 m outs d), held_Ssc, dn_eq, sc_bundle, W2_g0, W2_g1,
    W2_of m outs d (r main_arg2) (by decide) (by decide), W2_of m outs d (r main_v0) (by decide) (by decide), W2_of m outs d (r main_v1) (by decide) (by decide),
    StableHlo.held_congr (SparseCore.T (τ := τ) d) (V := W2 m outs d) (V' := W1 m d) (S := Pipeline.ucRefs τ sig \ Ssc) fun b hb => W2_of m outs d b
      (fun e => (Finset.mem_sdiff.mp hb).2 (e ▸ by decide)) (fun e => (Finset.mem_sdiff.mp hb).2 (e ▸ by decide))]
  iintro ⟨⟨⟨A, B, C⟩, D, E⟩, R⟩
  isplitr [R]
  · isplitl [A]; · iexact A
    isplitl [B]; · iexact B
    isplitl [C]; · iexact C
    isplitl [D]; · iexact D
    iexact E
  iexact R

/-- The buffers some item of the main program writes. -/
abbrev wr : List (Ref sig .tc) :=
  [main_v0, main_v1, main_v2_0, main_v2_1, main_v3, main_v4, main_v5, main_v6, main_v7, main_v8_0, main_v8_1, main_v8_2, main_v9, main_v10, main_v11, main_v12]

theorem ne_wr {b y : Ref sig .tc} (hb : b ∉ wr) (hy : y ∈ wr) : (r b : DevRef τ sig) ≠ r y :=
  StableHlo.devRef_ne_of_ne fun e => hb (e ▸ hy)

theorem nw {b x y : Ref sig .tc} (he hn hx hy) (h : (r b : DevRef τ sig) ≠ r y) :
    (r b : DevRef τ sig) ∉ (StableHlo.reshape (τ := τ) (Val := Elt F) x y he hn hx hy).writes := fun hm => h (Finset.mem_singleton.mp hm)

/-- A buffer no item writes holds its launch contents at the end. -/
theorem W7_keep (d : Dev nD) (b : Ref sig .tc) (hb : b ∉ wr) : W7 m outs d (r b) = m (tl d b) := by
  unfold W7 W6 W5 W4 W3 W2 W1
  rw [StableHlo.after_of_forall_not_mem hostC _ (by
      intro op h; simp only [List.mem_cons, List.not_mem_nil, or_false] at h; rcases h with rfl
      exact nw _ _ _ _ (ne_wr hb (by decide))),
    Function.update_of_ne (ne_wr hb (by decide)),
    StableHlo.after_of_forall_not_mem hostB _ (by
      intro op h; simp only [List.mem_cons, List.not_mem_nil, or_false] at h; rcases h with rfl | rfl
      · exact nw _ _ _ _ (ne_wr hb (by decide))
      · exact nw _ _ _ _ (ne_wr hb (by decide))),
    Function.update_of_ne (ne_wr hb (by decide)), Function.update_of_ne (ne_wr hb (by decide)), Function.update_of_ne (ne_wr hb (by decide)),
    StableHlo.after_of_forall_not_mem hostA _ (by
      intro op h; simp only [List.mem_cons, List.not_mem_nil, or_false] at h; rcases h with rfl | rfl | rfl | rfl | rfl
      · exact nw _ _ _ _ (ne_wr hb (by decide))
      · exact nw _ _ _ _ (ne_wr hb (by decide))
      · exact nw _ _ _ _ (ne_wr hb (by decide))
      · exact nw _ _ _ _ (ne_wr hb (by decide))
      · exact nw _ _ _ _ (ne_wr hb (by decide))),
    Function.update_of_ne (ne_wr hb (by decide)), Function.update_of_ne (ne_wr hb (by decide)),
    (opR1 (F := F)).result_of_not_mem _ (nw _ _ _ _ (ne_wr hb (by decide))), (opR0 (F := F)).result_of_not_mem _ (nw _ _ _ _ (ne_wr hb (by decide)))]
  rfl

abbrev Sfin : Finset (DevRef τ sig) := {r main_v12, r main_arg0, r main_arg1, r main_arg2, r main_arg3, r main_arg4}
theorem Sfin_sub : (Sfin : Finset (DevRef τ sig)) ⊆ Pipeline.ucRefs τ sig := by decide

/-- At the end the result buffer and the five arguments are read off the last valuation. -/
theorem fin_of_held (d : Dev nD) :
    (held (SparseCore.T (τ := τ) d) (Pipeline.ucRefs τ sig) (W7 m outs d) : sProp 𝕄) ⊢ FIN m outs d := by
  rw [StableHlo.held_sub_split _ Sfin_sub (W7 m outs d)]
  unfold held Sfin FIN
  rw [SparseCore.bigSep_insert' (by decide), SparseCore.bigSep_insert' (by decide), SparseCore.bigSep_insert' (by decide),
    SparseCore.bigSep_insert' (by decide), SparseCore.bigSep_insert' (by decide), bigSep_singleton,
    W7_keep m outs d main_arg0 (by decide), W7_keep m outs d main_arg1 (by decide), W7_keep m outs d main_arg2 (by decide),
    W7_keep m outs d main_arg3 (by decide), W7_keep m outs d main_arg4 (by decide)]
  iintro ⟨H, -⟩
  iexact H

section Main

variable (pdats : (p : Fin 2) → (c : Dev nD) → Dat τ (Elt F) (HIx 1) ℕ UU ℕ (cfgs p) c)
  (R1 : RSeg (F := F) pdats 0) (R2 : RSeg (F := F) pdats 1)

/-- The main program: two reshapes, the call, the tail. -/
theorem main_eq (d : Dev nD) :
    main (F := F) d = hlo rfl (opR0 (F := F)) fun _ => hlo rfl (opR1 (F := F)) fun _ =>
      ((K (F := F)).run d 0) >>= fun _ => SparseCore.liftProg (Q := 1) (Pipeline.Seg.run (segs m outs pdats R1 R2)) := rfl

theorem hR0 : (opR0 (F := F)).bufs ⊆ Pipeline.ucRefs τ sig := Pipeline.sub_ucRefs _ (StableHlo.reshape_bufs_sub _ _ _ _ _ _)
theorem hR1 : (opR1 (F := F)).bufs ⊆ Pipeline.ucRefs τ sig := Pipeline.sub_ucRefs _ (StableHlo.reshape_bufs_sub _ _ _ _ _ _)

/-- THE MAIN PROGRAM on device `d`'s TensorCore, given the two regions' records: the two tables flattened, the call
    (the operands out to the two SparseCores and back), then the tail; the result and the arguments kept for the claim. -/
theorem hmain
    (hpre1 : ∀ d, TS (W3 m outs) d ⊢ R1.pre d) (hpost1 : ∀ d, R1.post d ⊢ TS (W4 m outs) d)
    (hpre2 : ∀ d, TS (W5 m outs) d ⊢ R2.pre d) (hpost2 : ∀ d, R2.post d ⊢ TS (W6 m outs) d)
    (κ : GSem nD τ sig → ℕ) (d : Dev nD) :
    iprop((K (F := F)).ctx EH (P m outs) κ ∗ (K (F := F)).tcSt EH d 0 ∗ (K (F := F)).tcRes m ρ d
        ∗ Pipeline.ghostOn (pcfgs (F := F)) adm EP Finset.univ d)
      ⊢ wp frame (wpE ((K (F := F)).defs (D (F := F))) 𝒱 (SparseCore.T d) none) Set.univ (main d)
          fun _ => iprop((K (F := F)).tcSt EH d 1 ∗ FIN m outs d) := by
  unfold SparseCore.Cfg.tcRes
  rw [show (unscopedBufs d (fun b => m ((SparseCore.T d).loc b)) : sProp 𝕄) = held (SparseCore.T (τ := τ) d) (Pipeline.ucRefs τ sig) (W0 m d)
    from Pipeline.unscopedBufs_held d (W0 m d), main_eq m outs pdats R1 R2 d]
  iintro ⟨#Hctx, Hst, ⟨Hb, Hheld, -, Hpr⟩, Hg⟩
  ihave Hlev := ((K (F := F)).ctx_levAts (EH := EH) (P := P m outs) κ) $$ Hctx
  -- the two tables flattened
  iapply (wp_hlo_within 𝒱 (SparseCore.T d) none Set.univ (op := opR0) (S := Pipeline.ucRefs τ sig) hR0 (V := W0 m d)) $$ [Hb Hheld]
  · isplitl [Hb] <;> iassumption
  iintro ⟨Hb, Hheld⟩
  iapply (wp_hlo_within 𝒱 (SparseCore.T d) none Set.univ (op := opR1) (S := Pipeline.ucRefs τ sig) hR1 (V := (opR0 (F := F)).result (W0 m d))) $$ [Hb Hheld]
  · isplitl [Hb] <;> iassumption
  iintro ⟨Hb, Hheld⟩
  -- the call
  rw [wp_bind]
  ihave Hheld := (Entails.of_eq (show (held (SparseCore.T (τ := τ) d) (Pipeline.ucRefs τ sig) ((opR1 (F := F)).result ((opR0 (F := F)).result (W0 m d))) : sProp 𝕄)
      = held (SparseCore.T (τ := τ) d) (Pipeline.ucRefs τ sig) (W1 m d) from rfl)) $$ Hheld
  ihave Hh := (held_st m outs d) $$ Hheld
  icases Hh with ⟨Hsts, Hrest⟩
  iapply ((K (F := F)).wp_run (D (F := F)) 𝒱 (EH := EH) (P := P m outs) κ d 0) $$ [Hst Hsts Hb Hrest Hg Hpr]
  isplitr; · iexact Hctx
  isplitl [Hst]; · iexact Hst
  isplitl [Hsts]; · iexact Hsts
  iintro ⟨Hst, Hdn⟩
  ihave Hheld := (dn_held m outs d) $$ [Hdn Hrest]
  · isplitl [Hdn] <;> iassumption
  -- what the TensorCore owes after its only call: nothing
  unfold SparseCore.Cfg.tcSt
  rw [(K (F := F)).Otc_end d (le_refl 1)]
  icases Hst with ⟨⟨%Wt, %hWt, HO⟩, Hrest1⟩
  -- the tail, in the certificate's own signature
  iapply ((K (F := F)).wp_liftProg (D (F := F)) 𝒱 (SparseCore.T d) Set.univ none _ _)
  iapply (tail m outs pdats R1 R2 hpre1 hpost1 hpre2 hpost2 d) $$ [Hb Hheld HO Hg Hrest1 Hpr]
  unfold TS Owe
  isplitl [Hrest1]
  · iintro ⟨Hb, Hheld, -, Howe⟩
    isplitl [Howe Hrest1]
    · isplitl [Howe]; · iexact Howe
      iexact Hrest1
    · iapply (fin_of_held m outs d); iexact Hheld
  isplitl [Hb]; · iexact Hb
  isplitl [Hheld HO Hpr]
  · isplitl [Hheld]; · iexact Hheld
    isplitl [Hpr]; · iexists _; iexact Hpr
    iexists Wt; isplitr; · ipureintro; exact hWt
    iexact HO
  isplitr; · iexact Hlev
  iexact Hg

end Main

/-! ## The launch element: the handshakes' rounds and the pipelines' staging cells -/

def u₀ : UU :=
  (initOf (K (F := F)).hsCells (K (F := F)).hsToks, (initOf (Pipeline.cells cfgs cellOf_inj) (Pipeline.launchToks cfgs cellOf_inj), 1))

theorem bigSep_emp' {I : Type} (s : Finset I) : (bigSep s fun _ => iprop(emp)) = (iprop(emp) : sProp 𝕄) := bigSep_emp_const s

theorem ghost_regroup :
    iprop((bigSep Finset.univ fun c : Dev nD => bigSep Finset.univ fun p : Fin 2 => Pipeline.cellsGhost cfgs EP p c)
        ∗ (bigSep Finset.univ fun c : Dev nD => bigSep Finset.univ fun p : Fin 2 => (Pipeline.toksInit cfgs EP p c : sProp 𝕄)))
      ⊢ bigSep Finset.univ fun c : Dev nD => Pipeline.ghostOn (pcfgs (F := F)) adm EP Finset.univ c := by
  rw [← bigSep_sep']
  exact bigSep_mono fun c _ => show iprop((bigSep Finset.univ fun p : Fin 2 => Pipeline.cellsGhost cfgs EP p c)
        ∗ bigSep Finset.univ fun p : Fin 2 => (Pipeline.toksInit cfgs EP p c : sProp 𝕄)) ⊢ Pipeline.ghostOn (pcfgs (F := F)) adm EP Finset.univ c
    from Entails.of_eq (by rw [← bigSep_sep']; rfl)

theorem hu₀ : (ownU (u₀ (F := F)) : sProp 𝕄)
    ⊢ |={Set.univ}=> iprop(BI.own (EH (initOf (K (F := F)).hsCells (K (F := F)).hsToks))
        ∗ (bigSep Finset.univ fun d : Dev nD => Pipeline.ghostOn (pcfgs (F := F)) adm EP Finset.univ d)
        ∗ bigSep Finset.univ fun thr : Thread nD τ => bigSep Finset.univ fun q : Fin 1 => (P m outs).x q thr) := by
  unfold u₀
  iintro Hu
  ihave H := (ownU_pair _ _) $$ Hu
  icases H with ⟨HH, HR⟩
  ihave H2 := (own_pair_emb embR _ _) $$ HR
  icases H2 with ⟨HP, -⟩
  ihave HP := (show (BI.own ((Emb.inl.trans embR) (initOf (Pipeline.cells cfgs cellOf_inj) (Pipeline.launchToks cfgs cellOf_inj))) : sProp 𝕄)
      ⊢ BI.own (EP (initOf (Pipeline.cells cfgs cellOf_inj) (Pipeline.launchToks cfgs cellOf_inj))) from .rfl) $$ HP
  imod (Pipeline.fund_ghost cfgs EP cellOf_inj) $$ HP with Hg
  imodintro
  isplitl [HH]; · iexact HH
  isplitl [Hg]; · iapply (ghost_regroup (F := F)); iexact Hg
  rw [show (bigSep Finset.univ fun thr : Thread nD τ => bigSep Finset.univ fun q : Fin 1 => (P (F := F) m outs).x q thr) = bigSep Finset.univ fun _ => iprop(emp) from
    bigSep_congr fun _ _ => bigSep_univ_of_subsingleton (0 : Fin 1), bigSep_emp']
  iempintro

/-! ## The final memory read -/

def fq (d : Dev nD) (s' : Phys nD τ sig (Elt F)) : Prop :=
  s'.mem.mem (tl d main_v12) = W7 m outs d (r main_v12)
    ∧ s'.mem.mem (tl d main_arg0) = m (tl d main_arg0) ∧ s'.mem.mem (tl d main_arg1) = m (tl d main_arg1) ∧ s'.mem.mem (tl d main_arg2) = m (tl d main_arg2)
    ∧ s'.mem.mem (tl d main_arg3) = m (tl d main_arg3) ∧ s'.mem.mem (tl d main_arg4) = m (tl d main_arg4)

theorem agree {ℓ : Loc nD τ sig} (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr; · ipureintro; exact funext fun i => h i (Finset.mem_univ i)
  iexact HSI

theorem hfin (d : Dev nD) (s' : Phys nD τ sig (Elt F)) : iprop(FIN m outs d ∗ SI s') ⊢ (⌜fq m outs d s'⌝ : sProp 𝕄) := by
  unfold FIN
  iintro ⟨⟨H0, H1, H2, H3, H4, H5⟩, HSI⟩
  ihave A := (agree _ s') $$ [H0 HSI]
  · isplitl [H0] <;> iassumption
  icases A with ⟨%h0, HSI⟩
  ihave A := (agree _ s') $$ [H1 HSI]
  · isplitl [H1] <;> iassumption
  icases A with ⟨%h1, HSI⟩
  ihave A := (agree _ s') $$ [H2 HSI]
  · isplitl [H2] <;> iassumption
  icases A with ⟨%h2, HSI⟩
  ihave A := (agree _ s') $$ [H3 HSI]
  · isplitl [H3] <;> iassumption
  icases A with ⟨%h3, HSI⟩
  ihave A := (agree _ s') $$ [H4 HSI]
  · isplitl [H4] <;> iassumption
  icases A with ⟨%h4, HSI⟩
  ihave A := (agree _ s') $$ [H5 HSI]
  · isplitl [H5] <;> iassumption
  icases A with ⟨%h5, -⟩
  ipureintro; exact ⟨h0, h1, h2, h3, h4, h5⟩

/-! ## The program's run, given the tile's task, the split among tiles and the two regions' records -/

def QC : PUnit × MemSt nD τ sig (Elt F) → Prop := fun rr => ∀ c : Dev nD,
  rr.2.mem (tl c main_v12) = W7 m outs c (r main_v12)
    ∧ rr.2.mem (tl c main_arg0) = m (tl c main_arg0) ∧ rr.2.mem (tl c main_arg1) = m (tl c main_arg1) ∧ rr.2.mem (tl c main_arg2) = m (tl c main_arg2)
    ∧ rr.2.mem (tl c main_arg3) = m (tl c main_arg3) ∧ rr.2.mem (tl c main_arg4) = m (tl c main_arg4)

theorem run_cond [∀ e, Nonempty (Elt F e)]
    (pdats : (p : Fin 2) → (c : Dev nD) → Dat τ (Elt F) (HIx 1) ℕ UU ℕ (cfgs p) c)
    (R1 : RSeg (F := F) pdats 0) (R2 : RSeg (F := F) pdats 1)
    (hpre1 : ∀ d, TS (W3 m outs) d ⊢ R1.pre d) (hpost1 : ∀ d, R1.post d ⊢ TS (W4 m outs) d)
    (hpre2 : ∀ d, TS (W5 m outs) d ⊢ R2.pre d) (hpost2 : ∀ d, R2.post d ⊢ TS (W6 m outs) d)
    (htile : (K (F := F)).TileObl (D (F := F)) 𝒱 (P m outs) v₀ 0) (hvec : (K (F := F)).VecSplit (P m outs) 0) :
    θ_run (Cert.Kernel.defs (F := F)) (Cert.Kernel.threads (F := F)) ⟨m, fun _ => 0, ρ⟩ (QC m outs) :=
  SparseCore.Cfg.θ_run_sc (K := K (F := F)) (D := D (F := F)) (𝒱 := 𝒱) (EH := EH) (P := P m outs) facts v₀
    (fun q hq => match q with | 0 => nomatch hq)
    (fun q _ => match q with | 0 => htile)
    (fun q _ => match q with | 0 => hvec)
    m ρ main (fun d => Pipeline.ghostOn (pcfgs (F := F)) adm EP Finset.univ d) (FIN m outs) (u₀ (F := F)) (sep_elim_left.trans (hu₀ m outs))
    (hmain m ρ outs pdats R1 R2 hpre1 hpost1 hpre2 hpost2) (fq m outs) (hfin m outs) (QC m outs) (fun _ h => h)

end Cert.Proof.KB

end
-- ==== Proof.BKVals.lean ====
/-
  What the idealized kernel computes, as pure functions of arrays (at any float instance):
  * the gather call: place j of a result row holds the table's entry at index idx[j];
  * the first region: for each column j of the 1 x 2048 rows, P[j] = sum over the 2048 positive scores v of
    max(0.6 - f[j] + v, 0)^2, accumulated at grid point 0 from zero; S[j] = P[j] plus the same sum over the 8192
    negative scores, one block of 2048 per grid point 1..4; W[j] = the greatest k with idx[k] = idx[j] (point 5);
  * the second region: the two moving averages at the last occurrence, and the mean of (up S - ua P) / ua^2.
  Each is the composition of the bodies' payloads in the order the grid runs them.
-/
import proofs.«215986_g81389630259714_cont_9to1_m_762_23_alg».proof.Defs
import proofs.«215986_g81389630259714_cont_9to1_m_762_23_alg».proof.Proof.Gen.Kernel.Skeleton
import Idealize.ShloMosaic.Lib.ValueIdx

noncomputable section

namespace Cert.Proof.KVB

open Cert.Kernel Cert.Kernel.Gen
open Idealize.ShloMosaic

variable {F : FTy → Type} [FloatOps F]

/-- The gathered row: place j holds the flattened table at idx[j] (an index past the table reads its last entry; under
    the precondition none is). -/
def gath (tbl : FVec F S100000 .f32) (idx : IVec S2048 32) : FVec F S1x2048 .f32 :=
  fun j => tbl (ValueIdx.ix1 ⟨min (idx (ValueIdx.ix1 (j 1))).toNat 99999, by omega⟩)

/-- Rows [2048 t, 2048 (t + 1)) of the negative scores' column. -/
def negBlk (x4 : Vec F S8192x1 .f32) (t : Fin 4) : Vec F S2048x1 .f32 :=
  fun y => x4 (ValueIdx.ix2 ⟨2048 * t.val + (y 0).val, by have h : (y 0).val < 2048 := (y 0).isLt; have := t.isLt; omega⟩ (y 1))

/-- The sixth grid point. -/
def pt5 : grid1.Coords := fun | 0 => ⟨5, by decide⟩ | ⟨_ + 1, h⟩ => absurd h (Nat.not_lt.2 (Nat.le_add_left _ _))

/-- P: the positive part, point 0 on a zeroed row. -/
def sumsP (x3 : Vec F S2048x1 .f32) (x5 : Vec F S1x2048 .f32) : FVec F S1x2048 .f32 := k1_pay6 x5 x3 (k1_pay4 (F := F))
/-- S: point 0 on a zeroed row, then the four negative blocks. -/
def sumsS (x3 : Vec F S2048x1 .f32) (x4 : Vec F S8192x1 .f32) (x5 : Vec F S1x2048 .f32) : FVec F S1x2048 .f32 :=
  k1_pay7 x5 (negBlk x4 3) (k1_pay7 x5 (negBlk x4 2) (k1_pay7 x5 (negBlk x4 1) (k1_pay7 x5 (negBlk x4 0)
    (k1_pay5 x5 x3 (k1_pay3 (F := F))))))
/-- W: the last occurrence of each index, point 5. -/
def sumsW (x6 : Vec F S2048x1 .i32) (x7 : Vec F S1x2048 .i32) : IVec S1x2048 32 := k1_pay8 (F := F) pt5 x6 x7

/-- The combination. -/
def comb (s p : Vec F S1x2048 .f32) (scol pcol : Vec F S2048x1 .f32) (w : Vec F S1x2048 .i32) (ua0 up0 : Vec F S1x2048 .f32) : FVec F S1x1 .f32 :=
  k2_pay1 (k2_pay3 w pcol) (k2_pay4 w scol ua0) (k2_pay5 up0) (k2_pay6 (F := F)) s p

/-- The program's result from its five arguments. -/
def kOut (a0 : FVec F S2048 .f32) (a1 : FVec F S8192 .f32) (a2 : IVec S2048 32) (a3 a4 : FVec F S100000x1 .f32) : FVec F S_ .f32 :=
  let ua0 := gath (shapeCast S100000 a3 shapeCasts_S100000x1_S100000) a2
  let up0 := gath (shapeCast S100000 a4 shapeCasts_S100000x1_S100000) a2
  let x3 : Vec F S2048x1 .f32 := shapeCast S2048x1 a0 shapeCasts_S2048_S2048x1
  let x4 : Vec F S8192x1 .f32 := shapeCast S8192x1 a1 shapeCasts_S8192_S8192x1
  let x5 : Vec F S1x2048 .f32 := shapeCast S1x2048 a0 shapeCasts_S2048_S1x2048
  let x6 : Vec F S2048x1 .i32 := shapeCast S2048x1 a2 shapeCasts_S2048_S2048x1
  let x7 : Vec F S1x2048 .i32 := shapeCast S1x2048 a2 shapeCasts_S2048_S1x2048
  let s := sumsS x3 x4 x5
  let p := sumsP x3 x5
  let w := sumsW (F := F) x6 x7
  shapeCast S_ (comb s p (shapeCast S2048x1 s shapeCasts_S1x2048_S2048x1) (shapeCast S2048x1 p shapeCasts_S1x2048_S2048x1) w ua0 up0) shapeCasts_S1x1_S_

end Cert.Proof.KVB

end
-- ==== Proof.BKTile.lean ====
/-
  The gather call's task on one tile, and how a SparseCore's operands split among its sixteen tiles.
  Tile (c, s) fetches the 64 indices from place 128 s + 64 c of the index array into its own memory, gathers the
  first table at them, then the second (one after the other on one semaphore, each waited for before the next is
  issued), and copies the two gathered rows of 64 out to the same 64 places of the two result rows. It reads the index
  array and the tables at a share, and owns its 64 places of each result row.
-/
import proofs.«215986_g81389630259714_cont_9to1_m_762_23_alg».proof.Proof.BKLaunch
import proofs.«215986_g81389630259714_cont_9to1_m_762_23_alg».proof.Proof.BKVals

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Shares: a points-to at a share is its leaves' at once -/

def sumEquiv (n : ℕ) : Fin (2 ^ n) ⊕ Fin (2 ^ n) ≃ Fin (2 ^ (n + 1)) := finSumFinEquiv.trans (finCongr (by omega))
theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega
theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

variable [FloatOps F] (m : (ℓ : Loc nD τ sig) → Buf (Elt F) ℓ) (outs : Outs F)

/-! ## The split among a SparseCore's tiles -/

theorem in_tiles (d : Dev nD) (c : Fin 2) : scIn (F := F) m d c = bigSep Finset.univ fun s : Fin 16 => tIn m d c s := by
  unfold scIn tIn
  simp only [bigSep_sep']
  rw [pointsTo_leaves (F := F) (ℓ := tl d main_arg2) Finset.univ (W1 m d (r main_arg2)) 4 (shC c),
    pointsTo_leaves (F := F) (ℓ := tl d main_v0) Finset.univ (W1 m d (r main_v0)) 4 (shC c),
    pointsTo_leaves (F := F) (ℓ := tl d main_v1) Finset.univ (W1 m d (r main_v1)) 4 (shC c)]
  rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m outs) 0 := by
  intro d c
  show iprop(scIn m d (Fin.cast nCore_zero c) ∗ scOut (F := F) d (Fin.cast nCore_zero c) (W1 m d (r main_v2_0)) (W1 m d (r main_v2_1)))
    ⊢ |={Set.univ}=> iprop(
      (bigSep Finset.univ fun i : Fin ((K (F := F)).nSub 0) =>
        iprop(tIn m d (Fin.cast nCore_zero c) (Fin.cast nSub_zero i) ∗ tOut (F := F) d (Fin.cast nCore_zero c) (Fin.cast nSub_zero i) (W1 m d (r main_v2_0)) (W1 m d (r main_v2_1))))
      ∗ ((bigSep Finset.univ fun i : Fin ((K (F := F)).nSub 0) =>
          iprop(tIn m d (Fin.cast nCore_zero c) (Fin.cast nSub_zero i) ∗ tOut (F := F) d (Fin.cast nCore_zero c) (Fin.cast nSub_zero i) (outs.g0 d) (outs.g1 d)))
          -∗ iprop(scIn m d (Fin.cast nCore_zero c) ∗ scOut (F := F) d (Fin.cast nCore_zero c) (outs.g0 d) (outs.g1 d))))
  rw [bigSep_tasks (F := F) (fun i => iprop(tIn m d (Fin.cast nCore_zero c) i ∗ tOut (F := F) d (Fin.cast nCore_zero c) i (W1 m d (r main_v2_0)) (W1 m d (r main_v2_1)))),
    bigSep_tasks (F := F) (fun i => iprop(tIn m d (Fin.cast nCore_zero c) i ∗ tOut (F := F) d (Fin.cast nCore_zero c) i (outs.g0 d) (outs.g1 d))),
    bigSep_sep', bigSep_sep', in_tiles]
  unfold scOut
  iintro H; imodintro
  isplitl [H]; · iexact H
  iintro H; iexact H

end Cert.Proof.KB

end
-- ==== Proof.BKTileBody.lean ====
/-
  The gather call's task on one tile: tile (c, s) fetches the 64 indices from place 128 s + 64 c of the index array
  into its own memory, gathers the first table at them and then the second (one after the other on one semaphore, each
  waited for before the next is issued), and copies the two gathered rows out to the same 64 places of the two result
  rows, which then hold the tables' entries at those indices.
-/
import proofs.«215986_g81389630259714_cont_9to1_m_762_23_alg».proof.Proof.BKTile

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ) (outs : Outs F)

/-! ## The task -/

section Tile

variable (d : Dev nD) (L : grid0.Coords)

abbrev cV (L : grid0.Coords) : Fin τ.nSC := (L 0).castLE hcore0
abbrev jV (L : grid0.Coords) : Fin τ.nSub := (L 1).castLE hsub0
/-- The tile's SparseCore and its number on it. -/
abbrev cF (L : grid0.Coords) : Fin 2 := ⟨(L 0).val, (L 0).isLt⟩
abbrev sF (L : grid0.Coords) : Fin 16 := ⟨(L 1).val, (L 1).isLt⟩

theorem coordsV_eta (L : grid0.Coords) : coordsV (cF L) (sF L) = L := by
  funext a
  match a with
  | 0 => rfl
  | 1 => rfl

/-- What the proof asks of the launch memory: every index names a row of the tables. -/
def PreOK : Prop := ∀ (d : Dev nD) (j : S2048.Idx), (m (tl d main_arg2) j).toNat < 100000

/-! ## The operands as the tile addresses them -/

local notation "iV" => (Memref.whole Cert.Kernel.main_arg2_scv : Memref Cert.Kernel.sig Kind.scVector Space.hbm Cert.Kernel.S2048 EltTy.i32)
local notation "aV" => (Memref.whole Cert.Kernel.main_v0_scv : Memref Cert.Kernel.sig Kind.scVector Space.hbm Cert.Kernel.S100000 EltTy.f32)
local notation "bV" => (Memref.whole Cert.Kernel.main_v1_scv : Memref Cert.Kernel.sig Kind.scVector Space.hbm Cert.Kernel.S100000 EltTy.f32)
local notation "pV" => (Memref.whole Cert.Kernel.main_v2_0_scv : Memref Cert.Kernel.sig Kind.scVector Space.hbm Cert.Kernel.S1x2048 EltTy.f32)
local notation "qV" => (Memref.whole Cert.Kernel.main_v2_1_scv : Memref Cert.Kernel.sig Kind.scVector Space.hbm Cert.Kernel.S1x2048 EltTy.f32)
local notation "sV" => (Memref.whole Cert.Kernel.cc0_scratch0 : Memref Cert.Kernel.sig Kind.scVector Space.vmem Cert.Kernel.S64 EltTy.i32)
local notation "xV" => (Memref.whole Cert.Kernel.cc0_scratch1 : Memref Cert.Kernel.sig Kind.scVector Space.vmem Cert.Kernel.S64 EltTy.f32)
local notation "yV" => (Memref.whole Cert.Kernel.cc0_scratch2 : Memref Cert.Kernel.sig Kind.scVector Space.vmem Cert.Kernel.S64 EltTy.f32)

/-- The 64 fetched indices, the whole of each table, and the tile's 64 places of each result row, as the task slices them. -/
abbrev iRowK (L : grid0.Coords) : Memref sig .scVector .hbm S64 .i32 := (iV).slice (iRect L) (fun _ => rfl)
abbrev aAllK : Memref sig .scVector .hbm S100000 .f32 := (aV).slice (Rect.unit (s := S100000) ![0] S100000.size inb_S100000_S100000_0) (fun _ => rfl)
abbrev bAllK : Memref sig .scVector .hbm S100000 .f32 := (bV).slice (Rect.unit (s := S100000) ![0] S100000.size inb_S100000_S100000_0) (fun _ => rfl)
abbrev pRowK (L : grid0.Coords) : Memref sig .scVector .hbm S64 .f32 := ((pV).slice (oRect L) (fun _ => rfl)).squeeze S64 squeezes_S1x64_S64
abbrev qRowK (L : grid0.Coords) : Memref sig .scVector .hbm S64 .f32 := ((qV).slice (oRect L) (fun _ => rfl)).squeeze S64 squeezes_S1x64_S64

theorem set_pRowK : (pRowK L).view.set = oSet L := by
  show (((pV).view.slice (oRect L)).reshape S64 squeezes_S1x64_S64.numel_eq).set = ((pV).view.slice (oRect L)).set
  rw [View.set_reshape]
theorem set_qRowK : (qRowK L).view.set = oSet L := by
  show (((qV).view.slice (oRect L)).reshape S64 squeezes_S1x64_S64.numel_eq).set = ((pV).view.slice (oRect L)).set
  rw [View.set_reshape]
  rfl

theorem pts_pRowK (f : Buf (Elt F) (tl d main_v2_0)) :
    ((pRowK L).view.loc (V d (cV L) (jV L)) ↦[(pRowK L).view.set]{fullShare} f : sProp 𝕄) = tl d main_v2_0 ↦[oSet L]{fullShare} f := by
  rw [set_pRowK]
theorem pts_qRowK (f : Buf (Elt F) (tl d main_v2_1)) :
    ((qRowK L).view.loc (V d (cV L) (jV L)) ↦[(qRowK L).view.set]{fullShare} f : sProp 𝕄) = tl d main_v2_1 ↦[oSet L]{fullShare} f := by
  rw [set_qRowK]
theorem pts_iV (q : PosShare TreeShare) (f : Buf (Elt F) (tl d main_arg2)) :
    ((iV).view.loc (V d (cV L) (jV L)) ↦{q} f : sProp 𝕄) = tl d main_arg2 ↦{q} f := rfl
theorem pts_aV (q : PosShare TreeShare) (f : Buf (Elt F) (tl d main_v0)) :
    ((aV).view.loc (V d (cV L) (jV L)) ↦{q} f : sProp 𝕄) = tl d main_v0 ↦{q} f := rfl
theorem pts_bV (q : PosShare TreeShare) (f : Buf (Elt F) (tl d main_v1)) :
    ((bV).view.loc (V d (cV L) (jV L)) ↦{q} f : sProp 𝕄) = tl d main_v1 ↦{q} f := rfl
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_xV (f : Buf (Elt F) ((V d (cV L) (jV L)).loc cc0_scratch1)) :
    ((xV).view.loc (V d (cV L) (jV L)) ↦{fullShare} f : sProp 𝕄) = (V d (cV L) (jV L)).loc cc0_scratch1 ↦{fullShare} f := rfl
theorem pts_yV (f : Buf (Elt F) ((V d (cV L) (jV L)).loc cc0_scratch2)) :
    ((yV).view.loc (V d (cV L) (jV L)) ↦{fullShare} f : sProp 𝕄) = (V d (cV L) (jV L)).loc cc0_scratch2 ↦{fullShare} f := rfl

/-- The tile's four semaphores: the gathers', and one for each of the three copies. -/
abbrev cGcell (d : Dev nD) (c : Fin τ.nSC) (i : Fin τ.nSub) : GSem nD τ sig := (V d c i, .dma cc0_scratch3.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)
abbrev cCcell (d : Dev nD) (c : Fin τ.nSC) (i : Fin τ.nSub) : GSem nD τ sig := (V d c i, .dma cc0_scoped2.sem)

theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0 ∗ semVal (cCcell d (cV L) (jV L)) 0
          ∗ bigSep (((((ownCells (V d (cV L) (jV L))).erase (cGcell d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cGcell d (cV L) (jV L))).mpr ⟨rfl, by
      show (SemLoc.dma cc0_scratch3.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc0_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc0_scoped1.sem : SemLoc sig).isScoped .scVector = true; decide⟩⟩⟩),
    SparseCore.bigSep_erase' (Finset.mem_erase.mpr ⟨by simp [cBcell, cCcell]; decide, Finset.mem_erase.mpr ⟨by simp [cAcell, cCcell]; decide,
      Finset.mem_erase.mpr ⟨by simp [cGcell, cCcell]; decide,
      (mem_ownCells (g := cCcell d (cV L) (jV L))).mpr ⟨rfl, by show (SemLoc.dma cc0_scoped2.sem : SemLoc sig).isScoped .scVector = true; decide⟩⟩⟩⟩)]

/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

/-! ## The values: what the fetch, the gathers and the copies out move -/

/-- The k-th fetched index comes from place 128 s + 64 c + k of the index array, -/
theorem iRowK_emb_val (x : S64.Idx) : (((iRowK L).view.emb x) 0).val = 128 * (L 1).val + 64 * (L 0).val + (x 0).val := by
  show (k0_off1 L) 0 + 1 * (x 0).val = _
  rw [k0_off1_eq]; simp
/-- and the k-th gathered entry goes to the same place of the result row. -/
theorem pRowK_emb_val (x : S64.Idx) : (((pRowK L).view.emb x) 1).val = 128 * (L 1).val + 64 * (L 0).val + (x 0).val := by
  show (k0_off2 L) 1 + 1 * ((Shape.reshapeEquiv squeezes_S1x64_S64.numel_eq x) 1).val = _
  rw [k0_off2_eq, Shape.reshapeEquiv_cons_one]; simp
  rfl
theorem qRowK_emb_val (x : S64.Idx) : (((qRowK L).view.emb x) 1).val = 128 * (L 1).val + 64 * (L 0).val + (x 0).val := by
  show (k0_off2 L) 1 + 1 * ((Shape.reshapeEquiv squeezes_S1x64_S64.numel_eq x) 1).val = _
  rw [k0_off2_eq, Shape.reshapeEquiv_cons_one]; simp
  rfl

/-- A whole table read through the full slice the gather addresses it by is the table. -/
theorem aAllK_read (T : Buf (Elt F) (tl d main_v0)) (y : S100000.Idx) :
    View.read (Elt F) (aAllK).view T y = T y := by
  rw [View.read_apply, cast_eq]
  congr 1
  funext a; apply Fin.ext
  show (![0] : Fin 1 → ℕ) a + 1 * (y a).val = (y a).val
  match a with
  | 0 => simp
theorem bAllK_read (T : Buf (Elt F) (tl d main_v1)) (y : S100000.Idx) :
    View.read (Elt F) (bAllK).view T y = T y := by
  rw [View.read_apply, cast_eq]
  congr 1
  funext a; apply Fin.ext
  show (![0] : Fin 1 → ℕ) a + 1 * (y a).val = (y a).val
  match a with
  | 0 => simp

/-- A gather of a flat table at a list of 64 words: entry k is the table at word k. -/
theorem gatherPayload_flat (g : S100000.Idx → Elt F .f32) (R : S64.Idx → Elt F .i32) (hn : S64.numel = S64.size gathers_S100000_S64.axis')
    (hin : ∀ x, (R x).toNat < S100000.size gathers_S100000_S64.axis) (x : S64.Idx) :
    SparseCore.gatherPayload gathers_S100000_S64 g (SparseCore.rows R hn hin) x = g (ValueIdx.ix1 ⟨(R x).toNat, hin x⟩) := by
  unfold SparseCore.gatherPayload
  congr 1
  funext a
  match a with
  | 0 =>
    apply Fin.ext
    rw [show (0 : Fin S100000.rank) = gathers_S100000_S64.axis from rfl, Shape.Gathers.idx_axis]
    show (R (S64.rowMajor.symm _)).toNat = (R x).toNat
    congr 2
    rw [Equiv.symm_apply_eq]
    apply Fin.ext
    rw [Shape.rowMajor_val_one]
    rfl

/-- The index array is as at launch when the call runs: flattening the tables does not touch it. -/
theorem W1_arg2 : W1 m d (r main_arg2) = m (tl d main_arg2) := by
  unfold W1
  rw [(opR1 (F := F)).result_of_not_mem _ (nw _ _ _ _ (ne_wr (by decide) (by decide))),
    (opR0 (F := F)).result_of_not_mem _ (nw _ _ _ _ (ne_wr (by decide) (by decide)))]
  rfl

/-- What the fetch leaves in the tile's index buffer: word k is the index array at the k-th place of the tile's 64. -/
theorem fetched (fs : Buf (Elt F) ((V d (cV L) (jV L)).loc cc0_scratch0)) (x : S64.Idx) :
    View.read (Elt F) (sV).view (View.write (Elt F) (sV).view fs
        (ReadAs.same.apply (View.read (Elt F) (iRowK L).view (W1 m d (r main_arg2)))) Finset.univ) x
      = W1 m d (r main_arg2) ((iRowK L).view.emb x) := by
  rw [View.read_write_univ]
  show View.read (Elt F) (iRowK L).view (W1 m d (r main_arg2)) x = _
  rw [View.read_apply, cast_eq]

/-- Every fetched word names a row of the tables. -/
theorem fetched_inb (hpre : PreOK m) (fs : Buf (Elt F) ((V d (cV L) (jV L)).loc cc0_scratch0)) :
    ∀ x, (View.read (Elt F) (sV).view (View.write (Elt F) (sV).view fs
        (ReadAs.same.apply (View.read (Elt F) (iRowK L).view (W1 m d (r main_arg2)))) Finset.univ) x).toNat
      < S100000.size gathers_S100000_S64.axis := by
  intro x
  rw [fetched, W1_arg2]
  exact hpre d _

/-- The gather of a flat table at the fetched words, read at entry k, is the table's entry at the index held at the
    place of the result row that entry k is copied to. -/
theorem gathered (hpre : PreOK m) (T : S100000.Idx → Elt F .f32) (fs : Buf (Elt F) ((V d (cV L) (jV L)).loc cc0_scratch0))
    (hn : S64.numel = S64.size gathers_S100000_S64.axis')
    (hin : ∀ x, (View.read (Elt F) (sV).view (View.write (Elt F) (sV).view fs
        (ReadAs.same.apply (View.read (Elt F) (iRowK L).view (W1 m d (r main_arg2)))) Finset.univ) x).toNat
      < S100000.size gathers_S100000_S64.axis)
    (x : S64.Idx) (j : S1x2048.Idx) (hj : (j 1).val = 128 * (L 1).val + 64 * (L 0).val + (x 0).val) :
    SparseCore.gatherPayload gathers_S100000_S64 T (SparseCore.rows (View.read (Elt F) (sV).view (View.write (Elt F) (sV).view fs
        (ReadAs.same.apply (View.read (Elt F) (iRowK L).view (W1 m d (r main_arg2)))) Finset.univ)) hn hin) x
      = Cert.Proof.KVB.gath T (W1 m d (r main_arg2)) j := by
  rw [gatherPayload_flat]
  unfold Cert.Proof.KVB.gath
  congr 2
  apply Fin.ext
  have e : (iRowK L).view.emb x = ValueIdx.ix1 (j 1) := by
    funext a
    match a with
    | 0 => exact Fin.ext ((iRowK_emb_val L x).trans hj.symm)
  show (View.read (Elt F) (sV).view _ x).toNat = min (W1 m d (r main_arg2) (ValueIdx.ix1 (j 1))).toNat 99999
  rw [fetched, e]
  have h : (W1 m d (r main_arg2) (ValueIdx.ix1 (j 1))).toNat < 100000 := by rw [W1_arg2]; exact hpre d _
  exact (min_eq_left (Nat.le_of_lt_succ h)).symm

/-- The fetched words, as the tile's index buffer holds them after the fetch. -/
abbrev fetchedBuf (fs : Buf (Elt F) ((V d (cV L) (jV L)).loc cc0_scratch0)) : Buf (Elt F) ((V d (cV L) (jV L)).loc cc0_scratch0) :=
  View.write (Elt F) (sV).view fs (ReadAs.same.apply (View.read (Elt F) (iRowK L).view (W1 m d (r main_arg2)))) Finset.univ

/-- THE FIRST RESULT ROW. The first row buffer, written with the gather of the first table at the fetched words and copied
    out through the tile's 64 places of the first result row, leaves there the table's entries at the indices. -/
theorem out0_val (hpre : PreOK m) (hg0 : ∀ d, outs.g0 d = Cert.Proof.KVB.gath (W1 m d (r main_v0)) (W1 m d (r main_arg2)))
    (fs : Buf (Elt F) ((V d (cV L) (jV L)).loc cc0_scratch0)) (fx : Buf (Elt F) ((V d (cV L) (jV L)).loc cc0_scratch1))
    (hn : S64.numel = S64.size gathers_S100000_S64.axis')
    (hin : ∀ x, (View.read (Elt F) (sV).view (fetchedBuf m d L fs) x).toNat < S100000.size gathers_S100000_S64.axis) :
    ∀ j ∈ oSet L, (pRowK L).view.writes (Elt F) (W1 m d (r main_v2_0)) [⟨Rect.whole S64,
      ReadAs.same.apply (View.read (Elt F) (xV).view (View.write (Elt F) (xV).view fx
        (SparseCore.gatherPayload gathers_S100000_S64 (View.read (Elt F) (aAllK).view (W1 m d (r main_v0)))
          (SparseCore.rows (View.read (Elt F) (sV).view (fetchedBuf m d L fs)) hn hin)) Finset.univ))⟩] j = outs.g0 d j := by
  intro j hj
  rw [← set_pRowK] at hj
  obtain ⟨x, -, rfl⟩ := Finset.mem_map.mp hj
  have h1 := View.read_writes_cons_emb (pRowK L).view (W1 m d (r main_v2_0)) (Rect.whole S64)
    (ReadAs.same.apply (View.read (Elt F) (xV).view (View.write (Elt F) (xV).view fx
        (SparseCore.gatherPayload gathers_S100000_S64 (View.read (Elt F) (aAllK).view (W1 m d (r main_v0)))
          (SparseCore.rows (View.read (Elt F) (sV).view (fetchedBuf m d L fs)) hn hin)) Finset.univ))) [] x
  rw [View.read_apply, cast_eq, Rect.emb_whole_apply] at h1
  rw [h1, hg0]
  show View.read (Elt F) (xV).view (View.write (Elt F) (xV).view fx _ Finset.univ) x = _
  rw [View.read_write_univ, show View.read (Elt F) (aAllK).view (W1 m d (r main_v0)) = W1 m d (r main_v0) from funext (aAllK_read (F := F) d _)]
  exact gathered m d L hpre _ fs hn hin x _ (pRowK_emb_val L x)

/-- THE SECOND RESULT ROW, the same way from the second table and the second row buffer. -/
theorem out1_val (hpre : PreOK m) (hg1 : ∀ d, outs.g1 d = Cert.Proof.KVB.gath (W1 m d (r main_v1)) (W1 m d (r main_arg2)))
    (fs : Buf (Elt F) ((V d (cV L) (jV L)).loc cc0_scratch0)) (fy : Buf (Elt F) ((V d (cV L) (jV L)).loc cc0_scratch2))
    (hn : S64.numel = S64.size gathers_S100000_S64.axis')
    (hin : ∀ x, (View.read (Elt F) (sV).view (fetchedBuf m d L fs) x).toNat < S100000.size gathers_S100000_S64.axis) :
    ∀ j ∈ oSet L, (qRowK L).view.writes (Elt F) (W1 m d (r main_v2_1)) [⟨Rect.whole S64,
      ReadAs.same.apply (View.read (Elt F) (yV).view ((yV).view.writes (Elt F) fy [⟨Rect.whole _,
        SparseCore.gatherPayload gathers_S100000_S64 (View.read (Elt F) (bAllK).view (W1 m d (r main_v1)))
          (SparseCore.rows (View.read (Elt F) (sV).view (fetchedBuf m d L fs)) hn hin)⟩]))⟩] j = outs.g1 d j := by
  intro j hj
  rw [← set_qRowK] at hj
  obtain ⟨x, -, rfl⟩ := Finset.mem_map.mp hj
  have h1 := congrFun (View.read_writes_whole (qRowK L).view (W1 m d (r main_v2_1))
    (ReadAs.same.apply (View.read (Elt F) (yV).view ((yV).view.writes (Elt F) fy [⟨Rect.whole _,
        SparseCore.gatherPayload gathers_S100000_S64 (View.read (Elt F) (bAllK).view (W1 m d (r main_v1)))
          (SparseCore.rows (View.read (Elt F) (sV).view (fetchedBuf m d L fs)) hn hin)⟩])))) x
  rw [View.read_apply, cast_eq] at h1
  rw [h1, hg1]
  have h2 := congrFun (View.read_writes_whole (yV).view fy
    (SparseCore.gatherPayload gathers_S100000_S64 (View.read (Elt F) (bAllK).view (W1 m d (r main_v1)))
          (SparseCore.rows (View.read (Elt F) (sV).view (fetchedBuf m d L fs)) hn hin))) x
  refine Eq.trans h2 ?_
  rw [show View.read (Elt F) (bAllK).view (W1 m d (r main_v1)) = W1 m d (r main_v1) from funext (bAllK_read (F := F) d _)]
  exact gathered m d L hpre _ fs hn hin x _ (qRowK_emb_val L x)

set_option maxHeartbeats 4000000 in
/-- THE TASK on tile `L` of device `d`: from its share of the indices and tables, its 64 places of the two result rows and
    its own memory and semaphores, to the same with the places holding the gathered entries. -/
theorem tile_body (hF : (K (F := F)).Facts) (hpre : PreOK m) (hg0 : ∀ d, outs.g0 d = Cert.Proof.KVB.gath (W1 m d (r main_v0)) (W1 m d (r main_arg2)))
    (hg1 : ∀ d, outs.g1 d = Cert.Proof.KVB.gath (W1 m d (r main_v1)) (W1 m d (r main_arg2)))
    (O : CellTallies nD τ sig (HIx 1)) (W : Waits sig (HIx 1)) (hO : ∀ g, O g none = 0) :
    iprop(levAts (K (F := F)).L (K (F := F)).lev ∗ emp
        ∗ (tIn m d (cF L) (sF L) ∗ tOut (F := F) d (cF L) (sF L) (W1 m d (r main_v2_0)) (W1 m d (r main_v2_1)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_gather L (Memref.whole main_arg2_scv) (Memref.isWhole_whole _) (Memref.whole main_v0_scv) (Memref.isWhole_whole _)
            (Memref.whole main_v1_scv) (Memref.isWhole_whole _) (Memref.whole main_v2_0_scv) (Memref.isWhole_whole _)
            (Memref.whole main_v2_1_scv) (Memref.isWhole_whole _) (Memref.whole cc0_scratch0) (Memref.isWhole_whole _)
            (Memref.whole cc0_scratch1) (Memref.isWhole_whole _) (Memref.whole cc0_scratch2) (Memref.isWhole_whole _) cc0_scratch3 cc0_scoped0 cc0_scoped1 cc0_scoped2)
          fun _ => iprop((tIn m d (cF L) (sF L) ∗ tOut (F := F) d (cF L) (sF L) (outs.g0 d) (outs.g1 d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_sc_gather_eq_skeleton]; unfold cc0_sc_gather_skel
  rw [(K (F := F)).scopedBufs_V hF d (cV L) (jV L), SparseCore.Cfg.scopedSems0_V (Val := Elt F) d (cV L) (jV L), ownSems0_V, ownBufs_V]
  unfold tIn tOut
  rw [coordsV_eta]
  iintro ⟨#Hlv, -, ⟨⟨Hi, Ha, Hb⟩, ⟨Hp, Hq⟩⟩, ⟨⟨%fs, Hs⟩, ⟨%fx, Hx⟩, ⟨%fy, Hy⟩, Hbufs⟩, ⟨HsemG, HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iV (F := F) d L _ _).symm) $$ Hi
  ihave Ha' := (Entails.of_eq (pts_aV (F := F) d L _ _).symm) $$ Ha
  ihave Hb' := (Entails.of_eq (pts_bV (F := F) d L _ _).symm) $$ Hb
  ihave Hp' := (Entails.of_eq (pts_pRowK (F := F) d L _).symm) $$ Hp
  ihave Hq' := (Entails.of_eq (pts_qRowK (F := F) d L _).symm) $$ Hq
  ihave Hs' := (Entails.of_eq (pts_sV (F := F) d L _).symm) $$ Hs
  ihave Hx' := (Entails.of_eq (pts_xV (F := F) d L _).symm) $$ Hx
  ihave Hy' := (Entails.of_eq (pts_yV (F := F) d L _).symm) $$ Hy
  sl_exec
  -- the first gather: a share of the first table's elements, the first row buffer, the fetched indices' buffer and
  -- the gathers' semaphore at zero go in; the flight comes back
  ihave Has := (pointsTo_split_subset (ℓ := (aV).view.loc (V d (cV L) (jV L))) (q := shT (cF L) (sF L)) (f := W1 m d (r main_v0)) (S := Finset.univ) (Finset.subset_univ (aAllK).view.set)).1 $$ Ha'
  icases Has with ⟨Has, Har⟩
  have hxs : (xV).view.set = Finset.univ := View.set_whole _
  have hys : (yV).view.set = Finset.univ := View.set_whole _
  have hss : (sV).view.set = Finset.univ := View.set_whole _
  ihave Hx'' := (Entails.of_eq (show ((xV).view.loc (V d (cV L) (jV L)) ↦{fullShare} fx : sProp 𝕄)
      = (xV).view.loc (V d (cV L) (jV L)) ↦[(xV).view.set]{fullShare} fx by rw [hxs])) $$ Hx'
  ihave Hs'' := (Entails.of_eq (show ((sV).view.loc (V d (cV L) (jV L)) ↦{fullShare} View.write (Elt F) (sV).view fs (tile_body.sl.dma0 m d L) Finset.univ : sProp 𝕄)
      = (sV).view.loc (V d (cV L) (jV L)) ↦[(sV).view.set]{fullShare} View.write (Elt F) (sV).view fs (tile_body.sl.dma0 m d L) Finset.univ
      by rw [hss])) $$ Hs'
  have hin : ∀ x, ((sV).view.read (Elt F) (View.write (Elt F) (sV).view fs (tile_body.sl.dma0 m d L) Finset.univ) x).toNat < S100000.size gathers_S100000_S64.axis :=
    fetched_inb m d L hpre fs
  iapply (SparseCore.wp_indirectGatherLocal countersEmb 𝒱₀ (V d (cV L) (jV L)) none (hg := gathers_S100000_S64) (default : HIx 1)
      (xV).view.dmaCredit (SparseCore.sum_rowCredit_eq_dmaCredit (xV) _ (fun _ => rfl)) (by decide) hin) $$ [Has Hx'' Hs'' HsemG]
  · isplitl [Has]; · iexact Has
    isplitl [Hx'']; · iexact Hx''
    isplitl [Hs'']; · iexact Hs''
    iexact HsemG
  iintro Hfl
  sl_exec
  -- its wait: the row buffer written with the gathered entries, the table's share and the indices' buffer back, the
  -- semaphore at zero again
  iapply (Transfers.wp_waitLocalO countersEmb 𝒱₀ (V d (cV L) (jV L)) none (default : HIx 1) (rfl : (xV).view.dmaCredit = _)) $$ [Hfl HO]
  · isplitl [Hfl]; · iexact Hfl
    isplitl [HO]; · iexact HO
    iapply (Transfers.MayWaits.elim (SemLoc.dma cc0_scratch3.sem)) $$ Hmw
  iintro ⟨⟨Hx1, Has, Hs1⟩, HsemG, HO⟩
  ihave Ha' := (pointsTo_split_subset (ℓ := (aV).view.loc (V d (cV L) (jV L))) (q := shT (cF L) (sF L)) (f := W1 m d (r main_v0)) (S := Finset.univ) (Finset.subset_univ (aAllK).view.set)).2 $$ [Has Har]; · isplitl [Has] <;> iassumption
  ihave Hx3 := (Entails.of_eq (show ((xV).view.loc (V d (cV L) (jV L)) ↦[(xV).view.set]{fullShare} _ : sProp 𝕄)
      = (xV).view.loc (V d (cV L) (jV L)) ↦{fullShare} _ by rw [hxs])) $$ Hx1
  sl_exec
  have eP : ((pRowK L).view.loc (V d (cV L) (jV L)) ↦[(pRowK L).view.set]{fullShare}
      (pRowK L).view.writes (Elt F) (W1 m d (r main_v2_0)) [⟨Rect.whole S64, tile_body.sl.dma0_1 m d L fs fx hin⟩] : sProp 𝕄)
      = tl d main_v2_0 ↦[oSet L]{fullShare} outs.g0 d :=
    (pts_pRowK (F := F) d L _).trans (pointsTo_congr (out0_val m outs d L hpre hg0 fs fx _ hin))
  have eQ : ((qRowK L).view.loc (V d (cV L) (jV L)) ↦[(qRowK L).view.set]{fullShare}
      (qRowK L).view.writes (Elt F) (W1 m d (r main_v2_1)) [⟨Rect.whole S64, tile_body.sl.dma0_2 m d L fs fy hin⟩] : sProp 𝕄)
      = tl d main_v2_1 ↦[oSet L]{fullShare} outs.g1 d :=
    (pts_qRowK (F := F) d L _).trans (pointsTo_congr (out1_val m outs d L hpre hg1 fs fy _ hin))
  sl_step
  isplitl [Hi' Ha' Hb' Hp' Hq']
  · isplitl [Hi' Ha' Hb']
    · isplitl [Hi']; · iexact Hi'
      isplitl [Ha']; · iexact Ha'
      iexact Hb'
    isplitl [Hp']
    · iapply (Entails.of_eq eP) $$ Hp'
    · iapply (Entails.of_eq eQ) $$ Hq'
  isplitl [Hs1 Hx3 Hy' Hbufs]
  · isplitl [Hs1]; · iexists _; rw [hss]; iexact Hs1
    isplitl [Hx3]; · iexists _; iexact Hx3
    isplitl [Hy']; · iexists _; iexact Hy'
    iexact Hbufs
  isplitl [HsemG HsemA HsemB HsemC Hsems]
  · isplitl [HsemG]; · iexact HsemG
    isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.KB

end
-- ==== Proof.BKTileObl.lean ====
/-
  The gather call's obligation to the launch: the task of any tile of the call's grid, in the launch theorem's own
  spelling of thread and program, is the tile's task at its coordinates.
-/
import proofs.«215986_g81389630259714_cont_9to1_m_762_23_alg».proof.Proof.BKTileBody

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ) (outs : Outs F)

theorem defs₀_vector (c : Fin τ.nSC) (s : Fin τ.nSub) :
    defs₀ (F := F) (.scVector c s) 0 ()
      = SparseCore.onTile hcore0 hsub0 (fun c s => cc0_sc_gather (coordsV c s)
          (Memref.whole main_arg2_scv) (Memref.isWhole_whole _) (Memref.whole main_v0_scv) (Memref.isWhole_whole _)
          (Memref.whole main_v1_scv) (Memref.isWhole_whole _) (Memref.whole main_v2_0_scv) (Memref.isWhole_whole _)
          (Memref.whole main_v2_1_scv) (Memref.isWhole_whole _) (Memref.whole cc0_scratch0) (Memref.isWhole_whole _)
          (Memref.whole cc0_scratch1) (Memref.isWhole_whole _) (Memref.whole cc0_scratch2) (Memref.isWhole_whole _)
          cc0_scratch3 cc0_scoped0 cc0_scoped1 cc0_scoped2) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m)
    (hg0 : ∀ d, outs.g0 d = Cert.Proof.KVB.gath (W1 m d (r main_v0)) (W1 m d (r main_arg2)))
    (hg1 : ∀ d, outs.g1 d = Cert.Proof.KVB.gath (W1 m d (r main_v1)) (W1 m d (r main_arg2))) :
    (K (F := F)).TileObl (D (F := F)) 𝒱 (P m outs) v₀ 0 := by
  intro d c i O W hO _ _
  simp only [show (P m outs).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m outs d (coordsV ⟨_, hci.1⟩ ⟨_, hci.2⟩) hF hpre hg0 hg1 O W hO).trans (wp_mono frame _ _ fun _ => obl_post)

end Cert.Proof.KB

end
-- ==== Proof.BKOuts.lean ====
/-
  What the call and the two regions leave, concretely: the two gathered rows; the row sums S, P and the last-occurrence
  row W over what the first region finds; the combination over what the second finds. Buffer by buffer, what each
  stretch of the main program holds where; with these the result buffer ends at the kernel's value function of the five
  launch arguments.
-/
import proofs.«215986_g81389630259714_cont_9to1_m_762_23_alg».proof.Proof.BKLaunch
import proofs.«215986_g81389630259714_cont_9to1_m_762_23_alg».proof.Proof.BKVals

noncomputable section

namespace Cert.Proof.KB

open Cert.Kernel Cert.Kernel.Gen
open Idealize.ShloMosaic
open Idealize.ShloMosaic.SparseCore.Cfg (HIx)
open Cert.Proof.KVB

variable {F : FTy → Type} [FloatOps F] (m : (ℓ : Loc nD τ sig) → Buf (Elt F) ℓ) (o : Outs F)

/-! ## What each stretch holds where (for any named results) -/

theorem W1_v0 (d : Dev nD) : W1 m d (r main_v0) = shapeCast S100000 (m (tl d main_arg3)) shapeCasts_S100000x1_S100000 := by
  show StableHlo.after [opR0 (F := F), opR1 (F := F)] (W0 m d) (r main_v0) = _
  after_results
  rfl
theorem W1_v1 (d : Dev nD) : W1 m d (r main_v1) = shapeCast S100000 (m (tl d main_arg4)) shapeCasts_S100000x1_S100000 := by
  show StableHlo.after [opR0 (F := F), opR1 (F := F)] (W0 m d) (r main_v1) = _
  after_results
  rfl
theorem W1_keep (d : Dev nD) (b : Ref sig .tc) (hb : b ∉ wr) : W1 m d (r b) = m (tl d b) := by
  unfold W1
  rw [(opR1 (F := F)).result_of_not_mem _ (nw _ _ _ _ (ne_wr hb (by decide))), (opR0 (F := F)).result_of_not_mem _ (nw _ _ _ _ (ne_wr hb (by decide)))]
  rfl
theorem W2_keep (d : Dev nD) (b : Ref sig .tc) (hb : b ∉ wr) : W2 m o d (r b) = m (tl d b) :=
  (W2_of m o d (r b) (ne_wr hb (by decide)) (ne_wr hb (by decide))).trans (W1_keep m d b hb)

theorem afterA_keep (V : Valuation τ sig (Elt F)) (b : Ref sig .tc) (h3 : b ≠ main_v3) (h4 : b ≠ main_v4) (h5 : b ≠ main_v5) (h6 : b ≠ main_v6) (h7 : b ≠ main_v7) :
    StableHlo.after (hostA (F := F)) V (r b) = V (r b) := by
  refine StableHlo.after_of_forall_not_mem hostA V ?_
  intro op h; simp only [List.mem_cons, List.not_mem_nil, or_false] at h; rcases h with rfl | rfl | rfl | rfl | rfl
  · exact nw _ _ _ _ (StableHlo.devRef_ne_of_ne h3)
  · exact nw _ _ _ _ (StableHlo.devRef_ne_of_ne h4)
  · exact nw _ _ _ _ (StableHlo.devRef_ne_of_ne h5)
  · exact nw _ _ _ _ (StableHlo.devRef_ne_of_ne h6)
  · exact nw _ _ _ _ (StableHlo.devRef_ne_of_ne h7)
theorem afterB_keep (V : Valuation τ sig (Elt F)) (b : Ref sig .tc) (h9 : b ≠ main_v9) (h10 : b ≠ main_v10) :
    StableHlo.after (hostB (F := F)) V (r b) = V (r b) := by
  refine StableHlo.after_of_forall_not_mem hostB V ?_
  intro op h; simp only [List.mem_cons, List.not_mem_nil, or_false] at h; rcases h with rfl | rfl
  · exact nw _ _ _ _ (StableHlo.devRef_ne_of_ne h9)
  · exact nw _ _ _ _ (StableHlo.devRef_ne_of_ne h10)

theorem W3_v3 (d : Dev nD) : W3 m o d (r main_v3) = shapeCast S2048x1 (m (tl d main_arg0)) shapeCasts_S2048_S2048x1 := by
  show StableHlo.after (hostA (F := F)) (W2 m o d) (r main_v3) = _
  after_results
  rw [W2_keep m o d main_arg0 (by decide)]; rfl
theorem W3_v4 (d : Dev nD) : W3 m o d (r main_v4) = shapeCast S8192x1 (m (tl d main_arg1)) shapeCasts_S8192_S8192x1 := by
  show StableHlo.after (hostA (F := F)) (W2 m o d) (r main_v4) = _
  after_results
  rw [W2_keep m o d main_arg1 (by decide)]; rfl
theorem W3_v5 (d : Dev nD) : W3 m o d (r main_v5) = shapeCast S1x2048 (m (tl d main_arg0)) shapeCasts_S2048_S1x2048 := by
  show StableHlo.after (hostA (F := F)) (W2 m o d) (r main_v5) = _
  after_results
  rw [W2_keep m o d main_arg0 (by decide)]; rfl
theorem W3_v6 (d : Dev nD) : W3 m o d (r main_v6) = shapeCast S2048x1 (m (tl d main_arg2)) shapeCasts_S2048_S2048x1 := by
  show StableHlo.after (hostA (F := F)) (W2 m o d) (r main_v6) = _
  after_results
  rw [W2_keep m o d main_arg2 (by decide)]; rfl
theorem W3_v7 (d : Dev nD) : W3 m o d (r main_v7) = shapeCast S1x2048 (m (tl d main_arg2)) shapeCasts_S2048_S1x2048 := by
  show StableHlo.after (hostA (F := F)) (W2 m o d) (r main_v7) = _
  after_results
  rw [W2_keep m o d main_arg2 (by decide)]; rfl
theorem W3_g0 (d : Dev nD) : W3 m o d (r main_v2_0) = o.g0 d :=
  (afterA_keep (W2 m o d) main_v2_0 (by decide) (by decide) (by decide) (by decide) (by decide)).trans (W2_g0 m o d)
theorem W3_g1 (d : Dev nD) : W3 m o d (r main_v2_1) = o.g1 d :=
  (afterA_keep (W2 m o d) main_v2_1 (by decide) (by decide) (by decide) (by decide) (by decide)).trans (W2_g1 m o d)

theorem W4_s (d : Dev nD) : W4 m o d (r main_v8_0) = o.s d :=
  (Function.update_of_ne (show (r main_v8_0 : DevRef τ sig) ≠ r main_v8_2 by decide) _ _).trans
    ((Function.update_of_ne (show (r main_v8_0 : DevRef τ sig) ≠ r main_v8_1 by decide) _ _).trans (Function.update_self _ _ _))
theorem W4_p (d : Dev nD) : W4 m o d (r main_v8_1) = o.p d :=
  (Function.update_of_ne (show (r main_v8_1 : DevRef τ sig) ≠ r main_v8_2 by decide) _ _).trans (Function.update_self _ _ _)
theorem W4_w (d : Dev nD) : W4 m o d (r main_v8_2) = o.w d := Function.update_self _ _ _
theorem W4_of (d : Dev nD) (b : DevRef τ sig) (h0 : b ≠ r main_v8_0) (h1 : b ≠ r main_v8_1) (h2 : b ≠ r main_v8_2) : W4 m o d b = W3 m o d b :=
  (Function.update_of_ne h2 _ _).trans ((Function.update_of_ne h1 _ _).trans (Function.update_of_ne h0 _ _))

theorem W5_s (d : Dev nD) : W5 m o d (r main_v8_0) = o.s d := (afterB_keep (W4 m o d) main_v8_0 (by decide) (by decide)).trans (W4_s m o d)
theorem W5_p (d : Dev nD) : W5 m o d (r main_v8_1) = o.p d := (afterB_keep (W4 m o d) main_v8_1 (by decide) (by decide)).trans (W4_p m o d)
theorem W5_w (d : Dev nD) : W5 m o d (r main_v8_2) = o.w d := (afterB_keep (W4 m o d) main_v8_2 (by decide) (by decide)).trans (W4_w m o d)
theorem W5_g0 (d : Dev nD) : W5 m o d (r main_v2_0) = o.g0 d :=
  (afterB_keep (W4 m o d) main_v2_0 (by decide) (by decide)).trans ((W4_of m o d _ (by decide) (by decide) (by decide)).trans (W3_g0 m o d))
theorem W5_g1 (d : Dev nD) : W5 m o d (r main_v2_1) = o.g1 d :=
  (afterB_keep (W4 m o d) main_v2_1 (by decide) (by decide)).trans ((W4_of m o d _ (by decide) (by decide) (by decide)).trans (W3_g1 m o d))
theorem W5_v9 (d : Dev nD) : W5 m o d (r main_v9) = shapeCast S2048x1 (o.s d) shapeCasts_S1x2048_S2048x1 := by
  show StableHlo.after (hostB (F := F)) (W4 m o d) (r main_v9) = _
  after_results
  rw [W4_s]; rfl
theorem W5_v10 (d : Dev nD) : W5 m o d (r main_v10) = shapeCast S2048x1 (o.p d) shapeCasts_S1x2048_S2048x1 := by
  show StableHlo.after (hostB (F := F)) (W4 m o d) (r main_v10) = _
  after_results
  rw [W4_p]; rfl
theorem W6_o (d : Dev nD) : W6 m o d (r main_v11) = o.o d := Function.update_self _ _ _
theorem W7_v12 (d : Dev nD) : W7 m o d (r main_v12) = shapeCast S_ (o.o d) shapeCasts_S1x1_S_ := by
  show StableHlo.after (hostC (F := F)) (W6 m o d) (r main_v12) = _
  after_results
  rw [W6_o]; rfl

/-! ## The results, concretely -/

/-- The gathered rows; the regions' results not yet named (their launch contents stand in). -/
def outs1 : Outs F where
  g0 d := gath (W1 m d (r main_v0)) (W1 m d (r main_arg2))
  g1 d := gath (W1 m d (r main_v1)) (W1 m d (r main_arg2))
  s d := m (tl d main_v8_0)
  p d := m (tl d main_v8_1)
  w d := m (tl d main_v8_2)
  o d := m (tl d main_v11)

/-- With the first region's results, over what it finds. -/
def outs2 : Outs F where
  g0 := (outs1 m).g0
  g1 := (outs1 m).g1
  s d := sumsS (W3 m (outs1 m) d (r main_v3)) (W3 m (outs1 m) d (r main_v4)) (W3 m (outs1 m) d (r main_v5))
  p d := sumsP (W3 m (outs1 m) d (r main_v3)) (W3 m (outs1 m) d (r main_v5))
  w d := sumsW (F := F) (W3 m (outs1 m) d (r main_v6)) (W3 m (outs1 m) d (r main_v7))
  o d := m (tl d main_v11)

/-- With the second region's, over what it finds. -/
def outsK : Outs F where
  g0 := (outs1 m).g0
  g1 := (outs1 m).g1
  s := (outs2 m).s
  p := (outs2 m).p
  w := (outs2 m).w
  o d := comb (W5 m (outs2 m) d (r main_v8_0)) (W5 m (outs2 m) d (r main_v8_1)) (W5 m (outs2 m) d (r main_v9)) (W5 m (outs2 m) d (r main_v10))
    (W5 m (outs2 m) d (r main_v8_2)) (W5 m (outs2 m) d (r main_v2_0)) (W5 m (outs2 m) d (r main_v2_1))

theorem hg0 (d : Dev nD) : (outsK m).g0 d = gath (W1 m d (r main_v0)) (W1 m d (r main_arg2)) := rfl
theorem hg1 (d : Dev nD) : (outsK m).g1 d = gath (W1 m d (r main_v1)) (W1 m d (r main_arg2)) := rfl

/-- The first region's three results, over what it finds. -/
theorem s_eq (d : Dev nD) : (outsK m).s d = sumsS (W3 m (outsK m) d (r main_v3)) (W3 m (outsK m) d (r main_v4)) (W3 m (outsK m) d (r main_v5)) := by
  rw [W3_v3, W3_v4, W3_v5]
  show sumsS (W3 m (outs1 m) d (r main_v3)) (W3 m (outs1 m) d (r main_v4)) (W3 m (outs1 m) d (r main_v5)) = _
  rw [W3_v3, W3_v4, W3_v5]
theorem p_eq (d : Dev nD) : (outsK m).p d = sumsP (W3 m (outsK m) d (r main_v3)) (W3 m (outsK m) d (r main_v5)) := by
  rw [W3_v3, W3_v5]
  show sumsP (W3 m (outs1 m) d (r main_v3)) (W3 m (outs1 m) d (r main_v5)) = _
  rw [W3_v3, W3_v5]
theorem w_eq (d : Dev nD) : (outsK m).w d = sumsW (F := F) (W3 m (outsK m) d (r main_v6)) (W3 m (outsK m) d (r main_v7)) := by
  rw [W3_v6, W3_v7]
  simp only [outsK, outs2]
  rw [W3_v6, W3_v7]
/-- The second region's result, over what it finds. -/
theorem o_eq (d : Dev nD) : (outsK m).o d = comb (W5 m (outsK m) d (r main_v8_0)) (W5 m (outsK m) d (r main_v8_1)) (W5 m (outsK m) d (r main_v9))
    (W5 m (outsK m) d (r main_v10)) (W5 m (outsK m) d (r main_v8_2)) (W5 m (outsK m) d (r main_v2_0)) (W5 m (outsK m) d (r main_v2_1)) := by
  rw [W5_s, W5_p, W5_v9, W5_v10, W5_w, W5_g0, W5_g1]
  simp only [outsK]
  rw [W5_s, W5_p, W5_v9, W5_v10, W5_w, W5_g0, W5_g1]
  simp only [outs2]

/-- THE RESULT: the main program's result buffer ends at the kernel's value function of the launch arguments. -/
theorem W7_result (d : Dev nD) :
    W7 m (outsK m) d (r main_v12)
      = kOut (m (tl d main_arg0)) (m (tl d main_arg1)) (m (tl d main_arg2)) (m (tl d main_arg3)) (m (tl d main_arg4)) := by
  rw [W7_v12, o_eq, W5_s, W5_p, W5_w, W5_g0, W5_g1, W5_v9, W5_v10, s_eq, p_eq, w_eq, hg0, hg1,
    W3_v3, W3_v4, W3_v5, W3_v6, W3_v7, W1_v0, W1_v1, W1_keep m d main_arg2 (by decide)]
  rfl

end Cert.Proof.KB

end
-- ==== Proof.BReg1Dat.lean ====
/-
  The first TensorCore region (row sums and last-occurrence indices over six grid points): what each window's
  staging buffer holds after the body at each point, as proof data at a parameter V, the TensorCore's buffer
  contents when the region is entered. The three result rows are carried from point to point: S is zeroed and
  receives the positive block's column sums at point 0 and one negative block's at each of points 1..4; P receives
  the positive block's at point 0; W is written at point 5.
-/
import proofs.«215986_g81389630259714_cont_9to1_m_762_23_alg».proof.Proof.BKLaunch
import proofs.«215986_g81389630259714_cont_9to1_m_762_23_alg».proof.Proof.BKVals

set_option maxRecDepth 16384

noncomputable section

namespace Cert.Proof.R1B

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.KB (UU)

variable {F : FTy → Type} [FloatOps F]

local notation "𝕄" => MT nD τ sig (HIx 1) (Elt F) ℕ UU ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The S row after point n: zero plus the positive block's column sums at point 0; one more negative block's column
    sums at each of points 1..4; unchanged at point 5. -/
def sAt (c : Dev nD) : (n : ℕ) → n < cfg1.N → Vec F S1x2048 .f32
  | 0, hn => k1_pay5 (iblk1 V c 2 ⟨0, hn⟩) (iblk1 V c 0 ⟨0, hn⟩) (k1_pay3 (F := F))
  | n + 1, hn =>
    if n + 1 < 5 then k1_pay7 (iblk1 V c 2 ⟨n + 1, hn⟩) (iblk1 V c 1 ⟨n + 1, hn⟩) (sAt c n (Nat.lt_of_succ_lt hn))
    else sAt c n (Nat.lt_of_succ_lt hn)

/-- The P row after any point: zero plus the positive block's column sums, written at point 0. -/
def pAt (c : Dev nD) : Vec F S1x2048 .f32 :=
  k1_pay6 (iblk1 V c 2 ⟨0, Nat.succ_pos _⟩) (iblk1 V c 0 ⟨0, Nat.succ_pos _⟩) (k1_pay4 (F := F))

/-- The W row as point t writes it (point 5 does): the last occurrence of each index. -/
def wAt (c : Dev nD) (t : Fin cfg1.N) : IVec S1x2048 32 :=
  k1_pay8 (F := F) (grid1.coords t) (iblk1 V c 3 t) (iblk1 V c 4 t)

/-- The region's invariant on core c: the core's scoped buffers that are no staging buffer, at some contents each,
    and its generator register at some state. -/
def Φinv (c : Dev nD) : sProp 𝕄 :=
  iprop(Pipeline.scopedRest (Ix := HIx 1) (Name := ℕ) (U := UU) (Lvl := ℕ) (Val := Elt F) spec1 c ∗ ∃ r, prngReg c r)

/-- The proof data of the first region on core c: the arrays as the region finds them; after the body at point t
    each input's buffer at its block and the result rows at the values above; the invariant is the scoped rest and
    the generator register; nothing owed; full shares; the recorded wait pairs stay at level at most 8. -/
def dat1 (c : Dev nD) : Dat τ (Elt F) (HIx 1) ℕ UU ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => sAt V c t.val t.isLt
    | ⟨6, _⟩ => pAt V c
    | ⟨7, _⟩ => wAt V c t
  Φ _ := Φinv (F := F) c
  q _ := fullShare
  owed _ := 0
  recorded _ := {p : SemLoc sig × HIx 1 | (Cert.Proof.KB.K (F := F)).lev ((SparseCore.T (τ := τ) c), p.1) p.2 ≤ 8}

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = sAt V c t.val t.isLt := by dsimp only [dat1]
theorem after1_6 (c : Dev nD) (t : Fin cfg1.N) : (dat1 V c).after 6 t = pAt V c := by dsimp only [dat1]
theorem after1_7 (c : Dev nD) (t : Fin cfg1.N) : (dat1 V c).after 7 t = wAt V c t := by dsimp only [dat1]
theorem Φ1 (c : Dev nD) (t : Fin (cfg1.N + 1)) : (dat1 V c).Φ t = Φinv (F := F) c := by dsimp only [dat1]
theorem q1 (c : Dev nD) (w : Fin cfg1.W) : (dat1 V c).q w = fullShare := by dsimp only [dat1]
theorem owed1 (c : Dev nD) (t : Fin (cfg1.N + 1)) : (dat1 V c).owed t = 0 := by dsimp only [dat1]
theorem recorded1 (c : Dev nD) (t : Fin (cfg1.N + 1)) :
    (dat1 V c).recorded t = {p : SemLoc sig × HIx 1 | (Cert.Proof.KB.K (F := F)).lev ((SparseCore.T (τ := τ) c), p.1) p.2 ≤ 8} := by dsimp only [dat1]

/-- The S row point by point. -/
theorem sAt_zero (c : Dev nD) (hn : 0 < cfg1.N) :
    sAt V c 0 hn = k1_pay5 (iblk1 V c 2 ⟨0, hn⟩) (iblk1 V c 0 ⟨0, hn⟩) (k1_pay3 (F := F)) := rfl
theorem sAt_neg (c : Dev nD) (n : ℕ) (hn : n + 1 < cfg1.N) (h : n + 1 < 5) :
    sAt V c (n + 1) hn = k1_pay7 (iblk1 V c 2 ⟨n + 1, hn⟩) (iblk1 V c 1 ⟨n + 1, hn⟩) (sAt V c n (Nat.lt_of_succ_lt hn)) :=
  (if_pos h).trans rfl
theorem sAt_last (c : Dev nD) (n : ℕ) (hn : n + 1 < cfg1.N) (h : ¬ n + 1 < 5) :
    sAt V c (n + 1) hn = sAt V c n (Nat.lt_of_succ_lt hn) :=
  (if_neg h).trans rfl

end Cert.Proof.R1B

end
-- ==== Proof.BReg2Dat.lean ====
/-
  The second region (the final combination) as the pipeline rule sees it: what each of its eight windows holds after
  the body at its single point. The seven inputs keep their blocks (each block is the whole array); the 1 x 1 output
  holds the combination of the seven input blocks: the mean over the 2048 columns of (up S - ua P) / ua^2, where ua
  and up are the moving averages taken at each column's last occurrence.
-/
import proofs.«215986_g81389630259714_cont_9to1_m_762_23_alg».proof.Proof.BKLaunch
import proofs.«215986_g81389630259714_cont_9to1_m_762_23_alg».proof.Proof.BKVals
import Idealize.ShloMosaic.Lib.Pipeline.FrameBody

noncomputable section

namespace Cert.Proof.R2B

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)
open Idealize.ShloMosaic.SparseCore.Cfg (HIx)

variable {F : FTy → Type} [FloatOps F]

-- the TensorCore's buffer contents when the region is entered
variable (V : (c : Dev nD) → (b : Ref sig .tc) → Buf (Elt F) ((c : Thread nD τ).loc b))

/-! ## The windows' blocks -/

/-- Window `w`'s block at the point, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: each is a whole staging buffer -/

abbrev rRow : Rect S1x2048 := Rect.unit (s := S1x2048) ![0, 0] S1x2048.size inb_S1x2048_S1x2048_0_0
abbrev rCol : Rect S2048x1 := Rect.unit (s := S2048x1) ![0, 0] S2048x1.size inb_S2048x1_S2048x1_0_0
abbrev rOne : Rect S1x1 := Rect.unit (s := S1x1) ![0, 0] S1x1.size inb_S1x1_S1x1_0_0

/-! ## What the body leaves in the output window's buffer -/

/-- The output's staging buffer after the body, from the input windows' blocks: its one store, of the combination of
    what the seven loads read. -/
def out2_7 (x0 x1 : Vec F S1x2048 .f32) (x2 x3 : Vec F S2048x1 .f32) (x4 : Vec F S1x2048 .i32) (x5 x6 : Vec F S1x2048 .f32) : Vec F S1x1 .f32 :=
  View.canon [⟨rOne, k2_pay1 (k2_pay3 (View.ld x4 rRow) (View.ld x3 rCol)) (k2_pay4 (View.ld x4 rRow) (View.ld x2 rCol) (View.ld x5 rRow))
    (k2_pay5 (View.ld x6 rRow)) (k2_pay6 (F := F)) (View.ld x0 rRow) (View.ld x1 rRow)⟩]

/-- The store tiles the buffer, so it covers it. -/
theorem cover2_7 (p0 : Vec F S1x1 .f32) (y : S1x1.Idx) :
    ∃ pc ∈ ([⟨rOne, p0⟩] : List (View.Piece (Elt F) S1x1 .f32)), y ∈ pc.1.set :=
  View.cover_of_tiled [⟨rOne, p0⟩] S1x1.size (by rfl) y

/-! ## The pipeline's proof data -/

/-- The region's invariant on core `c`: the core's scoped buffers that are no staging buffer of this pipeline, at some
    contents each, and its generator register at some state; the body touches neither. -/
def Φ2 (c : Dev nD) : sProp (MT nD τ sig (HIx 1) (Elt F) ℕ Cert.Proof.KB.UU ℕ) :=
  iprop(Pipeline.scopedRest (Ix := HIx 1) (Name := ℕ) (U := Cert.Proof.KB.UU) (Lvl := ℕ) (Val := Elt F) spec2 c ∗ ∃ r, prngReg c r)

/-- The proof data of the second pipeline on core `c`: the arrays as the region finds them; after the body each input's
    buffer at its block and the output's at `out2_7` of the input blocks; the invariant is the scoped rest and the
    generator register, untouched; nothing owed; full shares; the recorded wait pairs are those of level at most 8. -/
def dat2 (c : Dev nD) : Dat τ (Elt F) (HIx 1) ℕ Cert.Proof.KB.UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Φ2 c
  q _ := fullShare
  owed _ := 0
  recorded _ := {p | (Cert.Proof.KB.K (F := F)).lev (SparseCore.T (τ := τ) c, p.1) p.2 ≤ 8}

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t =
    out2_7 (iblk2 V c 0 t) (iblk2 V c 1 t) (iblk2 V c 2 t) (iblk2 V c 3 t) (iblk2 V c 4 t) (iblk2 V c 5 t) (iblk2 V c 6 t) := by dsimp only [dat2]

theorem Φ_eq2 (c : Dev nD) (t : Fin (cfg2.N + 1)) : (dat2 V c).Φ t = Φ2 c := by dsimp only [dat2]

/-- The bound on the recorded wait pairs, at every point. -/
theorem recorded2 (c : Dev nD) (t : Fin (cfg2.N + 1)) :
    (dat2 V c).recorded t = {p | (Cert.Proof.KB.K (F := F)).lev (SparseCore.T (τ := τ) c, p.1) p.2 ≤ 8} := by dsimp only [dat2]

end Cert.Proof.R2B

end
-- ==== Proof.BPDats.lean ====
/-
  The two regions' proof data as one family: the first region's at the buffers' contents after the five reshapes that
  feed it, the second's at the contents after the two reshapes that feed it.
-/
import proofs.«215986_g81389630259714_cont_9to1_m_762_23_alg».proof.Proof.BKLaunch
import proofs.«215986_g81389630259714_cont_9to1_m_762_23_alg».proof.Proof.BReg1Dat
import proofs.«215986_g81389630259714_cont_9to1_m_762_23_alg».proof.Proof.BReg2Dat

noncomputable section

namespace Cert.Proof.KB

open Cert.Kernel Cert.Kernel.Gen
open Idealize.ShloMosaic Idealize.ShloMosaic.TcCoe
open Idealize.ShloMosaic.SparseCore.Cfg (HIx)
open Idealize.ShloMosaic.Pipeline (Dat)

variable {F : FTy → Type} [FloatOps F]
variable (m : (ℓ : Loc nD τ sig) → Buf (Elt F) ℓ) (outs : Outs F)

/-- What the first region finds in the TensorCore's buffers, and the second. -/
abbrev V3 : (c : Dev nD) → (b : Ref sig .tc) → Buf (Elt F) ((c : Thread nD τ).loc b) := fun c b => W3 m outs c (r b)
abbrev V5 : (c : Dev nD) → (b : Ref sig .tc) → Buf (Elt F) ((c : Thread nD τ).loc b) := fun c b => W5 m outs c (r b)

/-- Every pipeline's proof data, each at its region's entry contents. -/
def pdats : (p : Fin 2) → (c : Dev nD) → Dat τ (Elt F) (HIx 1) ℕ UU ℕ (cfgs p) c
  | ⟨0, _⟩ => fun c => Cert.Proof.R1B.dat1 (V3 m outs) c
  | ⟨1, _⟩ => fun c => Cert.Proof.R2B.dat2 (V5 m outs) c

theorem pdats_zero (c : Dev nD) : pdats m outs 0 c = Cert.Proof.R1B.dat1 (V3 m outs) c := rfl
theorem pdats_one (c : Dev nD) : pdats m outs 1 c = Cert.Proof.R2B.dat2 (V5 m outs) c := rfl

end Cert.Proof.KB

end
-- ==== Proof.BReg1Runs.lean ====
/-
  What the three control cases of the first region's body share: its branch conditions decided over the six grid
  points, where each result row is idle, the staging memrefs the pipeline passes at a point, and what the body finds
  in each window's staging buffer at each point (an input its block; the S row what the point before left; the P row
  what point 0 left).
-/
import proofs.«215986_g81389630259714_cont_9to1_m_762_23_alg».proof.Proof.BReg1Dat
import Idealize.ShloMosaic.Lib.Pipeline.FrameBody
import Idealize.ShloMosaic.Lib.Ring
import Idealize.ShloMosaic.Lib.Tactic

set_option maxRecDepth 16384

noncomputable section

namespace Cert.Proof.R1B

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.KB (UU)

variable {F : FTy → Type} [FloatOps F]

local notation "𝕄" => MT nD τ sig (HIx 1) (Elt F) ℕ UU ℕ

variable (V : (c : Dev nD) → (b : Ref sig .tc) → Buf (Elt F) ((c : Thread nD τ).loc b))

/-! ## The branch conditions over the grid -/

theorem N1 : cfg1.N = 6 := N_1

theorem hcond1 : ∀ t : Fin cfg1.N, k1_cond1 (grid1.coords t) = 1#1 ↔ t.val = 0 :=
  (by decide +kernel : ∀ t : Fin grid1.N, k1_cond1 (grid1.coords t) = 1#1 ↔ t.val = 0)
theorem hcond2 : ∀ t : Fin cfg1.N, k1_cond2 (grid1.coords t) = 1#1 ↔ t.val = 0 :=
  (by decide +kernel : ∀ t : Fin grid1.N, k1_cond2 (grid1.coords t) = 1#1 ↔ t.val = 0)
theorem hcond3 : ∀ t : Fin cfg1.N, k1_cond3 (grid1.coords t) = 1#1 ↔ (t.val ≠ 0 ∧ t.val ≠ 5) :=
  (by decide +kernel : ∀ t : Fin grid1.N, k1_cond3 (grid1.coords t) = 1#1 ↔ (t.val ≠ 0 ∧ t.val ≠ 5))
theorem hcond4 : ∀ t : Fin cfg1.N, k1_cond4 (grid1.coords t) = 1#1 ↔ t.val = 5 :=
  (by decide +kernel : ∀ t : Fin grid1.N, k1_cond4 (grid1.coords t) = 1#1 ↔ t.val = 5)
theorem hcond5 : ∀ t : Fin cfg1.N, k1_cond5 (grid1.coords t) = 1#1 ↔ t.val = 5 :=
  (by decide +kernel : ∀ t : Fin grid1.N, k1_cond5 (grid1.coords t) = 1#1 ↔ t.val = 5)
theorem hcond6 : ∀ t : Fin cfg1.N, ¬ k1_cond6 (grid1.coords t) = 1#1 :=
  (by decide +kernel : ∀ t : Fin grid1.N, ¬ k1_cond6 (grid1.coords t) = 1#1)

/-! ## Where the result rows are idle -/

theorem idle1_5 : ∀ t : Fin cfg1.N, cfg1.idle 5 (grid1.coords t) = true ↔ t.val = 5 :=
  (by decide +kernel : ∀ t : Fin grid1.N, idle1 5 (grid1.coords t) = true ↔ t.val = 5)
theorem idle1_6 : ∀ t : Fin cfg1.N, cfg1.idle 6 (grid1.coords t) = true ↔ t.val ≠ 0 :=
  (by decide +kernel : ∀ t : Fin grid1.N, idle1 6 (grid1.coords t) = true ↔ t.val ≠ 0)
theorem idle1_7 : ∀ t : Fin cfg1.N, cfg1.idle 7 (grid1.coords t) = true ↔ t.val ≠ 5 :=
  (by decide +kernel : ∀ t : Fin grid1.N, idle1 7 (grid1.coords t) = true ↔ t.val ≠ 5)

/-! ## The staging memrefs at a point -/

abbrev ms1_0 (t : Fin cfg1.N) : Memref sig .tc .vmem S2048x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x2048 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x2048 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x2048 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x2048 .i32 := win1_7.stage (cfg1.slots t 7)
abbrev hs1_7 (t : Fin cfg1.N) : (ms1_7 t).IsWhole := hstage1_7 ((cfg1.slots t 7).cast nbuf1_7)

/-! ## What the body finds: the inputs -/

/-- Each input's current staging buffer holds its block at every point, fetched there or not: unfetched, the block
    index has not moved. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-! ## What the body finds: the carried rows -/

/-- What an uncut window's buffer keeps of what the body left is all of it. -/
theorem kept1 (c : Dev nD) (w : Fin cfg1.W) (hclip : ∀ (i : cfg1.grid.Coords) a, (cfg1.win w).clip i a = none) (t : Fin cfg1.N) (d) :
    (dat1 V c).kept w t d = (dat1 V c).after w t := by
  unfold Dat.kept
  rw [Pipeline.fill_of_clip_none w _ (hclip _) d ((dat1 V c).after w t), Window.fill_cut]

/-- After the first point the S row's buffer holds what the point before left: the row is live at points 0..4 and
    written back only at point 5. -/
theorem before1_5 (c : Dev nD) (t : Fin cfg1.N) (ht : t.val ≠ 0) (d) :
    (dat1 V c).before 5 t d = sAt V c (t.val - 1) (Nat.lt_of_le_of_lt (Nat.sub_le _ _) t.isLt) := by
  have hN : t.val < 6 := lt_of_lt_of_eq t.isLt N1
  rw [(dat1 V c).before_of_pos 5 t ht ((cfg1.win 5).fetch_out rfl t),
    if_neg (fun h => by have := (flush1_5 _).mp h; dsimp only at this; omega)]
  unfold Dat.left
  rw [show cfg1.idle 5 (cfg1.grid.coords ⟨t.val - 1, Nat.lt_of_le_of_lt (Nat.sub_le _ _) t.isLt⟩) = false from
    Bool.eq_false_iff.mpr fun h => by have := (idle1_5 _).mp h; dsimp only at this; omega]
  dsimp only
  rw [kept1 V c 5 (fun _ _ => rfl), after1_5]

/-- After the first point the P row's buffer holds what point 0 left: the row is idle from point 1 on and written
    back only at point 5. -/
theorem before1_6 (c : Dev nD) : ∀ (n : ℕ) (hn : n + 1 < cfg1.N) (d), (dat1 V c).before 6 ⟨n + 1, hn⟩ d = pAt V c
  | 0, hn, d => by
    rw [(dat1 V c).before_of_pos 6 ⟨1, hn⟩ (Nat.succ_ne_zero 0) ((cfg1.win 6).fetch_out rfl _),
      if_neg (fun h => by have := (flush1_6 _).mp h; dsimp only at this; omega)]
    unfold Dat.left
    rw [show cfg1.idle 6 (cfg1.grid.coords ⟨(⟨1, hn⟩ : Fin cfg1.N).val - 1, Nat.lt_of_le_of_lt (Nat.sub_le _ _) hn⟩) = false from
      Bool.eq_false_iff.mpr fun h => by have := (idle1_6 _).mp h; dsimp only at this; omega]
    dsimp only
    rw [kept1 V c 6 (fun _ _ => rfl), after1_6]
  | n + 1, hn, d => by
    have hN : n + 2 < 6 := lt_of_lt_of_eq hn N1
    rw [(dat1 V c).before_of_pos 6 ⟨n + 2, hn⟩ (Nat.succ_ne_zero (n + 1)) ((cfg1.win 6).fetch_out rfl _),
      if_neg (fun h => by have := (flush1_6 _).mp h; dsimp only at this; omega)]
    unfold Dat.left
    rw [show cfg1.idle 6 (cfg1.grid.coords ⟨(⟨n + 2, hn⟩ : Fin cfg1.N).val - 1, Nat.lt_of_le_of_lt (Nat.sub_le _ _) hn⟩) = true from
      (idle1_6 _).mpr (by dsimp only; omega)]
    dsimp only
    exact before1_6 c n (Nat.lt_of_succ_lt hn) d

theorem before1_6' (c : Dev nD) (t : Fin cfg1.N) (ht : t.val ≠ 0) (d) : (dat1 V c).before 6 t d = pAt V c := by
  obtain ⟨n, hn⟩ := t
  cases n with
  | zero => exact absurd rfl ht
  | succ n => exact before1_6 V c n hn d

end Cert.Proof.R1B

end
-- ==== Proof.BReg1RunA.lean ====
/-
  The first region's body in the control case of grid point 0: both result rows S and P are zeroed and receive the
  positive block's column sums; the W row is left as found.
-/
import proofs.«215986_g81389630259714_cont_9to1_m_762_23_alg».proof.Proof.BReg1Runs
import Idealize.ShloMosaic.Lib.Pipeline.Value

set_option maxRecDepth 16384

noncomputable section

namespace Cert.Proof.R1B

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.KB (UU)

variable {F : FTy → Type} [FloatOps F]

local notation "𝕄" => MT nD τ sig (HIx 1) (Elt F) ℕ UU ℕ

theorem hz2 : (![0, 0] : Fin 2 → Nat) = fun _ => 0 := funext fun a => by fin_cases a <;> rfl

set_option maxHeartbeats 1000000 in
/-- On whole staging memrefs, the inputs' at their contents, the S and P rows' at anything and the W row's at xi8, the
    body in this case runs to the continuation holding the inputs' and the W row's as they were, the S row's at
    zero plus the column sums of the positive block and the P row's at the same. -/
theorem kernelRun1_A (c : Dev nD) (i : grid1.Coords) (arg1 : Memref sig .tc .vmem S2048x1 .f32) (harg1 : arg1.IsWhole) (arg2 : Memref sig .tc .vmem S2048x1 .f32) (harg2 : arg2.IsWhole) (arg3 : Memref sig .tc .vmem S1x2048 .f32) (harg3 : arg3.IsWhole) (arg4 : Memref sig .tc .vmem S2048x1 .i32) (harg4 : arg4.IsWhole) (arg5 : Memref sig .tc .vmem S1x2048 .i32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .i32) (harg8 : arg8.IsWhole)
    (hc1 : k1_cond1 i = 1#1) (hc2 : k1_cond2 i = 1#1) (hc3 : ¬ k1_cond3 i = 1#1) (hc4 : ¬ k1_cond4 i = 1#1)
    (x0 : Vec F S2048x1 .f32) (x1 : Vec F S2048x1 .f32) (x2 : Vec F S1x2048 .f32) (x3 : Vec F S2048x1 .i32) (x4 : Vec F S1x2048 .i32) (xi8 : Vec F S1x2048 .i32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ owns (c : Thread nD τ) arg8 fullShare xi8
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k1_pay5 x2 x0 (k1_pay3 (F := F))) ∗ owns (c : Thread nD τ) arg7 fullShare (k1_pay6 x2 x0 (k1_pay4 (F := F))) ∗ owns (c : Thread nD τ) arg8 fullShare xi8) -∗ K ⟨⟩))
      ⊢ wp frame (wpE (defs₀ (F := F)) Variants.none c none) E (cc1__sums_body i arg1 harg1 arg2 harg2 arg3 harg3 arg4 harg4 arg5 harg5 arg6 harg6 arg7 harg7 arg8 harg8) K := by
  simp only [cc1__sums_body_eq_skeleton]; unfold cc1__sums_body_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%f8, %hf8, H8⟩, Hk⟩
  obtain rfl := harg1.eq_unread hf0; obtain rfl := harg2.eq_unread hf1; obtain rfl := harg3.eq_unread hf2
  obtain rfl := harg4.eq_unread hf3; obtain rfl := harg5.eq_unread hf4; obtain rfl := harg8.eq_unread hf8
  sl_exec (disch := first | exact hc1 | exact hc2 | exact hc3 | exact hc4)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H6]
  · iexists _; isplitr
    swap; · iexact H6
    ipureintro
    rw [View.read_writes_eq_canon _ _ _ (fun y => ⟨_, List.mem_cons_self, View.mem_set_unit_zero hz2 inb_S1x2048_S1x2048_0_0 y⟩)]
    sl_unfold_words
    rw [View.canon_cons_unit_zero (S := S1x2048) hz2, View.readCov_unit_zero (S := S1x2048) _ hz2]
    simp only [View.readAt_eq_ld, harg3.read_unread, harg1.read_unread, View.ld_unit_zero (S := S1x2048) hz2, View.ld_unit_zero (S := S2048x1) hz2]
  isplitl [H7]
  · iexists _; isplitr
    swap; · iexact H7
    ipureintro
    rw [View.read_writes_eq_canon _ _ _ (fun y => ⟨_, List.mem_cons_self, View.mem_set_unit_zero hz2 inb_S1x2048_S1x2048_0_0 y⟩)]
    sl_unfold_words
    rw [View.canon_cons_unit_zero (S := S1x2048) hz2, View.readCov_unit_zero (S := S1x2048) _ hz2]
    simp only [View.readAt_eq_ld, harg3.read_unread, harg1.read_unread, View.ld_unit_zero (S := S1x2048) hz2, View.ld_unit_zero (S := S2048x1) hz2]
  iexists _; isplitr; · ipureintro; exact harg8.read_unread _
  iexact H8

end Cert.Proof.R1B

end
-- ==== Proof.BReg1RunB.lean ====
/-
  The first region's body in the control case of grid points 1..4: the S row receives the column sums of the point's
  negative block; the P and W rows are left as found.
-/
import proofs.«215986_g81389630259714_cont_9to1_m_762_23_alg».proof.Proof.BReg1RunA

set_option maxRecDepth 16384

noncomputable section

namespace Cert.Proof.R1B

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.KB (UU)

variable {F : FTy → Type} [FloatOps F]

local notation "𝕄" => MT nD τ sig (HIx 1) (Elt F) ℕ UU ℕ

set_option maxHeartbeats 1000000 in
/-- On whole staging memrefs, the inputs' at their contents, the S row's at xo6, the P and W rows' at xi7 and xi8, the
    body in this case runs to the continuation holding the inputs', the P row's and the W row's as they were and the S
    row's at xo6 plus the column sums of the negative block. -/
theorem kernelRun1_B (c : Dev nD) (i : grid1.Coords) (arg1 : Memref sig .tc .vmem S2048x1 .f32) (harg1 : arg1.IsWhole) (arg2 : Memref sig .tc .vmem S2048x1 .f32) (harg2 : arg2.IsWhole) (arg3 : Memref sig .tc .vmem S1x2048 .f32) (harg3 : arg3.IsWhole) (arg4 : Memref sig .tc .vmem S2048x1 .i32) (harg4 : arg4.IsWhole) (arg5 : Memref sig .tc .vmem S1x2048 .i32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .i32) (harg8 : arg8.IsWhole)
    (hc1 : ¬ k1_cond1 i = 1#1) (hc3 : k1_cond3 i = 1#1) (hc4 : ¬ k1_cond4 i = 1#1)
    (x0 : Vec F S2048x1 .f32) (x1 : Vec F S2048x1 .f32) (x2 : Vec F S1x2048 .f32) (x3 : Vec F S2048x1 .i32) (x4 : Vec F S1x2048 .i32) (xo6 : Vec F S1x2048 .f32) (xi7 : Vec F S1x2048 .f32) (xi8 : Vec F S1x2048 .i32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare xo6 ∗ owns (c : Thread nD τ) arg7 fullShare xi7 ∗ owns (c : Thread nD τ) arg8 fullShare xi8
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k1_pay7 x2 x1 xo6) ∗ owns (c : Thread nD τ) arg7 fullShare xi7 ∗ owns (c : Thread nD τ) arg8 fullShare xi8) -∗ K ⟨⟩))
      ⊢ wp frame (wpE (defs₀ (F := F)) Variants.none c none) E (cc1__sums_body i arg1 harg1 arg2 harg2 arg3 harg3 arg4 harg4 arg5 harg5 arg6 harg6 arg7 harg7 arg8 harg8) K := by
  simp only [cc1__sums_body_eq_skeleton]; unfold cc1__sums_body_skel
  unfold owns
  iintro ⟨⟨%f0, %hf0, H0⟩, ⟨%f1, %hf1, H1⟩, ⟨%f2, %hf2, H2⟩, ⟨%f3, %hf3, H3⟩, ⟨%f4, %hf4, H4⟩, ⟨%f6, %hf6, H6⟩, ⟨%f7, %hf7, H7⟩, ⟨%f8, %hf8, H8⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf6
  obtain rfl := harg7.eq_unread hf7; obtain rfl := harg8.eq_unread hf8
  sl_exec (disch := first | exact hc1 | exact hc3 | exact hc4)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H6]
  · iexists _; isplitr
    swap; · iexact H6
    ipureintro
    rw [View.read_writes_eq_canon _ _ _ (fun y => ⟨_, List.mem_cons_self, View.mem_set_unit_zero hz2 inb_S1x2048_S1x2048_0_0 y⟩)]
    sl_unfold_words
    rw [View.canon_cons_unit_zero (S := S1x2048) hz2]
    simp only [View.readAt_eq_ld, harg3.read_unread, harg2.read_unread, harg6.read_unread, View.ld_unit_zero (S := S1x2048) hz2, View.ld_unit_zero (S := S2048x1) hz2]
  isplitl [H7]
  · iexists _; isplitr; · ipureintro; exact harg7.read_unread _
    iexact H7
  iexists _; isplitr; · ipureintro; exact harg8.read_unread _
  iexact H8

end Cert.Proof.R1B

end
-- ==== Proof.BReg1RunC.lean ====
/-
  The first region's body in the control case of grid point 5: the W row receives each index's last occurrence; the S
  and P rows are left as found.
-/
import proofs.«215986_g81389630259714_cont_9to1_m_762_23_alg».proof.Proof.BReg1RunB

set_option maxRecDepth 16384

noncomputable section

namespace Cert.Proof.R1B

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.KB (UU)

variable {F : FTy → Type} [FloatOps F]

local notation "𝕄" => MT nD τ sig (HIx 1) (Elt F) ℕ UU ℕ

set_option maxHeartbeats 1000000 in
/-- On whole staging memrefs, the inputs' at their contents, the S and P rows' at xi6 and xi7, the W row's at anything,
    the body in this case runs to the continuation holding the inputs', the S row's and the P row's as they were and the
    W row's at the last occurrences computed from the two index blocks. -/
theorem kernelRun1_C (c : Dev nD) (i : grid1.Coords) (arg1 : Memref sig .tc .vmem S2048x1 .f32) (harg1 : arg1.IsWhole) (arg2 : Memref sig .tc .vmem S2048x1 .f32) (harg2 : arg2.IsWhole) (arg3 : Memref sig .tc .vmem S1x2048 .f32) (harg3 : arg3.IsWhole) (arg4 : Memref sig .tc .vmem S2048x1 .i32) (harg4 : arg4.IsWhole) (arg5 : Memref sig .tc .vmem S1x2048 .i32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .i32) (harg8 : arg8.IsWhole)
    (hc1 : ¬ k1_cond1 i = 1#1) (hc3 : ¬ k1_cond3 i = 1#1) (hc4 : k1_cond4 i = 1#1) (hc5 : k1_cond5 i = 1#1) (hc6 : ¬ k1_cond6 i = 1#1)
    (x0 : Vec F S2048x1 .f32) (x1 : Vec F S2048x1 .f32) (x2 : Vec F S1x2048 .f32) (x3 : Vec F S2048x1 .i32) (x4 : Vec F S1x2048 .i32) (xi6 : Vec F S1x2048 .f32) (xi7 : Vec F S1x2048 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare xi6 ∗ owns (c : Thread nD τ) arg7 fullShare xi7 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare xi6 ∗ owns (c : Thread nD τ) arg7 fullShare xi7 ∗ owns (c : Thread nD τ) arg8 fullShare (k1_pay8 (F := F) i x3 x4)) -∗ K ⟨⟩))
      ⊢ wp frame (wpE (defs₀ (F := F)) Variants.none c none) E (cc1__sums_body i arg1 harg1 arg2 harg2 arg3 harg3 arg4 harg4 arg5 harg5 arg6 harg6 arg7 harg7 arg8 harg8) K := by
  simp only [cc1__sums_body_eq_skeleton]; unfold cc1__sums_body_skel
  unfold owns
  iintro ⟨⟨%f0, %hf0, H0⟩, ⟨%f1, %hf1, H1⟩, ⟨%f2, %hf2, H2⟩, ⟨%f3, %hf3, H3⟩, ⟨%f4, %hf4, H4⟩, ⟨%f6, %hf6, H6⟩, ⟨%f7, %hf7, H7⟩, ⟨%d8, %f8, -, H8⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf6
  obtain rfl := harg7.eq_unread hf7
  sl_exec (disch := first | exact hc1 | exact hc3 | exact hc4 | exact hc5 | exact hc6)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H6]
  · iexists _; isplitr; · ipureintro; exact harg6.read_unread _
    iexact H6
  isplitl [H7]
  · iexists _; isplitr; · ipureintro; exact harg7.read_unread _
    iexact H7
  iexists _; isplitr
  swap; · iexact H8
  ipureintro
  rw [View.read_writes_eq_canon _ _ _ (fun y => ⟨_, List.mem_cons_self, View.mem_set_unit_zero hz2 inb_S1x2048_S1x2048_0_0 y⟩)]
  sl_unfold_words
  rw [View.canon_cons_unit_zero (S := S1x2048) hz2]
  simp only [View.readAt_eq_ld, harg4.read_unread, harg5.read_unread, View.ld_unit_zero (S := S1x2048) hz2, View.ld_unit_zero (S := S2048x1) hz2]

end Cert.Proof.R1B

end
-- ==== Proof.BReg1Body.lean ====
/-
  The first region's body obligation: at every grid point, from the invariant, the core's recorded waits and every
  window's current staging buffer at what it then holds, the body runs to the same with every buffer at what the
  proof data say it leaves. The point decides the control case; a row the case leaves alone is handed back as found.
-/
import proofs.«215986_g81389630259714_cont_9to1_m_762_23_alg».proof.Proof.BReg1RunC

set_option maxRecDepth 16384

noncomputable section

namespace Cert.Proof.R1B

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.KB (UU)

variable {F : FTy → Type} [FloatOps F]

local notation "𝕄" => MT nD τ sig (HIx 1) (Elt F) ℕ UU ℕ

variable (V : (c : Dev nD) → (b : Ref sig .tc) → Buf (Elt F) ((c : Thread nD τ).loc b))

/-! ## The post of a window's buffer, by cases on the configuration's table -/

theorem leavesExact_live {cfg : Cfg sig Λ₀} {c : Dev nD} (dat : Dat τ (Elt F) (HIx 1) ℕ UU ℕ cfg c) (w : Fin cfg.W) (t : Fin cfg.N)
    (hi : cfg.idle w (cfg.grid.coords t) = false) :
    dat.leavesExact w t = owns (c : Thread nD τ) ((cfg.win w).stage (cfg.slots t w)) fullShare (dat.after w t) := by
  unfold Dat.leavesExact; rw [hi]

theorem leavesExact_idle_flush {cfg : Cfg sig Λ₀} {c : Dev nD} (dat : Dat τ (Elt F) (HIx 1) ℕ UU ℕ cfg c) (w : Fin cfg.W) (t : Fin cfg.N)
    (hi : cfg.idle w (cfg.grid.coords t) = true) (hf : (cfg.win w).flush t = true) :
    dat.leavesExact w t = owns (c : Thread nD τ) ((cfg.win w).stage (cfg.slots t w)) fullShare (dat.after w t) := by
  unfold Dat.leavesExact; rw [hi, hf]

/-! ## The rows' values at a point, by the point's case -/

theorem sAt_first (c : Dev nD) (t : Fin cfg1.N) (h0 : t.val = 0) :
    sAt V c t.val t.isLt = k1_pay5 (iblk1 V c 2 t) (iblk1 V c 0 t) (k1_pay3 (F := F)) := by
  obtain ⟨n, hn⟩ := t; dsimp only at h0; subst h0; rfl

theorem sAt_mid (c : Dev nD) (t : Fin cfg1.N) (h0 : t.val ≠ 0) (h5 : t.val ≠ 5) :
    sAt V c t.val t.isLt = k1_pay7 (iblk1 V c 2 t) (iblk1 V c 1 t) (sAt V c (t.val - 1) (Nat.lt_of_le_of_lt (Nat.sub_le _ _) t.isLt)) := by
  obtain ⟨n, hn⟩ := t
  have hN : n < 6 := lt_of_lt_of_eq hn N1
  cases n with
  | zero => exact absurd rfl h0
  | succ n => exact sAt_neg V c n hn (by dsimp only at h5; omega)

theorem sAt_end (c : Dev nD) (t : Fin cfg1.N) (h5 : t.val = 5) :
    sAt V c t.val t.isLt = sAt V c (t.val - 1) (Nat.lt_of_le_of_lt (Nat.sub_le _ _) t.isLt) := by
  obtain ⟨n, hn⟩ := t
  cases n with
  | zero => exact absurd h5 (by dsimp only; omega)
  | succ n => exact sAt_last V c n hn (by dsimp only at h5; omega)

theorem pAt_first (c : Dev nD) (t : Fin cfg1.N) (h0 : t.val = 0) :
    pAt V c = k1_pay6 (iblk1 V c 2 t) (iblk1 V c 0 t) (k1_pay4 (F := F)) := by
  obtain ⟨n, hn⟩ := t; dsimp only at h0; subst h0; rfl

/-! ## The body obligation, at a generic point -/

/-- What the body is called with at point t, the windows one by one, -/
def bodyPre1 (c : Dev nD) (t : Fin cfg1.N) : sProp 𝕄 :=
  iprop((dat1 V c).Φ t.castSucc ∗ (dat1 V c).owesAt none t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt none t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4000000 in
/-- The body at any point: the inputs' buffers hold their blocks; the point says which case it is in; the S row's buffer
    holds what the point before left and the P row's what point 0 left; so the case's run applies; the invariant and
    the recorded waits pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt none t.succ = (dat1 V c).owesAt none t.castSucc from rfl,
    leavesExact_live (dat1 V c) 0 t rfl, leavesExact_live (dat1 V c) 1 t rfl, leavesExact_live (dat1 V c) 2 t rfl,
    leavesExact_live (dat1 V c) 3 t rfl, leavesExact_live (dat1 V c) 4 t rfl,
    after1_0, after1_1, after1_2, after1_3, after1_4]
  have hN : t.val < 6 := lt_of_lt_of_eq t.isLt N1
  by_cases h0 : t.val = 0
  · -- point 0
    have hc1 := (hcond1 t).mpr h0
    have hc2 := (hcond2 t).mpr h0
    have hc3 : ¬ k1_cond3 (grid1.coords t) = 1#1 := fun h => ((hcond3 t).mp h).1 h0
    have hc4 : ¬ k1_cond4 (grid1.coords t) = 1#1 := fun h => by have := (hcond4 t).mp h; omega
    rw [leavesExact_live (dat1 V c) 5 t (Bool.eq_false_iff.mpr fun h => by have := (idle1_5 t).mp h; omega),
      leavesExact_live (dat1 V c) 6 t (Bool.eq_false_iff.mpr fun h => ((idle1_6 t).mp h) h0),
      Dat.leavesExact_idle (dat1 V c) 7 t ((idle1_7 t).mpr (by omega)) (Bool.eq_false_iff.mpr fun h => by have := (flush1_7 t).mp h; omega),
      after1_5, after1_6, sAt_first V c t h0, pAt_first V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernelRun1_A c (grid1.coords t) _ _ _ _ _ _ _ _ _ _ _ _ _ _ _ _ hc1 hc2 hc3 hc4
      (iblk1 V c 0 t) (iblk1 V c 1 t) (iblk1 V c 2 t) (iblk1 V c 3 t) (iblk1 V c 4 t) ((dat1 V c).before 7 t d7) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases h5 : t.val = 5
    · -- point 5
      have hc1 : ¬ k1_cond1 (grid1.coords t) = 1#1 := fun h => h0 ((hcond1 t).mp h)
      have hc3 : ¬ k1_cond3 (grid1.coords t) = 1#1 := fun h => ((hcond3 t).mp h).2 h5
      have hc4 := (hcond4 t).mpr h5
      have hc5 := (hcond5 t).mpr h5
      have hc6 := hcond6 t
      rw [leavesExact_idle_flush (dat1 V c) 5 t ((idle1_5 t).mpr h5) ((flush1_5 t).mpr (by omega)),
        leavesExact_idle_flush (dat1 V c) 6 t ((idle1_6 t).mpr h0) ((flush1_6 t).mpr (by omega)),
        leavesExact_live (dat1 V c) 7 t (Bool.eq_false_iff.mpr fun h => ((idle1_7 t).mp h) h5),
        after1_5, after1_6, after1_7, sAt_end V c t h5]
      simp only [before1_5 V c t h0, before1_6' V c t h0]
      unfold wAt
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun1_C c (grid1.coords t) _ _ _ _ _ _ _ _ _ _ _ _ _ _ _ _ hc1 hc3 hc4 hc5 hc6
        (iblk1 V c 0 t) (iblk1 V c 1 t) (iblk1 V c 2 t) (iblk1 V c 3 t) (iblk1 V c 4 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iintro ⟨H0, H1, H2, H3, H4, H5, H6, H7⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- points 1..4
      have hc1 : ¬ k1_cond1 (grid1.coords t) = 1#1 := fun h => h0 ((hcond1 t).mp h)
      have hc3 := (hcond3 t).mpr ⟨h0, h5⟩
      have hc4 : ¬ k1_cond4 (grid1.coords t) = 1#1 := fun h => h5 ((hcond4 t).mp h)
      rw [leavesExact_live (dat1 V c) 5 t (Bool.eq_false_iff.mpr fun h => h5 ((idle1_5 t).mp h)),
        Dat.leavesExact_idle (dat1 V c) 6 t ((idle1_6 t).mpr h0) (Bool.eq_false_iff.mpr fun h => by have := (flush1_6 t).mp h; omega),
        Dat.leavesExact_idle (dat1 V c) 7 t ((idle1_7 t).mpr h5) (Bool.eq_false_iff.mpr fun h => by have := (flush1_7 t).mp h; omega),
        after1_5, sAt_mid V c t h0 h5]
      simp only [before1_5 V c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun1_B c (grid1.coords t) _ _ _ _ _ _ _ _ _ _ _ _ _ _ _ _ hc1 hc3 hc4
        (iblk1 V c 0 t) (iblk1 V c 1 t) (iblk1 V c 2 t) (iblk1 V c 3 t) (iblk1 V c 4 t) _ ((dat1 V c).before 6 t d6) ((dat1 V c).before 7 t d7) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, H3, H4, H5, H6, H7⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The body obligation, at every point. -/
theorem body_obligation1 (c : Dev nD) : BodyObligation (dat1 (F := F) V c) (defs₀ (F := F)) Variants.none (none : HIx 1) Set.univ := fun t => by
  rw [bigSep_W1, bigSep_W1]
  exact sound_body1 V c t

end Cert.Proof.R1B

end
-- ==== Proof.BReg1Seg.lean ====
/-
  The first region as a segment of the main program: entered from every unscoped TensorCore buffer at the contents the
  five reshapes leave, left at the same with the three result rows replaced. Its arrays are split out of the unscoped
  buffers at entry and put back at exit; the generator register goes into the region's invariant and comes back; the
  recorded waits stay at level at most 8 (the region's own waits are recorded at the index that has level 0).
-/
import proofs.«215986_g81389630259714_cont_9to1_m_762_23_alg».proof.Proof.BReg1Body
import proofs.«215986_g81389630259714_cont_9to1_m_762_23_alg».proof.Proof.BPDats
import Idealize.ShloMosaic.Lib.Pipeline.RegionsLoop
import Idealize.ShloMosaic.Lib.Pipeline.FrameSuffix

set_option maxRecDepth 16384

noncomputable section

namespace Cert.Proof.R1B

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.KB (UU)

variable {F : FTy → Type} [FloatOps F]

local notation "𝕄" => MT nD τ sig (HIx 1) (Elt F) ℕ UU ℕ

open Cert.Proof.KB (TS Owe W3 W4 V3 pdats adm LL lvv RSeg)

variable (m : (ℓ : Loc nD τ sig) → Buf (Elt F) ℓ) (outs : Cert.Proof.KB.Outs F)

/-- Off the region's arrays the exit contents are the entry contents: the three replaced rows are arrays of it. -/
theorem hrest1 (c : Dev nD) : ∀ b, b ∉ Finset.univ.image (Pipeline.arrRef spec1) →
    W4 m outs c (Cert.Proof.KB.r b) = W3 m outs c (Cert.Proof.KB.r b) := by
  intro b hb
  have h5 : b ≠ main_v8_0 := fun e => hb (Finset.mem_image.mpr ⟨5, Finset.mem_univ _, (show Pipeline.arrRef spec1 5 = b from e.symm)⟩)
  have h6 : b ≠ main_v8_1 := fun e => hb (Finset.mem_image.mpr ⟨6, Finset.mem_univ _, (show Pipeline.arrRef spec1 6 = b from e.symm)⟩)
  have h7 : b ≠ main_v8_2 := fun e => hb (Finset.mem_image.mpr ⟨7, Finset.mem_univ _, (show Pipeline.arrRef spec1 7 = b from e.symm)⟩)
  unfold Cert.Proof.KB.W4
  rw [Function.update_of_ne (StableHlo.devRef_ne_of_ne h7), Function.update_of_ne (StableHlo.devRef_ne_of_ne h6),
    Function.update_of_ne (StableHlo.devRef_ne_of_ne h5)]

set_option backward.isDefEq.respectTransparency.types false in
/-- THE FIRST REGION over the thread states: given that its arrays end at the exit contents (hF). -/
def reg1 (hF : ∀ c w, (pdats m outs 0 c).arrAt w cfg1.N = W4 m outs c (Cert.Proof.KB.r (Pipeline.arrRef spec1 w))) :
    RSeg (F := F) (pdats m outs) 0 where
  win := launch1.win.to₀
  block_pos := launch1.block_pos
  stage_whole := launch1.stage_whole
  K := PEmpty
  osem k := k.elim
  ho := Pipeline.OwnSemFacts.none _
  hbody c := (body_obligation1 (V3 m outs) c).loose
  hwaits := Pipeline.hwaits_of_owed_zero _ _ _ _ (LL (F := F)) (lvv (F := F)) 0 fun _ _ => rfl
  pre := TS (W3 m outs)
  post := TS (W4 m outs)
  X c := iprop(∃ r, prngReg c r)
  Y c := iprop(∃ r, prngReg c r)
  Z c := Pipeline.unscopedRest (Ix := HIx 1) (Name := ℕ) (U := UU) (Lvl := ℕ) spec1 c (V3 m outs c)
  hentry c := by
    rw [Pipeline.ownSems0_none]
    have hsplit := Pipeline.arrays_of_unscopedBufs (p := 0) (pcfgs (F := F)) adm (pdats m outs) launch1.win launch1.arr_whole c
      ((pdats m outs 0 c).share_full fun _ => rfl) (V3 m outs c) fun _ => rfl
    rw [Pipeline.unscopedBufs_held] at hsplit
    unfold Cert.Proof.KB.TS Cert.Proof.KB.Owe
    iintro ⟨⟨Hub, Hp, ⟨%Wt, %hWt, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists Wt; isplitr; · ipureintro; exact fun p hp => Or.inl (hWt p (Finset.mem_coe.mp hp))
      iexact HO
    isplitl [Hp]; · iexact Hp
    iexact Hrest
  hin c := by
    rw [show (pdats m outs 0 c).Φ 0 = Φinv (F := F) c from rfl]; unfold Φinv
    iintro ⟨Hp, -, Hr⟩
    isplitl [Hr]; · iexact Hr
    iexact Hp
  hout c := by
    rw [Pipeline.ownSems0_none, show (pdats m outs 0 c).Φ (Fin.last _) = Φinv (F := F) c from rfl]; unfold Φinv
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch1.win launch1.arr_whole c (pdats m outs) ((pdats m outs 0 c).share_full fun _ => rfl)
      (V3 m outs c) (fun b => W4 m outs c (Cert.Proof.KB.r b)) ((pdats m outs 0 c).arrAt · cfg1.N) (hF c) (hrest1 m outs c)
    rw [Pipeline.unscopedBufs_held] at hjoin
    unfold Cert.Proof.KB.TS Cert.Proof.KB.Owe
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W
    isplitr
    · ipureintro
      intro p hp
      rcases hW (Finset.mem_coe.mpr hp) with h | ⟨w, s, rfl⟩
      · exact h
      · show (Cert.Proof.KB.K (F := F)).lev _ none ≤ 8
        rw [SparseCore.Cfg.lev_none]; exact Nat.zero_le _
    iexact HO

/-- The region is entered from, and left at, the launch module's thread states as they stand. -/
theorem reg1_pre (hF) (d : Dev nD) : TS (W3 m outs) d ⊢ (reg1 m outs hF).pre d := .rfl
theorem reg1_post (hF) (d : Dev nD) : (reg1 m outs hF).post d ⊢ TS (W4 m outs) d := .rfl

end Cert.Proof.R1B

end
-- ==== Proof.BReg1Val.lean ====
/-
  The first region's arrays when it is left. Each of the five inputs' arrays is as the region found it. The three result
  rows are written back once, after the last of the six points, from buffers carried from point to point: S holds the
  zeroed row plus the positive block's column sums (point 0) plus the four negative blocks' (points 1 to 4: the block
  of the negative scores' column at point k + 1 is rows [2048 k, 2048 (k + 1))); P the zeroed row plus the positive
  block's column sums; W the last occurrence of each index, as the last point writes it. Every window but the negative
  scores' has block index zero at every point (decided over the grid), so its block is its whole array.
-/
import proofs.«215986_g81389630259714_cont_9to1_m_762_23_alg».proof.Proof.BReg1Dat
import proofs.«215986_g81389630259714_cont_9to1_m_762_23_alg».proof.Proof.BKVals
import Idealize.ShloMosaic.Lib.Pipeline.FrameBody
import Idealize.ShloMosaic.Lib.Pipeline.Value
import Idealize.ShloMosaic.Lib.Pipeline.Cells
import Idealize.ShloMosaic.Lib.Tactic

set_option maxRecDepth 16384

noncomputable section

namespace Cert.Proof.R1B

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.SparseCore.Cfg (HIx)

variable {F : FTy → Type} [FloatOps F]

variable (V : (c : Dev nD) → (b : Ref sig .tc) → Buf (Elt F) ((c : Thread nD τ).loc b))

/-! ## The inputs -/

theorem isIn1 : ∀ w : Fin cfg1.W, w.val < 5 → (cfg1.win w).isOut = false := by decide

/-- An input's array is never written. -/
theorem arrAt1_in (c : Dev nD) (w : Fin cfg1.W) (hw : w.val < 5) : (dat1 V c).arrAt w cfg1.N = V c (Pipeline.arrRef spec1 w) :=
  ((dat1 V c).arrAt_in w (isIn1 w hw) _).trans (A_eq1 V c w)

/-! ## The block indices, decided over the grid: zero for every window but the negative scores', whose block at
    point t is block min(3, t - 1) of four -/

theorem index1_0 : ∀ (t : Fin cfg1.N) (a : Fin 2), (cfg1.win 0).index t a = 0 := by decide +kernel
theorem index1_2 : ∀ (t : Fin cfg1.N) (a : Fin 2), (cfg1.win 2).index t a = 0 := by decide +kernel
theorem index1_3 : ∀ (t : Fin cfg1.N) (a : Fin 2), (cfg1.win 3).index t a = 0 := by decide +kernel
theorem index1_4 : ∀ (t : Fin cfg1.N) (a : Fin 2), (cfg1.win 4).index t a = 0 := by decide +kernel
theorem index1_5 : ∀ (t : Fin cfg1.N) (a : Fin 2), (cfg1.win 5).index t a = 0 := by decide +kernel
theorem index1_6 : ∀ (t : Fin cfg1.N) (a : Fin 2), (cfg1.win 6).index t a = 0 := by decide +kernel
theorem index1_7 : ∀ (t : Fin cfg1.N) (a : Fin 2), (cfg1.win 7).index t a = 0 := by decide +kernel
theorem index1_1 : ∀ (t : Fin cfg1.N), (cfg1.win 1).index t 0 = min 3 (t.val - 1) ∧ (cfg1.win 1).index t 1 = 0 := by decide +kernel

/-! ## The input blocks -/

/-- A window whose block index is zero on both axes reads its whole array. -/
theorem iblk1_0 (c : Dev nD) (t : Fin cfg1.N) : iblk1 V c 0 t = V c main_v3 := by
  funext y
  unfold iblk1
  rw [View.read_apply]
  show V c main_v3 (((cfg1.win 0).rect t).emb y) = V c main_v3 y
  congr 1
  funext a
  apply Fin.ext
  exact Window.rect_emb_val_of_index_zero (cfg1.win 0) t a (index1_0 t a) y
theorem iblk1_2 (c : Dev nD) (t : Fin cfg1.N) : iblk1 V c 2 t = V c main_v5 := by
  funext y
  unfold iblk1
  rw [View.read_apply]
  show V c main_v5 (((cfg1.win 2).rect t).emb y) = V c main_v5 y
  congr 1
  funext a
  apply Fin.ext
  exact Window.rect_emb_val_of_index_zero (cfg1.win 2) t a (index1_2 t a) y
theorem iblk1_3 (c : Dev nD) (t : Fin cfg1.N) : iblk1 V c 3 t = V c main_v6 := by
  funext y
  unfold iblk1
  rw [View.read_apply]
  show V c main_v6 (((cfg1.win 3).rect t).emb y) = V c main_v6 y
  congr 1
  funext a
  apply Fin.ext
  exact Window.rect_emb_val_of_index_zero (cfg1.win 3) t a (index1_3 t a) y
theorem iblk1_4 (c : Dev nD) (t : Fin cfg1.N) : iblk1 V c 4 t = V c main_v7 := by
  funext y
  unfold iblk1
  rw [View.read_apply]
  show V c main_v7 (((cfg1.win 4).rect t).emb y) = V c main_v7 y
  congr 1
  funext a
  apply Fin.ext
  exact Window.rect_emb_val_of_index_zero (cfg1.win 4) t a (index1_4 t a) y

/-- The negative scores' block at point k + 1 is rows [2048 k, 2048 (k + 1)) of the column. -/
theorem iblk1_1 (c : Dev nD) (t : Fin cfg1.N) (k : Fin 4) (hk : t.val = k.val + 1) : iblk1 V c 1 t = Cert.Proof.KVB.negBlk (V c main_v4) k := by
  funext y
  unfold iblk1 Cert.Proof.KVB.negBlk
  rw [View.read_apply]
  show V c main_v4 (((cfg1.win 1).rect t).emb y) = V c main_v4 _
  congr 1
  funext a
  apply Fin.ext
  rw [Window.rect_emb_val]
  have hk4 := k.isLt
  match a with
  | ⟨0, _⟩ =>
    have h0 := (index1_1 t).1
    show (cfg1.win 1).index t 0 * 2048 + (y 0).val = 2048 * k.val + (y 0).val
    rw [h0]; omega
  | ⟨1, _⟩ =>
    have h1 := (index1_1 t).2
    show (cfg1.win 1).index t 1 * 1 + (y 1).val = (y 1).val
    rw [h1]; omega

/-! ## The result rows as the last point leaves them -/

theorem iblk1_1' (c : Dev nD) (n : ℕ) (hn : n + 1 < cfg1.N) (h4 : n < 4) :
    iblk1 V c 1 ⟨n + 1, hn⟩ = Cert.Proof.KVB.negBlk (V c main_v4) ⟨n, h4⟩ := iblk1_1 V c ⟨n + 1, hn⟩ ⟨n, h4⟩ rfl

theorem N1_gt5 : 5 < cfg1.N := by decide

/-- S after the last point: point 0 on the zeroed row, then the four negative blocks; the last point leaves it. -/
theorem sAt_five (c : Dev nD) (h : 5 < cfg1.N) : sAt V c 5 h = Cert.Proof.KVB.sumsS (V c main_v3) (V c main_v4) (V c main_v5) := by
  rw [sAt_last V c 4 h (by decide), sAt_neg V c 3 _ (by decide), sAt_neg V c 2 _ (by decide), sAt_neg V c 1 _ (by decide),
    sAt_neg V c 0 _ (by decide), sAt_zero]
  simp only [iblk1_0, iblk1_2]
  rw [iblk1_1' V c 3 _ (by decide), iblk1_1' V c 2 _ (by decide), iblk1_1' V c 1 _ (by decide), iblk1_1' V c 0 _ (by decide)]
  rfl

/-- P: written at point 0, kept. -/
theorem pAt_eq (c : Dev nD) : pAt V c = Cert.Proof.KVB.sumsP (V c main_v3) (V c main_v5) := by
  unfold pAt Cert.Proof.KVB.sumsP
  rw [iblk1_0, iblk1_2]

theorem coords5 : grid1.coords t1_5 = Cert.Proof.KVB.pt5 := by
  funext a
  have h : ∀ a : Fin grid1.rank, (grid1.coords t1_5 a).val = (Cert.Proof.KVB.pt5 a).val := by decide +kernel
  exact Fin.ext (h a)

/-- W as the last point writes it. -/
theorem wAt_five (c : Dev nD) : wAt V c t1_5 = Cert.Proof.KVB.sumsW (V c main_v6) (V c main_v7) := by
  unfold wAt Cert.Proof.KVB.sumsW
  rw [iblk1_3, iblk1_4, coords5]

/-! ## The result arrays when the region is left: each is written back once, after the last point, and its one block
    (at block index zero) covers it -/

theorem arrAt1_S (c : Dev nD) : (dat1 V c).arrAt 5 cfg1.N = Cert.Proof.KVB.sumsS (V c main_v3) (V c main_v4) (V c main_v5) := by
  have hA : (dat1 V c).after 5 t1_5 = Cert.Proof.KVB.sumsS (V c main_v3) (V c main_v4) (V c main_v5) := by
    rw [after1_5]; exact sAt_five V c N1_gt5
  generalize Cert.Proof.KVB.sumsS (V c main_v3) (V c main_v4) (V c main_v5) = G at hA ⊢
  refine (dat1 V c).arrAt_eq_of_cover 5 G (fun t ht => ?_) (fun i => ⟨t1_5, (flush1_5 t1_5).mpr rfl, ?_⟩)
  · have h5 : t = t1_5 := by
      have h := (flush1_5 t).mp ht
      have hN : t.val < 6 := t.isLt
      exact Fin.ext (by show t.val = 5; omega)
    subst h5
    funext y
    rw [View.read_apply, cast_eq]
    dsimp only [Pipeline.Dat.flushed, Pipeline.Window.cut]
    rw [hA]
    congr 1
    funext a
    apply Fin.ext
    exact (Window.rect_emb_val_of_index_zero (cfg1.win 5) t1_5 a (index1_5 t1_5 a) y).symm
  · exact Finset.mem_map.mpr ⟨i, Finset.mem_univ _, by
      funext a
      apply Fin.ext
      exact Window.rect_emb_val_of_index_zero (cfg1.win 5) t1_5 a (index1_5 t1_5 a) i⟩

theorem arrAt1_P (c : Dev nD) : (dat1 V c).arrAt 6 cfg1.N = Cert.Proof.KVB.sumsP (V c main_v3) (V c main_v5) := by
  have hA : (dat1 V c).after 6 t1_5 = Cert.Proof.KVB.sumsP (V c main_v3) (V c main_v5) := by
    rw [after1_6, pAt_eq]
  generalize Cert.Proof.KVB.sumsP (V c main_v3) (V c main_v5) = G at hA ⊢
  refine (dat1 V c).arrAt_eq_of_cover 6 G (fun t ht => ?_) (fun i => ⟨t1_5, (flush1_6 t1_5).mpr rfl, ?_⟩)
  · have h5 : t = t1_5 := by
      have h := (flush1_6 t).mp ht
      have hN : t.val < 6 := t.isLt
      exact Fin.ext (by show t.val = 5; omega)
    subst h5
    funext y
    rw [View.read_apply, cast_eq]
    dsimp only [Pipeline.Dat.flushed, Pipeline.Window.cut]
    rw [hA]
    congr 1
    funext a
    apply Fin.ext
    exact (Window.rect_emb_val_of_index_zero (cfg1.win 6) t1_5 a (index1_6 t1_5 a) y).symm
  · exact Finset.mem_map.mpr ⟨i, Finset.mem_univ _, by
      funext a
      apply Fin.ext
      exact Window.rect_emb_val_of_index_zero (cfg1.win 6) t1_5 a (index1_6 t1_5 a) i⟩

theorem arrAt1_W (c : Dev nD) : (dat1 V c).arrAt 7 cfg1.N = Cert.Proof.KVB.sumsW (V c main_v6) (V c main_v7) := by
  have hA : (dat1 V c).after 7 t1_5 = Cert.Proof.KVB.sumsW (V c main_v6) (V c main_v7) := by
    rw [after1_7, wAt_five]
  generalize Cert.Proof.KVB.sumsW (V c main_v6) (V c main_v7) = G at hA ⊢
  refine (dat1 V c).arrAt_eq_of_cover 7 G (fun t ht => ?_) (fun i => ⟨t1_5, (flush1_7 t1_5).mpr rfl, ?_⟩)
  · have h5 : t = t1_5 := by
      have h := (flush1_7 t).mp ht
      have hN : t.val < 6 := t.isLt
      exact Fin.ext (by show t.val = 5; omega)
    subst h5
    funext y
    rw [View.read_apply, cast_eq]
    dsimp only [Pipeline.Dat.flushed, Pipeline.Window.cut]
    rw [hA]
    congr 1
    funext a
    apply Fin.ext
    exact (Window.rect_emb_val_of_index_zero (cfg1.win 7) t1_5 a (index1_7 t1_5 a) y).symm
  · exact Finset.mem_map.mpr ⟨i, Finset.mem_univ _, by
      funext a
      apply Fin.ext
      exact Window.rect_emb_val_of_index_zero (cfg1.win 7) t1_5 a (index1_7 t1_5 a) i⟩

end Cert.Proof.R1B

end
-- ==== Proof.BReg1HF.lean ====
/-
  What the first region's record asks of the contents after the region, from three equations: the three result buffers
  after the region hold the row sums S and P and the last-occurrence indices W of the arrays the region found. The
  inputs' arrays are untouched by the three updates; each result's array is the update at its own buffer.
-/
import proofs.«215986_g81389630259714_cont_9to1_m_762_23_alg».proof.Proof.BPDats
import proofs.«215986_g81389630259714_cont_9to1_m_762_23_alg».proof.Proof.BReg1Val

noncomputable section

namespace Cert.Proof.R1B

open Cert.Kernel Cert.Kernel.Gen Cert.Proof.KB
open Idealize.ShloMosaic Idealize.ShloMosaic.TcCoe
open Idealize.ShloMosaic.Pipeline (Dat)
open Idealize.ShloMosaic.SparseCore.Cfg (HIx)

variable {F : FTy → Type} [FloatOps F]

variable (m : (ℓ : Loc nD τ sig) → Buf (Elt F) ℓ) (outs : Outs F)

/-- The contents after the region at the three result buffers and at an input's array. -/
theorem W4_s (c : Dev nD) : W4 m outs c (r main_v8_0) = outs.s c := by
  unfold W4
  rw [Function.update_of_ne (StableHlo.devRef_ne_of_ne (x := main_v8_0) (y := main_v8_2) (by decide)),
    Function.update_of_ne (StableHlo.devRef_ne_of_ne (x := main_v8_0) (y := main_v8_1) (by decide)), Function.update_self]
theorem W4_p (c : Dev nD) : W4 m outs c (r main_v8_1) = outs.p c := by
  unfold W4
  rw [Function.update_of_ne (StableHlo.devRef_ne_of_ne (x := main_v8_1) (y := main_v8_2) (by decide)), Function.update_self]
theorem W4_w (c : Dev nD) : W4 m outs c (r main_v8_2) = outs.w c := by
  unfold W4
  rw [Function.update_self]

/-- An input's array is none of the three result buffers. -/
theorem in_ne_out (w : Fin cfg1.W) (h5 : w.val < 5) (k : Fin cfg1.W) (hk : 5 ≤ k.val) :
    Pipeline.arrRef spec1 w ≠ Pipeline.arrRef spec1 k := fun e => by
  have h : w = k := launch1.win.arr_inj e
  rw [h] at h5; omega

theorem W4_in (c : Dev nD) (w : Fin cfg1.W) (h5 : w.val < 5) :
    W4 m outs c (r (Pipeline.arrRef spec1 w)) = W3 m outs c (r (Pipeline.arrRef spec1 w)) := by
  have n7 : Pipeline.arrRef spec1 w ≠ main_v8_2 := in_ne_out w h5 7 (by decide)
  have n6 : Pipeline.arrRef spec1 w ≠ main_v8_1 := in_ne_out w h5 6 (by decide)
  have n5 : Pipeline.arrRef spec1 w ≠ main_v8_0 := in_ne_out w h5 5 (by decide)
  unfold W4
  rw [Function.update_of_ne (StableHlo.devRef_ne_of_ne n7), Function.update_of_ne (StableHlo.devRef_ne_of_ne n6),
    Function.update_of_ne (StableHlo.devRef_ne_of_ne n5)]

theorem hF1 (hs : ∀ c, outs.s c = Cert.Proof.KVB.sumsS (V3 m outs c main_v3) (V3 m outs c main_v4) (V3 m outs c main_v5))
    (hp : ∀ c, outs.p c = Cert.Proof.KVB.sumsP (V3 m outs c main_v3) (V3 m outs c main_v5))
    (hw : ∀ c, outs.w c = Cert.Proof.KVB.sumsW (V3 m outs c main_v6) (V3 m outs c main_v7)) :
    ∀ c w, (pdats m outs 0 c).arrAt w cfg1.N = W4 m outs c (r (Pipeline.arrRef spec1 w)) := by
  intro c w
  rw [pdats_zero]
  by_cases h5 : w.val < 5
  · rw [arrAt1_in _ c w h5, W4_in m outs c w h5]
  · have h8 : w.val < 8 := w.isLt
    have hc : w = 5 ∨ w = 6 ∨ w = 7 := by
      rcases (by omega : w.val = 5 ∨ w.val = 6 ∨ w.val = 7) with h | h | h
      · exact .inl (Fin.ext h)
      · exact .inr (.inl (Fin.ext h))
      · exact .inr (.inr (Fin.ext h))
    rcases hc with rfl | rfl | rfl
    · exact (arrAt1_S _ c).trans ((hs c).symm.trans (W4_s m outs c).symm)
    · exact (arrAt1_P _ c).trans ((hp c).symm.trans (W4_p m outs c).symm)
    · exact (arrAt1_W _ c).trans ((hw c).symm.trans (W4_w m outs c).symm)

end Cert.Proof.R1B

end
-- ==== Proof.BReg2Body.lean ====
/-
  The second region's body: on whole staging buffers holding the seven input blocks it reads each of them once (the two
  sums twice) and stores the combination to the output's buffer; the inputs' buffers are left as they were.
-/
import proofs.«215986_g81389630259714_cont_9to1_m_762_23_alg».proof.Proof.BReg2Dat
import Idealize.ShloMosaic.Lib.Pipeline.FrameBody
import Idealize.ShloMosaic.Lib.Pipeline.Value
import Idealize.ShloMosaic.Lib.Tactic

set_option maxRecDepth 16384

noncomputable section

namespace Cert.Proof.R2B

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F]

local notation "𝕄" => MT nD τ sig (HIx 1) (Elt F) ℕ Cert.Proof.KB.UU ℕ

variable (V : (c : Dev nD) → (b : Ref sig .tc) → Buf (Elt F) ((c : Thread nD τ).loc b))

/-! ## The body's triple -/

set_option maxHeartbeats 1000000 in
/-- The body on whole staging memrefs, the inputs' at contents `x0 … x6` and the output's at anything, runs to the
    continuation holding the inputs' as they were and the output's at `out2_7` of the inputs'. -/
theorem sound_kernel2 (c : Dev nD) (E : Set ℕ) (arg0 : Memref sig .tc .vmem S1x2048 .f32) (harg0 : arg0.IsWhole) (arg1 : Memref sig .tc .vmem S1x2048 .f32) (harg1 : arg1.IsWhole) (arg2 : Memref sig .tc .vmem S2048x1 .f32) (harg2 : arg2.IsWhole) (arg3 : Memref sig .tc .vmem S2048x1 .f32) (harg3 : arg3.IsWhole) (arg4 : Memref sig .tc .vmem S1x2048 .i32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x1 .f32) (harg7 : arg7.IsWhole)
    (x0 x1 : Vec F S1x2048 .f32) (x2 x3 : Vec F S2048x1 .f32) (x4 : Vec F S1x2048 .i32) (x5 x6 : Vec F S1x2048 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare (out2_7 x0 x1 x2 x3 x4 x5 x6)) -∗ K ⟨⟩))
      ⊢ wp frame (wpE (defs₀ (F := F)) Variants.none c none) E (cc2__combine_body arg0 harg0 arg1 harg1 arg2 harg2 arg3 harg3 arg4 harg4 arg5 harg5 arg6 harg6 arg7 harg7) K := by
  simp only [cc2__combine_body_eq_skeleton]; unfold cc2__combine_body_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## What the body finds in the inputs' buffers -/

/-- Each input's current staging buffer holds its block at the point, for any proof data whose array is the entry
    contents and whose body leaves the block in place. -/
theorem before2_0_of {c : Dev nD} (dat : Dat τ (Elt F) (HIx 1) ℕ Cert.Proof.KB.UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_0 (c : Dev nD) (t : Fin cfg2.N) (d) : (dat2 V c).before 0 t d = iblk2 V c 0 t :=
  before2_0_of V (dat2 V c) (A_eq2 V c 0) (after2_0 V c) t d
theorem before2_1_of {c : Dev nD} (dat : Dat τ (Elt F) (HIx 1) ℕ Cert.Proof.KB.UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_1 (c : Dev nD) (t : Fin cfg2.N) (d) : (dat2 V c).before 1 t d = iblk2 V c 1 t :=
  before2_1_of V (dat2 V c) (A_eq2 V c 1) (after2_1 V c) t d
theorem before2_2_of {c : Dev nD} (dat : Dat τ (Elt F) (HIx 1) ℕ Cert.Proof.KB.UU ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_2 (c : Dev nD) (t : Fin cfg2.N) (d) : (dat2 V c).before 2 t d = iblk2 V c 2 t :=
  before2_2_of V (dat2 V c) (A_eq2 V c 2) (after2_2 V c) t d
theorem before2_3_of {c : Dev nD} (dat : Dat τ (Elt F) (HIx 1) ℕ Cert.Proof.KB.UU ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_3 (c : Dev nD) (t : Fin cfg2.N) (d) : (dat2 V c).before 3 t d = iblk2 V c 3 t :=
  before2_3_of V (dat2 V c) (A_eq2 V c 3) (after2_3 V c) t d
theorem before2_4_of {c : Dev nD} (dat : Dat τ (Elt F) (HIx 1) ℕ Cert.Proof.KB.UU ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_4 (c : Dev nD) (t : Fin cfg2.N) (d) : (dat2 V c).before 4 t d = iblk2 V c 4 t :=
  before2_4_of V (dat2 V c) (A_eq2 V c 4) (after2_4 V c) t d
theorem before2_5_of {c : Dev nD} (dat : Dat τ (Elt F) (HIx 1) ℕ Cert.Proof.KB.UU ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_5 (c : Dev nD) (t : Fin cfg2.N) (d) : (dat2 V c).before 5 t d = iblk2 V c 5 t :=
  before2_5_of V (dat2 V c) (A_eq2 V c 5) (after2_5 V c) t d
theorem before2_6_of {c : Dev nD} (dat : Dat τ (Elt F) (HIx 1) ℕ Cert.Proof.KB.UU ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_6 (c : Dev nD) (t : Fin cfg2.N) (d) : (dat2 V c).before 6 t d = iblk2 V c 6 t :=
  before2_6_of V (dat2 V c) (A_eq2 V c 6) (after2_6 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt none t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt none t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at the point: the inputs' memrefs hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt none t.succ = (dat2 V c).owesAt none t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at the point. -/
theorem body_obligation2 (c : Dev nD) : BodyObligation (dat2 (F := F) V c) (defs₀ (F := F)) Variants.none (none : HIx 1) Set.univ := fun t => by
  rw [bigSep_W2, bigSep_W2]
  exact sound_body2 V c t

end Cert.Proof.R2B

end
-- ==== Proof.BReg2Val.lean ====
/-
  The second region's arrays when it is left: each input's array as the region found it, and the 1 x 1 output's array
  holding the combination of the seven input arrays (each of the body's accesses is a whole staging buffer and each
  window's block is its whole array, so the pieces and blocks collapse to the arrays themselves).
-/
import proofs.«215986_g81389630259714_cont_9to1_m_762_23_alg».proof.Proof.BReg2Dat
import Idealize.ShloMosaic.Lib.Pipeline.FrameBody
import Idealize.ShloMosaic.Lib.Pipeline.Value
import Idealize.ShloMosaic.Lib.Pipeline.Cells
import Idealize.ShloMosaic.Lib.Tactic

set_option maxRecDepth 16384

noncomputable section

namespace Cert.Proof.R2B

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.SparseCore.Cfg (HIx)

variable {F : FTy → Type} [FloatOps F]

local notation "𝕄" => MT nD τ sig (HIx 1) (Elt F) ℕ Cert.Proof.KB.UU ℕ

variable (V : (c : Dev nD) → (b : Ref sig .tc) → Buf (Elt F) ((c : Thread nD τ).loc b))

/-! ## The values: each access of the body is a whole buffer, each block the whole array -/

theorem zero2 : (![0, 0] : Fin 2 → Nat) = fun _ => 0 := by
  funext a; match a with | ⟨0, _⟩ => rfl | ⟨1, _⟩ => rfl

/-- The 1 x 1 shape has one index. -/
theorem idx11_eq (x y : S1x1.Idx) : x = y := by
  funext a
  match a with
  | ⟨0, h⟩ =>
    have h1 : (x ⟨0, h⟩).val < 1 := (x ⟨0, h⟩).isLt
    have h2 : (y ⟨0, h⟩).val < 1 := (y ⟨0, h⟩).isLt
    exact Fin.ext (by omega)
  | ⟨1, h⟩ =>
    have h1 : (x ⟨1, h⟩).val < 1 := (x ⟨1, h⟩).isLt
    have h2 : (y ⟨1, h⟩).val < 1 := (y ⟨1, h⟩).isLt
    exact Fin.ext (by omega)

/-- The output's buffer after the body is the combination of the input blocks: every access is a whole buffer. -/
theorem out2_7_eq (x0 x1 : Vec F S1x2048 .f32) (x2 x3 : Vec F S2048x1 .f32) (x4 : Vec F S1x2048 .i32) (x5 x6 : Vec F S1x2048 .f32) :
    out2_7 x0 x1 x2 x3 x4 x5 x6 = Cert.Proof.KVB.comb x0 x1 x2 x3 x4 x5 x6 := by
  unfold out2_7 Cert.Proof.KVB.comb
  rw [View.canon_unit_zero zero2]
  simp only [View.ld_unit_zero (S := S1x2048) zero2, View.ld_unit_zero (S := S2048x1) zero2]

/-- Each input's block is its whole array: the block index is zero on both axes. -/
theorem iblk2_0 (c : Dev nD) (t : Fin cfg2.N) : iblk2 V c 0 t = V c main_v8_0 := by
  funext y
  unfold iblk2
  rw [View.read_apply]
  show V c main_v8_0 (((cfg2.win 0).rect t).emb y) = V c main_v8_0 y
  congr 1
  funext a
  apply Fin.ext
  exact Window.rect_emb_val_of_index_zero (cfg2.win 0) t a rfl y
theorem iblk2_1 (c : Dev nD) (t : Fin cfg2.N) : iblk2 V c 1 t = V c main_v8_1 := by
  funext y
  unfold iblk2
  rw [View.read_apply]
  show V c main_v8_1 (((cfg2.win 1).rect t).emb y) = V c main_v8_1 y
  congr 1
  funext a
  apply Fin.ext
  exact Window.rect_emb_val_of_index_zero (cfg2.win 1) t a rfl y
theorem iblk2_2 (c : Dev nD) (t : Fin cfg2.N) : iblk2 V c 2 t = V c main_v9 := by
  funext y
  unfold iblk2
  rw [View.read_apply]
  show V c main_v9 (((cfg2.win 2).rect t).emb y) = V c main_v9 y
  congr 1
  funext a
  apply Fin.ext
  exact Window.rect_emb_val_of_index_zero (cfg2.win 2) t a rfl y
theorem iblk2_3 (c : Dev nD) (t : Fin cfg2.N) : iblk2 V c 3 t = V c main_v10 := by
  funext y
  unfold iblk2
  rw [View.read_apply]
  show V c main_v10 (((cfg2.win 3).rect t).emb y) = V c main_v10 y
  congr 1
  funext a
  apply Fin.ext
  exact Window.rect_emb_val_of_index_zero (cfg2.win 3) t a rfl y
theorem iblk2_4 (c : Dev nD) (t : Fin cfg2.N) : iblk2 V c 4 t = V c main_v8_2 := by
  funext y
  unfold iblk2
  rw [View.read_apply]
  show V c main_v8_2 (((cfg2.win 4).rect t).emb y) = V c main_v8_2 y
  congr 1
  funext a
  apply Fin.ext
  exact Window.rect_emb_val_of_index_zero (cfg2.win 4) t a rfl y
theorem iblk2_5 (c : Dev nD) (t : Fin cfg2.N) : iblk2 V c 5 t = V c main_v2_0 := by
  funext y
  unfold iblk2
  rw [View.read_apply]
  show V c main_v2_0 (((cfg2.win 5).rect t).emb y) = V c main_v2_0 y
  congr 1
  funext a
  apply Fin.ext
  exact Window.rect_emb_val_of_index_zero (cfg2.win 5) t a rfl y
theorem iblk2_6 (c : Dev nD) (t : Fin cfg2.N) : iblk2 V c 6 t = V c main_v2_1 := by
  funext y
  unfold iblk2
  rw [View.read_apply]
  show V c main_v2_1 (((cfg2.win 6).rect t).emb y) = V c main_v2_1 y
  congr 1
  funext a
  apply Fin.ext
  exact Window.rect_emb_val_of_index_zero (cfg2.win 6) t a rfl y

theorem isIn2 : ∀ w : Fin cfg2.W, w.val < 7 → (cfg2.win w).isOut = false := by decide

/-- An input's array is never written. -/
theorem arrAt2_in (c : Dev nD) (w : Fin cfg2.W) (hw : w.val < 7) : (dat2 V c).arrAt w cfg2.N = V c (Pipeline.arrRef spec2 w) :=
  ((dat2 V c).arrAt_in w (isIn2 w hw) _).trans (A_eq2 V c w)

/-- The output's array after the region: the combination of the seven input arrays as the region found them (its one
    block, written back at the point, covers it). -/
theorem arrAt2_out (c : Dev nD) : (dat2 V c).arrAt 7 cfg2.N
    = Cert.Proof.KVB.comb (V c main_v8_0) (V c main_v8_1) (V c main_v9) (V c main_v10) (V c main_v8_2) (V c main_v2_0) (V c main_v2_1) := by
  refine (dat2 V c).arrAt_eq_of_cover 7 _ (fun t _ => ?_) (fun i => ⟨t2_0, flush2_7 t2_0, ?_⟩)
  · funext y
    rw [View.read_apply]
    show (dat2 V c).after 7 t _ = Cert.Proof.KVB.comb _ _ _ _ _ _ _ _
    rw [after2_7, out2_7_eq, iblk2_0, iblk2_1, iblk2_2, iblk2_3, iblk2_4, iblk2_5, iblk2_6]
    exact congrArg _ (idx11_eq _ _)
  · exact Finset.mem_map.mpr ⟨i, Finset.mem_univ _, idx11_eq _ _⟩

end Cert.Proof.R2B

end
-- ==== Proof.BReg2.lean ====
/-
  The second region as a segment of the main program: entered from every unscoped TensorCore buffer at the contents
  after the two reshapes that feed it, left with the 1 x 1 result in place and every other buffer as it was. The
  region's arrays are split out of the unscoped buffers at entry and put back at exit; the generator register goes into
  the region's invariant and comes back; the bound on the recorded wait pairs survives, since the pipeline's own waits
  record pairs at the index of level zero; nothing is owed; the body has no semaphore of its own.
-/
import proofs.«215986_g81389630259714_cont_9to1_m_762_23_alg».proof.Proof.BPDats
import proofs.«215986_g81389630259714_cont_9to1_m_762_23_alg».proof.Proof.BReg2Body
import proofs.«215986_g81389630259714_cont_9to1_m_762_23_alg».proof.Proof.BReg2Val
import Idealize.ShloMosaic.Lib.Pipeline.RegionsLoop
import Idealize.ShloMosaic.Lib.Pipeline.FrameSuffix

noncomputable section

namespace Cert.Proof.R2B

open Cert.Kernel Cert.Kernel.Gen Cert.Proof.KB
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)
open Idealize.ShloMosaic.StableHlo (held)

variable {F : FTy → Type} [FloatOps F]

local notation "𝕄" => MT nD τ sig (HIx 1) (Elt F) ℕ Cert.Proof.KB.UU ℕ

variable (m : (ℓ : Loc nD τ sig) → Buf (Elt F) ℓ) (outs : Outs F)

/-- Off the region's arrays the contents after the region are those before it: only the result's buffer is updated. -/
theorem hrest2 (c : Dev nD) : ∀ b, b ∉ Finset.univ.image (Pipeline.arrRef spec2) → W6 m outs c (r b) = V5 m outs c b := by
  intro b hb
  unfold W6
  exact Function.update_of_ne (StableHlo.devRef_ne_of_ne fun e => hb (Finset.mem_image.mpr ⟨7, Finset.mem_univ _, e.symm⟩)) _ _

/-- The wait pairs within the region's bound are of level at most 8: the recorded ones by the bound, the pipeline's own
    because their index is the one of level zero. -/
theorem wbelow2 (c : Dev nD) (t : Fin (cfg2.N + 1)) (W : Waits sig (HIx 1)) (hW : ↑W ⊆ (pdats m outs 1 c).bound none t) :
    (K (F := F)).WBelow (SparseCore.T c) W 8 := fun p hp => by
  rcases hW (Finset.mem_coe.mpr hp) with h | ⟨w, s, rfl⟩
  · exact h
  · rw [SparseCore.Cfg.lev_none]; exact Nat.zero_le _

set_option backward.isDefEq.respectTransparency.types false in
/-- THE SECOND REGION over the thread state. -/
def reg2 (hF : ∀ c w, (pdats m outs 1 c).arrAt w cfg2.N = W6 m outs c (r (Pipeline.arrRef spec2 w))) : RSeg (F := F) (pdats m outs) 1 where
  win := launch2.win.to₀
  block_pos := launch2.block_pos
  stage_whole := launch2.stage_whole
  K := PEmpty
  osem k := k.elim
  ho := Pipeline.OwnSemFacts.none _
  hbody c := (body_obligation2 (V5 m outs) c).loose
  hwaits := Pipeline.hwaits_of_owed_zero _ _ _ _ (LL (F := F)) (lvv (F := F)) 1 fun _ _ => rfl
  pre := TS (W5 m outs)
  post := TS (W6 m outs)
  X c := iprop(∃ r, prngReg c r)
  Y c := iprop(∃ r, prngReg c r)
  Z c := Pipeline.unscopedRest (Ix := HIx 1) (Name := ℕ) (U := UU) (Lvl := ℕ) spec2 c (V5 m outs c)
  hentry c := by
    rw [Pipeline.ownSems0_none]
    have hsplit := Pipeline.arrays_of_unscopedBufs (p := 1) (pcfgs (F := F)) adm (pdats m outs) launch2.win launch2.arr_whole c
      ((pdats m outs 1 c).share_full fun _ => rfl) (V5 m outs c) fun _ => rfl
    rw [Pipeline.unscopedBufs_held] at hsplit
    unfold TS Owe
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p (Finset.mem_coe.mp hp))
      iexact HO
    isplitl [Hp]; · iexact Hp
    iexact Hrest
  hin c := by
    rw [show (pdats m outs 1 c).Φ 0 = Φ2 c from rfl]; unfold Φ2
    iintro ⟨Hp, -, Hr⟩
    isplitl [Hr]; · iexact Hr
    iexact Hp
  hout c := by
    rw [Pipeline.ownSems0_none, show (pdats m outs 1 c).Φ (Fin.last _) = Φ2 c from rfl]; unfold Φ2
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats m outs) ((pdats m outs 1 c).share_full fun _ => rfl)
      (V5 m outs c) (fun b => W6 m outs c (r b)) ((pdats m outs 1 c).arrAt · cfg2.N) (hF c) (hrest2 m outs c)
    rw [Pipeline.unscopedBufs_held] at hjoin
    unfold TS Owe
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W
    isplitr; · ipureintro; exact wbelow2 m outs c _ W hW
    iexact HO

/-- The region is entered from, and left at, the launch module's thread states as they stand. -/
theorem reg2_pre (hF) (d : Dev nD) : TS (W5 m outs) d ⊢ (reg2 m outs hF).pre d := .rfl
theorem reg2_post (hF) (d : Dev nD) : (reg2 m outs hF).post d ⊢ TS (W6 m outs) d := .rfl

/-- What the record asks of the exit contents, from one equation: the result's buffer after the region holds the
    combination of the seven input arrays as the region found them. -/
theorem hF2 (ho : ∀ c, outs.o c = Cert.Proof.KVB.comb (V5 m outs c main_v8_0) (V5 m outs c main_v8_1) (V5 m outs c main_v9) (V5 m outs c main_v10)
      (V5 m outs c main_v8_2) (V5 m outs c main_v2_0) (V5 m outs c main_v2_1)) (c : Dev nD) (w : Fin cfg2.W) :
    (pdats m outs 1 c).arrAt w cfg2.N = W6 m outs c (r (Pipeline.arrRef spec2 w)) := by
  rw [pdats_one]
  by_cases hw : w.val < 7
  · rw [arrAt2_in _ c w hw]
    unfold W6
    exact (Function.update_of_ne (StableHlo.devRef_ne_of_ne fun e => by
      have h7 : w = 7 := launch2.win.arr_inj e
      rw [h7] at hw; exact absurd hw (by decide)) _ _).symm
  · have h7 : w = 7 := Fin.ext (by have h8 : w.val < 8 := w.isLt; show w.val = 7; omega)
    subst h7
    rw [arrAt2_out]
    unfold W6
    rw [Function.update_self]
    exact (ho c).symm

end Cert.Proof.R2B

end
-- ==== Proof.BKFrame.lean ====
/-
  The idealized kernel program's run, assembled: under the precondition's index range every weakly fair execution of
  the device's threads terminates, nothing faulting, the result buffer at the kernel's value function of the five
  arguments and the arguments as launched.
-/
import proofs.«215986_g81389630259714_cont_9to1_m_762_23_alg».proof.Proof.BKLaunch
import proofs.«215986_g81389630259714_cont_9to1_m_762_23_alg».proof.Proof.BKTileObl
import proofs.«215986_g81389630259714_cont_9to1_m_762_23_alg».proof.Proof.BKOuts
import proofs.«215986_g81389630259714_cont_9to1_m_762_23_alg».proof.Proof.KPre
import proofs.«215986_g81389630259714_cont_9to1_m_762_23_alg».proof.Proof.BPDats
import proofs.«215986_g81389630259714_cont_9to1_m_762_23_alg».proof.Proof.BReg1Seg
import proofs.«215986_g81389630259714_cont_9to1_m_762_23_alg».proof.Proof.BReg1HF
import proofs.«215986_g81389630259714_cont_9to1_m_762_23_alg».proof.Proof.BReg2

noncomputable section

namespace Cert.Proof.KB

open Cert.Kernel Cert.Kernel.Gen
open Idealize.ShloMosaic Idealize.SL.Sem
open Idealize.ShloMosaic.SparseCore.Cfg (HIx)

variable {F : FTy → Type} [FloatOps F] (m : (ℓ : Loc nD τ sig) → Buf (Elt F) ℓ) (ρ : Dev nD → PrngReg)

/-- The precondition gives the index range the gathers need. -/
theorem preOK_of
    (h : ∀ c : Dev nD, Cert.Pre_input_domain.fn (F := F) (m (tl c main_arg0)) (m (tl c main_arg1)) (m (tl c main_arg2)) (m (tl c main_arg3)) (m (tl c main_arg4)) = fun _ => 1#1) :
    PreOK m := fun d j => Cert.Proof.KP.idx_lt _ _ _ _ _ (h d) j

/-- THE RUN. -/
theorem run [∀ e, Nonempty (Elt F e)] (hpre : PreOK m) :
    θ_run (Cert.Kernel.defs (F := F)) (Cert.Kernel.threads (F := F)) ⟨m, fun _ => 0, ρ⟩ (QC m (outsK m)) :=
  run_cond m ρ (outsK m) (pdats m (outsK m))
    (Cert.Proof.R1B.reg1 m (outsK m) (Cert.Proof.R1B.hF1 m (outsK m) (s_eq m) (p_eq m) (w_eq m)))
    (Cert.Proof.R2B.reg2 m (outsK m) (Cert.Proof.R2B.hF2 m (outsK m) (o_eq m)))
    (fun _ => .rfl) (fun _ => .rfl) (fun _ => .rfl) (fun _ => .rfl)
    (tileObl m (outsK m) facts hpre (hg0 m) (hg1 m)) (SparseCore.Cfg.VecSplit.of_plain (vecSplit m (outsK m)))

end Cert.Proof.KB

end
-- ==== Proof.Spec.lean ====
/-
  The mathematics of the claim, over the extended reals. With f the 2048 positive scores, g the 8192 negative ones,
  idx the 2048 indices and ua, up the two tables of 100000 entries:

    h(a, v) = max(0.6 - a + v, 0)^2
    P[j]    = sum over k < 2048 of h(f[j], f[k])
    S[j]    = P[j] + sum over k < 8192 of h(f[j], g[k])
    last j  = the greatest k with idx[k] = idx[j]
    UA[j]   = 0.1 ua[idx j] + 0.9 (S[last j] / 10240)
    UP[j]   = 0.1 up[idx j] + 0.9 (P[last j] / 10240)
    out     = (sum over j of (UP[j] S[j] - UA[j] P[j]) / UA[j]^2) / 20971520

  (0.6, 0.1, 0.9 are the binary values the programs hold; the two quotients are products with the exact reciprocals;
  a quotient by zero reads as the library's division does.) Both programs compute `out`: the kernel in this form, the
  reference entry by entry over the 2048 x 10240 matrix of losses, its scatter keeping the last update at a repeated
  index.
-/
import Idealize.ShloMosaic.PureOps.Ideal
import Idealize.ShloMosaic.Lib.ValueIdx
import proofs.«215986_g81389630259714_cont_9to1_m_762_23_alg».proof.Defs

noncomputable section

namespace Cert.Proof.Spec

open Idealize.ShloMosaic

def c06 : EReal := Ideal.ofBits .f32 0x3F19999A#32
def c01 : EReal := Ideal.ofBits .f32 0x3DCCCCCD#32
def c09 : EReal := Ideal.ofBits .f32 0x3F666666#32

section

variable (fp : Fin 2048 → EReal) (fn : Fin 8192 → EReal) (ix : Fin 2048 → BitVec 32) (ua up : Fin 100000 → EReal)

/-- One squared hinge term. -/
def hinge (a v : EReal) : EReal := max ((c06 - a) + v) 0 * max ((c06 - a) + v) 0
/-- The positive part of row j's loss sum. -/
def Pj (j : Fin 2048) : EReal := ∑ k : Fin 2048, hinge (fp j) (fp k)
/-- Row j's loss sum. -/
def Sj (j : Fin 2048) : EReal := Pj fp j + ∑ k : Fin 8192, hinge (fp j) (fn k)
/-- The last position holding the index at position j. -/
def last (j : Fin 2048) : Fin 2048 := Finset.max' (Finset.univ.filter fun k => ix k = ix j) ⟨j, by simp⟩
/-- A table read at an index word (past the table: its last entry; under the precondition no index is). -/
def tab (t : Fin 100000 → EReal) (w : BitVec 32) : EReal := t ⟨min w.toNat 99999, by omega⟩
def UA (j : Fin 2048) : EReal := c01 * tab ua (ix j) + c09 * (Sj fp fn (last ix j) * ((1 / 10240 : ℝ) : EReal))
def UP (j : Fin 2048) : EReal := c01 * tab up (ix j) + c09 * (Pj fp (last ix j) * ((1 / 10240 : ℝ) : EReal))
/-- The result. -/
def out : EReal :=
  (∑ j : Fin 2048, Ideal.div (UP fp ix up j * Sj fp fn j - UA fp fn ix ua j * Pj fp j) (UA fp fn ix ua j * UA fp fn ix ua j))
    * ((1 / 20971520 : ℝ) : EReal)

end

open Cert.ReferenceIdeal in
/-- The result as a function of the five argument arrays at the ideal instance. -/
def specOf (a0 : FVec Ideal S2048 .f32) (a1 : FVec Ideal S8192 .f32) (a2 : IVec S2048 32) (a3 a4 : FVec Ideal S100000x1 .f32) : EReal :=
  out (fun k => a0 (ValueIdx.ix1 k)) (fun k => a1 (ValueIdx.ix1 k)) (fun k => a2 (ValueIdx.ix1 k))
    (fun r => a3 (ValueIdx.ix2 r (0 : Fin 1))) (fun r => a4 (ValueIdx.ix2 r (0 : Fin 1)))

open Cert.ReferenceIdeal in
/-- What the precondition gives: every score and table entry is a real number, every index names a table row. -/
structure Hyp (a0 : FVec Ideal S2048 .f32) (a1 : FVec Ideal S8192 .f32) (a2 : IVec S2048 32) (a3 a4 : FVec Ideal S100000x1 .f32) : Prop where
  fin0 : ∀ i, ∃ x : ℝ, a0 i = (x : EReal)
  fin1 : ∀ i, ∃ x : ℝ, a1 i = (x : EReal)
  fin3 : ∀ i, ∃ x : ℝ, a3 i = (x : EReal)
  fin4 : ∀ i, ∃ x : ℝ, a4 i = (x : EReal)
  rng : ∀ i, 0 ≤ (a2 i).toInt ∧ (a2 i).toInt ≤ 99999

end Cert.Proof.Spec

end
-- ==== Proof.KValBase.lean ====
/-
  Reading tools for the value of the idealized program: a column broadcast, the casts between a vector, its row and its
  column, a sum of a matrix over its rows or of a row over its columns, and a signed maximum over the rows, each read at
  an index given by coordinates; and a sum over 8192 places as four sums over 2048.
-/
import Idealize.ShloMosaic.Lib.ValueLayout
import Idealize.ShloMosaic.PureOps.Ideal.Laws

noncomputable section

open scoped BigOperators

namespace Cert.Proof.KVal

open Idealize.ShloMosaic Idealize.ShloMosaic.ValueIdx

variable {α : Type}

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A row `[1, a]` cast to the column `[a, 1]` reads, at `(i, u)`, the row at `(0, i)`. -/
theorem shapeCast_1a_a1_apply {a : ℕ} (x : (⟨2, ![1, a]⟩ : Shape).Idx → α) (h : (⟨2, ![1, a]⟩ : Shape).ShapeCasts ⟨2, ![a, 1]⟩)
    (i : Fin a) (u : Fin 1) : shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- A column `[a, 1]` cast to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A `[1, 1]` array cast to a scalar reads its one entry. -/
theorem shapeCast_11_scalar_apply (x : (⟨2, ![1, 1]⟩ : Shape).Idx → α) (h : (⟨2, ![1, 1]⟩ : Shape).ShapeCasts ⟨0, ![]⟩)
    (j : (⟨0, ![]⟩ : Shape).Idx) : shapeCast ⟨0, ![]⟩ x h j = x (ix2 (0 : Fin 1) (0 : Fin 1)) :=
  shapeCast_apply x h _ _ (by
    have h1 := ((⟨0, ![]⟩ : Shape).rowMajor j).isLt
    have h2 := ((⟨2, ![1, 1]⟩ : Shape).rowMajor (ix2 (0 : Fin 1) (0 : Fin 1))).isLt
    have e1 : (⟨0, ![]⟩ : Shape).numel = 1 := by decide
    have e2 : (⟨2, ![1, 1]⟩ : Shape).numel = 1 := by decide
    omega)

/-- The sum of an `[n, m]` matrix over its rows, at column `c`. -/
theorem sum_rows_apply {n m : ℕ} (src : FVec Ideal ⟨2, ![n, m]⟩ .f32) (acc : BitVec 32)
    (h : (⟨2, ![n, m]⟩ : Shape).Reduces [0] ⟨1, ![m]⟩) (hφ : FKind.Formats .f32)
    (hacc : acc = FKind.add.neutral .f32 hφ) (c : Fin m) :
    multiReduction (F := Ideal) .add [0] ⟨1, ![m]⟩ src acc h hφ hacc (ix1 c) = ∑ r : Fin n, src (ix2 r c) := by
  refine (Ideal.multiReduction_add_single src acc h hφ hacc (ix1 c)).trans ?_
  refine Finset.sum_congr rfl fun r _ => congrArg src ?_
  funext d
  match d with
  | ⟨0, _⟩ => exact Fin.ext rfl
  | ⟨1, _⟩ => exact Fin.ext rfl

/-- The sum of a `[1, m]` row over its columns. -/
theorem sum_cols_apply {m : ℕ} (src : FVec Ideal ⟨2, ![1, m]⟩ .f32) (acc : BitVec 32)
    (h : (⟨2, ![1, m]⟩ : Shape).Reduces [1] ⟨1, ![1]⟩) (hφ : FKind.Formats .f32)
    (hacc : acc = FKind.add.neutral .f32 hφ) (u : Fin 1) :
    multiReduction (F := Ideal) .add [1] ⟨1, ![1]⟩ src acc h hφ hacc (ix1 u) = ∑ c : Fin m, src (ix2 (0 : Fin 1) c) := by
  refine (Ideal.multiReduction_add_single src acc h hφ hacc (ix1 u)).trans ?_
  refine Finset.sum_congr rfl fun c _ => congrArg src ?_
  funext d
  match d with
  | ⟨0, _⟩ => exact Fin.ext (by show u.val = 0; omega)
  | ⟨1, _⟩ => exact Fin.ext rfl

/-- The signed maximum of an `[n, m]` matrix of words over its rows, at column `c`: the fold over the rows. -/
theorem maxsi_rows_apply {n m : ℕ} (src : IVec ⟨2, ![n, m]⟩ 32) (acc : BitVec 32)
    (h : (⟨2, ![n, m]⟩ : Shape).Reduces [0] ⟨1, ![m]⟩) (hacc : acc = IKind.maxsi.neutral) (c : Fin m) :
    multiReductionI .maxsi [0] ⟨1, ![m]⟩ src acc h hacc (ix1 c)
      = (Finset.univ : Finset (Fin n)).fold IntOp.maxsi acc (fun r => src (ix2 r c)) := by
  rw [multiReductionI_eq_fold]
  refine (h.fold_filter_drop_single IntOp.maxsi acc src (ix1 c)).trans ?_
  refine congrArg (fun f => (Finset.univ : Finset (Fin n)).fold IntOp.maxsi acc f) ?_
  funext r
  refine congrArg src ?_
  funext d
  match d with
  | ⟨0, _⟩ => exact Fin.ext rfl
  | ⟨1, _⟩ => exact Fin.ext rfl

/-- A sum over 8192 places is four sums over 2048. -/
theorem sum_four_blocks {M : Type*} [AddCommMonoid M] (f : Fin 8192 → M) :
    ∑ k, f k = (((∑ r : Fin 2048, f ⟨2048 * 0 + r.val, by omega⟩) + ∑ r : Fin 2048, f ⟨2048 * 1 + r.val, by omega⟩)
      + ∑ r : Fin 2048, f ⟨2048 * 2 + r.val, by omega⟩) + ∑ r : Fin 2048, f ⟨2048 * 3 + r.val, by omega⟩ := by
  have e := Fintype.sum_equiv (finProdFinEquiv (m := 4) (n := 2048))
    (fun p : Fin 4 × Fin 2048 => f ⟨2048 * p.1.val + p.2.val, by have := p.1.isLt; have := p.2.isLt; omega⟩) f
    (fun p => congrArg f (Fin.ext (by show 2048 * p.1.val + p.2.val = p.2.val + 2048 * p.1.val; omega)))
  rw [← e, Fintype.sum_prod_type, Fin.sum_univ_four]
  rfl

end Cert.Proof.KVal

end
-- ==== Proof.KValSums.lean ====
/-
  The first region's two sums at a column. With a the row of scores and b a column block of scores, the block's
  contribution at column j is the sum over the block's rows r of max(0.6 - a[j] + b[r], 0)^2; P is that sum over the
  positive scores added to zero, S is P plus the four negative blocks' contributions.
-/
import proofs.«215986_g81389630259714_cont_9to1_m_762_23_alg».proof.Proof.KVals
import proofs.«215986_g81389630259714_cont_9to1_m_762_23_alg».proof.Proof.Spec
import proofs.«215986_g81389630259714_cont_9to1_m_762_23_alg».proof.Proof.KValBase

noncomputable section

open scoped BigOperators

namespace Cert.Proof.KVal

open Cert.KernelIdeal Cert.KernelIdeal.Gen
open Idealize.ShloMosaic Idealize.ShloMosaic.ValueIdx
open Cert.Proof

/-- The shifted row: 0.6 - a[j]. -/
theorem k1_pay1_apply (v0 : Vec Ideal S1x2048 .f32) (c : Fin 2048) :
    k1_pay1 (F := Ideal) v0 (ix2 (0 : Fin 1) c) = Spec.c06 - v0 (ix2 (0 : Fin 1) c) := by
  unfold k1_pay1
  show Ideal.ofBits .f32 0x3F19999A#32 - shapeCast S1x2048 v0 shapeCasts_S1x2048_S1x2048 (ix2 (0 : Fin 1) c) = _
  rw [shapeCast_self]
  rfl

/-- One block's contribution at column j. -/
theorem k1_pay2_apply (v0 : Vec Ideal S1x2048 .f32) (v15 : Vec Ideal S2048x1 .f32) (c : Fin 2048) :
    k1_pay2 (F := Ideal) v0 v15 (ix2 (0 : Fin 1) c)
      = ∑ r : Fin 2048, Spec.hinge (v0 (ix2 (0 : Fin 1) c)) (v15 (ix2 r (0 : Fin 1))) := by
  unfold k1_pay2
  refine (shapeCast_a_1a_apply _ _ _ _).trans ?_
  refine (sum_rows_apply _ _ _ _ _ c).trans ?_
  refine Finset.sum_congr rfl fun r _ => ?_
  have e1 : broadcastTo S2048x2048 (k1_pay1 (F := Ideal) v0) broadcasts_S1x2048_S2048x2048 (ix2 r c)
      = Spec.c06 - v0 (ix2 (0 : Fin 1) c) :=
    (broadcastTo_1b_ab_apply _ _ r c).trans (k1_pay1_apply v0 c)
  have e2 : broadcastTo S2048x2048 (shapeCast S2048x1 v15 shapeCasts_S2048x1_S2048x1) broadcasts_S2048x1_S2048x2048 (ix2 r c)
      = v15 (ix2 r (0 : Fin 1)) :=
    (broadcastTo_a1_ab_apply _ _ r c).trans (by rw [shapeCast_self])
  show max (broadcastTo S2048x2048 (k1_pay1 (F := Ideal) v0) broadcasts_S1x2048_S2048x2048 (ix2 r c)
        + broadcastTo S2048x2048 (shapeCast S2048x1 v15 shapeCasts_S2048x1_S2048x1) broadcasts_S2048x1_S2048x2048 (ix2 r c))
        (Ideal.ofBits .f32 0x00000000#32)
      * max (broadcastTo S2048x2048 (k1_pay1 (F := Ideal) v0) broadcasts_S1x2048_S2048x2048 (ix2 r c)
        + broadcastTo S2048x2048 (shapeCast S2048x1 v15 shapeCasts_S2048x1_S2048x1) broadcasts_S2048x1_S2048x2048 (ix2 r c))
        (Ideal.ofBits .f32 0x00000000#32) = _
  rw [e1, e2, Ideal.ofBits_zero_f32]
  rfl

/-- The accumulating payloads add one block's contribution to the row they read. -/
theorem k1_pay7_eq (v0 : Vec Ideal S1x2048 .f32) (v15 : Vec Ideal S2048x1 .f32) (v22 : Vec Ideal S1x2048 .f32) :
    k1_pay7 (F := Ideal) v0 v15 v22 = addf (shapeCast S1x2048 v22 shapeCasts_S1x2048_S1x2048) (k1_pay2 (F := Ideal) v0 v15) := rfl

theorem k1_pay7_apply (v0 : Vec Ideal S1x2048 .f32) (v15 : Vec Ideal S2048x1 .f32) (v22 : Vec Ideal S1x2048 .f32) (c : Fin 2048) :
    k1_pay7 (F := Ideal) v0 v15 v22 (ix2 (0 : Fin 1) c)
      = v22 (ix2 (0 : Fin 1) c) + ∑ r : Fin 2048, Spec.hinge (v0 (ix2 (0 : Fin 1) c)) (v15 (ix2 r (0 : Fin 1))) := by
  rw [k1_pay7_eq, addf_apply, shapeCast_self, k1_pay2_apply]

theorem k1_pay5_apply (v0 : Vec Ideal S1x2048 .f32) (v15 : Vec Ideal S2048x1 .f32) (v28 : Vec Ideal S1x2048 .f32) (c : Fin 2048) :
    k1_pay5 (F := Ideal) v0 v15 v28 (ix2 (0 : Fin 1) c)
      = v28 (ix2 (0 : Fin 1) c) + ∑ r : Fin 2048, Spec.hinge (v0 (ix2 (0 : Fin 1) c)) (v15 (ix2 r (0 : Fin 1))) := by
  unfold k1_pay5
  rw [addf_apply, shapeCast_self, k1_pay2_apply]

theorem k1_pay6_apply (v0 : Vec Ideal S1x2048 .f32) (v15 : Vec Ideal S2048x1 .f32) (v32 : Vec Ideal S1x2048 .f32) (c : Fin 2048) :
    k1_pay6 (F := Ideal) v0 v15 v32 (ix2 (0 : Fin 1) c)
      = v32 (ix2 (0 : Fin 1) c) + ∑ r : Fin 2048, Spec.hinge (v0 (ix2 (0 : Fin 1) c)) (v15 (ix2 r (0 : Fin 1))) := by
  unfold k1_pay6
  rw [addf_apply, shapeCast_self, k1_pay2_apply]

/-- The two zeroed rows. -/
theorem k1_pay3_apply (j : S1x2048.Idx) : k1_pay3 (F := Ideal) j = 0 := Ideal.ofBits_zero_f32
theorem k1_pay4_apply (j : S1x2048.Idx) : k1_pay4 (F := Ideal) j = 0 := Ideal.ofBits_zero_f32

/-- P at column j. -/
theorem sumsP_apply (x3 : Vec Ideal S2048x1 .f32) (x5 : Vec Ideal S1x2048 .f32) (c : Fin 2048) :
    KV.sumsP (F := Ideal) x3 x5 (ix2 (0 : Fin 1) c)
      = ∑ r : Fin 2048, Spec.hinge (x5 (ix2 (0 : Fin 1) c)) (x3 (ix2 r (0 : Fin 1))) := by
  unfold KV.sumsP
  rw [k1_pay6_apply, k1_pay4_apply, zero_add]

/-- S at column j. -/
theorem sumsS_apply (x3 : Vec Ideal S2048x1 .f32) (x4 : Vec Ideal S8192x1 .f32) (x5 : Vec Ideal S1x2048 .f32) (c : Fin 2048) :
    KV.sumsS (F := Ideal) x3 x4 x5 (ix2 (0 : Fin 1) c)
      = (∑ r : Fin 2048, Spec.hinge (x5 (ix2 (0 : Fin 1) c)) (x3 (ix2 r (0 : Fin 1))))
        + ∑ k : Fin 8192, Spec.hinge (x5 (ix2 (0 : Fin 1) c)) (x4 (ix2 k (0 : Fin 1))) := by
  unfold KV.sumsS
  rw [k1_pay7_apply, k1_pay7_apply, k1_pay7_apply, k1_pay7_apply, k1_pay5_apply, k1_pay3_apply, zero_add,
    sum_four_blocks (fun k : Fin 8192 => Spec.hinge (x5 (ix2 (0 : Fin 1) c)) (x4 (ix2 k (0 : Fin 1))))]
  simp only [add_assoc]
  rfl

end Cert.Proof.KVal

end
-- ==== Proof.KValLast.lean ====
/-
  The last occurrence of each index as a word. At the sixth grid point the entry at (k, j) is k when idx[k] = idx[j]
  and -1 otherwise; the signed maximum over k, started from the least word, is the greatest k with idx[k] = idx[j]
  (position j itself is one such k, so the maximum is never -1 nor the least word).
-/
import proofs.«215986_g81389630259714_cont_9to1_m_762_23_alg».proof.Proof.KVals
import proofs.«215986_g81389630259714_cont_9to1_m_762_23_alg».proof.Proof.Spec
import proofs.«215986_g81389630259714_cont_9to1_m_762_23_alg».proof.Proof.KValBase

noncomputable section

open scoped BigOperators

namespace Cert.Proof.KVal

open Cert.KernelIdeal Cert.KernelIdeal.Gen
open Idealize.ShloMosaic Idealize.ShloMosaic.ValueIdx
open Cert.Proof

/-- A position below 2048, as a signed word, is itself. -/
theorem toInt_ofNat_small (r : ℕ) (h : r < 2048) : (BitVec.ofNat 32 r).toInt = (r : Int) := by
  have e : (BitVec.ofNat 32 r).toNat = r := by rw [BitVec.toNat_ofNat]; exact Nat.mod_eq_of_lt (by omega)
  rw [BitVec.toInt_eq_toNat_of_lt (by rw [e]; omega), e]

/-- The signed maximum of two words reads as the maximum of the two integers. -/
theorem maxsi_toInt (x y : BitVec 32) : (IntOp.maxsi x y).toInt = max x.toInt y.toInt := by
  unfold IntOp.maxsi
  by_cases h : y.slt x = true
  · rw [if_pos h]
    have : y.toInt < x.toInt := by simpa [BitVec.slt] using h
    exact (max_eq_left (le_of_lt this)).symm
  · rw [if_neg h]
    have : ¬ y.toInt < x.toInt := by simpa [BitVec.slt] using h
    exact (max_eq_right (not_lt.mp this)).symm

/-- The fold of the signed maximum over the rows of "k where idx[k] = w, else -1" from the least word. -/
theorem fold_last (ix : Fin 2048 → BitVec 32) (c : Fin 2048) :
    (Finset.univ : Finset (Fin 2048)).fold IntOp.maxsi 2147483648#32
        (fun r => if ix r = ix c then BitVec.ofNat 32 r.val else 4294967295#32)
      = BitVec.ofNat 32 (Spec.last ix c).val := by
  apply BitVec.eq_of_toInt_eq
  rw [← Finset.fold_hom (op := IntOp.maxsi) (op' := (max : Int → Int → Int)) (m := BitVec.toInt) maxsi_toInt]
  have hg : ∀ r : Fin 2048, (if ix r = ix c then BitVec.ofNat 32 r.val else 4294967295#32 : BitVec 32).toInt
      = if ix r = ix c then (r.val : Int) else -1 := by
    intro r
    by_cases h : ix r = ix c
    · rw [if_pos h, if_pos h, toInt_ofNat_small _ r.isLt]
    · rw [if_neg h, if_neg h]; decide
  have hmem : Spec.last ix c ∈ Finset.univ.filter (fun k => ix k = ix c) := Finset.max'_mem _ _
  have hlast : ix (Spec.last ix c) = ix c := (Finset.mem_filter.1 hmem).2
  rw [toInt_ofNat_small _ (Spec.last ix c).isLt]
  have hmin : (2147483648#32 : BitVec 32).toInt ≤ ((Spec.last ix c).val : Int) := by
    have h0 : (2147483648#32 : BitVec 32).toInt = -2147483648 := by decide
    rw [h0]; omega
  refine le_antisymm ((Finset.fold_max_le _).2 ⟨hmin, fun r _ => ?_⟩)
    ((Finset.le_fold_max _).2 (Or.inr ⟨Spec.last ix c, Finset.mem_univ _, ?_⟩))
  · rw [hg r]
    by_cases h : ix r = ix c
    · rw [if_pos h]
      have : r ≤ Spec.last ix c := Finset.le_max' _ r (Finset.mem_filter.2 ⟨Finset.mem_univ _, h⟩)
      exact_mod_cast this
    · rw [if_neg h]; omega
  · rw [hg, if_pos hlast]

/-- The row of last occurrences: at column j the word of the greatest k with idx[k] = idx[j]. -/
theorem k1_pay8_apply (ix : Fin 2048 → BitVec 32) (x6 : Vec Ideal S2048x1 .i32) (x7 : Vec Ideal S1x2048 .i32)
    (h6 : ∀ k : Fin 2048, x6 (ix2 k (0 : Fin 1)) = ix k) (h7 : ∀ k : Fin 2048, x7 (ix2 (0 : Fin 1) k) = ix k) (c : Fin 2048) :
    k1_pay8 (F := Ideal) KV.pt5 x6 x7 (ix2 (0 : Fin 1) c) = BitVec.ofNat 32 (Spec.last ix c).val := by
  unfold k1_pay8
  refine (shapeCast_a_1a_apply _ _ _ _).trans ?_
  refine (maxsi_rows_apply _ _ _ _ c).trans ?_
  refine (Finset.fold_congr (g := fun r => if ix r = ix c then BitVec.ofNat 32 r.val else 4294967295#32) fun r _ => ?_).trans
    (fold_last ix c)
  have e19 : broadcastTo S2048x2048 (shapeCast S2048x1 x6 shapeCasts_S2048x1_S2048x1) broadcasts_S2048x1_S2048x2048 (ix2 r c) = ix r :=
    (broadcastTo_a1_ab_apply _ _ r c).trans (by rw [shapeCast_self]; exact h6 r)
  have e20 : broadcastTo S2048x2048 (shapeCast S1x2048 x7 shapeCasts_S1x2048_S1x2048) broadcasts_S1x2048_S2048x2048 (ix2 r c) = ix c :=
    (broadcastTo_1b_ab_apply _ _ r c).trans (by rw [shapeCast_self]; exact h7 c)
  show Scalar.select (IntOp.cmpi .eq
        (broadcastTo S2048x2048 (shapeCast S2048x1 x6 shapeCasts_S2048x1_S2048x1) broadcasts_S2048x1_S2048x2048 (ix2 r c))
        (broadcastTo S2048x2048 (shapeCast S1x2048 x7 shapeCasts_S1x2048_S1x2048) broadcasts_S1x2048_S2048x2048 (ix2 r c)))
      (BitVec.ofNat 32 (0 * 2048 + r.val) + (BitVec.ofNat 32 5 - 5#32) * 2048#32) 4294967295#32 = _
  rw [e19, e20, Nat.zero_mul, Nat.zero_add]
  have hz : (BitVec.ofNat 32 5 - 5#32) * 2048#32 = 0#32 := by decide
  rw [hz, BitVec.add_zero]
  by_cases h : ix r = ix c
  · rw [if_pos h, h]
    have : IntOp.cmpi .eq (ix c) (ix c) = 1#1 := by simp [IntOp.cmpi]
    rw [this]; exact select_one _ _
  · rw [if_neg h]
    have hb : (ix r == ix c) = false := beq_false_of_ne h
    have : IntOp.cmpi .eq (ix r) (ix c) = 0#1 := by simp [IntOp.cmpi, hb]
    rw [this]; exact select_zero _ _

end Cert.Proof.KVal

end
-- ==== Proof.KValPick.lean ====
/-
  The second region's picks. The mask at (k, j) says "k is the word W[j]"; with W[j] the word of a position l below
  2048, the masked sum over k of a column is the column's entry at l. So the two select-sums read P and S at the last
  occurrence, and the moving averages follow.
-/
import proofs.«215986_g81389630259714_cont_9to1_m_762_23_alg».proof.Proof.KVals
import proofs.«215986_g81389630259714_cont_9to1_m_762_23_alg».proof.Proof.Spec
import proofs.«215986_g81389630259714_cont_9to1_m_762_23_alg».proof.Proof.KValBase

noncomputable section

open scoped BigOperators

namespace Cert.Proof.KVal

open Cert.KernelIdeal Cert.KernelIdeal.Gen
open Idealize.ShloMosaic Idealize.ShloMosaic.ValueIdx
open Cert.Proof

/-- The masked sum of a column over its rows, as the program writes it. -/
def pickRow (w : Vec Ideal S1x2048 .i32) (col : Vec Ideal S2048x1 .f32) : FVec Ideal S1x2048 .f32 :=
  shapeCast S1x2048 (multiReduction (F := Ideal) .add [0] S2048
    (select (k2_pay2 (F := Ideal) w)
      (broadcastTo S2048x2048 (shapeCast S2048x1 (shapeCast S2048x1 col shapeCasts_S2048x1_S2048x1) shapeCasts_S2048x1_S2048x1)
        broadcasts_S2048x1_S2048x2048)
      (broadcast S2048x2048 (Scalar.ofBits (F := Ideal) .f32 0x00000000#32)))
    0x00000000#32 reduces_S2048x2048_S2048 (.inl rfl) rfl) shapeCasts_S2048_S1x2048

/-- Two positions below 2048 with one word are one position. -/
theorem ofNat_inj_small (r l : Fin 2048) (h : BitVec.ofNat 32 r.val = BitVec.ofNat 32 l.val) : r = l := by
  have := congrArg BitVec.toNat h
  rw [BitVec.toNat_ofNat, BitVec.toNat_ofNat] at this
  have hr := r.isLt
  have hl := l.isLt
  exact Fin.ext (by omega)

/-- The mask at (k, j), when W[j] is the word of position l: "k = l". -/
theorem k2_pay2_apply (w : Vec Ideal S1x2048 .i32) (c l r : Fin 2048)
    (hw : w (ix2 (0 : Fin 1) c) = BitVec.ofNat 32 l.val) :
    k2_pay2 (F := Ideal) w (ix2 r c) = if r = l then 1#1 else 0#1 := by
  unfold k2_pay2
  have e7 : broadcastTo S2048x2048 (shapeCast S1x2048 w shapeCasts_S1x2048_S1x2048) broadcasts_S1x2048_S2048x2048 (ix2 r c)
      = BitVec.ofNat 32 l.val :=
    (broadcastTo_1b_ab_apply _ _ r c).trans (by rw [shapeCast_self]; exact hw)
  show IntOp.cmpi .eq (BitVec.ofNat 32 (0 * 2048 + r.val) + 0#32)
      (broadcastTo S2048x2048 (shapeCast S1x2048 w shapeCasts_S1x2048_S1x2048) broadcasts_S1x2048_S2048x2048 (ix2 r c)) = _
  rw [e7, Nat.zero_mul, Nat.zero_add, BitVec.add_zero]
  by_cases h : r = l
  · rw [if_pos h, h]; simp [IntOp.cmpi]
  · rw [if_neg h]
    have hb : (BitVec.ofNat 32 r.val == BitVec.ofNat 32 l.val) = false :=
      beq_false_of_ne fun e => h (ofNat_inj_small r l e)
    simp [IntOp.cmpi, hb]

/-- The masked sum at column j is the column's entry at l. -/
theorem pickRow_apply (w : Vec Ideal S1x2048 .i32) (col : Vec Ideal S2048x1 .f32) (c l : Fin 2048)
    (hw : w (ix2 (0 : Fin 1) c) = BitVec.ofNat 32 l.val) :
    pickRow w col (ix2 (0 : Fin 1) c) = col (ix2 l (0 : Fin 1)) := by
  unfold pickRow
  refine (shapeCast_a_1a_apply _ _ _ _).trans ?_
  refine (sum_rows_apply _ _ _ _ _ c).trans ?_
  have hterm : ∀ r : Fin 2048,
      select (k2_pay2 (F := Ideal) w)
        (broadcastTo S2048x2048 (shapeCast S2048x1 (shapeCast S2048x1 col shapeCasts_S2048x1_S2048x1) shapeCasts_S2048x1_S2048x1)
          broadcasts_S2048x1_S2048x2048)
        (broadcast S2048x2048 (Scalar.ofBits (F := Ideal) .f32 0x00000000#32)) (ix2 r c)
        = if r = l then col (ix2 r (0 : Fin 1)) else 0 := by
    intro r
    rw [select_apply, k2_pay2_apply w c l r hw]
    have e : broadcastTo S2048x2048 (shapeCast S2048x1 (shapeCast S2048x1 col shapeCasts_S2048x1_S2048x1) shapeCasts_S2048x1_S2048x1)
        broadcasts_S2048x1_S2048x2048 (ix2 r c) = col (ix2 r (0 : Fin 1)) :=
      (broadcastTo_a1_ab_apply _ _ r c).trans (by rw [shapeCast_self, shapeCast_self])
    rw [e]
    by_cases h : r = l
    · rw [if_pos h, if_pos h]; exact select_one _ _
    · rw [if_neg h, if_neg h]; exact (select_zero _ _).trans Ideal.ofBits_zero_f32
  rw [Finset.sum_congr rfl fun r _ => hterm r, Finset.sum_ite_eq', if_pos (Finset.mem_univ _)]

/-- P at the last occurrence. -/
theorem k2_pay3_eq (w : Vec Ideal S1x2048 .i32) (col : Vec Ideal S2048x1 .f32) :
    k2_pay3 (F := Ideal) w col = addf (broadcast S1x2048 (Scalar.ofBits (F := Ideal) .f32 0x00000000#32)) (pickRow w col) := rfl

theorem k2_pay3_apply (w : Vec Ideal S1x2048 .i32) (col : Vec Ideal S2048x1 .f32) (c l : Fin 2048)
    (hw : w (ix2 (0 : Fin 1) c) = BitVec.ofNat 32 l.val) :
    k2_pay3 (F := Ideal) w col (ix2 (0 : Fin 1) c) = col (ix2 l (0 : Fin 1)) := by
  rw [k2_pay3_eq, addf_apply, pickRow_apply w col c l hw]
  show Ideal.ofBits .f32 0x00000000#32 + _ = _
  rw [Ideal.ofBits_zero_f32, zero_add]

/-- The named reciprocal of 10240. -/
theorem inv_10240 : Named.named (F := Ideal) Cert.KernelIdeal.κ "inv_10240" (φ := .f32) 0x38CCCCCD#32 = ((1 / 10240 : ℝ) : EReal) :=
  IdealRules.named_const.ideal_named_scalar _ _ _ _ rfl

/-- The named reciprocal of 20971520. -/
theorem inv_20971520 : Named.named (F := Ideal) Cert.KernelIdeal.κ "inv_20971520" (φ := .f32) 0x334CCCCD#32 = ((1 / 20971520 : ℝ) : EReal) :=
  IdealRules.named_const.ideal_named_scalar _ _ _ _ rfl

/-- The first moving average, as the program writes it over the masked sum. -/
theorem k2_pay4_eq (w : Vec Ideal S1x2048 .i32) (col : Vec Ideal S2048x1 .f32) (t0 : Vec Ideal S1x2048 .f32) :
    k2_pay4 (F := Ideal) w col t0
      = addf (mulf (broadcast S1x2048 (Scalar.ofBits (F := Ideal) .f32 0x3DCCCCCD#32)) (shapeCast S1x2048 t0 shapeCasts_S1x2048_S1x2048))
          (mulf (broadcast S1x2048 (Scalar.ofBits (F := Ideal) .f32 0x3F666666#32))
            (mulf (addf (broadcast S1x2048 (Scalar.ofBits (F := Ideal) .f32 0x00000000#32)) (pickRow w col))
              (broadcast S1x2048 (Named.named (F := Ideal) κ "inv_10240" (φ := .f32) 0x38CCCCCD#32)))) := rfl

theorem k2_pay4_apply (w : Vec Ideal S1x2048 .i32) (col : Vec Ideal S2048x1 .f32) (t0 : Vec Ideal S1x2048 .f32) (c l : Fin 2048)
    (hw : w (ix2 (0 : Fin 1) c) = BitVec.ofNat 32 l.val) :
    k2_pay4 (F := Ideal) w col t0 (ix2 (0 : Fin 1) c)
      = Spec.c01 * t0 (ix2 (0 : Fin 1) c) + Spec.c09 * (col (ix2 l (0 : Fin 1)) * ((1 / 10240 : ℝ) : EReal)) := by
  rw [k2_pay4_eq, addf_apply, mulf_apply, mulf_apply, mulf_apply, addf_apply, pickRow_apply w col c l hw, shapeCast_self]
  show Spec.c01 * _ + Spec.c09 * ((Ideal.ofBits .f32 0x00000000#32 + _) * Named.named (F := Ideal) κ "inv_10240" (φ := .f32) 0x38CCCCCD#32) = _
  rw [Ideal.ofBits_zero_f32, zero_add, inv_10240]

end Cert.Proof.KVal

end
-- ==== Proof.KValOut.lean ====
/-
  The assembly. The final payload is the sum over the columns j of (UP[j] S[j] - UA[j] P[j]) / UA[j]^2, scaled by
  1/20971520; with the sums, the last occurrences, the picks and the gathered rows read at an index, every factor is the
  closed expression's.
-/
import proofs.«215986_g81389630259714_cont_9to1_m_762_23_alg».proof.Proof.KVals
import proofs.«215986_g81389630259714_cont_9to1_m_762_23_alg».proof.Proof.Spec
import proofs.«215986_g81389630259714_cont_9to1_m_762_23_alg».proof.Proof.KValBase
import proofs.«215986_g81389630259714_cont_9to1_m_762_23_alg».proof.Proof.KValSums
import proofs.«215986_g81389630259714_cont_9to1_m_762_23_alg».proof.Proof.KValLast
import proofs.«215986_g81389630259714_cont_9to1_m_762_23_alg».proof.Proof.KValPick

noncomputable section

open scoped BigOperators

namespace Cert.Proof.KVal

open Cert.KernelIdeal Cert.KernelIdeal.Gen
open Idealize.ShloMosaic Idealize.ShloMosaic.ValueIdx
open Cert.Proof

/-- The final payload at its one index. -/
theorem k2_pay1_apply (v26 v35 v37 v38 : FVec Ideal S1x2048 .f32) (v45 v48 : Vec Ideal S1x2048 .f32) (j : S1x1.Idx) :
    k2_pay1 (F := Ideal) v26 v35 v37 v38 v45 v48 j
      = (∑ c : Fin 2048, Ideal.div
          ((v38 (ix2 (0 : Fin 1) c) * v37 (ix2 (0 : Fin 1) c)
              + Spec.c09 * (v26 (ix2 (0 : Fin 1) c) * ((1 / 10240 : ℝ) : EReal))) * v45 (ix2 (0 : Fin 1) c)
            - v35 (ix2 (0 : Fin 1) c) * v48 (ix2 (0 : Fin 1) c))
          (v35 (ix2 (0 : Fin 1) c) * v35 (ix2 (0 : Fin 1) c))) * ((1 / 20971520 : ℝ) : EReal) := by
  obtain ⟨u, u', rfl⟩ : ∃ (u u' : Fin 1), j = ix2 u u' := ⟨j 0, j 1, eq_ix2 j⟩
  unfold k2_pay1
  show shapeCast S1x1 (multiReduction (F := Ideal) .add [1] S1 _ 0x00000000#32 reduces_S1x2048_S1 (.inl rfl) rfl) shapeCasts_S1_S1x1 (ix2 u u')
      * Named.named (F := Ideal) κ "inv_20971520" (φ := .f32) 0x334CCCCD#32 = _
  rw [inv_20971520]
  refine congrArg (fun x : EReal => x * ((1 / 20971520 : ℝ) : EReal)) ?_
  refine (shapeCast_a_1a_apply _ _ _ _).trans ?_
  refine (sum_cols_apply _ _ _ _ _ u').trans ?_
  refine Finset.sum_congr rfl fun c _ => ?_
  show Ideal.div ((v38 (ix2 (0 : Fin 1) c) * v37 (ix2 (0 : Fin 1) c)
        + Ideal.ofBits .f32 0x3F666666#32 * (v26 (ix2 (0 : Fin 1) c) * Named.named (F := Ideal) κ "inv_10240" (φ := .f32) 0x38CCCCCD#32))
          * shapeCast S1x2048 v45 shapeCasts_S1x2048_S1x2048 (ix2 (0 : Fin 1) c)
        - v35 (ix2 (0 : Fin 1) c) * shapeCast S1x2048 v48 shapeCasts_S1x2048_S1x2048 (ix2 (0 : Fin 1) c))
      (v35 (ix2 (0 : Fin 1) c) * v35 (ix2 (0 : Fin 1) c)) = _
  rw [shapeCast_self, shapeCast_self, inv_10240]
  rfl

section Args

variable (a0 : FVec Ideal S2048 .f32) (a1 : FVec Ideal S8192 .f32) (a2 : IVec S2048 32) (a3 a4 : FVec Ideal S100000x1 .f32)

/-- P at column j, from the arguments. -/
theorem P_at (c : Fin 2048) :
    KV.sumsP (F := Ideal) (shapeCast S2048x1 a0 shapeCasts_S2048_S2048x1) (shapeCast S1x2048 a0 shapeCasts_S2048_S1x2048) (ix2 (0 : Fin 1) c)
      = Spec.Pj (fun k => a0 (ix1 k)) c := by
  rw [sumsP_apply]
  unfold Spec.Pj
  refine Finset.sum_congr rfl fun r _ => ?_
  rw [shapeCast_a_1a_apply, shapeCast_a_a1_apply]

/-- S at column j, from the arguments. -/
theorem S_at (c : Fin 2048) :
    KV.sumsS (F := Ideal) (shapeCast S2048x1 a0 shapeCasts_S2048_S2048x1) (shapeCast S8192x1 a1 shapeCasts_S8192_S8192x1)
        (shapeCast S1x2048 a0 shapeCasts_S2048_S1x2048) (ix2 (0 : Fin 1) c)
      = Spec.Sj (fun k => a0 (ix1 k)) (fun k => a1 (ix1 k)) c := by
  rw [sumsS_apply]
  unfold Spec.Sj Spec.Pj
  refine congrArg₂ (· + ·) (Finset.sum_congr rfl fun r _ => ?_) (Finset.sum_congr rfl fun k _ => ?_)
  · rw [shapeCast_a_1a_apply, shapeCast_a_a1_apply]
  · rw [shapeCast_a_1a_apply, shapeCast_a_a1_apply]

/-- The last occurrence's word at column j, from the arguments. -/
theorem W_at (c : Fin 2048) :
    KV.sumsW (F := Ideal) (shapeCast S2048x1 a2 shapeCasts_S2048_S2048x1) (shapeCast S1x2048 a2 shapeCasts_S2048_S1x2048) (ix2 (0 : Fin 1) c)
      = BitVec.ofNat 32 (Spec.last (fun k => a2 (ix1 k)) c).val := by
  unfold KV.sumsW
  exact k1_pay8_apply (fun k => a2 (ix1 k)) _ _ (fun k => shapeCast_a_a1_apply _ _ k _) (fun k => shapeCast_a_1a_apply _ _ _ k) c

/-- A gathered row at column j is the table at idx[j]. -/
theorem gath_at (tb : FVec Ideal S100000x1 .f32) (c : Fin 2048) :
    KV.gath (F := Ideal) (shapeCast S100000 tb shapeCasts_S100000x1_S100000) a2 (ix2 (0 : Fin 1) c)
      = Spec.tab (fun r => tb (ix2 r (0 : Fin 1))) (a2 (ix1 c)) := by
  unfold KV.gath Spec.tab
  exact shapeCast_a1_a_apply _ _ _

end Args

/-- The idealized program's result is the closed expression. -/
theorem kOut_eq (a0 : FVec Ideal Cert.KernelIdeal.S2048 .f32) (a1 : FVec Ideal Cert.KernelIdeal.S8192 .f32)
    (a2 : IVec Cert.KernelIdeal.S2048 32) (a3 a4 : FVec Ideal Cert.KernelIdeal.S100000x1 .f32)
    (H : Cert.Proof.Spec.Hyp a0 a1 a2 a3 a4) :
    Cert.Proof.KV.kOut (F := Ideal) a0 a1 a2 a3 a4 = fun _ => Cert.Proof.Spec.specOf a0 a1 a2 a3 a4 := by
  funext j
  unfold KV.kOut
  refine (shapeCast_11_scalar_apply _ _ j).trans ?_
  unfold KV.comb
  rw [k2_pay1_apply]
  unfold Spec.specOf Spec.out
  refine congrArg (fun x : EReal => x * ((1 / 20971520 : ℝ) : EReal)) ?_
  refine Finset.sum_congr rfl fun c _ => ?_
  have hW := W_at a2 c
  rw [k2_pay3_apply _ _ c _ hW, k2_pay4_apply _ _ _ c _ hW, shapeCast_1a_a1_apply, shapeCast_1a_a1_apply,
    P_at, S_at, P_at, S_at, gath_at]
  unfold k2_pay5
  rw [shapeCast_self, gath_at]
  rfl

end Cert.Proof.KVal

end
-- ==== Proof.LibScatterLast.lean ====
/-
  A scatter whose body returns the update, read at one index of its result.

  `Host.scatter d (fun _ b => b) x idx upd` is a left fold over the update positions in row-major order; each step
  overwrites the element its update lands on. Hence the result at `i` is the update at the LAST position landing on
  `i` (in row-major order), and the operand's element when no position lands on `i`.
-/
import Idealize.ShloMosaic.PureOps.ShapeOps

namespace Cert.Proof.LibScatter

open Idealize.ShloMosaic

section Fold
variable {κ ι α : Type} (g : κ → Option ι) (v : κ → α) (step : (ι → α) → κ → (ι → α))
  (hit : ∀ (r : ι → α) (n : κ) (i : ι), g n = some i → step r n i = v n)
  (miss : ∀ (r : ι → α) (n : κ) (i : ι), g n ≠ some i → step r n i = r i)

include miss in
/-- A fold of overwriting steps none of which lands on `i` leaves the element at `i`. -/
theorem foldl_miss (i : ι) : ∀ (l : List κ) (x : ι → α), (∀ n ∈ l, g n ≠ some i) → l.foldl step x i = x i := by
  intro l
  induction l with
  | nil => intro x _; rfl
  | cons a t ih =>
    intro x h
    rw [List.foldl_cons, ih (step x a) (fun n hn => h n (List.mem_cons_of_mem _ hn)), miss x a i (h a List.mem_cons_self)]

include hit miss in
/-- After the last step landing on `i`, the element at `i` is that step's update. -/
theorem foldl_last (i : ι) (l1 : List κ) (n0 : κ) (l2 : List κ) (x : ι → α) (h0 : g n0 = some i)
    (h2 : ∀ n ∈ l2, g n ≠ some i) : (l1 ++ n0 :: l2).foldl step x i = v n0 := by
  rw [List.foldl_append, List.foldl_cons, foldl_miss g step miss i l2 _ h2, hit _ n0 i h0]

end Fold

/-- The positions of `List.finRange N` after a given one are the larger ones. -/
theorem finRange_split {N : Nat} (n0 : Fin N) :
    ∃ l1 l2 : List (Fin N), List.finRange N = l1 ++ n0 :: l2 ∧ ∀ n ∈ l2, n0 < n := by
  obtain ⟨l1, l2, h⟩ := List.append_of_mem (List.mem_finRange n0)
  refine ⟨l1, l2, h, ?_⟩
  have hp : (List.finRange N).Pairwise (· < ·) := List.pairwise_lt_finRange N
  rw [h, List.pairwise_append] at hp
  exact fun n hn => (List.pairwise_cons.1 hp.2.1).1 n hn

section Scatter
variable {α : Type} {s si u : Shape} {w : Nat} (d : ScatterDims s si u) (x : s.Idx → α) (idx : IVec si w) (upd : u.Idx → α)

/-- No update position lands on `i`: the operand's element. -/
theorem scatter_set_miss (i : s.Idx) (h : ∀ j : u.Idx, d.resultIdx? j idx ≠ some i) :
    Host.scatter d (fun _ b => b) x idx upd i = x i := by
  unfold Host.scatter
  refine foldl_miss (fun n => d.resultIdx? (u.rowMajor.symm n) idx) _ ?_ i _ x (fun n _ => h _)
  intro r n i' hn
  generalize d.resultIdx? (u.rowMajor.symm n) idx = o at hn
  cases o with
  | none => rfl
  | some i'' =>
    show (if i' = i'' then _ else r i') = r i'
    rw [if_neg (fun e => hn (by rw [e]))]

/-- Position `j0` lands on `i` and no later position (in row-major order) does: the update at `j0`. -/
theorem scatter_set_last (i : s.Idx) (j0 : u.Idx) (h0 : d.resultIdx? j0 idx = some i)
    (hlast : ∀ j : u.Idx, u.rowMajor j0 < u.rowMajor j → d.resultIdx? j idx ≠ some i) :
    Host.scatter d (fun _ b => b) x idx upd i = upd j0 := by
  unfold Host.scatter
  obtain ⟨l1, l2, hl, hgt⟩ := finRange_split (u.rowMajor j0)
  rw [hl]
  refine (foldl_last (fun n => d.resultIdx? (u.rowMajor.symm n) idx) (fun n => upd (u.rowMajor.symm n)) _ ?_ ?_ i l1
    (u.rowMajor j0) l2 x (by rw [Equiv.symm_apply_apply]; exact h0) (fun n hn => hlast _ (by
      rw [Equiv.apply_symm_apply]; exact hgt n hn))).trans (by rw [Equiv.symm_apply_apply])
  · intro r n i' hn
    generalize d.resultIdx? (u.rowMajor.symm n) idx = o at hn
    cases o with
    | none => exact absurd hn (by simp)
    | some i'' =>
      have e : i' = i'' := (Option.some.inj hn).symm
      show (if i' = i'' then upd (u.rowMajor.symm n) else r i') = _
      rw [if_pos e]
  · intro r n i' hn
    generalize d.resultIdx? (u.rowMajor.symm n) idx = o at hn
    cases o with
    | none => rfl
    | some i'' =>
      show (if i' = i'' then _ else r i') = r i'
      rw [if_neg (fun e => hn (by rw [e]))]

end Scatter

end Cert.Proof.LibScatter
-- ==== Proof.RValDims.lean ====
/-
  The reference's three index operations with the program's literal dimension numbers, read at an index:
  the gather of one table row per index word (the word read signed and clamped), the scatter of one table row per
  index word (the last update at a repeated row wins), and the scatter of a 2048 x 2048 block at column 0 of a
  2048 x 10240 matrix.
-/
import proofs.«215986_g81389630259714_cont_9to1_m_762_23_alg».proof.Proof.Gen.ReferenceIdeal
import proofs.«215986_g81389630259714_cont_9to1_m_762_23_alg».proof.Proof.LibScatterLast
import Idealize.ShloMosaic.Lib.ValueIdx

noncomputable section

namespace Cert.Proof.RVal

open Cert.ReferenceIdeal Cert.ReferenceIdeal.Gen Idealize.ShloMosaic Idealize.ShloMosaic.ValueIdx

abbrev dG := gather_S100000x1_S2048x1_S2048x1_1_0_n_n_0_1_11
abbrev dT := scatter_S100000x1_S2048x1_S2048x1_1_0_0_1
abbrev dM := scatter_S2048x10240_S1_S2048x2048_01_n_1_0

/-! ## The gather -/

theorem gather_tab {α : Type} (x : S100000x1.Idx → α) (idx : IVec S2048x1 32) (k : Fin 2048) :
    Host.gather dG x idx (ix2 k (0 : Fin 1))
      = x (ix2 (⟨min (idx (ix2 k (0 : Fin 1))).toInt.toNat 99999, by omega⟩ : Fin 100000) (0 : Fin 1)) := by
  unfold Host.gather
  refine congrArg x ?_
  funext a
  refine Fin.ext ?_
  match a with
  | ⟨0, _⟩ =>
    show dG.start (ix2 k (0 : Fin 1)) idx 0 + dG.batchCoord (ix2 k (0 : Fin 1)) 0 + dG.offCoord (ix2 k (0 : Fin 1)) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ dG.startIndexMap from List.mem_singleton.mpr rfl)]
    have hsi : dG.siIdx (ix2 k (0 : Fin 1)) ⟨List.idxOf (0 : Fin 2) dG.startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>
    show dG.start (ix2 k (0 : Fin 1)) idx 1 + dG.batchCoord (ix2 k (0 : Fin 1)) 1 + dG.offCoord (ix2 k (0 : Fin 1)) 1 = _
    rw [GatherDims.batchCoord_eq_zero _ _ _ List.not_mem_nil]
    unfold GatherDims.start
    rw [dif_neg (by decide)]
    unfold GatherDims.offCoord
    rw [dif_pos (by decide)]
    rfl

/-! ## The table scatter -/

theorem dT_siIdx (k : Fin 2048) (c : Fin 1) (h : List.idxOf (0 : Fin 2) dT.scatterDimsToOperandDims < dT.scatterDimsToOperandDims.length) :
    dT.siIdx (ix2 k c) ⟨List.idxOf (0 : Fin 2) dT.scatterDimsToOperandDims, h⟩ = ix2 k (0 : Fin 1) := by
  funext b; refine Fin.ext ?_
  match b with
  | ⟨0, _⟩ => rfl
  | ⟨1, _⟩ => rfl

theorem dT_start0 (idx : IVec S2048x1 32) (k : Fin 2048) (c : Fin 1) :
    dT.start (ix2 k c) idx 0 = (idx (ix2 k (0 : Fin 1))).toInt := by
  unfold ScatterDims.start
  rw [dif_pos (show (0 : Fin 2) ∈ dT.scatterDimsToOperandDims from List.mem_singleton.mpr rfl), dT_siIdx]

theorem dT_start1 (idx : IVec S2048x1 32) (j : S2048x1.Idx) : dT.start j idx 1 = 0 := by
  unfold ScatterDims.start
  rw [dif_neg (by decide)]

theorem dT_window0 (j : S2048x1.Idx) : dT.window j 0 = 0 := by
  unfold ScatterDims.window
  rw [dif_neg (by decide)]

theorem dT_window1 (j : S2048x1.Idx) : dT.window j 1 = 0 := by
  unfold ScatterDims.window
  rw [dif_pos (by decide)]
  have := (j 1).isLt
  show ((j 1).val : Nat) = 0
  have h1 : (j 1).val < 1 := (j 1).isLt
  omega

/-- Update position k lands on the row its index word names, when that is a row of the table. -/
theorem dT_resultIdx (idx : IVec S2048x1 32) (k : Fin 2048) (c : Fin 1)
    (h : 0 ≤ (idx (ix2 k (0 : Fin 1))).toInt ∧ (idx (ix2 k (0 : Fin 1))).toInt < 100000) :
    dT.resultIdx? (ix2 k c) idx
      = some (ix2 (⟨(idx (ix2 k (0 : Fin 1))).toInt.toNat, by omega⟩ : Fin 100000) (0 : Fin 1)) := by
  unfold ScatterDims.resultIdx?
  have hall : ∀ a, 0 ≤ dT.start (ix2 k c) idx a + dT.window (ix2 k c) a ∧
      dT.start (ix2 k c) idx a + dT.window (ix2 k c) a < S100000x1.size a := by
    intro a
    match a with
    | ⟨0, _⟩ =>
      show 0 ≤ dT.start (ix2 k c) idx 0 + dT.window (ix2 k c) 0 ∧ dT.start (ix2 k c) idx 0 + dT.window (ix2 k c) 0 < (100000 : Nat)
      rw [dT_start0, dT_window0]; omega
    | ⟨1, _⟩ =>
      show 0 ≤ dT.start (ix2 k c) idx 1 + dT.window (ix2 k c) 1 ∧ dT.start (ix2 k c) idx 1 + dT.window (ix2 k c) 1 < (1 : Nat)
      rw [dT_start1, dT_window1]; omega
  rw [dif_pos hall]
  refine congrArg some ?_
  funext a
  refine Fin.ext ?_
  match a with
  | ⟨0, _⟩ =>
    show (dT.start (ix2 k c) idx 0 + dT.window (ix2 k c) 0).toNat = _
    rw [dT_start0, dT_window0]; simp
  | ⟨1, _⟩ =>
    show (dT.start (ix2 k c) idx 1 + dT.window (ix2 k c) 1).toNat = _
    rw [dT_start1, dT_window1]; rfl

/-- The table scatter read at the row an index word names: the update of the last position holding that word. -/
theorem scatter_tab_last {α : Type} (x : S100000x1.Idx → α) (idx : IVec S2048x1 32) (upd : S2048x1.Idx → α)
    (hr : ∀ k : Fin 2048, 0 ≤ (idx (ix2 k (0 : Fin 1))).toInt ∧ (idx (ix2 k (0 : Fin 1))).toInt < 100000)
    (k0 : Fin 2048) (hlast : ∀ k : Fin 2048, k0 < k → idx (ix2 k (0 : Fin 1)) ≠ idx (ix2 k0 (0 : Fin 1))) :
    Host.scatter dT (fun _ b => b) x idx upd
        (ix2 (⟨(idx (ix2 k0 (0 : Fin 1))).toInt.toNat, by have := hr k0; omega⟩ : Fin 100000) (0 : Fin 1))
      = upd (ix2 k0 (0 : Fin 1)) := by
  refine LibScatter.scatter_set_last dT x idx upd _ (ix2 k0 (0 : Fin 1)) (dT_resultIdx idx k0 0 (hr k0)) ?_
  intro j hj
  obtain ⟨a, c, rfl⟩ : ∃ (a : Fin 2048) (c : Fin 1), j = ix2 a c := ⟨j 0, j 1, eq_ix2 j⟩
  rw [dT_resultIdx idx a c (hr a)]
  intro he
  have he0 := congrFun (Option.some.inj he) 0
  have hv : (idx (ix2 a (0 : Fin 1))).toInt.toNat = (idx (ix2 k0 (0 : Fin 1))).toInt.toNat := congrArg Fin.val he0
  have hlt : k0 < a := by
    rw [Fin.lt_def, Shape.rowMajor_val_two, Shape.rowMajor_val_two] at hj
    have h1 : c.val < 1 := c.isLt
    show k0.val < a.val
    simp at hj
    omega
  refine hlast a hlt (BitVec.eq_of_toInt_eq ?_)
  have := hr a; have := hr k0
  omega

/-! ## The block scatter at column 0 -/

theorem dM_start0 (idx : IVec S1 32) (j : S2048x2048.Idx) : dM.start j idx 0 = 0 := by
  unfold ScatterDims.start
  rw [dif_neg (by decide)]

theorem dM_start1 (idx : IVec S1 32) (hidx : ∀ k, idx k = 0#32) (j : S2048x2048.Idx) : dM.start j idx 1 = 0 := by
  unfold ScatterDims.start
  rw [dif_pos (show (1 : Fin 2) ∈ dM.scatterDimsToOperandDims from List.mem_singleton.mpr rfl), hidx]
  rfl

theorem dM_window0 (a b : Fin 2048) : dM.window (ix2 a b) 0 = a.val := by
  unfold ScatterDims.window
  rw [dif_pos (by decide)]
  rfl

theorem dM_window1 (a b : Fin 2048) : dM.window (ix2 a b) 1 = b.val := by
  unfold ScatterDims.window
  rw [dif_pos (by decide)]
  rfl

/-- Update position (a, b) lands on (a, b). -/
theorem dM_resultIdx (idx : IVec S1 32) (hidx : ∀ k, idx k = 0#32) (a b : Fin 2048) :
    dM.resultIdx? (ix2 a b) idx = some (ix2 a (⟨b.val, by omega⟩ : Fin 10240)) := by
  unfold ScatterDims.resultIdx?
  have hall : ∀ c, 0 ≤ dM.start (ix2 a b) idx c + dM.window (ix2 a b) c ∧
      dM.start (ix2 a b) idx c + dM.window (ix2 a b) c < S2048x10240.size c := by
    intro c
    match c with
    | ⟨0, _⟩ =>
      show 0 ≤ dM.start (ix2 a b) idx 0 + dM.window (ix2 a b) 0 ∧ dM.start (ix2 a b) idx 0 + dM.window (ix2 a b) 0 < (2048 : Nat)
      rw [dM_start0, dM_window0]; omega
    | ⟨1, _⟩ =>
      show 0 ≤ dM.start (ix2 a b) idx 1 + dM.window (ix2 a b) 1 ∧ dM.start (ix2 a b) idx 1 + dM.window (ix2 a b) 1 < (10240 : Nat)
      rw [dM_start1 idx hidx, dM_window1]; omega
  rw [dif_pos hall]
  refine congrArg some ?_
  funext c
  refine Fin.ext ?_
  match c with
  | ⟨0, _⟩ =>
    show (dM.start (ix2 a b) idx 0 + dM.window (ix2 a b) 0).toNat = _
    rw [dM_start0, dM_window0]; simp
  | ⟨1, _⟩ =>
    show (dM.start (ix2 a b) idx 1 + dM.window (ix2 a b) 1).toNat = _
    rw [dM_start1 idx hidx, dM_window1]; simp

/-- The block scatter read at (a, b): the block's element left of column 2048, the operand's from there on. -/
theorem scatter_mask_apply {α : Type} (x : S2048x10240.Idx → α) (idx : IVec S1 32) (hidx : ∀ k, idx k = 0#32)
    (upd : S2048x2048.Idx → α) (a : Fin 2048) (b : Fin 10240) :
    Host.scatter dM (fun _ b => b) x idx upd (ix2 a b)
      = if h : b.val < 2048 then upd (ix2 a (⟨b.val, h⟩ : Fin 2048)) else x (ix2 a b) := by
  by_cases h : b.val < 2048
  · rw [dif_pos h]
    refine LibScatter.scatter_set_last dM x idx upd _ (ix2 a (⟨b.val, h⟩ : Fin 2048)) (dM_resultIdx idx hidx a ⟨b.val, h⟩) ?_
    intro j hj
    obtain ⟨a', b', rfl⟩ : ∃ (a' b' : Fin 2048), j = ix2 a' b' := ⟨j 0, j 1, eq_ix2 j⟩
    rw [dM_resultIdx idx hidx a' b']
    intro he
    have he0 : a' = a := congrFun (Option.some.inj he) 0
    have he1 : (⟨b'.val, by omega⟩ : Fin 10240) = b := congrFun (Option.some.inj he) 1
    have hb : b'.val = b.val := congrArg Fin.val he1
    rw [Fin.lt_def, Shape.rowMajor_val_two, Shape.rowMajor_val_two] at hj
    subst he0
    change a'.val * 2048 + b.val < a'.val * 2048 + b'.val at hj
    omega
  · rw [dif_neg h]
    refine LibScatter.scatter_set_miss dM x idx upd _ ?_
    intro j
    obtain ⟨a', b', rfl⟩ : ∃ (a' b' : Fin 2048), j = ix2 a' b' := ⟨j 0, j 1, eq_ix2 j⟩
    rw [dM_resultIdx idx hidx a' b']
    intro he
    have he1 : (⟨b'.val, by omega⟩ : Fin 10240) = b := congrFun (Option.some.inj he) 1
    have hb : b'.val = b.val := congrArg Fin.val he1
    omega

end Cert.Proof.RVal

end
-- ==== Proof.RValMath.lean ====
/-
  Arithmetic over the extended reals used to read the reference: finite sums of real numbers, the squared hinge
  h(a, v) = max(c - a + v, 0)^2 in its two spellings, and the row identity

    sum over j of ((B - A m_j) / A^2) h_j  =  (B (sum_j h_j) - A (sum_j m_j h_j)) / A^2

  for real A, B, a 0/1 mask m and nonnegative reals h_j not all zero, where the quotient by zero is the library's
  (the infinity of the numerator's sign): at A = 0 both sides are the infinity of B's sign, because the sum of the
  h_j is positive, an infinity times a positive real is that infinity, times zero is zero, and a sum with a bottom
  summand is bottom.
-/
import Idealize.ShloMosaic.PureOps.Ideal

noncomputable section

open scoped BigOperators

namespace Cert.Proof.RValMath

open Idealize.ShloMosaic

/-- The coercion of a finite real sum is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (x y : ℝ) : ((max x y : ℝ) : EReal) = max (x : EReal) (y : EReal) :=
  EReal.coe_strictMono.monotone.map_max

/-- The squared hinge over the reals. -/
def hR (c a v : ℝ) : ℝ := max (c - a + v) 0 * max (c - a + v) 0

theorem hR_nonneg (c a v : ℝ) : 0 ≤ hR c a v := mul_self_nonneg _

theorem hR_self (c a : ℝ) (hc : 0 < c) : 0 < hR c a a := by
  unfold hR
  have : c - a + a = c := by ring
  rw [this, max_eq_left hc.le]; exact mul_pos hc hc

/-- The hinge as (c - a) + v. -/
theorem hinge_spec (c a v : ℝ) :
    max (((c : EReal) - (a : EReal)) + (v : EReal)) 0 * max (((c : EReal) - (a : EReal)) + (v : EReal)) 0
      = ((hR c a v : ℝ) : EReal) := by
  unfold hR
  rw [EReal.coe_mul, coe_max, EReal.coe_add, EReal.coe_sub, EReal.coe_zero]

/-- The hinge as c - (a - v). -/
theorem hinge_prog (c a v : ℝ) :
    max ((c : EReal) - ((a : EReal) - (v : EReal))) 0 * max ((c : EReal) - ((a : EReal) - (v : EReal))) 0
      = ((hR c a v : ℝ) : EReal) := by
  unfold hR
  have : c - a + v = c - (a - v) := by ring
  rw [this, EReal.coe_mul, coe_max, EReal.coe_sub, EReal.coe_sub, EReal.coe_zero]

theorem sum_eq_top {N : ℕ} (t : Fin N → EReal) (hnn : ∀ j, 0 ≤ t j) (j0 : Fin N) (h0 : t j0 = ⊤) : ∑ j, t j = ⊤ :=
  top_le_iff.1 (h0 ▸ Finset.single_le_sum (fun j _ => hnn j) (Finset.mem_univ j0))

theorem sum_eq_bot {N : ℕ} (t : Fin N → EReal) (j0 : Fin N) (h0 : t j0 = ⊥) : ∑ j, t j = ⊥ := by
  rw [← Finset.add_sum_erase _ _ (Finset.mem_univ j0), h0, EReal.bot_add]

/-- The row identity. -/
theorem row_identity {N : ℕ} (r : Fin N → ℝ) (p : Fin N → Prop) [DecidablePred p] (a b : ℝ)
    (hnn : ∀ j, 0 ≤ r j) (j0 : Fin N) (hpos : 0 < r j0) :
    ∑ j, Ideal.div ((b : EReal) - (a : EReal) * (if p j then 1 else 0)) ((a : EReal) * (a : EReal)) * (r j : EReal)
      = Ideal.div ((b : EReal) * ((∑ j, r j : ℝ) : EReal) - (a : EReal) * ((∑ j, (if p j then r j else 0) : ℝ) : EReal))
          ((a : EReal) * (a : EReal)) := by
  have hR : 0 < ∑ j, r j := lt_of_lt_of_le hpos (Finset.single_le_sum (fun j _ => hnn j) (Finset.mem_univ j0))
  by_cases ha : a = 0
  · subst ha
    have hd : ∀ x : EReal, Ideal.div x 0 = if 0 < x then ⊤ else ⊥ := fun x => by rw [Ideal.div, if_pos rfl]
    simp only [EReal.coe_zero, zero_mul, sub_zero, hd]
    rw [← EReal.coe_mul]
    by_cases hb : 0 < b
    · rw [if_pos (EReal.coe_pos.2 (mul_pos hb hR))]
      simp only [if_pos (EReal.coe_pos.2 hb)]
      refine sum_eq_top _ (fun j => ?_) j0 (EReal.top_mul_coe_of_pos hpos)
      rcases (hnn j).eq_or_lt with h | h
      · rw [← h, EReal.coe_zero, mul_zero]
      · rw [EReal.top_mul_coe_of_pos h]; exact le_top
    · have hb' : ¬ (0 : EReal) < (b : EReal) := fun h => hb (EReal.coe_pos.1 h)
      have hbR : ¬ (0 : EReal) < ((b * ∑ j, r j : ℝ) : EReal) := fun h =>
        hb ((mul_pos_iff_of_pos_right hR).1 (EReal.coe_pos.1 h))
      rw [if_neg hbR]
      simp only [if_neg hb']
      exact sum_eq_bot _ j0 (EReal.bot_mul_coe_of_pos hpos)
  · have haa : (a * a : ℝ) ≠ 0 := mul_ne_zero ha ha
    rw [← EReal.coe_mul a a]
    simp only [Ideal.div_coe haa]
    have hterm : ∀ j, ((b : EReal) - (a : EReal) * (if p j then 1 else 0)) * ((1 / (a * a) : ℝ) : EReal) * (r j : EReal)
        = (((b - a * (if p j then 1 else 0)) * (1 / (a * a)) * r j : ℝ) : EReal) := by
      intro j
      by_cases hp : p j
      · rw [if_pos hp, if_pos hp, EReal.coe_mul, EReal.coe_mul, EReal.coe_sub, EReal.coe_mul, EReal.coe_one]
      · rw [if_neg hp, if_neg hp, EReal.coe_mul, EReal.coe_mul, EReal.coe_sub, EReal.coe_mul, EReal.coe_zero]
    simp only [hterm]
    rw [← coe_sum, ← EReal.coe_mul, ← EReal.coe_mul, ← EReal.coe_sub, ← EReal.coe_mul]
    refine congrArg _ ?_
    rw [Finset.mul_sum, Finset.mul_sum, ← Finset.sum_sub_distrib, Finset.sum_mul]
    refine Finset.sum_congr rfl (fun j _ => ?_)
    by_cases hp : p j
    · rw [if_pos hp, if_pos hp]; ring
    · rw [if_neg hp, if_neg hp]; ring

/-! ## Extended reals that are real numbers -/

/-- An extended real that is a real number. -/
def IsR (x : EReal) : Prop := ∃ r : ℝ, x = (r : EReal)

theorem IsR.coe (r : ℝ) : IsR (r : EReal) := ⟨r, rfl⟩
theorem IsR.zero : IsR 0 := ⟨0, rfl⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.sum {ι : Type} (s : Finset ι) (t : ι → EReal) (h : ∀ i, IsR (t i)) : IsR (∑ i ∈ s, t i) := by
  choose r hr using h
  exact ⟨∑ i ∈ s, r i, by rw [coe_sum]; exact Finset.sum_congr rfl (fun i _ => hr i)⟩

/-- The row identity, for extended reals that are real numbers. -/
theorem row_identity' {N : ℕ} (t : Fin N → EReal) (p : Fin N → Prop) [DecidablePred p] (A B : EReal)
    (hA : IsR A) (hB : IsR B) (ht : ∀ j, ∃ r : ℝ, 0 ≤ r ∧ t j = (r : EReal)) (j0 : Fin N) (hpos : 0 < t j0) :
    ∑ j, Ideal.div (B - A * (if p j then 1 else 0)) (A * A) * t j
      = Ideal.div (B * ∑ j, t j - A * ∑ j, (if p j then t j else 0)) (A * A) := by
  obtain ⟨a, rfl⟩ := hA; obtain ⟨b, rfl⟩ := hB
  choose r hr0 hr using ht
  have hpos' : 0 < r j0 := by rw [hr j0] at hpos; exact EReal.coe_pos.1 hpos
  have h1 : ∑ j, t j = ((∑ j, r j : ℝ) : EReal) := by rw [coe_sum]; exact Finset.sum_congr rfl (fun j _ => hr j)
  have h2 : ∑ j, (if p j then t j else 0) = ((∑ j, (if p j then r j else 0) : ℝ) : EReal) := by
    rw [coe_sum]; refine Finset.sum_congr rfl (fun j _ => ?_)
    by_cases hp : p j
    · rw [if_pos hp, if_pos hp, hr j]
    · rw [if_neg hp, if_neg hp, EReal.coe_zero]
  rw [h1, h2, ← row_identity r p a b hr0 j0 hpos']
  exact Finset.sum_congr rfl (fun j _ => by rw [hr j])

/-- The two spellings of the hinge agree on real numbers. -/
theorem hinge_eq (c x y : EReal) (hc : IsR c) (hx : IsR x) (hy : IsR y) :
    max (c - (x - y)) 0 * max (c - (x - y)) 0 = max ((c - x) + y) 0 * max ((c - x) + y) 0 := by
  obtain ⟨c, rfl⟩ := hc; obtain ⟨x, rfl⟩ := hx; obtain ⟨y, rfl⟩ := hy
  rw [hinge_prog, hinge_spec]

theorem hinge_real (c x y : EReal) (hc : IsR c) (hx : IsR x) (hy : IsR y) :
    ∃ r : ℝ, 0 ≤ r ∧ max ((c - x) + y) 0 * max ((c - x) + y) 0 = (r : EReal) := by
  obtain ⟨c, rfl⟩ := hc; obtain ⟨x, rfl⟩ := hx; obtain ⟨y, rfl⟩ := hy
  exact ⟨_, hR_nonneg c x y, hinge_spec c x y⟩

theorem hinge_self_pos (c x : EReal) (hc : ∃ r : ℝ, 0 < r ∧ c = (r : EReal)) (hx : IsR x) :
    0 < max ((c - x) + x) 0 * max ((c - x) + x) 0 := by
  obtain ⟨c, hc0, rfl⟩ := hc; obtain ⟨x, rfl⟩ := hx
  rw [hinge_spec]; exact EReal.coe_pos.2 (hR_self c x hc0)

/-! ## The binary constants -/

theorem ofBits_zero : Ideal.ofBits .f32 0x00000000#32 = 0 := by
  simp [Ideal.ofBits, Ideal.ieee]
theorem ofBits_one : Ideal.ofBits .f32 0x3F800000#32 = 1 := by
  simp [Ideal.ofBits, Ideal.ieee]
  rw [← EReal.coe_mul, ← EReal.coe_one]
  exact congrArg _ (by norm_num)
theorem ofBits_10240 : Ideal.ofBits .f32 0x46200000#32 = ((10240 : ℝ) : EReal) := by
  simp [Ideal.ofBits, Ideal.ieee]
  rw [← EReal.coe_mul]
  exact congrArg _ (by norm_num)
theorem ofBits_20971520 : Ideal.ofBits .f32 0x4BA00000#32 = ((20971520 : ℝ) : EReal) := by
  simp [Ideal.ofBits, Ideal.ieee]
  rw [← EReal.coe_mul]
  exact congrArg _ (by norm_num)
theorem ofBits_06 : ∃ r : ℝ, 0 < r ∧ Ideal.ofBits .f32 0x3F19999A#32 = (r : EReal) := by
  refine ⟨10066330 * (2 ^ 24)⁻¹, by positivity, ?_⟩
  simp [Ideal.ofBits, Ideal.ieee]
theorem ofBits_01 : IsR (Ideal.ofBits .f32 0x3DCCCCCD#32) := by
  refine ⟨13421773 * (2 ^ 27)⁻¹, ?_⟩
  simp [Ideal.ofBits, Ideal.ieee]
theorem ofBits_09 : IsR (Ideal.ofBits .f32 0x3F666666#32) := by
  refine ⟨15099494 * (2 ^ 24)⁻¹, ?_⟩
  simp [Ideal.ofBits, Ideal.ieee]

/-- A sum over 10240 positions is the sum over the first 2048 plus the sum over the other 8192. -/
theorem sum_split (t : Fin 10240 → EReal) :
    ∑ k, t k = ∑ k : Fin 2048, t ⟨k.val, by omega⟩ + ∑ k : Fin 8192, t ⟨2048 + k.val, by omega⟩ :=
  Fin.sum_univ_add (M := EReal) (a := 2048) (b := 8192) t

end Cert.Proof.RValMath

end
-- ==== Proof.RValRead.lean ====
/-
  The reference's intermediate values read at an index, in terms of the claim's mathematics (Spec):
  the loss matrix's entry (i, j) is the squared hinge of the i-th positive score against the j-th of the 10240 joined
  scores; its row sums are S and P; the new table rows gathered back at the index words are UA and UP.
-/
import proofs.«215986_g81389630259714_cont_9to1_m_762_23_alg».proof.Proof.Gen.ReferenceIdeal.Read
import proofs.«215986_g81389630259714_cont_9to1_m_762_23_alg».proof.Proof.Spec
import proofs.«215986_g81389630259714_cont_9to1_m_762_23_alg».proof.Proof.RValDims
import proofs.«215986_g81389630259714_cont_9to1_m_762_23_alg».proof.Proof.RValMath

noncomputable section

open scoped BigOperators

namespace Cert.Proof.RVal

open Cert.ReferenceIdeal Cert.ReferenceIdeal.Gen Cert.ReferenceIdeal.Read Idealize.ShloMosaic Idealize.ShloMosaic.ValueIdx
open Cert.Proof.RValMath Cert.Proof.Spec

variable (a0 : FVec Ideal S2048 .f32) (a1 : FVec Ideal S8192 .f32) (a2 : IVec S2048 32) (a3 a4 : FVec Ideal S100000x1 .f32)

/-- The scores joined: the 2048 positive ones, then the 8192 negative ones. -/
def cat (b : Fin 10240) : EReal :=
  if h : b.val < 2048 then a0 (ix1 (⟨b.val, h⟩ : Fin 2048)) else a1 (ix1 (⟨b.val - 2048, by omega⟩ : Fin 8192))

theorem v0_apply (b : Fin 10240) : val_main_v0 (F := Ideal) a0 a1 (ix1 b) = cat a0 a1 b := by
  unfold val_main_v0 cat
  by_cases h : b.val < 2048
  · rw [dif_pos h]
    exact concatenate_pair_apply_left (0 : Fin 1) a0 a1 _ (ix1 b) rfl (ix1 (⟨b.val, h⟩ : Fin 2048))
      (fun d => by match d with | ⟨0, _⟩ => rfl)
  · rw [dif_neg h]
    exact concatenate_pair_apply_right (0 : Fin 1) a0 a1 _ (ix1 b) rfl rfl (ix1 (⟨b.val - 2048, by omega⟩ : Fin 8192))
      (fun d hd => by match d with | ⟨0, _⟩ => exact absurd rfl hd) (by show (b.val - 2048) + 2048 = b.val; omega)

theorem v4_apply (a : Fin 2048) (b : Fin 10240) : val_main_v4 (F := Ideal) a0 a1 (ix2 a b) = cat a0 a1 b := by
  rw [val_main_v4_apply, val_main_v3_apply, val_main_v2_apply, val_main_v1_apply, ← v0_apply]
  refine congrArg _ ?_
  funext d
  match d with
  | ⟨0, _⟩ =>
    refine Fin.ext ?_
    show (((0 * 1 + 0) * 1 + 0) * 10240 + (a.val * 10240 + b.val) % 10240) % 10240 = b.val
    have ha := a.isLt; have hb := b.isLt
    omega

theorem v14_apply (a : Fin 2048) (b : Fin 10240) : val_main_v14 (F := Ideal) a0 (ix2 a b) = a0 (ix1 a) := by
  rw [val_main_v14_apply, val_main_v5_apply]
  refine congrArg _ ?_
  funext d
  match d with
  | ⟨0, _⟩ =>
    refine Fin.ext ?_
    show a.val * 1 + 0 = a.val
    omega

/-- The squared hinge as the program spells it. -/
def hingeP (x y : EReal) : EReal := max (c06 - (x - y)) 0 * max (c06 - (x - y)) 0

theorem v20_apply (a : Fin 2048) (b : Fin 10240) :
    val_main_v20 (F := Ideal) a0 a1 (ix2 a b) = hingeP (a0 (ix1 a)) (cat a0 a1 b) := by
  rw [val_main_v20_apply, val_main_v19_apply, val_main_v18_apply, val_main_cst_5_apply, val_main_v17_apply,
    val_main_v16_apply, val_main_cst_4_apply, val_main_v15_apply, v14_apply, v4_apply]
  simp only [Ideal.mulf_def, Ideal.maximumf_def, Ideal.subf_def, Ideal.ofBits_def, ofBits_zero]
  rfl

theorem v7_zero (k : S1.Idx) : val_main_v7 (F := Ideal) k = 0#32 := by
  rw [val_main_v7_apply, val_main_c_apply]

theorem v11_zero (k : S1.Idx) : val_main_v11 (F := Ideal) k = 0#32 := by
  rw [val_main_v11_apply, val_main_c_2_apply]

/-- The mask of the negative scores' columns. -/
theorem v9_apply (a : Fin 2048) (b : Fin 10240) :
    val_main_v9 (F := Ideal) (ix2 a b) = if b.val < 2048 then 0 else 1 := by
  unfold val_main_v9
  rw [scatter_mask_apply _ _ v7_zero]
  by_cases h : b.val < 2048
  · rw [dif_pos h, if_pos h, val_main_v8_apply, val_main_cst_0_apply]; exact ofBits_zero
  · rw [dif_neg h, if_neg h, val_main_v6_apply, val_main_cst_apply]; exact ofBits_one

/-- The mask of the positive scores' columns. -/
theorem v13_apply (a : Fin 2048) (b : Fin 10240) :
    val_main_v13 (F := Ideal) (ix2 a b) = if b.val < 2048 then 1 else 0 := by
  unfold val_main_v13
  rw [scatter_mask_apply _ _ v11_zero]
  by_cases h : b.val < 2048
  · rw [dif_pos h, if_pos h, val_main_v12_apply, val_main_cst_3_apply]; exact ofBits_one
  · rw [dif_neg h, if_neg h, val_main_v10_apply, val_main_cst_1_apply]; exact ofBits_zero

theorem v22_apply (a : Fin 2048) (b : Fin 10240) :
    val_main_v22 (F := Ideal) a0 a1 (ix2 a b) = if b.val < 2048 then hingeP (a0 (ix1 a)) (cat a0 a1 b) else 0 := by
  rw [val_main_v22_apply, v20_apply, v13_apply, Ideal.mulf_def]
  by_cases h : b.val < 2048
  · rw [if_pos h, if_pos h, mul_one]
  · rw [if_neg h, if_neg h, mul_zero]

theorem v23_apply (a : Fin 2048) (b : Fin 10240) :
    val_main_v23 (F := Ideal) a0 a1 (ix2 a b) = hingeP (a0 (ix1 a)) (cat a0 a1 b) := by
  rw [val_main_v23_apply, v22_apply, val_main_v21_apply, v20_apply, v9_apply, Ideal.addf_def, Ideal.mulf_def]
  by_cases h : b.val < 2048
  · rw [if_pos h, if_pos h, mul_zero, add_zero]
  · rw [if_neg h, if_neg h, mul_one, zero_add]

theorem v33_apply (a : Fin 2048) :
    val_main_v33 (F := Ideal) a0 a1 (ix1 a) = ∑ k : Fin 10240, hingeP (a0 (ix1 a)) (cat a0 a1 k) := by
  rw [val_main_v33_apply, val_main_cst_9_apply, Ideal.ofBits_def, ofBits_zero, zero_add]
  refine Finset.sum_congr rfl (fun k _ => ?_)
  rw [← v23_apply]
  refine congrArg _ ?_
  funext d
  match d with
  | ⟨0, _⟩ => rfl
  | ⟨1, _⟩ => rfl

theorem v56_apply (a : Fin 2048) :
    val_main_v56 (F := Ideal) a0 a1 (ix1 a)
      = ∑ k : Fin 10240, (if k.val < 2048 then hingeP (a0 (ix1 a)) (cat a0 a1 k) else 0) := by
  rw [val_main_v56_apply, val_main_cst_17_apply, Ideal.ofBits_def, ofBits_zero, zero_add]
  refine Finset.sum_congr rfl (fun k _ => ?_)
  rw [← v22_apply]
  refine congrArg _ ?_
  funext d
  match d with
  | ⟨0, _⟩ => rfl
  | ⟨1, _⟩ => rfl

/-! ## The row sums are S and P -/

theorem c06_pos : ∃ r : ℝ, 0 < r ∧ c06 = (r : EReal) := ofBits_06
theorem c06_isR : IsR c06 := by obtain ⟨r, _, h⟩ := c06_pos; exact ⟨r, h⟩

theorem hingeP_eq (x y : EReal) (hx : IsR x) (hy : IsR y) : hingeP x y = hinge x y := by
  unfold hingeP hinge; exact hinge_eq c06 x y c06_isR hx hy

theorem cat_lo (k : Fin 2048) : cat a0 a1 (⟨k.val, by omega⟩ : Fin 10240) = a0 (ix1 k) := by
  unfold cat; rw [dif_pos (show (⟨k.val, _⟩ : Fin 10240).val < 2048 from k.isLt)]

theorem cat_hi (k : Fin 8192) : cat a0 a1 (⟨2048 + k.val, by omega⟩ : Fin 10240) = a1 (ix1 k) := by
  unfold cat
  rw [dif_neg (show ¬ (⟨2048 + k.val, _⟩ : Fin 10240).val < 2048 from by simp)]
  refine congrArg a1 (congrArg ix1 (Fin.ext ?_))
  show 2048 + k.val - 2048 = k.val
  omega

theorem cat_isR (h0 : ∀ i, IsR (a0 i)) (h1 : ∀ i, IsR (a1 i)) (b : Fin 10240) : IsR (cat a0 a1 b) := by
  unfold cat; split
  · exact h0 _
  · exact h1 _

theorem rowS_eq (h0 : ∀ i, IsR (a0 i)) (h1 : ∀ i, IsR (a1 i)) (a : Fin 2048) :
    ∑ k : Fin 10240, hingeP (a0 (ix1 a)) (cat a0 a1 k) = Sj (fun k => a0 (ix1 k)) (fun k => a1 (ix1 k)) a := by
  rw [sum_split]
  unfold Sj Pj
  refine congrArg₂ (· + ·) ?_ ?_
  · refine Finset.sum_congr rfl (fun k _ => ?_)
    rw [cat_lo, hingeP_eq _ _ (h0 _) (h0 _)]
  · refine Finset.sum_congr rfl (fun k _ => ?_)
    rw [cat_hi, hingeP_eq _ _ (h0 _) (h1 _)]

theorem rowP_eq (h0 : ∀ i, IsR (a0 i)) (a : Fin 2048) :
    ∑ k : Fin 10240, (if k.val < 2048 then hingeP (a0 (ix1 a)) (cat a0 a1 k) else 0) = Pj (fun k => a0 (ix1 k)) a := by
  rw [sum_split]
  unfold Pj
  have hz : ∑ k : Fin 8192, (if (⟨2048 + k.val, by omega⟩ : Fin 10240).val < 2048
      then hingeP (a0 (ix1 a)) (cat a0 a1 (⟨2048 + k.val, by omega⟩ : Fin 10240)) else (0 : EReal)) = 0 :=
    Finset.sum_eq_zero (fun k _ => if_neg (show ¬ (⟨2048 + k.val, _⟩ : Fin 10240).val < 2048 from by simp))
  rw [hz, add_zero]
  refine Finset.sum_congr rfl (fun k _ => ?_)
  rw [if_pos (show (⟨k.val, _⟩ : Fin 10240).val < 2048 from k.isLt), cat_lo, hingeP_eq _ _ (h0 _) (h0 _)]

/-! ## The index words -/

theorem sel_nonneg (x y : BitVec 32) (h : 0 ≤ x.toInt) : Scalar.select (IntOp.cmpi .slt x 0#32) y x = x := by
  have hne : ¬ IntOp.cmpi .slt x 0#32 = 1#1 := fun e => by
    have := IntOp.cmpi_slt.1 e
    simp at this
    omega
  exact if_neg hne

theorem toInt_toNat (x : BitVec 32) (h : 0 ≤ x.toInt) : x.toInt.toNat = x.toNat := by
  have hx := x.isLt
  rw [BitVec.toInt_eq_toNat_cond] at h ⊢
  split at h
  · rename_i hc; rw [if_pos hc]; simp
  · omega

theorem v28_apply (hr : ∀ i, 0 ≤ (a2 i).toInt ∧ (a2 i).toInt ≤ 99999) (k : Fin 2048) :
    val_main_v28 (F := Ideal) a2 (ix1 k) = a2 (ix1 k) := by
  rw [val_main_v28_apply, val_main_v25_apply, val_main_v24_apply, val_main_c_6_apply]
  exact sel_nonneg _ _ (hr _).1

theorem v29_apply (hr : ∀ i, 0 ≤ (a2 i).toInt ∧ (a2 i).toInt ≤ 99999) (k : Fin 2048) :
    val_main_v29 (F := Ideal) a2 (ix2 k (0 : Fin 1)) = a2 (ix1 k) := by
  rw [val_main_v29_apply, ← v28_apply a2 hr k]
  refine congrArg _ ?_
  funext d
  match d with
  | ⟨0, _⟩ => rfl

theorem v44_apply (hr : ∀ i, 0 ≤ (a2 i).toInt ∧ (a2 i).toInt ≤ 99999) (k : Fin 2048) :
    val_main_v44 (F := Ideal) a2 (ix1 k) = a2 (ix1 k) := by
  rw [val_main_v44_apply, val_main_v41_apply, val_main_v40_apply, val_main_c_12_apply]
  exact sel_nonneg _ _ (hr _).1

theorem v45_apply (hr : ∀ i, 0 ≤ (a2 i).toInt ∧ (a2 i).toInt ≤ 99999) (k : Fin 2048) :
    val_main_v45 (F := Ideal) a2 (ix2 k (0 : Fin 1)) = a2 (ix1 k) := by
  rw [val_main_v45_apply, ← v44_apply a2 hr k]
  refine congrArg _ ?_
  funext d
  match d with
  | ⟨0, _⟩ => rfl

theorem v51_apply (hr : ∀ i, 0 ≤ (a2 i).toInt ∧ (a2 i).toInt ≤ 99999) (k : Fin 2048) :
    val_main_v51 (F := Ideal) a2 (ix1 k) = a2 (ix1 k) := by
  rw [val_main_v51_apply, val_main_v48_apply, val_main_v47_apply, val_main_c_14_apply]
  exact sel_nonneg _ _ (hr _).1

theorem v52_apply (hr : ∀ i, 0 ≤ (a2 i).toInt ∧ (a2 i).toInt ≤ 99999) (k : Fin 2048) :
    val_main_v52 (F := Ideal) a2 (ix2 k (0 : Fin 1)) = a2 (ix1 k) := by
  rw [val_main_v52_apply, ← v51_apply a2 hr k]
  refine congrArg _ ?_
  funext d
  match d with
  | ⟨0, _⟩ => rfl

theorem v67_apply (hr : ∀ i, 0 ≤ (a2 i).toInt ∧ (a2 i).toInt ≤ 99999) (k : Fin 2048) :
    val_main_v67 (F := Ideal) a2 (ix1 k) = a2 (ix1 k) := by
  rw [val_main_v67_apply, val_main_v64_apply, val_main_v63_apply, val_main_c_20_apply]
  exact sel_nonneg _ _ (hr _).1

theorem v68_apply (hr : ∀ i, 0 ≤ (a2 i).toInt ∧ (a2 i).toInt ≤ 99999) (k : Fin 2048) :
    val_main_v68 (F := Ideal) a2 (ix2 k (0 : Fin 1)) = a2 (ix1 k) := by
  rw [val_main_v68_apply, ← v67_apply a2 hr k]
  refine congrArg _ ?_
  funext d
  match d with
  | ⟨0, _⟩ => rfl

theorem v74_apply (hr : ∀ i, 0 ≤ (a2 i).toInt ∧ (a2 i).toInt ≤ 99999) (k : Fin 2048) :
    val_main_v74 (F := Ideal) a2 (ix1 k) = a2 (ix1 k) := by
  rw [val_main_v74_apply, val_main_v71_apply, val_main_v70_apply, val_main_c_22_apply]
  exact sel_nonneg _ _ (hr _).1

theorem v75_apply (hr : ∀ i, 0 ≤ (a2 i).toInt ∧ (a2 i).toInt ≤ 99999) (k : Fin 2048) :
    val_main_v75 (F := Ideal) a2 (ix2 k (0 : Fin 1)) = a2 (ix1 k) := by
  rw [val_main_v75_apply, ← v74_apply a2 hr k]
  refine congrArg _ ?_
  funext d
  match d with
  | ⟨0, _⟩ => rfl

theorem v81_apply (hr : ∀ i, 0 ≤ (a2 i).toInt ∧ (a2 i).toInt ≤ 99999) (k : Fin 2048) :
    val_main_v81 (F := Ideal) a2 (ix1 k) = a2 (ix1 k) := by
  rw [val_main_v81_apply, val_main_v78_apply, val_main_v77_apply, val_main_c_24_apply]
  exact sel_nonneg _ _ (hr _).1

theorem v82_apply (hr : ∀ i, 0 ≤ (a2 i).toInt ∧ (a2 i).toInt ≤ 99999) (k : Fin 2048) :
    val_main_v82 (F := Ideal) a2 (ix2 k (0 : Fin 1)) = a2 (ix1 k) := by
  rw [val_main_v82_apply, ← v81_apply a2 hr k]
  refine congrArg _ ?_
  funext d
  match d with
  | ⟨0, _⟩ => rfl

/-! ## The new table rows, read back at the index words -/

theorem gather_tab_at {α : Type} (x : S100000x1.Idx → α) (idx : IVec S2048x1 32) (k : Fin 2048) (w : BitVec 32)
    (hw : idx (ix2 k (0 : Fin 1)) = w) (n : Fin 100000) (hn : min w.toInt.toNat 99999 = n.val) :
    Host.gather dG x idx (ix2 k (0 : Fin 1)) = x (ix2 n (0 : Fin 1)) := by
  subst hw
  rw [gather_tab]
  exact congrArg x (congrArg (fun r : Fin 100000 => ix2 r (0 : Fin 1)) (Fin.ext hn))

theorem last_mem (ix : Fin 2048 → BitVec 32) (j : Fin 2048) : ix (last ix j) = ix j := by
  unfold last
  exact (Finset.mem_filter.1 (Finset.max'_mem (Finset.univ.filter fun k => ix k = ix j) ⟨j, by simp⟩)).2

theorem last_max (ix : Fin 2048 → BitVec 32) (j k : Fin 2048) (hk : last ix j < k) : ix k ≠ ix j := by
  intro e
  unfold last at hk
  exact absurd (Finset.le_max' _ k (Finset.mem_filter.2 ⟨Finset.mem_univ _, e⟩)) (not_le.2 hk)

theorem v30_apply (hr : ∀ i, 0 ≤ (a2 i).toInt ∧ (a2 i).toInt ≤ 99999) (k : Fin 2048) :
    val_main_v30 (F := Ideal) a2 a3 (ix2 k (0 : Fin 1)) = tab (fun r => a3 (ix2 r (0 : Fin 1))) (a2 (ix1 k)) := by
  unfold val_main_v30
  exact gather_tab_at a3 _ k _ (v29_apply a2 hr k) (⟨min (a2 (ix1 k)).toNat 99999, by omega⟩ : Fin 100000)
    (by show min (a2 (ix1 k)).toInt.toNat 99999 = min (a2 (ix1 k)).toNat 99999; rw [toInt_toNat _ (hr _).1])

/-- The new entry of the table that position k writes. -/
def newA (k : Fin 2048) : EReal :=
  c01 * tab (fun r => a3 (ix2 r (0 : Fin 1))) (a2 (ix1 k)) + c09 * (Sj (fun k => a0 (ix1 k)) (fun k => a1 (ix1 k)) k * ((1 / 10240 : ℝ) : EReal))

theorem v39_apply (h0 : ∀ i, IsR (a0 i)) (h1 : ∀ i, IsR (a1 i)) (hr : ∀ i, 0 ≤ (a2 i).toInt ∧ (a2 i).toInt ≤ 99999)
    (k : Fin 2048) : val_main_v39 (F := Ideal) a0 a1 a2 a3 (ix2 k (0 : Fin 1)) = newA a0 a1 a2 a3 k := by
  have e : idx_main_v34 (ix2 k (0 : Fin 1)) = ix1 k := by
    funext d
    match d with
    | ⟨0, _⟩ => rfl
  rw [val_main_v39_apply, val_main_v32_apply, val_main_v31_apply, val_main_cst_8_apply, v30_apply a2 a3 hr k,
    val_main_v38_apply, val_main_v37_apply, val_main_cst_11_apply, val_main_v36_apply, val_main_v35_apply,
    val_main_cst_10_apply, val_main_v34_apply, e, v33_apply, rowS_eq a0 a1 h0 h1]
  simp only [Ideal.addf_def, Ideal.mulf_def, Ideal.hostDivf_def, Ideal.ofBits_def]
  rw [ofBits_10240, Ideal.div_coe (by norm_num)]
  rfl

theorem v76_apply (h0 : ∀ i, IsR (a0 i)) (h1 : ∀ i, IsR (a1 i)) (hr : ∀ i, 0 ≤ (a2 i).toInt ∧ (a2 i).toInt ≤ 99999)
    (j : Fin 2048) :
    val_main_v76 (F := Ideal) a0 a1 a2 a3 (ix2 j (0 : Fin 1)) = UA (fun k => a0 (ix1 k)) (fun k => a1 (ix1 k)) (fun k => a2 (ix1 k)) (fun r => a3 (ix2 r (0 : Fin 1))) j := by
  obtain ⟨k0, hk0⟩ : ∃ k0, k0 = last (fun k => a2 (ix1 k)) j := ⟨_, rfl⟩
  have hmem : a2 (ix1 k0) = a2 (ix1 j) := by rw [hk0]; exact last_mem (fun k => a2 (ix1 k)) j
  have hr' : ∀ k : Fin 2048, 0 ≤ (val_main_v45 (F := Ideal) a2 (ix2 k (0 : Fin 1))).toInt ∧
      (val_main_v45 (F := Ideal) a2 (ix2 k (0 : Fin 1))).toInt < 100000 := by
    intro k; rw [v45_apply a2 hr k]; have := hr (ix1 k); omega
  have hlast : ∀ k : Fin 2048, k0 < k → val_main_v45 (F := Ideal) a2 (ix2 k (0 : Fin 1))
      ≠ val_main_v45 (F := Ideal) a2 (ix2 k0 (0 : Fin 1)) := by
    intro k hk; rw [v45_apply a2 hr k, v45_apply a2 hr k0, hmem]
    exact last_max (fun k => a2 (ix1 k)) j k (hk0 ▸ hk)
  have key := scatter_tab_last a3 (val_main_v45 (F := Ideal) a2) (val_main_v39 (F := Ideal) a0 a1 a2 a3) hr' k0 hlast
  unfold val_main_v76
  refine (gather_tab_at _ _ j _ (v75_apply a2 hr j)
    (⟨(val_main_v45 (F := Ideal) a2 (ix2 k0 (0 : Fin 1))).toInt.toNat, by have := hr' k0; omega⟩ : Fin 100000) ?_).trans ?_
  · show min (a2 (ix1 j)).toInt.toNat 99999 = (val_main_v45 (F := Ideal) a2 (ix2 k0 (0 : Fin 1))).toInt.toNat
    rw [v45_apply a2 hr k0, hmem]; have := hr (ix1 j); omega
  unfold val_main_v46
  refine key.trans ?_
  rw [v39_apply a0 a1 a2 a3 h0 h1 hr k0]
  unfold newA UA
  rw [hmem, hk0]

theorem v53_apply (hr : ∀ i, 0 ≤ (a2 i).toInt ∧ (a2 i).toInt ≤ 99999) (k : Fin 2048) :
    val_main_v53 (F := Ideal) a2 a4 (ix2 k (0 : Fin 1)) = tab (fun r => a4 (ix2 r (0 : Fin 1))) (a2 (ix1 k)) := by
  unfold val_main_v53
  exact gather_tab_at a4 _ k _ (v52_apply a2 hr k) (⟨min (a2 (ix1 k)).toNat 99999, by omega⟩ : Fin 100000)
    (by show min (a2 (ix1 k)).toInt.toNat 99999 = min (a2 (ix1 k)).toNat 99999; rw [toInt_toNat _ (hr _).1])

/-- The new entry of the table that position k writes. -/
def newP (k : Fin 2048) : EReal :=
  c01 * tab (fun r => a4 (ix2 r (0 : Fin 1))) (a2 (ix1 k)) + c09 * (Pj (fun k => a0 (ix1 k)) k * ((1 / 10240 : ℝ) : EReal))

theorem v62_apply (h0 : ∀ i, IsR (a0 i)) (h1 : ∀ i, IsR (a1 i)) (hr : ∀ i, 0 ≤ (a2 i).toInt ∧ (a2 i).toInt ≤ 99999)
    (k : Fin 2048) : val_main_v62 (F := Ideal) a0 a1 a2 a4 (ix2 k (0 : Fin 1)) = newP a0 a2 a4 k := by
  have e : idx_main_v57 (ix2 k (0 : Fin 1)) = ix1 k := by
    funext d
    match d with
    | ⟨0, _⟩ => rfl
  rw [val_main_v62_apply, val_main_v55_apply, val_main_v54_apply, val_main_cst_16_apply, v53_apply a2 a4 hr k,
    val_main_v61_apply, val_main_v60_apply, val_main_cst_19_apply, val_main_v59_apply, val_main_v58_apply,
    val_main_cst_18_apply, val_main_v57_apply, e, v56_apply, rowP_eq a0 a1 h0]
  simp only [Ideal.addf_def, Ideal.mulf_def, Ideal.hostDivf_def, Ideal.ofBits_def]
  rw [ofBits_10240, Ideal.div_coe (by norm_num)]
  rfl

theorem v83_apply (h0 : ∀ i, IsR (a0 i)) (h1 : ∀ i, IsR (a1 i)) (hr : ∀ i, 0 ≤ (a2 i).toInt ∧ (a2 i).toInt ≤ 99999)
    (j : Fin 2048) :
    val_main_v83 (F := Ideal) a0 a1 a2 a4 (ix2 j (0 : Fin 1)) = UP (fun k => a0 (ix1 k)) (fun k => a2 (ix1 k)) (fun r => a4 (ix2 r (0 : Fin 1))) j := by
  obtain ⟨k0, hk0⟩ : ∃ k0, k0 = last (fun k => a2 (ix1 k)) j := ⟨_, rfl⟩
  have hmem : a2 (ix1 k0) = a2 (ix1 j) := by rw [hk0]; exact last_mem (fun k => a2 (ix1 k)) j
  have hr' : ∀ k : Fin 2048, 0 ≤ (val_main_v68 (F := Ideal) a2 (ix2 k (0 : Fin 1))).toInt ∧
      (val_main_v68 (F := Ideal) a2 (ix2 k (0 : Fin 1))).toInt < 100000 := by
    intro k; rw [v68_apply a2 hr k]; have := hr (ix1 k); omega
  have hlast : ∀ k : Fin 2048, k0 < k → val_main_v68 (F := Ideal) a2 (ix2 k (0 : Fin 1))
      ≠ val_main_v68 (F := Ideal) a2 (ix2 k0 (0 : Fin 1)) := by
    intro k hk; rw [v68_apply a2 hr k, v68_apply a2 hr k0, hmem]
    exact last_max (fun k => a2 (ix1 k)) j k (hk0 ▸ hk)
  have key := scatter_tab_last a4 (val_main_v68 (F := Ideal) a2) (val_main_v62 (F := Ideal) a0 a1 a2 a4) hr' k0 hlast
  unfold val_main_v83
  refine (gather_tab_at _ _ j _ (v82_apply a2 hr j)
    (⟨(val_main_v68 (F := Ideal) a2 (ix2 k0 (0 : Fin 1))).toInt.toNat, by have := hr' k0; omega⟩ : Fin 100000) ?_).trans ?_
  · show min (a2 (ix1 j)).toInt.toNat 99999 = (val_main_v68 (F := Ideal) a2 (ix2 k0 (0 : Fin 1))).toInt.toNat
    rw [v68_apply a2 hr k0, hmem]; have := hr (ix1 j); omega
  unfold val_main_v69
  refine key.trans ?_
  rw [v62_apply a0 a1 a2 a4 h0 h1 hr k0]
  unfold newP UP
  rw [hmem, hk0]

end Cert.Proof.RVal

end
-- ==== Proof.RVal.lean ====
/-
  The reference computes the claim's result: its value is Spec.specOf of its five argument arrays, under what the
  precondition gives. Entry (i, j) of the last matrix is ((UP_i - UA_i m_j) / UA_i^2) h_ij with m the positive columns'
  mask and h the loss matrix; summed along a row this is (UP_i S_i - UA_i P_i) / UA_i^2 (the row identity), and the
  mean over the 2048 x 10240 entries is the sum times the reciprocal of 20971520.
-/
import proofs.«215986_g81389630259714_cont_9to1_m_762_23_alg».proof.Proof.RValRead

noncomputable section

open scoped BigOperators

namespace Cert.Proof.RVal

open Cert.ReferenceIdeal Cert.ReferenceIdeal.Gen Cert.ReferenceIdeal.Read Idealize.ShloMosaic Idealize.ShloMosaic.ValueIdx
open Idealize.ShloMosaic.TcCoe Idealize.SL.Sem
open Cert.Proof.RValMath Cert.Proof.Spec

variable (a0 : FVec Ideal S2048 .f32) (a1 : FVec Ideal S8192 .f32) (a2 : IVec S2048 32) (a3 a4 : FVec Ideal S100000x1 .f32)

theorem hinge_isR (x y : EReal) (hx : IsR x) (hy : IsR y) : IsR (hinge x y) := by
  obtain ⟨r, _, h⟩ := hinge_real c06 x y c06_isR hx hy
  exact ⟨r, h⟩

theorem Pj_isR (h0 : ∀ i, IsR (a0 i)) (j : Fin 2048) : IsR (Pj (fun k => a0 (ix1 k)) j) :=
  IsR.sum _ _ (fun k => hinge_isR _ _ (h0 _) (h0 _))

theorem Sj_isR (h0 : ∀ i, IsR (a0 i)) (h1 : ∀ i, IsR (a1 i)) (j : Fin 2048) : IsR (Sj (fun k => a0 (ix1 k)) (fun k => a1 (ix1 k)) j) :=
  IsR.add (Pj_isR a0 h0 j) (IsR.sum _ _ (fun k => hinge_isR _ _ (h0 _) (h1 _)))

theorem UA_isR (h0 : ∀ i, IsR (a0 i)) (h1 : ∀ i, IsR (a1 i)) (h3 : ∀ i, IsR (a3 i)) (a : Fin 2048) : IsR (UA (fun k => a0 (ix1 k)) (fun k => a1 (ix1 k)) (fun k => a2 (ix1 k)) (fun r => a3 (ix2 r (0 : Fin 1))) a) := by
  unfold UA
  exact IsR.add (IsR.mul ofBits_01 (by unfold tab; exact h3 _)) (IsR.mul ofBits_09 (IsR.mul (Sj_isR a0 a1 h0 h1 _) (IsR.coe _)))

theorem UP_isR (h0 : ∀ i, IsR (a0 i)) (h4 : ∀ i, IsR (a4 i)) (a : Fin 2048) : IsR (UP (fun k => a0 (ix1 k)) (fun k => a2 (ix1 k)) (fun r => a4 (ix2 r (0 : Fin 1))) a) := by
  unfold UP
  exact IsR.add (IsR.mul ofBits_01 (by unfold tab; exact h4 _)) (IsR.mul ofBits_09 (IsR.mul (Pj_isR a0 h0 _) (IsR.coe _)))

/-- One entry of the last matrix. -/
theorem v91_apply (h0 : ∀ i, IsR (a0 i)) (h1 : ∀ i, IsR (a1 i)) (hr : ∀ i, 0 ≤ (a2 i).toInt ∧ (a2 i).toInt ≤ 99999)
    (a : Fin 2048) (b : Fin 10240) :
    val_main_v91 (F := Ideal) a0 a1 a2 a3 a4 (ix2 a b)
      = Ideal.div (UP (fun k => a0 (ix1 k)) (fun k => a2 (ix1 k)) (fun r => a4 (ix2 r (0 : Fin 1))) a - UA (fun k => a0 (ix1 k)) (fun k => a1 (ix1 k)) (fun k => a2 (ix1 k)) (fun r => a3 (ix2 r (0 : Fin 1))) a * (if b.val < 2048 then 1 else 0)) (UA (fun k => a0 (ix1 k)) (fun k => a1 (ix1 k)) (fun k => a2 (ix1 k)) (fun r => a3 (ix2 r (0 : Fin 1))) a * UA (fun k => a0 (ix1 k)) (fun k => a1 (ix1 k)) (fun k => a2 (ix1 k)) (fun r => a3 (ix2 r (0 : Fin 1))) a)
          * hingeP (a0 (ix1 a)) (cat a0 a1 b) := by
  have e84 : idx_main_v84 (ix2 a b) = ix2 a (0 : Fin 1) := by
    funext d
    match d with
    | ⟨0, _⟩ => rfl
    | ⟨1, _⟩ => rfl
  have e86 : idx_main_v86 (ix2 a b) = ix2 a (0 : Fin 1) := by
    funext d
    match d with
    | ⟨0, _⟩ => rfl
    | ⟨1, _⟩ => rfl
  have e89 : idx_main_v89 (ix2 a b) = ix2 a (0 : Fin 1) := by
    funext d
    match d with
    | ⟨0, _⟩ => rfl
    | ⟨1, _⟩ => rfl
  rw [val_main_v91_apply, val_main_v90_apply, val_main_v87_apply, val_main_v86_apply, e86, val_main_v85_apply,
    val_main_v84_apply, e84, val_main_v89_apply, e89, val_main_v88_apply, v23_apply, v13_apply,
    v83_apply a0 a1 a2 a4 h0 h1 hr a, v76_apply a0 a1 a2 a3 h0 h1 hr a]
  simp only [Ideal.mulf_def, Ideal.subf_def, Ideal.hostDivf_def]

/-- One row of the last matrix, summed. -/
theorem row_eq (H : Hyp a0 a1 a2 a3 a4) (a : Fin 2048) :
    ∑ b : Fin 10240, Ideal.div (UP (fun k => a0 (ix1 k)) (fun k => a2 (ix1 k)) (fun r => a4 (ix2 r (0 : Fin 1))) a - UA (fun k => a0 (ix1 k)) (fun k => a1 (ix1 k)) (fun k => a2 (ix1 k)) (fun r => a3 (ix2 r (0 : Fin 1))) a * (if b.val < 2048 then 1 else 0)) (UA (fun k => a0 (ix1 k)) (fun k => a1 (ix1 k)) (fun k => a2 (ix1 k)) (fun r => a3 (ix2 r (0 : Fin 1))) a * UA (fun k => a0 (ix1 k)) (fun k => a1 (ix1 k)) (fun k => a2 (ix1 k)) (fun r => a3 (ix2 r (0 : Fin 1))) a)
          * hingeP (a0 (ix1 a)) (cat a0 a1 b)
      = Ideal.div (UP (fun k => a0 (ix1 k)) (fun k => a2 (ix1 k)) (fun r => a4 (ix2 r (0 : Fin 1))) a * Sj (fun k => a0 (ix1 k)) (fun k => a1 (ix1 k)) a - UA (fun k => a0 (ix1 k)) (fun k => a1 (ix1 k)) (fun k => a2 (ix1 k)) (fun r => a3 (ix2 r (0 : Fin 1))) a * Pj (fun k => a0 (ix1 k)) a) (UA (fun k => a0 (ix1 k)) (fun k => a1 (ix1 k)) (fun k => a2 (ix1 k)) (fun r => a3 (ix2 r (0 : Fin 1))) a * UA (fun k => a0 (ix1 k)) (fun k => a1 (ix1 k)) (fun k => a2 (ix1 k)) (fun r => a3 (ix2 r (0 : Fin 1))) a) := by
  have h0 : ∀ i, IsR (a0 i) := H.fin0
  have h1 : ∀ i, IsR (a1 i) := H.fin1
  have h3 : ∀ i, IsR (a3 i) := H.fin3
  have h4 : ∀ i, IsR (a4 i) := H.fin4
  have ht : ∀ b : Fin 10240, ∃ r : ℝ, 0 ≤ r ∧ hingeP (a0 (ix1 a)) (cat a0 a1 b) = (r : EReal) := fun b => by
    rw [hingeP_eq _ _ (h0 _) (cat_isR a0 a1 h0 h1 b)]
    exact hinge_real c06 _ _ c06_isR (h0 _) (cat_isR a0 a1 h0 h1 b)
  have hpos : 0 < hingeP (a0 (ix1 a)) (cat a0 a1 (⟨a.val, by omega⟩ : Fin 10240)) := by
    rw [cat_lo, hingeP_eq _ _ (h0 _) (h0 _)]
    exact hinge_self_pos c06 _ c06_pos (h0 _)
  rw [row_identity' (fun b : Fin 10240 => hingeP (a0 (ix1 a)) (cat a0 a1 b)) (fun b : Fin 10240 => b.val < 2048) _ _
    (UA_isR a0 a1 a2 a3 h0 h1 h3 a) (UP_isR a0 a2 a4 h0 h4 a) ht ⟨a.val, by omega⟩ hpos, rowS_eq a0 a1 h0 h1 a, rowP_eq a0 a1 h0 a]

/-- The reference's value is the claim's result. -/
theorem val_eq (H : Hyp a0 a1 a2 a3 a4) :
    val_main_v93 (F := Ideal) a0 a1 a2 a3 a4 = fun _ => specOf a0 a1 a2 a3 a4 := by
  funext i
  rw [val_main_v93_apply, val_main_cst_27_apply, val_main_v92_apply, val_main_cst_26_apply]
  simp only [Ideal.hostDivf_def, Ideal.ofBits_def]
  rw [ofBits_zero, zero_add, ofBits_20971520, Ideal.div_coe (by norm_num), sum_idx2]
  unfold specOf out
  refine congrArg (· * ((1 / 20971520 : ℝ) : EReal)) ?_
  refine Finset.sum_congr rfl (fun a _ => ?_)
  rw [← row_eq a0 a1 a2 a3 a4 H a]
  refine Finset.sum_congr rfl (fun b _ => ?_)
  exact v91_apply a0 a1 a2 a3 a4 H.fin0 H.fin1 H.rng a b

theorem res_eq (m' : (ℓ : Loc nD τ sig) → Buf (Elt Ideal) ℓ) (c : Dev nD)
    (H : Hyp (m' ((c.tc : Thread nD τ).loc main_arg0)) (m' ((c.tc : Thread nD τ).loc main_arg1))
      (m' ((c.tc : Thread nD τ).loc main_arg2)) (m' ((c.tc : Thread nD τ).loc main_arg3))
      (m' ((c.tc : Thread nD τ).loc main_arg4))) :
    Cert.ReferenceIdeal.Value.res_main_v93 (F := Ideal) m' c
      = fun _ => specOf (m' ((c.tc : Thread nD τ).loc main_arg0)) (m' ((c.tc : Thread nD τ).loc main_arg1))
          (m' ((c.tc : Thread nD τ).loc main_arg2)) (m' ((c.tc : Thread nD τ).loc main_arg3))
          (m' ((c.tc : Thread nD τ).loc main_arg4)) := by
  rw [val_main_v93_eq]
  exact val_eq _ _ _ _ _ H

end Cert.Proof.RVal

end
-- ==== Proof.RValPre.lean ====
/-
  What the precondition gives: the four float arrays hold real numbers (|x| < +infinity at every entry) and every
  index word is, read signed, between 0 and 99999.
-/
import proofs.«215986_g81389630259714_cont_9to1_m_762_23_alg».proof.Proof.Spec
import proofs.«215986_g81389630259714_cont_9to1_m_762_23_alg».proof.Proof.Gen.Pre_input_domain
import Idealize.ShloMosaic.Lib.ReduceAll

noncomputable section

namespace Cert.Proof.RVal

open Idealize.ShloMosaic Cert.Pre_input_domain Cert.Pre_input_domain.Gen

instance rvalPreSubsingletonScalarIdx : Subsingleton Cert.Pre_input_domain.S_.Idx := ⟨fun a b => funext fun d => d.elim0⟩

/-- An extended real whose absolute value is below +infinity is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

theorem hyp_of_pre (a0 : FVec Ideal Cert.ReferenceIdeal.S2048 .f32) (a1 : FVec Ideal Cert.ReferenceIdeal.S8192 .f32)
    (a2 : IVec Cert.ReferenceIdeal.S2048 32) (a3 a4 : FVec Ideal Cert.ReferenceIdeal.S100000x1 .f32)
    (h : Cert.Pre_input_domain.fn (F := Ideal) a0 a1 a2 a3 a4 = fun _ => 1#1) : Cert.Proof.Spec.Hyp a0 a1 a2 a3 a4 := by
  have h1 := congrFun h ValueIdx.ix0
  dsimp only [Cert.Pre_input_domain.fn, Cert.Pre_input_domain.fn_part1] at h1
  obtain ⟨h1234, hi⟩ := IntOp.andi_eq_one.1 h1
  obtain ⟨h123, hf4⟩ := IntOp.andi_eq_one.1 h1234
  obtain ⟨h12, hf3⟩ := IntOp.andi_eq_one.1 h123
  obtain ⟨hf0, hf1⟩ := IntOp.andi_eq_one.1 h12
  refine ⟨fun i => ?_, fun i => ?_, fun i => ?_, fun i => ?_, fun i => ?_⟩
  · exact real_of_abs_lt _ (Host.reduce_andi_all _ _ _ _ _ hf0 i)
  · exact real_of_abs_lt _ (Host.reduce_andi_all _ _ _ _ _ hf1 i)
  · exact real_of_abs_lt _ (Host.reduce_andi_all _ _ _ _ _ hf3 i)
  · exact real_of_abs_lt _ (Host.reduce_andi_all _ _ _ _ _ hf4 i)
  · have hp := Host.reduce_andi_all _ _ _ _ _ hi i
    obtain ⟨hge, hle⟩ := IntOp.andi_eq_one.1 hp
    have h0 : (0#32 : BitVec 32).toInt = 0 := by decide
    have h9 : (99999#32 : BitVec 32).toInt = 99999 := by decide
    have hge' := IntOp.cmpi_sge.1 hge
    have hle' := IntOp.cmpi_sle.1 hle
    exact ⟨h0 ▸ hge', h9 ▸ hle'⟩

end Cert.Proof.RVal

end
-- ==== Proof.lean ====
/-
  The claim: the kernel program (one gather call on the SparseCores' tiles, then two TensorCore regions) and its
  idealization both run to the end from every memory in which the float inputs are finite and every index names a table
  row, nothing faulting and the arguments kept; the idealization differs from the printed program only at three
  reciprocals read as exact rationals; and at the ideal instance the idealized kernel and the idealized reference end
  with the same result: both are the closed expression of the specification module — the kernel by composing the bodies'
  payloads in grid order, the reference entry by entry over the 2048 x 10240 loss matrix with its scatter keeping the
  last update of a repeated index; where a moving average is zero both quotients are the same infinity, since every
  row's loss sum is at least 0.6 squared.
-/
import proofs.«215986_g81389630259714_cont_9to1_m_762_23_alg».proof.Defs
import proofs.«215986_g81389630259714_cont_9to1_m_762_23_alg».proof.Proof.RefFrame
import proofs.«215986_g81389630259714_cont_9to1_m_762_23_alg».proof.Proof.Preserves
import proofs.«215986_g81389630259714_cont_9to1_m_762_23_alg».proof.Proof.KFrame
import proofs.«215986_g81389630259714_cont_9to1_m_762_23_alg».proof.Proof.BKFrame
import proofs.«215986_g81389630259714_cont_9to1_m_762_23_alg».proof.Proof.KValOut
import proofs.«215986_g81389630259714_cont_9to1_m_762_23_alg».proof.Proof.RVal
import proofs.«215986_g81389630259714_cont_9to1_m_762_23_alg».proof.Proof.RValPre
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ hpre =>
  (θ_run Cert.Kernel.defs _ _).mono (fun _ h c => (h c).2) (Cert.Proof.KB.run (F := Bits) m ρ (Cert.Proof.KB.preOK_of m hpre))

theorem frame_ki : Cert.frame_KernelIdeal := fun m ρ hpre =>
  (θ_run Cert.KernelIdeal.defs _ _).mono (fun _ h c => (h c).2) (Cert.Proof.KI.run (F := Ideal) m ρ (Cert.Proof.KI.preOK_of m hpre))

theorem algebraic : Cert.algebraic_KernelIdeal_ReferenceIdeal := by
  intro m ρ m' ρ' hpre hagree
  have H : ∀ c : Dev Cert.KernelIdeal.nD, Cert.Proof.Spec.Hyp (m (Cert.Proof.KI.tl c Cert.KernelIdeal.main_arg0)) (m (Cert.Proof.KI.tl c Cert.KernelIdeal.main_arg1))
      (m (Cert.Proof.KI.tl c Cert.KernelIdeal.main_arg2)) (m (Cert.Proof.KI.tl c Cert.KernelIdeal.main_arg3)) (m (Cert.Proof.KI.tl c Cert.KernelIdeal.main_arg4)) :=
    fun c => Cert.Proof.RVal.hyp_of_pre _ _ _ _ _ (hpre c)
  refine ⟨fun c _ => Cert.Proof.Spec.specOf (m (Cert.Proof.KI.tl c Cert.KernelIdeal.main_arg0)) (m (Cert.Proof.KI.tl c Cert.KernelIdeal.main_arg1))
      (m (Cert.Proof.KI.tl c Cert.KernelIdeal.main_arg2)) (m (Cert.Proof.KI.tl c Cert.KernelIdeal.main_arg3)) (m (Cert.Proof.KI.tl c Cert.KernelIdeal.main_arg4)), ?_, ?_⟩
  · exact (θ_run Cert.KernelIdeal.defs _ _).mono
      (fun _ h c => ⟨(h c).1.trans ((Cert.Proof.KI.W7_result m c).trans (Cert.Proof.KVal.kOut_eq _ _ _ _ _ (H c))), (h c).2⟩)
      (Cert.Proof.KI.run (F := Ideal) m ρ (Cert.Proof.KI.preOK_of m hpre))
  · refine (θ_run Cert.ReferenceIdeal.defs _ _).mono (fun _ h c => ⟨(h c).1.trans ?_, (h c).2⟩)
      (Cert.ReferenceIdeal.Value.run (F := Ideal) m' ρ')
    obtain ⟨e0, e1, e2, e3, e4⟩ := hagree c
    have H' : Cert.Proof.Spec.Hyp (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) := by
      rw [e0, e1, e2, e3, e4]; exact H c
    refine (Cert.Proof.RVal.res_eq m' c H').trans ?_
    rw [e0, e1, e2, e3, e4]
    rfl

theorem claim : Cert.Claim :=
  ⟨Cert.Kernel.Gen.facts, Cert.KernelIdeal.Gen.facts, Cert.ReferenceIdeal.Gen.facts, Cert.Pre_input_domain.Gen.facts,
    frame_k, frame_ki, Cert.Proof.RefFrame.frame_ri, Cert.Proof.Preserves.preserves, algebraic⟩

end Cert.Proof

end
